-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v115)) (v1 : (c : Dev Cert.KernelIdeal.nD) → Buf (Elt Ideal) ((c.tc : Thread Cert.KernelIdeal.nD Cert.KernelIdeal.τ).loc Cert.KernelIdeal.main_v158)) (v2 : (c : Dev Cert.KernelIdeal.nD) → Buf (Elt Ideal) ((c.tc : Thread Cert.KernelIdeal.nD Cert.KernelIdeal.τ).loc Cert.KernelIdeal.main_v140)) (v3 : (c : Dev Cert.KernelIdeal.nD) → Buf (Elt Ideal) ((c.tc : Thread Cert.KernelIdeal.nD Cert.KernelIdeal.τ).loc Cert.KernelIdeal.main_v161)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v115) = v0 c
          ∧ r.2.mem ((c.tc : Thread Cert.KernelIdeal.nD Cert.KernelIdeal.τ).loc Cert.KernelIdeal.main_v158) = v1 c
          ∧ r.2.mem ((c.tc : Thread Cert.KernelIdeal.nD Cert.KernelIdeal.τ).loc Cert.KernelIdeal.main_v140) = v2 c
          ∧ r.2.mem ((c.tc : Thread Cert.KernelIdeal.nD Cert.KernelIdeal.τ).loc Cert.KernelIdeal.main_v161) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v138) = v0 c
          ∧ r.2.mem ((c.tc : Thread Cert.ReferenceIdeal.nD Cert.ReferenceIdeal.τ).loc Cert.ReferenceIdeal.main_v181) = v1 c
          ∧ r.2.mem ((c.tc : Thread Cert.ReferenceIdeal.nD Cert.ReferenceIdeal.τ).loc Cert.ReferenceIdeal.main_v163) = v2 c
          ∧ r.2.mem ((c.tc : Thread Cert.ReferenceIdeal.nD Cert.ReferenceIdeal.τ).loc Cert.ReferenceIdeal.main_v184) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x4 : Shape := ⟨2, ![2000000, 4]⟩
abbrev S_ : Shape := ⟨0, ![]⟩

class Facts : Prop where
  bcast_S_S2000000x4 : S_.BroadcastsInDim S2000000x4 (![] : Fin 0 → Fin S2000000x4.rank)
  reducesTo_S2000000x4_S_d0_1 : S2000000x4.ReducesTo [0, 1] S_
  h_S_ : 0 < S_.numel

variable [Facts]

def fn {F : FTy → Type} [FloatOps F] (main_arg0 : FVec F S2000000x4 .f32) : IVec S_ 1 :=
  let main_v0 : FVec F S2000000x4 .f32 := Host.absf main_arg0
  let main_cst : FVec F S_ .f32 := constant S_ .f32 0x7F800000#32
  let main_v1 : FVec F S2000000x4 .f32 := broadcastInDim S2000000x4 ![] bcast_S_S2000000x4 main_cst
  let main_v2 : IVec S2000000x4 1 := cmpf .olt main_v0 main_v1
  let main_c : IVec S_ 1 := constantI S_ 1 1#1
  let main_v3 : IVec S_ 1 := (fun x v => Host.reduce IntOp.andi x v reducesTo_S2000000x4_S_d0_1 h_S_) main_v2 main_c
  main_v3
-- ==== Kernel.lean ====
abbrev S2000000x4 : Shape := ⟨2, ![2000000, 4]⟩
abbrev S4x2000000 : Shape := ⟨2, ![4, 2000000]⟩
abbrev S4x80000 : Shape := ⟨2, ![4, 80000]⟩
abbrev S1x80000 : Shape := ⟨2, ![1, 80000]⟩
abbrev S80000 : Shape := ⟨1, ![80000]⟩
abbrev S3x2000000 : Shape := ⟨2, ![3, 2000000]⟩
abbrev S2000000x3 : Shape := ⟨2, ![2000000, 3]⟩
abbrev S1x2000000 : Shape := ⟨2, ![1, 2000000]⟩
abbrev S2000000 : Shape := ⟨1, ![2000000]⟩
abbrev S_ : Shape := ⟨0, ![]⟩
abbrev S2000000x1 : Shape := ⟨2, ![2000000, 1]⟩
abbrev S1 : Shape := ⟨1, ![1]⟩
abbrev S1999999 : Shape := ⟨1, ![1999999]⟩
abbrev S60000x35x4 : Shape := ⟨3, ![60000, 35, 4]⟩
abbrev S2000000x2 : Shape := ⟨2, ![2000000, 2]⟩
abbrev S60000 : Shape := ⟨1, ![60000]⟩
abbrev S60000x3 : Shape := ⟨2, ![60000, 3]⟩

abbrev nBuf : Space → Nat
  | .hbm => 233
  | .vmem => 4
  | .smem => 0
  | _ => 0

abbrev hbmTy0_0 (i : Nat) : BufTy := match i % 128 with
  | 0 => ⟨S2000000x4, .f32⟩
  | 1 => ⟨S4x2000000, .f32⟩
  | 2 => ⟨S4x2000000, .i32⟩
  | 3 => ⟨S3x2000000, .i32⟩
  | 4 => ⟨S2000000x3, .i32⟩
  | 5 => ⟨S1x2000000, .i32⟩
  | 6 => ⟨S2000000, .i32⟩
  | 7 => ⟨S2000000, .i32⟩
  | 8 => ⟨S2000000, .i32⟩
  | 9 => ⟨S2000000, .i32⟩
  | 10 => ⟨S_, .i32⟩
  | 11 => ⟨S2000000, .i32⟩
  | 12 => ⟨S2000000, .i1⟩
  | 13 => ⟨S_, .i32⟩
  | 14 => ⟨S2000000, .i32⟩
  | 15 => ⟨S2000000, .i32⟩
  | 16 => ⟨S2000000, .i32⟩
  | 17 => ⟨S2000000x1, .i32⟩
  | 18 => ⟨S2000000, .i32⟩
  | 19 => ⟨S_, .i32⟩
  | 20 => ⟨S2000000, .i32⟩
  | 21 => ⟨S2000000, .i1⟩
  | 22 => ⟨S_, .i32⟩
  | 23 => ⟨S2000000, .i32⟩
  | 24 => ⟨S2000000, .i32⟩
  | 25 => ⟨S2000000, .i32⟩
  | 26 => ⟨S2000000x1, .i32⟩
  | 27 => ⟨S2000000x3, .i32⟩
  | 28 => ⟨S_, .i32⟩
  | 29 => ⟨S2000000, .i32⟩
  | 30 => ⟨S2000000, .i1⟩
  | 31 => ⟨S_, .i32⟩
  | 32 => ⟨S2000000, .i32⟩
  | 33 => ⟨S2000000, .i32⟩
  | 34 => ⟨S2000000, .i32⟩
  | 35 => ⟨S2000000x1, .i32⟩
  | 36 => ⟨S2000000x4, .f32⟩
  | 37 => ⟨S_, .i1⟩
  | 38 => ⟨S1, .i1⟩
  | 39 => ⟨S1999999, .i32⟩
  | 40 => ⟨S1999999, .i32⟩
  | 41 => ⟨S1999999, .i1⟩
  | 42 => ⟨S2000000, .i1⟩
  | 43 => ⟨S2000000, .i32⟩
  | 44 => ⟨S_, .i32⟩
  | 45 => ⟨S_, .i32⟩
  | 46 => ⟨S2000000, .i32⟩
  | 47 => ⟨S_, .i32⟩
  | 48 => ⟨S2000000, .i32⟩
  | 49 => ⟨S2000000, .i32⟩
  | 50 => ⟨S2000000, .i32⟩
  | 51 => ⟨S_, .i32⟩
  | 52 => ⟨S2000000, .i32⟩
  | 53 => ⟨S_, .i32⟩
  | 54 => ⟨S2000000, .i32⟩
  | 55 => ⟨S2000000, .i1⟩
  | 56 => ⟨S_, .i32⟩
  | 57 => ⟨S2000000, .i32⟩
  | 58 => ⟨S2000000, .i32⟩
  | 59 => ⟨S2000000, .i32⟩
  | 60 => ⟨S2000000x1, .i32⟩
  | 61 => ⟨S2000000, .i32⟩
  | 62 => ⟨S_, .i32⟩
  | 63 => ⟨S2000000, .i32⟩
  | 64 => ⟨S_, .i32⟩
  | 65 => ⟨S2000000, .i32⟩
  | 66 => ⟨S2000000, .i1⟩
  | 67 => ⟨S_, .i32⟩
  | 68 => ⟨S2000000, .i32⟩
  | 69 => ⟨S2000000, .i32⟩
  | 70 => ⟨S2000000, .i32⟩
  | 71 => ⟨S2000000x1, .i32⟩
  | 72 => ⟨S2000000, .i32⟩
  | 73 => ⟨S_, .i32⟩
  | 74 => ⟨S2000000, .i32⟩
  | 75 => ⟨S_, .i32⟩
  | 76 => ⟨S2000000, .i32⟩
  | 77 => ⟨S2000000, .i1⟩
  | 78 => ⟨S2000000, .i32⟩
  | 79 => ⟨S_, .i32⟩
  | 80 => ⟨S2000000, .i32⟩
  | 81 => ⟨S2000000, .i1⟩
  | 82 => ⟨S_, .i32⟩
  | 83 => ⟨S2000000, .i32⟩
  | 84 => ⟨S2000000, .i32⟩
  | 85 => ⟨S2000000, .i32⟩
  | 86 => ⟨S2000000x1, .i32⟩
  | 87 => ⟨S2000000, .i32⟩
  | 88 => ⟨S_, .i32⟩
  | 89 => ⟨S2000000, .i32⟩
  | 90 => ⟨S2000000, .i1⟩
  | 91 => ⟨S_, .i32⟩
  | 92 => ⟨S_, .i32⟩
  | 93 => ⟨S2000000, .i32⟩
  | 94 => ⟨S2000000, .i32⟩
  | 95 => ⟨S2000000, .i32⟩
  | 96 => ⟨S2000000, .i32⟩
  | 97 => ⟨S2000000, .i32⟩
  | 98 => ⟨S_, .i32⟩
  | 99 => ⟨S2000000, .i32⟩
  | 100 => ⟨S_, .i32⟩
  | 101 => ⟨S2000000, .i32⟩
  | 102 => ⟨S2000000, .i1⟩
  | 103 => ⟨S_, .i32⟩
  | 104 => ⟨S2000000, .i32⟩
  | 105 => ⟨S2000000, .i32⟩
  | 106 => ⟨S2000000, .i32⟩
  | 107 => ⟨S2000000x1, .i32⟩
  | 108 => ⟨S2000000, .i32⟩
  | 109 => ⟨S_, .i32⟩
  | 110 => ⟨S2000000, .i32⟩
  | 111 => ⟨S2000000, .i1⟩
  | 112 => ⟨S_, .i32⟩
  | 113 => ⟨S2000000, .i32⟩
  | 114 => ⟨S2000000, .i32⟩
  | 115 => ⟨S2000000, .i32⟩
  | 116 => ⟨S2000000x1, .i32⟩
  | 117 => ⟨S2000000, .i32⟩
  | 118 => ⟨S2000000, .i32⟩
  | 119 => ⟨S_, .i32⟩
  | 120 => ⟨S2000000, .i32⟩
  | 121 => ⟨S2000000, .i1⟩
  | 122 => ⟨S_, .i32⟩
  | 123 => ⟨S2000000, .i32⟩
  | 124 => ⟨S2000000, .i32⟩
  | 125 => ⟨S2000000, .i32⟩
  | 126 => ⟨S2000000x1, .i32⟩
  | 127 => ⟨S2000000, .i32⟩
  | _ => ⟨S2000000x4, .f32⟩

abbrev hbmTy0_1 (i : Nat) : BufTy := match i % 128 with
  | 0 => ⟨S_, .i32⟩
  | 1 => ⟨S2000000, .i32⟩
  | 2 => ⟨S2000000, .i1⟩
  | 3 => ⟨S_, .i32⟩
  | 4 => ⟨S2000000, .i32⟩
  | 5 => ⟨S2000000, .i1⟩
  | 6 => ⟨S2000000, .i1⟩
  | 7 => ⟨S_, .i32⟩
  | 8 => ⟨S2000000, .i32⟩
  | 9 => ⟨S2000000, .i1⟩
  | 10 => ⟨S2000000, .i1⟩
  | 11 => ⟨S_, .i32⟩
  | 12 => ⟨S_, .i32⟩
  | 13 => ⟨S2000000, .i32⟩
  | 14 => ⟨S2000000, .i32⟩
  | 15 => ⟨S_, .i32⟩
  | 16 => ⟨S_, .i32⟩
  | 17 => ⟨S2000000, .i32⟩
  | 18 => ⟨S2000000, .i32⟩
  | 19 => ⟨S_, .f32⟩
  | 20 => ⟨S60000x35x4, .f32⟩
  | 21 => ⟨S_, .i32⟩
  | 22 => ⟨S2000000, .i32⟩
  | 23 => ⟨S2000000, .i1⟩
  | 24 => ⟨S_, .i32⟩
  | 25 => ⟨S2000000, .i32⟩
  | 26 => ⟨S2000000, .i32⟩
  | 27 => ⟨S2000000, .i32⟩
  | 28 => ⟨S_, .i32⟩
  | 29 => ⟨S2000000, .i32⟩
  | 30 => ⟨S2000000, .i1⟩
  | 31 => ⟨S_, .i32⟩
  | 32 => ⟨S2000000, .i32⟩
  | 33 => ⟨S2000000, .i32⟩
  | 34 => ⟨S2000000, .i32⟩
  | 35 => ⟨S2000000x1, .i32⟩
  | 36 => ⟨S2000000x1, .i32⟩
  | 37 => ⟨S2000000x2, .i32⟩
  | 38 => ⟨S60000x35x4, .f32⟩
  | 39 => ⟨S_, .i32⟩
  | 40 => ⟨S2000000, .i32⟩
  | 41 => ⟨S_, .i32⟩
  | 42 => ⟨S2000000, .i32⟩
  | 43 => ⟨S2000000, .i1⟩
  | 44 => ⟨S2000000, .i32⟩
  | 45 => ⟨S_, .i32⟩
  | 46 => ⟨S2000000, .i32⟩
  | 47 => ⟨S2000000, .i1⟩
  | 48 => ⟨S_, .i32⟩
  | 49 => ⟨S2000000, .i32⟩
  | 50 => ⟨S2000000, .i32⟩
  | 51 => ⟨S2000000, .i32⟩
  | 52 => ⟨S2000000x1, .i32⟩
  | 53 => ⟨S2000000, .i32⟩
  | 54 => ⟨S_, .i32⟩
  | 55 => ⟨S2000000, .i32⟩
  | 56 => ⟨S2000000, .i1⟩
  | 57 => ⟨S2000000, .i1⟩
  | 58 => ⟨S_, .i32⟩
  | 59 => ⟨S_, .i32⟩
  | 60 => ⟨S2000000, .i32⟩
  | 61 => ⟨S2000000, .i32⟩
  | 62 => ⟨S_, .i32⟩
  | 63 => ⟨S60000, .i32⟩
  | 64 => ⟨S_, .i32⟩
  | 65 => ⟨S2000000, .i32⟩
  | 66 => ⟨S2000000, .i32⟩
  | 67 => ⟨S_, .i32⟩
  | 68 => ⟨S2000000, .i32⟩
  | 69 => ⟨S2000000, .i1⟩
  | 70 => ⟨S_, .i32⟩
  | 71 => ⟨S2000000, .i32⟩
  | 72 => ⟨S2000000, .i32⟩
  | 73 => ⟨S2000000, .i32⟩
  | 74 => ⟨S2000000x1, .i32⟩
  | 75 => ⟨S60000, .i32⟩
  | 76 => ⟨S_, .i32⟩
  | 77 => ⟨S2000000, .i32⟩
  | 78 => ⟨S2000000, .i32⟩
  | 79 => ⟨S_, .i32⟩
  | 80 => ⟨S2000000, .i32⟩
  | 81 => ⟨S2000000, .i1⟩
  | 82 => ⟨S_, .i32⟩
  | 83 => ⟨S2000000, .i32⟩
  | 84 => ⟨S2000000, .i32⟩
  | 85 => ⟨S2000000, .i32⟩
  | 86 => ⟨S2000000x1, .i32⟩
  | 87 => ⟨S2000000x3, .i32⟩
  | 88 => ⟨S2000000x3, .i32⟩
  | 89 => ⟨S_, .i32⟩
  | 90 => ⟨S60000x3, .i32⟩
  | 91 => ⟨S_, .i32⟩
  | 92 => ⟨S2000000, .i32⟩
  | 93 => ⟨S2000000, .i1⟩
  | 94 => ⟨S_, .i32⟩
  | 95 => ⟨S2000000, .i32⟩
  | 96 => ⟨S2000000, .i32⟩
  | 97 => ⟨S2000000, .i32⟩
  | 98 => ⟨S2000000x1, .i32⟩
  | 99 => ⟨S60000x3, .i32⟩
  | 100 => ⟨S2000000, .i32⟩
  | 101 => ⟨S_, .i32⟩
  | 102 => ⟨S_, .i32⟩
  | 103 => ⟨S_, .i32⟩
  | 104 => ⟨S_, .i32⟩
  | _ => ⟨S2000000x4, .f32⟩

abbrev hbmTy (i : Nat) : BufTy := match i / 128 with
  | 0 => hbmTy0_0 i
  | 1 => hbmTy0_1 i
  | _ => ⟨S2000000x4, .f32⟩

abbrev bufTy : (tb : Table) → Fin (tcTables nBuf tb) → BufTy
  | .hbm, ⟨i, _⟩ => hbmTy i
  | .local _ .vmem, ⟨0, _⟩ => ⟨S4x80000, .f32⟩
  | .local _ .vmem, ⟨1, _⟩ => ⟨S4x80000, .f32⟩
  | .local _ .vmem, ⟨2, _⟩ => ⟨S4x80000, .i32⟩
  | .local _ .vmem, ⟨3, _⟩ => ⟨S4x80000, .i32⟩
  | _, _ => ⟨S2000000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_call0_v0 : Ref sig .tc := ⟨.hbm, 7, rfl⟩
abbrev main_call0_v1_0 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c_1 : Ref sig .tc := ⟨.hbm, 19, rfl⟩
abbrev main_v14 : Ref sig .tc := ⟨.hbm, 20, rfl⟩
abbrev main_v15 : Ref sig .tc := ⟨.hbm, 21, rfl⟩
abbrev main_c_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c_3 : Ref sig .tc := ⟨.hbm, 28, rfl⟩
abbrev main_v21 : Ref sig .tc := ⟨.hbm, 29, rfl⟩
abbrev main_v22 : Ref sig .tc := ⟨.hbm, 30, rfl⟩
abbrev main_c_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_c_5 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_call1_v0 : Ref sig .tc := ⟨.hbm, 43, rfl⟩
abbrev main_call1_call0_c : Ref sig .tc := ⟨.hbm, 44, rfl⟩
abbrev main_call1_call0_v0 : Ref sig .tc := ⟨.hbm, 45, rfl⟩
abbrev main_v33 : Ref sig .tc := ⟨.hbm, 46, rfl⟩
abbrev main_c_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_c_7 : Ref sig .tc := ⟨.hbm, 51, rfl⟩
abbrev main_v37 : Ref sig .tc := ⟨.hbm, 52, rfl⟩
abbrev main_c_8 : Ref sig .tc := ⟨.hbm, 53, rfl⟩
abbrev main_v38 : Ref sig .tc := ⟨.hbm, 54, rfl⟩
abbrev main_v39 : Ref sig .tc := ⟨.hbm, 55, rfl⟩
abbrev main_c_9 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_c_10 : Ref sig .tc := ⟨.hbm, 62, rfl⟩
abbrev main_v45 : Ref sig .tc := ⟨.hbm, 63, rfl⟩
abbrev main_c_11 : Ref sig .tc := ⟨.hbm, 64, rfl⟩
abbrev main_v46 : Ref sig .tc := ⟨.hbm, 65, rfl⟩
abbrev main_v47 : Ref sig .tc := ⟨.hbm, 66, rfl⟩
abbrev main_c_12 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_c_13 : Ref sig .tc := ⟨.hbm, 73, rfl⟩
abbrev main_v53 : Ref sig .tc := ⟨.hbm, 74, rfl⟩
abbrev main_c_14 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_15 : Ref sig .tc := ⟨.hbm, 79, rfl⟩
abbrev main_v57 : Ref sig .tc := ⟨.hbm, 80, rfl⟩
abbrev main_v58 : Ref sig .tc := ⟨.hbm, 81, rfl⟩
abbrev main_c_16 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_c_17 : Ref sig .tc := ⟨.hbm, 88, rfl⟩
abbrev main_v64 : Ref sig .tc := ⟨.hbm, 89, rfl⟩
abbrev main_v65 : Ref sig .tc := ⟨.hbm, 90, rfl⟩
abbrev main_c_18 : Ref sig .tc := ⟨.hbm, 91, rfl⟩
abbrev main_call2_v0 : Ref sig .tc := ⟨.hbm, 92, rfl⟩
abbrev main_call2_v1 : Ref sig .tc := ⟨.hbm, 93, rfl⟩
abbrev main_v66 : Ref sig .tc := ⟨.hbm, 94, rfl⟩
abbrev main_call3_v0 : Ref sig .tc := ⟨.hbm, 95, rfl⟩
abbrev main_call3_v1_0 : Ref sig .tc := ⟨.hbm, 96, rfl⟩
abbrev main_v67 : Ref sig .tc := ⟨.hbm, 97, rfl⟩
abbrev main_c_19 : Ref sig .tc := ⟨.hbm, 98, rfl⟩
abbrev main_v68 : Ref sig .tc := ⟨.hbm, 99, rfl⟩
abbrev main_c_20 : Ref sig .tc := ⟨.hbm, 100, rfl⟩
abbrev main_v69 : Ref sig .tc := ⟨.hbm, 101, rfl⟩
abbrev main_v70 : Ref sig .tc := ⟨.hbm, 102, rfl⟩
abbrev main_c_21 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_c_22 : Ref sig .tc := ⟨.hbm, 109, rfl⟩
abbrev main_v76 : Ref sig .tc := ⟨.hbm, 110, rfl⟩
abbrev main_v77 : Ref sig .tc := ⟨.hbm, 111, rfl⟩
abbrev main_c_23 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_c_24 : Ref sig .tc := ⟨.hbm, 119, rfl⟩
abbrev main_v84 : Ref sig .tc := ⟨.hbm, 120, rfl⟩
abbrev main_v85 : Ref sig .tc := ⟨.hbm, 121, rfl⟩
abbrev main_c_25 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_c_26 : Ref sig .tc := ⟨.hbm, 128, rfl⟩
abbrev main_v91 : Ref sig .tc := ⟨.hbm, 129, rfl⟩
abbrev main_v92 : Ref sig .tc := ⟨.hbm, 130, rfl⟩
abbrev main_c_27 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_c_28 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_c_29 : Ref sig .tc := ⟨.hbm, 139, rfl⟩
abbrev main_call4_v0 : Ref sig .tc := ⟨.hbm, 140, rfl⟩
abbrev main_call4_v1 : Ref sig .tc := ⟨.hbm, 141, rfl⟩
abbrev main_v99 : Ref sig .tc := ⟨.hbm, 142, rfl⟩
abbrev main_c_30 : Ref sig .tc := ⟨.hbm, 143, rfl⟩
abbrev main_call5_v0 : Ref sig .tc := ⟨.hbm, 144, rfl⟩
abbrev main_call5_v1 : Ref sig .tc := ⟨.hbm, 145, rfl⟩
abbrev main_v100 : Ref sig .tc := ⟨.hbm, 146, rfl⟩
abbrev main_cst : Ref sig .tc := ⟨.hbm, 147, rfl⟩
abbrev main_v101 : Ref sig .tc := ⟨.hbm, 148, rfl⟩
abbrev main_c_31 : Ref sig .tc := ⟨.hbm, 149, rfl⟩
abbrev main_v102 : Ref sig .tc := ⟨.hbm, 150, rfl⟩
abbrev main_v103 : Ref sig .tc := ⟨.hbm, 151, rfl⟩
abbrev main_c_32 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_c_33 : Ref sig .tc := ⟨.hbm, 156, rfl⟩
abbrev main_v107 : Ref sig .tc := ⟨.hbm, 157, rfl⟩
abbrev main_v108 : Ref sig .tc := ⟨.hbm, 158, rfl⟩
abbrev main_c_34 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_c_35 : Ref sig .tc := ⟨.hbm, 167, rfl⟩
abbrev main_v116 : Ref sig .tc := ⟨.hbm, 168, rfl⟩
abbrev main_c_36 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_c_37 : Ref sig .tc := ⟨.hbm, 173, rfl⟩
abbrev main_v120 : Ref sig .tc := ⟨.hbm, 174, rfl⟩
abbrev main_v121 : Ref sig .tc := ⟨.hbm, 175, rfl⟩
abbrev main_c_38 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_c_39 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_c_40 : Ref sig .tc := ⟨.hbm, 186, rfl⟩
abbrev main_call6_v0 : Ref sig .tc := ⟨.hbm, 187, rfl⟩
abbrev main_call6_v1 : Ref sig .tc := ⟨.hbm, 188, rfl⟩
abbrev main_v130 : Ref sig .tc := ⟨.hbm, 189, rfl⟩
abbrev main_c_41 : Ref sig .tc := ⟨.hbm, 190, rfl⟩
abbrev main_v131 : Ref sig .tc := ⟨.hbm, 191, rfl⟩
abbrev main_c_42 : Ref sig .tc := ⟨.hbm, 192, rfl⟩
abbrev main_v132 : Ref sig .tc := ⟨.hbm, 193, rfl⟩
abbrev main_v133 : Ref sig .tc := ⟨.hbm, 194, rfl⟩
abbrev main_c_43 : Ref sig .tc := ⟨.hbm, 195, rfl⟩
abbrev main_v134 : Ref sig .tc := ⟨.hbm, 196, rfl⟩
abbrev main_v135 : Ref sig .tc := ⟨.hbm, 197, rfl⟩
abbrev main_c_44 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_v139 : Ref sig .tc := ⟨.hbm, 202, rfl⟩
abbrev main_v140 : Ref sig .tc := ⟨.hbm, 203, rfl⟩
abbrev main_c_45 : Ref sig .tc := ⟨.hbm, 204, rfl⟩
abbrev main_v141 : Ref sig .tc := ⟨.hbm, 205, rfl⟩
abbrev main_v142 : Ref sig .tc := ⟨.hbm, 206, rfl⟩
abbrev main_c_46 : Ref sig .tc := ⟨.hbm, 207, rfl⟩
abbrev main_v143 : Ref sig .tc := ⟨.hbm, 208, rfl⟩
abbrev main_v144 : Ref sig .tc := ⟨.hbm, 209, rfl⟩
abbrev main_c_47 : Ref sig .tc := ⟨.hbm, 210, rfl⟩
abbrev main_v145 : Ref sig .tc := ⟨.hbm, 211, rfl⟩
abbrev main_v146 : Ref sig .tc := ⟨.hbm, 212, rfl⟩
abbrev main_v147 : Ref sig .tc := ⟨.hbm, 213, rfl⟩
abbrev main_v148 : Ref sig .tc := ⟨.hbm, 214, rfl⟩
abbrev main_v149 : Ref sig .tc := ⟨.hbm, 215, rfl⟩
abbrev main_v150 : Ref sig .tc := ⟨.hbm, 216, rfl⟩
abbrev main_c_48 : Ref sig .tc := ⟨.hbm, 217, rfl⟩
abbrev main_v151 : Ref sig .tc := ⟨.hbm, 218, rfl⟩
abbrev main_c_49 : Ref sig .tc := ⟨.hbm, 219, rfl⟩
abbrev main_v152 : Ref sig .tc := ⟨.hbm, 220, rfl⟩
abbrev main_v153 : Ref sig .tc := ⟨.hbm, 221, rfl⟩
abbrev main_c_50 : Ref sig .tc := ⟨.hbm, 222, rfl⟩
abbrev main_v154 : Ref sig .tc := ⟨.hbm, 223, rfl⟩
abbrev main_v155 : Ref sig .tc := ⟨.hbm, 224, rfl⟩
abbrev main_v156 : Ref sig .tc := ⟨.hbm, 225, rfl⟩
abbrev main_v157 : Ref sig .tc := ⟨.hbm, 226, rfl⟩
abbrev main_v158 : Ref sig .tc := ⟨.hbm, 227, rfl⟩
abbrev main_v159 : Ref sig .tc := ⟨.hbm, 228, rfl⟩
abbrev main_c_51 : Ref sig .tc := ⟨.hbm, 229, rfl⟩
abbrev main_v160 : Ref sig .tc := ⟨.hbm, 230, rfl⟩
abbrev main_c_52 : Ref sig .tc := ⟨.hbm, 231, rfl⟩
abbrev main_v161 : Ref sig .tc := ⟨.hbm, 232, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4x80000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x80000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  transposes_S2000000x4_S4x2000000_1_0 : S2000000x4.Transposes [1, 0] S4x2000000
  inb_S4x80000_S1x80000_0_0 : ∀ a, (![0, 0] : Fin 2 → Nat) a + S1x80000.size a ≤ S4x80000.size a
  h_S1x80000 : 0 < S1x80000.numel
  shapeCasts_S1x80000_S80000 : S1x80000.ShapeCasts S80000
  inb_S4x80000_S1x80000_1_0 : ∀ a, (![1, 0] : Fin 2 → Nat) a + S1x80000.size a ≤ S4x80000.size a
  inb_S4x80000_S1x80000_2_0 : ∀ a, (![2, 0] : Fin 2 → Nat) a + S1x80000.size a ≤ S4x80000.size a
  shapeCasts_S80000_S1x80000 : S80000.ShapeCasts S1x80000
  inb_S4x80000_S1x80000_3_0 : ∀ a, (![3, 0] : Fin 2 → Nat) a + S1x80000.size a ≤ S4x80000.size a
  slices_S4x2000000_S3x2000000_0_0 : S4x2000000.Slices ![0, 0] S3x2000000
  transposes_S3x2000000_S2000000x3_1_0 : S3x2000000.Transposes [1, 0] S2000000x3
  slices_S4x2000000_S1x2000000_3_0 : S4x2000000.Slices ![3, 0] S1x2000000
  shapeCasts_S1x2000000_S2000000 : S1x2000000.ShapeCasts S2000000
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S1 : S_.BroadcastsInDim S1 (![] : Fin 0 → Fin S1.rank)
  slices_S2000000_S1999999_1 : S2000000.Slices ![1] S1999999
  slices_S2000000_S1999999_0 : S2000000.Slices ![0] S1999999
  concatenates_S1_S1999999_S2000000_d0 : Shape.Concatenates [S1, S1999999] S2000000 0
  natLt_1_32 : 1 < 32
  bcast_S_S_ : S_.BroadcastsInDim S_ (![] : Fin 0 → Fin S_.rank)
  reduceWindows_S2000000_S2000000_w2000000s1p1999999_0 : S2000000.ReduceWindows (![2000000] : Fin 1 → Nat) ![1] ![1999999] ![0] S2000000
  h_S_ : 0 < S_.numel
  bcast_S_S60000x35x4 : S_.BroadcastsInDim S60000x35x4 (![] : Fin 0 → Fin S60000x35x4.rank)
  concatenates_S2000000x1_S2000000x1_S2000000x2_d1 : Shape.Concatenates [S2000000x1, S2000000x1] S2000000x2 1
  bcast_S_S60000 : S_.BroadcastsInDim S60000 (![] : Fin 0 → Fin S60000.rank)
  bcast_S_S60000x3 : S_.BroadcastsInDim S60000x3 (![] : Fin 0 → Fin S60000x3.rank)
  reducesTo_S2000000_S_d0 : S2000000.ReducesTo [0] S_
  gather_S2000000_S2000000x1_S2000000_n_0_n_n_0_1_1_wf : GatherDims.WF S2000000 S2000000x1 S2000000 [] [0] [] [0] [] 1 ![1]
  gather_S2000000x3_S2000000x1_S2000000x3_1_0_n_n_0_1_13_wf : GatherDims.WF S2000000x3 S2000000x1 S2000000x3 [1] [0] [] [0] [] 1 ![1, 3]
  gather_S2000000x4_S2000000x1_S2000000x4_1_0_n_n_0_1_14_wf : GatherDims.WF S2000000x4 S2000000x1 S2000000x4 [1] [0] [] [0] [] 1 ![1, 4]
  scatter_S2000000_S2000000x1_S2000000_n_0_0_1_wf : ScatterDims.WF S2000000 S2000000x1 S2000000 [] [0] [0] 1
  scatter_S60000x35x4_S2000000x2_S2000000x4_1_01_01_1_wf : ScatterDims.WF S60000x35x4 S2000000x2 S2000000x4 [1] [0, 1] [0, 1] 1
  scatter_S60000_S2000000x1_S2000000_n_0_0_1_wf : ScatterDims.WF S60000 S2000000x1 S2000000 [] [0] [0] 1
  scatter_S60000x3_S2000000x1_S2000000x3_1_0_0_1_wf : ScatterDims.WF S60000x3 S2000000x1 S2000000x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x80000.size a ≤ S4x2000000.size a
  hwx0_0 : ∀ i : grid0.Coords, EltTy.bits .f32 = 32 ∨ (Rect.block (s := S4x2000000) S4x80000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x80000.size a ≤ S4x2000000.size a
  hwx0_1 : ∀ i : grid0.Coords, EltTy.bits .i32 = 32 ∨ (Rect.block (s := S4x2000000) S4x80000.size (cc0_transform_1 i) (hinb0_1 i)).WholeWords (EltTy.packing .i32)

variable [Facts₀]

def comparator_i32_i32_d0 : BitVec 32 × BitVec 32 → BitVec 32 × BitVec 32 → BitVec 1 :=
  fun l r =>
    let v2 := IntOp.cmpi .slt l.1 r.1
    v2
def gather_S2000000_S2000000x1_S2000000_n_0_n_n_0_1_1 : GatherDims S2000000 S2000000x1 S2000000 where
  offsetDims := []
  collapsedSliceDims := [0]
  operandBatchingDims := []
  startIndicesBatchingDims := []
  startIndexMap := [0]
  indexVectorDim := 1
  sliceSizes := ![1]
  wf := gather_S2000000_S2000000x1_S2000000_n_0_n_n_0_1_1_wf
def gather_S2000000x3_S2000000x1_S2000000x3_1_0_n_n_0_1_13 : GatherDims S2000000x3 S2000000x1 S2000000x3 where
  offsetDims := [1]
  collapsedSliceDims := [0]
  operandBatchingDims := []
  startIndicesBatchingDims := []
  startIndexMap := [0]
  indexVectorDim := 1
  sliceSizes := ![1, 3]
  wf := gather_S2000000x3_S2000000x1_S2000000x3_1_0_n_n_0_1_13_wf
def gather_S2000000x4_S2000000x1_S2000000x4_1_0_n_n_0_1_14 : GatherDims S2000000x4 S2000000x1 S2000000x4 where
  offsetDims := [1]
  collapsedSliceDims := [0]
  operandBatchingDims := []
  startIndicesBatchingDims := []
  startIndexMap := [0]
  indexVectorDim := 1
  sliceSizes := ![1, 4]
  wf := gather_S2000000x4_S2000000x1_S2000000x4_1_0_n_n_0_1_14_wf
def scatter_S2000000_S2000000x1_S2000000_n_0_0_1 : ScatterDims S2000000 S2000000x1 S2000000 where
  updateWindowDims := []
  insertedWindowDims := [0]
  scatterDimsToOperandDims := [0]
  indexVectorDim := 1
  wf := scatter_S2000000_S2000000x1_S2000000_n_0_0_1_wf
def scatter_S60000x35x4_S2000000x2_S2000000x4_1_01_01_1 : ScatterDims S60000x35x4 S2000000x2 S2000000x4 where
  updateWindowDims := [1]
  insertedWindowDims := [0, 1]
  scatterDimsToOperandDims := [0, 1]
  indexVectorDim := 1
  wf := scatter_S60000x35x4_S2000000x2_S2000000x4_1_01_01_1_wf
def scatter_S60000_S2000000x1_S2000000_n_0_0_1 : ScatterDims S60000 S2000000x1 S2000000 where
  updateWindowDims := []
  insertedWindowDims := [0]
  scatterDimsToOperandDims := [0]
  indexVectorDim := 1
  wf := scatter_S60000_S2000000x1_S2000000_n_0_0_1_wf
def scatter_S60000x3_S2000000x1_S2000000x3_1_0_0_1 : ScatterDims S60000x3 S2000000x1 S2000000x3 where
  updateWindowDims := [1]
  insertedWindowDims := [0]
  scatterDimsToOperandDims := [0]
  indexVectorDim := 1
  wf := scatter_S60000x3_S2000000x1_S2000000x3_1_0_0_1_wf

abbrev win0_0 : Pipeline.Window sig grid0 :=
  Pipeline.Window.ofSpec (Memref.whole main_v0) S4x80000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4x80000.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2000000x4 : Shape := ⟨2, ![2000000, 4]⟩
abbrev S3 : Shape := ⟨1, ![3]⟩
abbrev S2000000x3 : Shape := ⟨2, ![2000000, 3]⟩
abbrev S1x3 : Shape := ⟨2, ![1, 3]⟩
abbrev S_ : Shape := ⟨0, ![]⟩
abbrev S2000000 : Shape := ⟨1, ![2000000]⟩
abbrev S2000000x1 : Shape := ⟨2, ![2000000, 1]⟩
abbrev S1 : Shape := ⟨1, ![1]⟩
abbrev S1999999 : Shape := ⟨1, ![1999999]⟩
abbrev S60000x35x4 : Shape := ⟨3, ![60000, 35, 4]⟩
abbrev S2000000x2 : Shape := ⟨2, ![2000000, 2]⟩
abbrev S60000 : Shape := ⟨1, ![60000]⟩
abbrev S60000x3 : Shape := ⟨2, ![60000, 3]⟩

abbrev nBuf : Space → Nat
  | .hbm => 266
  | .vmem => 0
  | .smem => 0
  | _ => 0

abbrev hbmTy0_0 (i : Nat) : BufTy := match i % 128 with
  | 0 => ⟨S2000000x4, .f32⟩
  | 1 => ⟨S3, .f32⟩
  | 2 => ⟨S3, .f32⟩
  | 3 => ⟨S3, .i32⟩
  | 4 => ⟨S2000000x3, .f32⟩
  | 5 => ⟨S1x3, .f32⟩
  | 6 => ⟨S2000000x3, .f32⟩
  | 7 => ⟨S2000000x3, .f32⟩
  | 8 => ⟨S1x3, .f32⟩
  | 9 => ⟨S2000000x3, .f32⟩
  | 10 => ⟨S2000000x3, .f32⟩
  | 11 => ⟨S2000000x3, .f32⟩
  | 12 => ⟨S2000000x3, .i32⟩
  | 13 => ⟨S_, .i32⟩
  | 14 => ⟨S2000000x3, .i32⟩
  | 15 => ⟨S2000000x3, .i1⟩
  | 16 => ⟨S1x3, .i32⟩
  | 17 => ⟨S2000000x3, .i32⟩
  | 18 => ⟨S2000000x3, .i1⟩
  | 19 => ⟨S2000000x3, .i1⟩
  | 20 => ⟨S_, .i1⟩
  | 21 => ⟨S2000000, .i1⟩
  | 22 => ⟨S2000000x1, .i32⟩
  | 23 => ⟨S2000000, .i32⟩
  | 24 => ⟨S_, .i32⟩
  | 25 => ⟨S2000000, .i32⟩
  | 26 => ⟨S2000000, .i32⟩
  | 27 => ⟨S2000000x1, .i32⟩
  | 28 => ⟨S2000000, .i32⟩
  | 29 => ⟨S2000000, .i32⟩
  | 30 => ⟨S_, .i32⟩
  | 31 => ⟨S2000000, .i32⟩
  | 32 => ⟨S2000000, .i32⟩
  | 33 => ⟨S2000000x1, .i32⟩
  | 34 => ⟨S2000000, .i32⟩
  | 35 => ⟨S2000000, .i32⟩
  | 36 => ⟨S_, .i32⟩
  | 37 => ⟨S_, .i32⟩
  | 38 => ⟨S2000000, .i32⟩
  | 39 => ⟨S2000000, .i32⟩
  | 40 => ⟨S2000000, .i32⟩
  | 41 => ⟨S2000000, .i32⟩
  | 42 => ⟨S2000000, .i32⟩
  | 43 => ⟨S_, .i32⟩
  | 44 => ⟨S2000000, .i32⟩
  | 45 => ⟨S2000000, .i1⟩
  | 46 => ⟨S_, .i32⟩
  | 47 => ⟨S2000000, .i32⟩
  | 48 => ⟨S2000000, .i32⟩
  | 49 => ⟨S2000000, .i32⟩
  | 50 => ⟨S2000000x1, .i32⟩
  | 51 => ⟨S2000000, .i32⟩
  | 52 => ⟨S_, .i32⟩
  | 53 => ⟨S2000000, .i32⟩
  | 54 => ⟨S2000000, .i1⟩
  | 55 => ⟨S_, .i32⟩
  | 56 => ⟨S2000000, .i32⟩
  | 57 => ⟨S2000000, .i32⟩
  | 58 => ⟨S2000000, .i32⟩
  | 59 => ⟨S2000000x1, .i32⟩
  | 60 => ⟨S2000000x3, .i32⟩
  | 61 => ⟨S_, .i32⟩
  | 62 => ⟨S2000000, .i32⟩
  | 63 => ⟨S2000000, .i1⟩
  | 64 => ⟨S_, .i32⟩
  | 65 => ⟨S2000000, .i32⟩
  | 66 => ⟨S2000000, .i32⟩
  | 67 => ⟨S2000000, .i32⟩
  | 68 => ⟨S2000000x1, .i32⟩
  | 69 => ⟨S2000000x4, .f32⟩
  | 70 => ⟨S_, .i1⟩
  | 71 => ⟨S1, .i1⟩
  | 72 => ⟨S1999999, .i32⟩
  | 73 => ⟨S1999999, .i32⟩
  | 74 => ⟨S1999999, .i1⟩
  | 75 => ⟨S2000000, .i1⟩
  | 76 => ⟨S2000000, .i32⟩
  | 77 => ⟨S_, .i32⟩
  | 78 => ⟨S_, .i32⟩
  | 79 => ⟨S2000000, .i32⟩
  | 80 => ⟨S_, .i32⟩
  | 81 => ⟨S2000000, .i32⟩
  | 82 => ⟨S2000000, .i32⟩
  | 83 => ⟨S2000000, .i32⟩
  | 84 => ⟨S_, .i32⟩
  | 85 => ⟨S2000000, .i32⟩
  | 86 => ⟨S_, .i32⟩
  | 87 => ⟨S2000000, .i32⟩
  | 88 => ⟨S2000000, .i1⟩
  | 89 => ⟨S_, .i32⟩
  | 90 => ⟨S2000000, .i32⟩
  | 91 => ⟨S2000000, .i32⟩
  | 92 => ⟨S2000000, .i32⟩
  | 93 => ⟨S2000000x1, .i32⟩
  | 94 => ⟨S2000000, .i32⟩
  | 95 => ⟨S_, .i32⟩
  | 96 => ⟨S2000000, .i32⟩
  | 97 => ⟨S_, .i32⟩
  | 98 => ⟨S2000000, .i32⟩
  | 99 => ⟨S2000000, .i1⟩
  | 100 => ⟨S_, .i32⟩
  | 101 => ⟨S2000000, .i32⟩
  | 102 => ⟨S2000000, .i32⟩
  | 103 => ⟨S2000000, .i32⟩
  | 104 => ⟨S2000000x1, .i32⟩
  | 105 => ⟨S2000000, .i32⟩
  | 106 => ⟨S_, .i32⟩
  | 107 => ⟨S2000000, .i32⟩
  | 108 => ⟨S_, .i32⟩
  | 109 => ⟨S2000000, .i32⟩
  | 110 => ⟨S2000000, .i1⟩
  | 111 => ⟨S2000000, .i32⟩
  | 112 => ⟨S_, .i32⟩
  | 113 => ⟨S2000000, .i32⟩
  | 114 => ⟨S2000000, .i1⟩
  | 115 => ⟨S_, .i32⟩
  | 116 => ⟨S2000000, .i32⟩
  | 117 => ⟨S2000000, .i32⟩
  | 118 => ⟨S2000000, .i32⟩
  | 119 => ⟨S2000000x1, .i32⟩
  | 120 => ⟨S2000000, .i32⟩
  | 121 => ⟨S_, .i32⟩
  | 122 => ⟨S2000000, .i32⟩
  | 123 => ⟨S2000000, .i1⟩
  | 124 => ⟨S_, .i32⟩
  | 125 => ⟨S_, .i32⟩
  | 126 => ⟨S2000000, .i32⟩
  | 127 => ⟨S2000000, .i32⟩
  | _ => ⟨S2000000x4, .f32⟩

abbrev hbmTy0_1 (i : Nat) : BufTy := match i % 128 with
  | 0 => ⟨S2000000, .i32⟩
  | 1 => ⟨S2000000, .i32⟩
  | 2 => ⟨S2000000, .i32⟩
  | 3 => ⟨S_, .i32⟩
  | 4 => ⟨S2000000, .i32⟩
  | 5 => ⟨S_, .i32⟩
  | 6 => ⟨S2000000, .i32⟩
  | 7 => ⟨S2000000, .i1⟩
  | 8 => ⟨S_, .i32⟩
  | 9 => ⟨S2000000, .i32⟩
  | 10 => ⟨S2000000, .i32⟩
  | 11 => ⟨S2000000, .i32⟩
  | 12 => ⟨S2000000x1, .i32⟩
  | 13 => ⟨S2000000, .i32⟩
  | 14 => ⟨S_, .i32⟩
  | 15 => ⟨S2000000, .i32⟩
  | 16 => ⟨S2000000, .i1⟩
  | 17 => ⟨S_, .i32⟩
  | 18 => ⟨S2000000, .i32⟩
  | 19 => ⟨S2000000, .i32⟩
  | 20 => ⟨S2000000, .i32⟩
  | 21 => ⟨S2000000x1, .i32⟩
  | 22 => ⟨S2000000, .i32⟩
  | 23 => ⟨S2000000, .i32⟩
  | 24 => ⟨S_, .i32⟩
  | 25 => ⟨S2000000, .i32⟩
  | 26 => ⟨S2000000, .i1⟩
  | 27 => ⟨S_, .i32⟩
  | 28 => ⟨S2000000, .i32⟩
  | 29 => ⟨S2000000, .i32⟩
  | 30 => ⟨S2000000, .i32⟩
  | 31 => ⟨S2000000x1, .i32⟩
  | 32 => ⟨S2000000, .i32⟩
  | 33 => ⟨S_, .i32⟩
  | 34 => ⟨S2000000, .i32⟩
  | 35 => ⟨S2000000, .i1⟩
  | 36 => ⟨S_, .i32⟩
  | 37 => ⟨S2000000, .i32⟩
  | 38 => ⟨S2000000, .i1⟩
  | 39 => ⟨S2000000, .i1⟩
  | 40 => ⟨S_, .i32⟩
  | 41 => ⟨S2000000, .i32⟩
  | 42 => ⟨S2000000, .i1⟩
  | 43 => ⟨S2000000, .i1⟩
  | 44 => ⟨S_, .i32⟩
  | 45 => ⟨S_, .i32⟩
  | 46 => ⟨S2000000, .i32⟩
  | 47 => ⟨S2000000, .i32⟩
  | 48 => ⟨S_, .i32⟩
  | 49 => ⟨S_, .i32⟩
  | 50 => ⟨S2000000, .i32⟩
  | 51 => ⟨S2000000, .i32⟩
  | 52 => ⟨S_, .f32⟩
  | 53 => ⟨S60000x35x4, .f32⟩
  | 54 => ⟨S_, .i32⟩
  | 55 => ⟨S2000000, .i32⟩
  | 56 => ⟨S2000000, .i1⟩
  | 57 => ⟨S_, .i32⟩
  | 58 => ⟨S2000000, .i32⟩
  | 59 => ⟨S2000000, .i32⟩
  | 60 => ⟨S2000000, .i32⟩
  | 61 => ⟨S_, .i32⟩
  | 62 => ⟨S2000000, .i32⟩
  | 63 => ⟨S2000000, .i1⟩
  | 64 => ⟨S_, .i32⟩
  | 65 => ⟨S2000000, .i32⟩
  | 66 => ⟨S2000000, .i32⟩
  | 67 => ⟨S2000000, .i32⟩
  | 68 => ⟨S2000000x1, .i32⟩
  | 69 => ⟨S2000000x1, .i32⟩
  | 70 => ⟨S2000000x2, .i32⟩
  | 71 => ⟨S60000x35x4, .f32⟩
  | 72 => ⟨S_, .i32⟩
  | 73 => ⟨S2000000, .i32⟩
  | 74 => ⟨S_, .i32⟩
  | 75 => ⟨S2000000, .i32⟩
  | 76 => ⟨S2000000, .i1⟩
  | 77 => ⟨S2000000, .i32⟩
  | 78 => ⟨S_, .i32⟩
  | 79 => ⟨S2000000, .i32⟩
  | 80 => ⟨S2000000, .i1⟩
  | 81 => ⟨S_, .i32⟩
  | 82 => ⟨S2000000, .i32⟩
  | 83 => ⟨S2000000, .i32⟩
  | 84 => ⟨S2000000, .i32⟩
  | 85 => ⟨S2000000x1, .i32⟩
  | 86 => ⟨S2000000, .i32⟩
  | 87 => ⟨S_, .i32⟩
  | 88 => ⟨S2000000, .i32⟩
  | 89 => ⟨S2000000, .i1⟩
  | 90 => ⟨S2000000, .i1⟩
  | 91 => ⟨S_, .i32⟩
  | 92 => ⟨S_, .i32⟩
  | 93 => ⟨S2000000, .i32⟩
  | 94 => ⟨S2000000, .i32⟩
  | 95 => ⟨S_, .i32⟩
  | 96 => ⟨S60000, .i32⟩
  | 97 => ⟨S_, .i32⟩
  | 98 => ⟨S2000000, .i32⟩
  | 99 => ⟨S2000000, .i32⟩
  | 100 => ⟨S_, .i32⟩
  | 101 => ⟨S2000000, .i32⟩
  | 102 => ⟨S2000000, .i1⟩
  | 103 => ⟨S_, .i32⟩
  | 104 => ⟨S2000000, .i32⟩
  | 105 => ⟨S2000000, .i32⟩
  | 106 => ⟨S2000000, .i32⟩
  | 107 => ⟨S2000000x1, .i32⟩
  | 108 => ⟨S60000, .i32⟩
  | 109 => ⟨S_, .i32⟩
  | 110 => ⟨S2000000, .i32⟩
  | 111 => ⟨S2000000, .i32⟩
  | 112 => ⟨S_, .i32⟩
  | 113 => ⟨S2000000, .i32⟩
  | 114 => ⟨S2000000, .i1⟩
  | 115 => ⟨S_, .i32⟩
  | 116 => ⟨S2000000, .i32⟩
  | 117 => ⟨S2000000, .i32⟩
  | 118 => ⟨S2000000, .i32⟩
  | 119 => ⟨S2000000x1, .i32⟩
  | 120 => ⟨S2000000x3, .i32⟩
  | 121 => ⟨S2000000x3, .i32⟩
  | 122 => ⟨S_, .i32⟩
  | 123 => ⟨S60000x3, .i32⟩
  | 124 => ⟨S_, .i32⟩
  | 125 => ⟨S2000000, .i32⟩
  | 126 => ⟨S2000000, .i1⟩
  | 127 => ⟨S_, .i32⟩
  | _ => ⟨S2000000x4, .f32⟩

abbrev hbmTy0_2 (i : Nat) : BufTy := match i % 128 with
  | 0 => ⟨S2000000, .i32⟩
  | 1 => ⟨S2000000, .i32⟩
  | 2 => ⟨S2000000, .i32⟩
  | 3 => ⟨S2000000x1, .i32⟩
  | 4 => ⟨S60000x3, .i32⟩
  | 5 => ⟨S2000000, .i32⟩
  | 6 => ⟨S_, .i32⟩
  | 7 => ⟨S_, .i32⟩
  | 8 => ⟨S_, .i32⟩
  | 9 => ⟨S_, .i32⟩
  | _ => ⟨S2000000x4, .f32⟩

abbrev hbmTy (i : Nat) : BufTy := match i / 128 with
  | 0 => hbmTy0_0 i
  | 1 => hbmTy0_1 i
  | 2 => hbmTy0_2 i
  | _ => ⟨S2000000x4, .f32⟩

abbrev bufTy : (tb : Table) → Fin (tcTables nBuf tb) → BufTy
  | .hbm, ⟨i, _⟩ => hbmTy i
  | _, _ => ⟨S2000000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c_3 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c_4 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c_5 : Ref sig .tc := ⟨.hbm, 36, rfl⟩
abbrev main_call0_v0 : Ref sig .tc := ⟨.hbm, 37, rfl⟩
abbrev main_call0_v1 : Ref sig .tc := ⟨.hbm, 38, rfl⟩
abbrev main_v28 : Ref sig .tc := ⟨.hbm, 39, rfl⟩
abbrev main_call1_v0 : Ref sig .tc := ⟨.hbm, 40, rfl⟩
abbrev main_call1_v1_0 : Ref sig .tc := ⟨.hbm, 41, rfl⟩
abbrev main_v29 : Ref sig .tc := ⟨.hbm, 42, rfl⟩
abbrev main_c_6 : Ref sig .tc := ⟨.hbm, 43, rfl⟩
abbrev main_v30 : Ref sig .tc := ⟨.hbm, 44, rfl⟩
abbrev main_v31 : Ref sig .tc := ⟨.hbm, 45, rfl⟩
abbrev main_c_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c_8 : Ref sig .tc := ⟨.hbm, 52, rfl⟩
abbrev main_v37 : Ref sig .tc := ⟨.hbm, 53, rfl⟩
abbrev main_v38 : Ref sig .tc := ⟨.hbm, 54, rfl⟩
abbrev main_c_9 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c_10 : Ref sig .tc := ⟨.hbm, 61, rfl⟩
abbrev main_v44 : Ref sig .tc := ⟨.hbm, 62, rfl⟩
abbrev main_v45 : Ref sig .tc := ⟨.hbm, 63, rfl⟩
abbrev main_c_11 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_c_12 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_call2_v0 : Ref sig .tc := ⟨.hbm, 76, rfl⟩
abbrev main_call2_call0_c : Ref sig .tc := ⟨.hbm, 77, rfl⟩
abbrev main_call2_call0_v0 : Ref sig .tc := ⟨.hbm, 78, rfl⟩
abbrev main_v56 : Ref sig .tc := ⟨.hbm, 79, rfl⟩
abbrev main_c_13 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_c_14 : Ref sig .tc := ⟨.hbm, 84, rfl⟩
abbrev main_v60 : Ref sig .tc := ⟨.hbm, 85, rfl⟩
abbrev main_c_15 : Ref sig .tc := ⟨.hbm, 86, rfl⟩
abbrev main_v61 : Ref sig .tc := ⟨.hbm, 87, rfl⟩
abbrev main_v62 : Ref sig .tc := ⟨.hbm, 88, rfl⟩
abbrev main_c_16 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_c_17 : Ref sig .tc := ⟨.hbm, 95, rfl⟩
abbrev main_v68 : Ref sig .tc := ⟨.hbm, 96, rfl⟩
abbrev main_c_18 : Ref sig .tc := ⟨.hbm, 97, rfl⟩
abbrev main_v69 : Ref sig .tc := ⟨.hbm, 98, rfl⟩
abbrev main_v70 : Ref sig .tc := ⟨.hbm, 99, rfl⟩
abbrev main_c_19 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_c_20 : Ref sig .tc := ⟨.hbm, 106, rfl⟩
abbrev main_v76 : Ref sig .tc := ⟨.hbm, 107, rfl⟩
abbrev main_c_21 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_c_22 : Ref sig .tc := ⟨.hbm, 112, rfl⟩
abbrev main_v80 : Ref sig .tc := ⟨.hbm, 113, rfl⟩
abbrev main_v81 : Ref sig .tc := ⟨.hbm, 114, rfl⟩
abbrev main_c_23 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_c_24 : Ref sig .tc := ⟨.hbm, 121, rfl⟩
abbrev main_v87 : Ref sig .tc := ⟨.hbm, 122, rfl⟩
abbrev main_v88 : Ref sig .tc := ⟨.hbm, 123, rfl⟩
abbrev main_c_25 : Ref sig .tc := ⟨.hbm, 124, rfl⟩
abbrev main_call3_v0 : Ref sig .tc := ⟨.hbm, 125, rfl⟩
abbrev main_call3_v1 : Ref sig .tc := ⟨.hbm, 126, rfl⟩
abbrev main_v89 : Ref sig .tc := ⟨.hbm, 127, rfl⟩
abbrev main_call4_v0 : Ref sig .tc := ⟨.hbm, 128, rfl⟩
abbrev main_call4_v1_0 : Ref sig .tc := ⟨.hbm, 129, rfl⟩
abbrev main_v90 : Ref sig .tc := ⟨.hbm, 130, rfl⟩
abbrev main_c_26 : Ref sig .tc := ⟨.hbm, 131, rfl⟩
abbrev main_v91 : Ref sig .tc := ⟨.hbm, 132, rfl⟩
abbrev main_c_27 : Ref sig .tc := ⟨.hbm, 133, rfl⟩
abbrev main_v92 : Ref sig .tc := ⟨.hbm, 134, rfl⟩
abbrev main_v93 : Ref sig .tc := ⟨.hbm, 135, rfl⟩
abbrev main_c_28 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_c_29 : Ref sig .tc := ⟨.hbm, 142, rfl⟩
abbrev main_v99 : Ref sig .tc := ⟨.hbm, 143, rfl⟩
abbrev main_v100 : Ref sig .tc := ⟨.hbm, 144, rfl⟩
abbrev main_c_30 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_c_31 : Ref sig .tc := ⟨.hbm, 152, rfl⟩
abbrev main_v107 : Ref sig .tc := ⟨.hbm, 153, rfl⟩
abbrev main_v108 : Ref sig .tc := ⟨.hbm, 154, rfl⟩
abbrev main_c_32 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_c_33 : Ref sig .tc := ⟨.hbm, 161, rfl⟩
abbrev main_v114 : Ref sig .tc := ⟨.hbm, 162, rfl⟩
abbrev main_v115 : Ref sig .tc := ⟨.hbm, 163, rfl⟩
abbrev main_c_34 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_c_35 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_c_36 : Ref sig .tc := ⟨.hbm, 172, rfl⟩
abbrev main_call5_v0 : Ref sig .tc := ⟨.hbm, 173, rfl⟩
abbrev main_call5_v1 : Ref sig .tc := ⟨.hbm, 174, rfl⟩
abbrev main_v122 : Ref sig .tc := ⟨.hbm, 175, rfl⟩
abbrev main_c_37 : Ref sig .tc := ⟨.hbm, 176, rfl⟩
abbrev main_call6_v0 : Ref sig .tc := ⟨.hbm, 177, rfl⟩
abbrev main_call6_v1 : Ref sig .tc := ⟨.hbm, 178, rfl⟩
abbrev main_v123 : Ref sig .tc := ⟨.hbm, 179, rfl⟩
abbrev main_cst_38 : Ref sig .tc := ⟨.hbm, 180, rfl⟩
abbrev main_v124 : Ref sig .tc := ⟨.hbm, 181, rfl⟩
abbrev main_c_39 : Ref sig .tc := ⟨.hbm, 182, rfl⟩
abbrev main_v125 : Ref sig .tc := ⟨.hbm, 183, rfl⟩
abbrev main_v126 : Ref sig .tc := ⟨.hbm, 184, rfl⟩
abbrev main_c_40 : Ref sig .tc := ⟨.hbm, 185, rfl⟩
abbrev main_v127 : Ref sig .tc := ⟨.hbm, 186, rfl⟩
abbrev main_v128 : Ref sig .tc := ⟨.hbm, 187, rfl⟩
abbrev main_v129 : Ref sig .tc := ⟨.hbm, 188, rfl⟩
abbrev main_c_41 : Ref sig .tc := ⟨.hbm, 189, rfl⟩
abbrev main_v130 : Ref sig .tc := ⟨.hbm, 190, rfl⟩
abbrev main_v131 : Ref sig .tc := ⟨.hbm, 191, rfl⟩
abbrev main_c_42 : Ref sig .tc := ⟨.hbm, 192, rfl⟩
abbrev main_v132 : Ref sig .tc := ⟨.hbm, 193, rfl⟩
abbrev main_v133 : Ref sig .tc := ⟨.hbm, 194, rfl⟩
abbrev main_v134 : Ref sig .tc := ⟨.hbm, 195, rfl⟩
abbrev main_v135 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_c_43 : Ref sig .tc := ⟨.hbm, 200, rfl⟩
abbrev main_v139 : Ref sig .tc := ⟨.hbm, 201, rfl⟩
abbrev main_c_44 : Ref sig .tc := ⟨.hbm, 202, rfl⟩
abbrev main_v140 : Ref sig .tc := ⟨.hbm, 203, rfl⟩
abbrev main_v141 : Ref sig .tc := ⟨.hbm, 204, rfl⟩
abbrev main_v142 : Ref sig .tc := ⟨.hbm, 205, rfl⟩
abbrev main_c_45 : Ref sig .tc := ⟨.hbm, 206, rfl⟩
abbrev main_v143 : Ref sig .tc := ⟨.hbm, 207, rfl⟩
abbrev main_v144 : Ref sig .tc := ⟨.hbm, 208, rfl⟩
abbrev main_c_46 : Ref sig .tc := ⟨.hbm, 209, rfl⟩
abbrev main_v145 : Ref sig .tc := ⟨.hbm, 210, rfl⟩
abbrev main_v146 : Ref sig .tc := ⟨.hbm, 211, rfl⟩
abbrev main_v147 : Ref sig .tc := ⟨.hbm, 212, rfl⟩
abbrev main_v148 : Ref sig .tc := ⟨.hbm, 213, rfl⟩
abbrev main_v149 : Ref sig .tc := ⟨.hbm, 214, rfl⟩
abbrev main_c_47 : Ref sig .tc := ⟨.hbm, 215, rfl⟩
abbrev main_v150 : Ref sig .tc := ⟨.hbm, 216, rfl⟩
abbrev main_v151 : Ref sig .tc := ⟨.hbm, 217, rfl⟩
abbrev main_v152 : Ref sig .tc := ⟨.hbm, 218, rfl⟩
abbrev main_c_48 : Ref sig .tc := ⟨.hbm, 219, rfl⟩
abbrev main_call7_v0 : Ref sig .tc := ⟨.hbm, 220, rfl⟩
abbrev main_call7_v1 : Ref sig .tc := ⟨.hbm, 221, rfl⟩
abbrev main_v153 : Ref sig .tc := ⟨.hbm, 222, rfl⟩
abbrev main_c_49 : Ref sig .tc := ⟨.hbm, 223, rfl⟩
abbrev main_v154 : Ref sig .tc := ⟨.hbm, 224, rfl⟩
abbrev main_c_50 : Ref sig .tc := ⟨.hbm, 225, rfl⟩
abbrev main_v155 : Ref sig .tc := ⟨.hbm, 226, rfl⟩
abbrev main_v156 : Ref sig .tc := ⟨.hbm, 227, rfl⟩
abbrev main_c_51 : Ref sig .tc := ⟨.hbm, 228, rfl⟩
abbrev main_v157 : Ref sig .tc := ⟨.hbm, 229, rfl⟩
abbrev main_v158 : Ref sig .tc := ⟨.hbm, 230, rfl⟩
abbrev main_c_52 : Ref sig .tc := ⟨.hbm, 231, rfl⟩
abbrev main_v159 : Ref sig .tc := ⟨.hbm, 232, rfl⟩
abbrev main_v160 : Ref sig .tc := ⟨.hbm, 233, rfl⟩
abbrev main_v161 : Ref sig .tc := ⟨.hbm, 234, rfl⟩
abbrev main_v162 : Ref sig .tc := ⟨.hbm, 235, rfl⟩
abbrev main_v163 : Ref sig .tc := ⟨.hbm, 236, rfl⟩
abbrev main_c_53 : Ref sig .tc := ⟨.hbm, 237, rfl⟩
abbrev main_v164 : Ref sig .tc := ⟨.hbm, 238, rfl⟩
abbrev main_v165 : Ref sig .tc := ⟨.hbm, 239, rfl⟩
abbrev main_c_54 : Ref sig .tc := ⟨.hbm, 240, rfl⟩
abbrev main_v166 : Ref sig .tc := ⟨.hbm, 241, rfl⟩
abbrev main_v167 : Ref sig .tc := ⟨.hbm, 242, rfl⟩
abbrev main_c_55 : Ref sig .tc := ⟨.hbm, 243, rfl⟩
abbrev main_v168 : Ref sig .tc := ⟨.hbm, 244, rfl⟩
abbrev main_v169 : Ref sig .tc := ⟨.hbm, 245, rfl⟩
abbrev main_v170 : Ref sig .tc := ⟨.hbm, 246, rfl⟩
abbrev main_v171 : Ref sig .tc := ⟨.hbm, 247, rfl⟩
abbrev main_v172 : Ref sig .tc := ⟨.hbm, 248, rfl⟩
abbrev main_v173 : Ref sig .tc := ⟨.hbm, 249, rfl⟩
abbrev main_c_56 : Ref sig .tc := ⟨.hbm, 250, rfl⟩
abbrev main_v174 : Ref sig .tc := ⟨.hbm, 251, rfl⟩
abbrev main_c_57 : Ref sig .tc := ⟨.hbm, 252, rfl⟩
abbrev main_v175 : Ref sig .tc := ⟨.hbm, 253, rfl⟩
abbrev main_v176 : Ref sig .tc := ⟨.hbm, 254, rfl⟩
abbrev main_c_58 : Ref sig .tc := ⟨.hbm, 255, rfl⟩
abbrev main_v177 : Ref sig .tc := ⟨.hbm, 256, rfl⟩
abbrev main_v178 : Ref sig .tc := ⟨.hbm, 257, rfl⟩
abbrev main_v179 : Ref sig .tc := ⟨.hbm, 258, rfl⟩
abbrev main_v180 : Ref sig .tc := ⟨.hbm, 259, rfl⟩
abbrev main_v181 : Ref sig .tc := ⟨.hbm, 260, rfl⟩
abbrev main_v182 : Ref sig .tc := ⟨.hbm, 261, rfl⟩
abbrev main_c_59 : Ref sig .tc := ⟨.hbm, 262, rfl⟩
abbrev main_v183 : Ref sig .tc := ⟨.hbm, 263, rfl⟩
abbrev main_c_60 : Ref sig .tc := ⟨.hbm, 264, rfl⟩
abbrev main_v184 : Ref sig .tc := ⟨.hbm, 265, rfl⟩

abbrev nD : Nat := 1
abbrev τ : Topo := Topo.v7x

variable {F : FTy → Type} [FloatOps F]

class Facts₀ : Prop where
  slices_S2000000x4_S2000000x3_0_0 : S2000000x4.Slices ![0, 0] S2000000x3
  bcast_S3_S1x3_1 : S3.BroadcastsInDim S1x3 (![1] : Fin 1 → Fin S1x3.rank)
  bcast_S1x3_S2000000x3_0_1 : S1x3.BroadcastsInDim S2000000x3 (![0, 1] : Fin 2 → Fin S2000000x3.rank)
  bcast_S_S2000000x3 : S_.BroadcastsInDim S2000000x3 (![] : Fin 0 → Fin S2000000x3.rank)
  reducesTo_S2000000x3_S2000000_d1 : S2000000x3.ReducesTo [1] S2000000
  h_S_ : 0 < S_.numel
  slices_S2000000x3_S2000000x1_0_2 : S2000000x3.Slices ![0, 2] S2000000x1
  shapeCasts_S2000000x1_S2000000 : S2000000x1.ShapeCasts S2000000
  bcast_S_S2000000 : S_.BroadcastsInDim S2000000 (![] : Fin 0 → Fin S2000000.rank)
  slices_S2000000x3_S2000000x1_0_1 : S2000000x3.Slices ![0, 1] S2000000x1
  slices_S2000000x3_S2000000x1_0_0 : S2000000x3.Slices ![0, 0] S2000000x1
  bcast_S2000000_S2000000x1_0 : S2000000.BroadcastsInDim S2000000x1 (![0] : Fin 1 → Fin S2000000x1.rank)
  bcast_S_S1 : S_.BroadcastsInDim S1 (![] : Fin 0 → Fin S1.rank)
  slices_S2000000_S1999999_1 : S2000000.Slices ![1] S1999999
  slices_S2000000_S1999999_0 : S2000000.Slices ![0] S1999999
  concatenates_S1_S1999999_S2000000_d0 : Shape.Concatenates [S1, S1999999] S2000000 0
  natLt_1_32 : 1 < 32
  bcast_S_S_ : S_.BroadcastsInDim S_ (![] : Fin 0 → Fin S_.rank)
  reduceWindows_S2000000_S2000000_w2000000s1p1999999_0 : S2000000.ReduceWindows (![2000000] : Fin 1 → Nat) ![1] ![1999999] ![0] S2000000
  bcast_S_S60000x35x4 : S_.BroadcastsInDim S60000x35x4 (![] : Fin 0 → Fin S60000x35x4.rank)
  concatenates_S2000000x1_S2000000x1_S2000000x2_d1 : Shape.Concatenates [S2000000x1, S2000000x1] S2000000x2 1
  bcast_S_S60000 : S_.BroadcastsInDim S60000 (![] : Fin 0 → Fin S60000.rank)
  bcast_S_S60000x3 : S_.BroadcastsInDim S60000x3 (![] : Fin 0 → Fin S60000x3.rank)
  reducesTo_S2000000_S_d0 : S2000000.ReducesTo [0] S_
  gather_S2000000_S2000000x1_S2000000_n_0_n_n_0_1_1_wf : GatherDims.WF S2000000 S2000000x1 S2000000 [] [0] [] [0] [] 1 ![1]
  gather_S2000000x3_S2000000x1_S2000000x3_1_0_n_n_0_1_13_wf : GatherDims.WF S2000000x3 S2000000x1 S2000000x3 [1] [0] [] [0] [] 1 ![1, 3]
  gather_S2000000x4_S2000000x1_S2000000x4_1_0_n_n_0_1_14_wf : GatherDims.WF S2000000x4 S2000000x1 S2000000x4 [1] [0] [] [0] [] 1 ![1, 4]
  scatter_S2000000_S2000000x1_S2000000_n_0_0_1_wf : ScatterDims.WF S2000000 S2000000x1 S2000000 [] [0] [0] 1
  scatter_S60000x35x4_S2000000x2_S2000000x4_1_01_01_1_wf : ScatterDims.WF S60000x35x4 S2000000x2 S2000000x4 [1] [0, 1] [0, 1] 1
  scatter_S60000_S2000000x1_S2000000_n_0_0_1_wf : ScatterDims.WF S60000 S2000000x1 S2000000 [] [0] [0] 1
  scatter_S60000x3_S2000000x1_S2000000x3_1_0_0_1_wf : ScatterDims.WF S60000x3 S2000000x1 S2000000x3 [1] [0] [0] 1

variable [Facts₀]

def comparator_i32_i32_d0 : BitVec 32 × BitVec 32 → BitVec 32 × BitVec 32 → BitVec 1 :=
  fun l r =>
    let v2 := IntOp.cmpi .slt l.1 r.1
    v2
def gather_S2000000_S2000000x1_S2000000_n_0_n_n_0_1_1 : GatherDims S2000000 S2000000x1 S2000000 where
  offsetDims := []
  collapsedSliceDims := [0]
  operandBatchingDims := []
  startIndicesBatchingDims := []
  startIndexMap := [0]
  indexVectorDim := 1
  sliceSizes := ![1]
  wf := gather_S2000000_S2000000x1_S2000000_n_0_n_n_0_1_1_wf
def gather_S2000000x3_S2000000x1_S2000000x3_1_0_n_n_0_1_13 : GatherDims S2000000x3 S2000000x1 S2000000x3 where
  offsetDims := [1]
  collapsedSliceDims := [0]
  operandBatchingDims := []
  startIndicesBatchingDims := []
  startIndexMap := [0]
  indexVectorDim := 1
  sliceSizes := ![1, 3]
  wf := gather_S2000000x3_S2000000x1_S2000000x3_1_0_n_n_0_1_13_wf
def gather_S2000000x4_S2000000x1_S2000000x4_1_0_n_n_0_1_14 : GatherDims S2000000x4 S2000000x1 S2000000x4 where
  offsetDims := [1]
  collapsedSliceDims := [0]
  operandBatchingDims := []
  startIndicesBatchingDims := []
  startIndexMap := [0]
  indexVectorDim := 1
  sliceSizes := ![1, 4]
  wf := gather_S2000000x4_S2000000x1_S2000000x4_1_0_n_n_0_1_14_wf
def scatter_S2000000_S2000000x1_S2000000_n_0_0_1 : ScatterDims S2000000 S2000000x1 S2000000 where
  updateWindowDims := []
  insertedWindowDims := [0]
  scatterDimsToOperandDims := [0]
  indexVectorDim := 1
  wf := scatter_S2000000_S2000000x1_S2000000_n_0_0_1_wf
def scatter_S60000x35x4_S2000000x2_S2000000x4_1_01_01_1 : ScatterDims S60000x35x4 S2000000x2 S2000000x4 where
  updateWindowDims := [1]
  insertedWindowDims := [0, 1]
  scatterDimsToOperandDims := [0, 1]
  indexVectorDim := 1
  wf := scatter_S60000x35x4_S2000000x2_S2000000x4_1_01_01_1_wf
def scatter_S60000_S2000000x1_S2000000_n_0_0_1 : ScatterDims S60000 S2000000x1 S2000000 where
  updateWindowDims := []
  insertedWindowDims := [0]
  scatterDimsToOperandDims := [0]
  indexVectorDim := 1
  wf := scatter_S60000_S2000000x1_S2000000_n_0_0_1_wf
def scatter_S60000x3_S2000000x1_S2000000x3_1_0_0_1 : ScatterDims S60000x3 S2000000x1 S2000000x3 where
  updateWindowDims := [1]
  insertedWindowDims := [0]
  scatterDimsToOperandDims := [0]
  indexVectorDim := 1
  wf := scatter_S60000x3_S2000000x1_S2000000x3_1_0_0_1_wf

class Facts : Prop extends Facts₀ where

variable [Facts]
-- ==== Proof.KRunBits.lean ====
/-
  The kernel body run once, on any whole staging memrefs: the input block's buffer (4 rows of 80000 floats: the points'
  x, y, z and feature rows of one tile) is only read; the output block's buffer (4 rows of 80000 integers) receives four row
  stores — the three voxel coordinates floor((p - lo) / size) converted to integers, and the linear voxel id (or the
  out-of-range sentinel) — which together overwrite it whole. The body also loads each output row before storing it; the
  loaded values are unused. The run names the list of pieces the stores leave (last first).
-/
import proofs.«170420_j23845658427974_2_alg».proof.Proof.Gen.Kernel.Launch
import proofs.«170420_j23845658427974_2_alg».proof.Proof.Gen.Kernel.Skeleton
import proofs.«170420_j23845658427974_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's four row stores leave in the output block's buffer (last first), with the proof that, holding
    the input block's buffer at contents `x0` and the output block's at anything, the body runs to the continuation
    holding the input's as it was and the output's with those pieces written. -/
noncomputable def kernelRun0 (c : Dev nD) (i : grid0.Coords) (arg1 : Memref sig .tc .vmem S4x80000 .f32) (harg1 : arg1.IsWhole)
    (arg2 : Memref sig .tc .vmem S4x80000 .i32) (harg2 : arg2.IsWhole) (x0 : Vec F S4x80000 .f32) :
    { L1 : List (View.Piece (Elt F) S4x80000 .i32) //
      ∀ (E : Set ℕ) (K : PUnit → sProp 𝕄),
        iprop(owns (c : Thread nD τ) arg1 fullShare x0 ∗ (∃ d, owns (c : Thread nD τ) arg2 fullShare d)
            ∗ (iprop(owns (c : Thread nD τ) arg1 fullShare x0 ∗ (∃ f, arg2.view.loc (c : Thread nD τ) ↦[arg2.view.set]{fullShare} arg2.view.writes (Elt F) f L1)) -∗ K ⟨⟩))
          ⊢ wp frame (wpE (defs₀ (F := F)) Variants.none c none) E (cc0__vox_kernel i arg1 harg1 arg2 harg2) K } := by
  refine ⟨?_, fun E K => ?run⟩
  case run =>
    simp only [cc0__vox_kernel_eq_skeleton]; unfold cc0__vox_kernel_skel
    simp only [k0_part1_eq_skeleton]
    unfold owns
    iintro ⟨⟨%f0, %hf0, H0⟩, ⟨%d1, %f1, -, H1⟩, Hk⟩
    obtain rfl := harg1.eq_unread hf0
    sl_exec
    sl_step
    iapply Hk
    isplitl [H0]
    · iexists _; isplitr; · ipureintro; exact harg1.read_unread _
      iexact H0
    iexists _; iexact H1

end Cert.Kernel.Hand

end
-- ==== Proof.KFrameBits.lean ====
/-
  The frame of the program around its one kernel launch: the host line before the launch (the points transposed), the launch
  over 25 tiles of 80000 points, and the 230 host operations after it (the bookkeeping that sorts the linear ids, groups them
  and scatters the points into voxels). After the body at tile `t` the output block's buffer holds the four rows the body's
  stores leave; the launch writes each block back to columns [80000 t, 80000 (t+1)) of the 4 x 2000000 result; the later
  operations read that result and the argument, write only their own result buffers, and leave the argument as launched.
-/
import proofs.«170420_j23845658427974_2_alg».proof.Proof.KRunBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the launch -/

/-- The host operations after the launch, stretch by stretch, in program order. -/
abbrev tailOps : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12, hostOps1_13]

/-- The buffers' contents when the launch begins: after the one host operation before it. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

/-! No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor
theorem hostOps1_11_fresh : (hostOps1_11 : List (HloOp τ sig (Elt F))).Forall fun op => op.fresh = ∅ := by
  simp only [List.Forall]; repeat' constructor
theorem hostOps1_12_fresh : (hostOps1_12 : List (HloOp τ sig (Elt F))).Forall fun op => op.fresh = ∅ := by
  simp only [List.Forall]; repeat' constructor
theorem hostOps1_13_fresh : (hostOps1_13 : List (HloOp τ sig (Elt F))).Forall fun op => op.fresh = ∅ := by
  simp only [List.Forall]; repeat' constructor

/-! No host operation after the launch writes the argument, the transposed points or the launch's result. -/
theorem hostOps1_kept : (hostOps1 : List (HloOp τ sig (Elt F))).Forall fun op =>
    Proc.devRef .tc main_arg0 ∉ op.writes ∧ Proc.devRef .tc main_v0 ∉ op.writes ∧ Proc.devRef .tc main_v1 ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_1_kept : (hostOps1_1 : List (HloOp τ sig (Elt F))).Forall fun op =>
    Proc.devRef .tc main_arg0 ∉ op.writes ∧ Proc.devRef .tc main_v0 ∉ op.writes ∧ Proc.devRef .tc main_v1 ∉ op.writes := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_2_kept : (hostOps1_2 : List (HloOp τ sig (Elt F))).Forall fun op =>
    Proc.devRef .tc main_arg0 ∉ op.writes ∧ Proc.devRef .tc main_v0 ∉ op.writes ∧ Proc.devRef .tc main_v1 ∉ op.writes := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_3_kept : (hostOps1_3 : List (HloOp τ sig (Elt F))).Forall fun op =>
    Proc.devRef .tc main_arg0 ∉ op.writes ∧ Proc.devRef .tc main_v0 ∉ op.writes ∧ Proc.devRef .tc main_v1 ∉ op.writes := by
  simp only [hostOps1_3, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_4_kept : (hostOps1_4 : List (HloOp τ sig (Elt F))).Forall fun op =>
    Proc.devRef .tc main_arg0 ∉ op.writes ∧ Proc.devRef .tc main_v0 ∉ op.writes ∧ Proc.devRef .tc main_v1 ∉ op.writes := by
  simp only [hostOps1_4, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_5_kept : (hostOps1_5 : List (HloOp τ sig (Elt F))).Forall fun op =>
    Proc.devRef .tc main_arg0 ∉ op.writes ∧ Proc.devRef .tc main_v0 ∉ op.writes ∧ Proc.devRef .tc main_v1 ∉ op.writes := by
  simp only [hostOps1_5, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_6_kept : (hostOps1_6 : List (HloOp τ sig (Elt F))).Forall fun op =>
    Proc.devRef .tc main_arg0 ∉ op.writes ∧ Proc.devRef .tc main_v0 ∉ op.writes ∧ Proc.devRef .tc main_v1 ∉ op.writes := by
  simp only [hostOps1_6, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_7_kept : (hostOps1_7 : List (HloOp τ sig (Elt F))).Forall fun op =>
    Proc.devRef .tc main_arg0 ∉ op.writes ∧ Proc.devRef .tc main_v0 ∉ op.writes ∧ Proc.devRef .tc main_v1 ∉ op.writes := by
  simp only [hostOps1_7, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_8_kept : (hostOps1_8 : List (HloOp τ sig (Elt F))).Forall fun op =>
    Proc.devRef .tc main_arg0 ∉ op.writes ∧ Proc.devRef .tc main_v0 ∉ op.writes ∧ Proc.devRef .tc main_v1 ∉ op.writes := by
  simp only [hostOps1_8, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_9_kept : (hostOps1_9 : List (HloOp τ sig (Elt F))).Forall fun op =>
    Proc.devRef .tc main_arg0 ∉ op.writes ∧ Proc.devRef .tc main_v0 ∉ op.writes ∧ Proc.devRef .tc main_v1 ∉ op.writes := by
  simp only [hostOps1_9, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_10_kept : (hostOps1_10 : List (HloOp τ sig (Elt F))).Forall fun op =>
    Proc.devRef .tc main_arg0 ∉ op.writes ∧ Proc.devRef .tc main_v0 ∉ op.writes ∧ Proc.devRef .tc main_v1 ∉ op.writes := by
  simp only [hostOps1_10, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_11_kept : (hostOps1_11 : List (HloOp τ sig (Elt F))).Forall fun op =>
    Proc.devRef .tc main_arg0 ∉ op.writes ∧ Proc.devRef .tc main_v0 ∉ op.writes ∧ Proc.devRef .tc main_v1 ∉ op.writes := by
  simp only [hostOps1_11, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_12_kept : (hostOps1_12 : List (HloOp τ sig (Elt F))).Forall fun op =>
    Proc.devRef .tc main_arg0 ∉ op.writes ∧ Proc.devRef .tc main_v0 ∉ op.writes ∧ Proc.devRef .tc main_v1 ∉ op.writes := by
  simp only [hostOps1_12, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_13_kept : (hostOps1_13 : List (HloOp τ sig (Elt F))).Forall fun op =>
    Proc.devRef .tc main_arg0 ∉ op.writes ∧ Proc.devRef .tc main_v0 ∉ op.writes ∧ Proc.devRef .tc main_v1 ∉ op.writes := by
  simp only [hostOps1_13, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

/-- The program is the line before the launch, the launch, and the lines after it: it reduces to the launch continued by
    the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The later lines touch only the launch's two arrays and buffers the launch does not use. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
  · exact Pipeline.sub_ucRefs op ((List.forall_iff_forall_mem.mp hostOps1_9_sub) op hop)
  · exact Pipeline.sub_ucRefs op ((List.forall_iff_forall_mem.mp hostOps1_10_sub) op hop)
  · exact Pipeline.sub_ucRefs op ((List.forall_iff_forall_mem.mp hostOps1_11_sub) op hop)
  · exact Pipeline.sub_ucRefs op ((List.forall_iff_forall_mem.mp hostOps1_12_sub) op hop)
  · exact Pipeline.sub_ucRefs op ((List.forall_iff_forall_mem.mp hostOps1_13_sub) op hop)

/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
  · exact (List.forall_iff_forall_mem.mp hostOps1_9_fresh) op hop
  · exact (List.forall_iff_forall_mem.mp hostOps1_10_fresh) op hop
  · exact (List.forall_iff_forall_mem.mp hostOps1_11_fresh) op hop
  · exact (List.forall_iff_forall_mem.mp hostOps1_12_fresh) op hop
  · exact (List.forall_iff_forall_mem.mp hostOps1_13_fresh) op hop

/-- None of them writes the argument, the transposed points or the launch's result. -/
theorem sfx_kept : ∀ ops ∈ (tailOps : List (List (HloOp τ sig (Elt F)))), ∀ op ∈ ops,
    Proc.devRef .tc main_arg0 ∉ op.writes ∧ Proc.devRef .tc main_v0 ∉ op.writes ∧ Proc.devRef .tc main_v1 ∉ op.writes := by
  intro ops hops op hop
  simp only [List.mem_cons, List.mem_nil_iff, or_false] at hops
  rcases hops with rfl | rfl | rfl | rfl | rfl | rfl | rfl | rfl | rfl | rfl | rfl | rfl | rfl | rfl
  · exact (List.forall_iff_forall_mem.mp hostOps1_kept) op hop
  · exact (List.forall_iff_forall_mem.mp hostOps1_1_kept) op hop
  · exact (List.forall_iff_forall_mem.mp hostOps1_2_kept) op hop
  · exact (List.forall_iff_forall_mem.mp hostOps1_3_kept) op hop
  · exact (List.forall_iff_forall_mem.mp hostOps1_4_kept) op hop
  · exact (List.forall_iff_forall_mem.mp hostOps1_5_kept) op hop
  · exact (List.forall_iff_forall_mem.mp hostOps1_6_kept) op hop
  · exact (List.forall_iff_forall_mem.mp hostOps1_7_kept) op hop
  · exact (List.forall_iff_forall_mem.mp hostOps1_8_kept) op hop
  · exact (List.forall_iff_forall_mem.mp hostOps1_9_kept) op hop
  · exact (List.forall_iff_forall_mem.mp hostOps1_10_kept) op hop
  · exact (List.forall_iff_forall_mem.mp hostOps1_11_kept) op hop
  · exact (List.forall_iff_forall_mem.mp hostOps1_12_kept) op hop
  · exact (List.forall_iff_forall_mem.mp hostOps1_13_kept) op hop

/-- And so none writes an array of the launch. -/
theorem sfx_keeps : ∀ ops ∈ (tailOps : List (List (HloOp τ sig (Elt F)))), ∀ op ∈ ops,
    ∀ w, Proc.devRef .tc (Pipeline.arrRef spec0 w) ∉ op.writes := by
  intro ops hops op hop w
  have h := sfx_kept ops hops op hop
  fin_cases w
  · exact h.2.1
  · exact h.2.2

/-- The one host operation before the launch writes the transposed points, not the argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The argument ends as launched: no later line writes it, and it is no array of the launch. -/
theorem W_main_arg0 (dats : (p : Fin _) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) := by
  unfold Pipeline.afterTail₀
  rw [StableHlo.after_of_forall_not_mem (b := Proc.devRef .tc main_arg0) _ _ (fun op hop => by
      obtain ⟨ops, hops, hop'⟩ := List.mem_flatten.mp hop
      exact (sfx_kept ops hops op hop').1),
    Pipeline.withArrays_of_ne _ c (V0 m c) _ main_arg0 (by exact (by decide : ∀ w, Pipeline.arrRef spec0 w ≠ main_arg0))]
  exact V_main_arg0 m c

/-! ## The windows' blocks -/

/-- Window `w`'s block at tile `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current buffer holds its block at every tile, for any proof data whose array is the launch's and
    whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The frame claim's post from a frame run's: the argument is no array of the launch and no line writes it. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (((h c).2 main_arg0 (Pipeline.mem_restRefs_of main_arg0 (by decide) (by decide))).trans (W_main_arg0 m dats c))) h

/-! ## What the body leaves in the output block's buffer -/

/-- One buffer of the output window, through which its contents are stated (the choice does not matter). -/
abbrev VO0_1 : View sig .tc .vmem S4x80000 .i32 := (Memref.whole cc0_stg1_0 : Memref sig .tc .vmem S4x80000 .i32).view
/-- Each window's current buffer at tile `t`, and that it is a whole buffer. -/
abbrev ms0_0 (t : Fin cfg0.N) : Memref sig .tc .vmem S4x80000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x80000 .i32 := win0_1.stage (cfg0.slots t 1)
abbrev hs0_1 (t : Fin cfg0.N) : (ms0_1 t).IsWhole := hstage0_1 ((cfg0.slots t 1).cast nbuf0_1)

/-- The body's four row stores tile the output block, so they cover it. -/
theorem cover0_1 (c : Dev nD) (i : grid0.Coords) (arg1 : Memref sig .tc .vmem S4x80000 .f32) (harg1 : arg1.IsWhole)
    (arg2 : Memref sig .tc .vmem S4x80000 .i32) (harg2 : arg2.IsWhole) (x0 : Vec F S4x80000 .f32) (y : S4x80000.Idx) :
    ∃ pc ∈ (kernelRun0 c i arg1 harg1 arg2 harg2 x0).1, y ∈ pc.1.set :=
  View.cover_of_tiledL (kernelRun0 c i arg1 harg1 arg2 harg2 x0).1 S1x80000.size (by sl_kernel_rfl) y

/-- What the body leaves in the output block's buffer: its stores read back. -/
def out0_1 (c : Dev nD) (i : grid0.Coords) (arg1 : Memref sig .tc .vmem S4x80000 .f32) (harg1 : arg1.IsWhole)
    (arg2 : Memref sig .tc .vmem S4x80000 .i32) (harg2 : arg2.IsWhole) (x0 : Vec F S4x80000 .f32) : Vec F S4x80000 .i32 :=
  VO0_1.read (Elt F) (VO0_1.writes (Elt F) VO0_1.junk (kernelRun0 c i arg1 harg1 arg2 harg2 x0).1)

/-- The output block's buffer after the body at tile `t`. -/
def outsAt0 (c : Dev nD) (t : Fin cfg0.N) : Vec F S4x80000 .i32 :=
  out0_1 c (grid0.coords t) (ms0_0 t) (hs0_0 t) (ms0_1 t) (hs0_1 t) (iblk m c 0 t)

/-! ## The launch's proof data -/

/-- The arrays as the launch finds them; after the body at tile `t` the input's buffer at its block and the output's at
    what the body's stores leave; nothing else held, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (outsAt0 m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = (outsAt0 m c t) := by dsimp only [dats]

theorem before0_0 (c : Dev nD) (t : Fin cfg0.N) (d) : (dats m 0 c).before 0 t d = iblk m c 0 t :=
  before0_0_of m (dats m 0 c) (A_eq m c 0) (after0_0 m c) t d

/-! ## The body obligation -/

/-- What the body is called with at tile `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t))

/-- The body at any tile: the input's buffer holds its block, so the run applies; the rest passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  unfold outsAt0
  unfold out0_1
  iintro ⟨HΦ, Ho, ⟨%d0, H0⟩, ⟨%d1, H1⟩⟩
  iapply ((kernelRun0 c (grid0.coords t) _ _ _ _ (iblk m c 0 t)).2 Set.univ _)
  isplitl [H0]; · iexact H0
  isplitl [H1]; · iexists _; iexact H1
  iintro ⟨H0, ⟨%e1, H1⟩⟩
  isplitl [HΦ]; · iexact HΦ
  isplitl [Ho]; · iexact Ho
  isplitl [H0]; · iexact H0
  unfold owns; iexists _; isplitr
  swap; · iexact H1
  ipureintro; exact View.read_writes_of_cover _ _ _ _ _ (cover0_1 c _ _ _ _ _ _)

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates without a fault; the launch's arrays end at what the library
    computes from the proof data, and every other buffer as the later lines leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The program runs to the end, faults nowhere, and leaves its argument unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.Kernel.Hand

end
-- ==== Proof.KRunIdeal.lean ====
/-
  The kernel body run once, on any whole staging memrefs: the input block's buffer (4 rows of 80000 floats: the points'
  x, y, z and feature rows of one tile) is only read; the output block's buffer (4 rows of 80000 integers) receives four row
  stores — the three voxel coordinates floor((p - lo) / size) converted to integers, and the linear voxel id (or the
  out-of-range sentinel) — which together overwrite it whole. The body also loads each output row before storing it; the
  loaded values are unused. The run names the list of pieces the stores leave (last first).
-/
import proofs.«170420_j23845658427974_2_alg».proof.Proof.Gen.KernelIdeal.Launch
import proofs.«170420_j23845658427974_2_alg».proof.Proof.Gen.KernelIdeal.Skeleton
import proofs.«170420_j23845658427974_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's four row stores leave in the output block's buffer (last first), with the proof that, holding
    the input block's buffer at contents `x0` and the output block's at anything, the body runs to the continuation
    holding the input's as it was and the output's with those pieces written. -/
noncomputable def kernelRun0 (c : Dev nD) (i : grid0.Coords) (arg1 : Memref sig .tc .vmem S4x80000 .f32) (harg1 : arg1.IsWhole)
    (arg2 : Memref sig .tc .vmem S4x80000 .i32) (harg2 : arg2.IsWhole) (x0 : Vec F S4x80000 .f32) :
    { L1 : List (View.Piece (Elt F) S4x80000 .i32) //
      ∀ (E : Set ℕ) (K : PUnit → sProp 𝕄),
        iprop(owns (c : Thread nD τ) arg1 fullShare x0 ∗ (∃ d, owns (c : Thread nD τ) arg2 fullShare d)
            ∗ (iprop(owns (c : Thread nD τ) arg1 fullShare x0 ∗ (∃ f, arg2.view.loc (c : Thread nD τ) ↦[arg2.view.set]{fullShare} arg2.view.writes (Elt F) f L1)) -∗ K ⟨⟩))
          ⊢ wp frame (wpE (defs₀ (F := F)) Variants.none c none) E (cc0__vox_kernel i arg1 harg1 arg2 harg2) K } := by
  refine ⟨?_, fun E K => ?run⟩
  case run =>
    simp only [cc0__vox_kernel_eq_skeleton]; unfold cc0__vox_kernel_skel
    simp only [k0_part1_eq_skeleton]
    unfold owns
    iintro ⟨⟨%f0, %hf0, H0⟩, ⟨%d1, %f1, -, H1⟩, Hk⟩
    obtain rfl := harg1.eq_unread hf0
    sl_exec
    sl_step
    iapply Hk
    isplitl [H0]
    · iexists _; isplitr; · ipureintro; exact harg1.read_unread _
      iexact H0
    iexists _; iexact H1

end Cert.KernelIdeal.Hand

end
-- ==== Proof.KFrameIdeal.lean ====
/-
  The frame of the program around its one kernel launch: the host line before the launch (the points transposed), the launch
  over 25 tiles of 80000 points, and the 230 host operations after it (the bookkeeping that sorts the linear ids, groups them
  and scatters the points into voxels). After the body at tile `t` the output block's buffer holds the four rows the body's
  stores leave; the launch writes each block back to columns [80000 t, 80000 (t+1)) of the 4 x 2000000 result; the later
  operations read that result and the argument, write only their own result buffers, and leave the argument as launched.
-/
import proofs.«170420_j23845658427974_2_alg».proof.Proof.KRunIdeal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the launch -/

/-- The host operations after the launch, stretch by stretch, in program order. -/
abbrev tailOps : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12, hostOps1_13]

/-- The buffers' contents when the launch begins: after the one host operation before it. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

/-! No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor
theorem hostOps1_11_fresh : (hostOps1_11 : List (HloOp τ sig (Elt F))).Forall fun op => op.fresh = ∅ := by
  simp only [List.Forall]; repeat' constructor
theorem hostOps1_12_fresh : (hostOps1_12 : List (HloOp τ sig (Elt F))).Forall fun op => op.fresh = ∅ := by
  simp only [List.Forall]; repeat' constructor
theorem hostOps1_13_fresh : (hostOps1_13 : List (HloOp τ sig (Elt F))).Forall fun op => op.fresh = ∅ := by
  simp only [List.Forall]; repeat' constructor

/-! No host operation after the launch writes the argument, the transposed points or the launch's result. -/
theorem hostOps1_kept : (hostOps1 : List (HloOp τ sig (Elt F))).Forall fun op =>
    Proc.devRef .tc main_arg0 ∉ op.writes ∧ Proc.devRef .tc main_v0 ∉ op.writes ∧ Proc.devRef .tc main_v1 ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_1_kept : (hostOps1_1 : List (HloOp τ sig (Elt F))).Forall fun op =>
    Proc.devRef .tc main_arg0 ∉ op.writes ∧ Proc.devRef .tc main_v0 ∉ op.writes ∧ Proc.devRef .tc main_v1 ∉ op.writes := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_2_kept : (hostOps1_2 : List (HloOp τ sig (Elt F))).Forall fun op =>
    Proc.devRef .tc main_arg0 ∉ op.writes ∧ Proc.devRef .tc main_v0 ∉ op.writes ∧ Proc.devRef .tc main_v1 ∉ op.writes := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_3_kept : (hostOps1_3 : List (HloOp τ sig (Elt F))).Forall fun op =>
    Proc.devRef .tc main_arg0 ∉ op.writes ∧ Proc.devRef .tc main_v0 ∉ op.writes ∧ Proc.devRef .tc main_v1 ∉ op.writes := by
  simp only [hostOps1_3, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_4_kept : (hostOps1_4 : List (HloOp τ sig (Elt F))).Forall fun op =>
    Proc.devRef .tc main_arg0 ∉ op.writes ∧ Proc.devRef .tc main_v0 ∉ op.writes ∧ Proc.devRef .tc main_v1 ∉ op.writes := by
  simp only [hostOps1_4, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_5_kept : (hostOps1_5 : List (HloOp τ sig (Elt F))).Forall fun op =>
    Proc.devRef .tc main_arg0 ∉ op.writes ∧ Proc.devRef .tc main_v0 ∉ op.writes ∧ Proc.devRef .tc main_v1 ∉ op.writes := by
  simp only [hostOps1_5, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_6_kept : (hostOps1_6 : List (HloOp τ sig (Elt F))).Forall fun op =>
    Proc.devRef .tc main_arg0 ∉ op.writes ∧ Proc.devRef .tc main_v0 ∉ op.writes ∧ Proc.devRef .tc main_v1 ∉ op.writes := by
  simp only [hostOps1_6, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_7_kept : (hostOps1_7 : List (HloOp τ sig (Elt F))).Forall fun op =>
    Proc.devRef .tc main_arg0 ∉ op.writes ∧ Proc.devRef .tc main_v0 ∉ op.writes ∧ Proc.devRef .tc main_v1 ∉ op.writes := by
  simp only [hostOps1_7, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_8_kept : (hostOps1_8 : List (HloOp τ sig (Elt F))).Forall fun op =>
    Proc.devRef .tc main_arg0 ∉ op.writes ∧ Proc.devRef .tc main_v0 ∉ op.writes ∧ Proc.devRef .tc main_v1 ∉ op.writes := by
  simp only [hostOps1_8, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_9_kept : (hostOps1_9 : List (HloOp τ sig (Elt F))).Forall fun op =>
    Proc.devRef .tc main_arg0 ∉ op.writes ∧ Proc.devRef .tc main_v0 ∉ op.writes ∧ Proc.devRef .tc main_v1 ∉ op.writes := by
  simp only [hostOps1_9, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_10_kept : (hostOps1_10 : List (HloOp τ sig (Elt F))).Forall fun op =>
    Proc.devRef .tc main_arg0 ∉ op.writes ∧ Proc.devRef .tc main_v0 ∉ op.writes ∧ Proc.devRef .tc main_v1 ∉ op.writes := by
  simp only [hostOps1_10, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_11_kept : (hostOps1_11 : List (HloOp τ sig (Elt F))).Forall fun op =>
    Proc.devRef .tc main_arg0 ∉ op.writes ∧ Proc.devRef .tc main_v0 ∉ op.writes ∧ Proc.devRef .tc main_v1 ∉ op.writes := by
  simp only [hostOps1_11, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_12_kept : (hostOps1_12 : List (HloOp τ sig (Elt F))).Forall fun op =>
    Proc.devRef .tc main_arg0 ∉ op.writes ∧ Proc.devRef .tc main_v0 ∉ op.writes ∧ Proc.devRef .tc main_v1 ∉ op.writes := by
  simp only [hostOps1_12, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_13_kept : (hostOps1_13 : List (HloOp τ sig (Elt F))).Forall fun op =>
    Proc.devRef .tc main_arg0 ∉ op.writes ∧ Proc.devRef .tc main_v0 ∉ op.writes ∧ Proc.devRef .tc main_v1 ∉ op.writes := by
  simp only [hostOps1_13, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

/-- The program is the line before the launch, the launch, and the lines after it: it reduces to the launch continued by
    the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The later lines touch only the launch's two arrays and buffers the launch does not use. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
  · exact Pipeline.sub_ucRefs op ((List.forall_iff_forall_mem.mp hostOps1_9_sub) op hop)
  · exact Pipeline.sub_ucRefs op ((List.forall_iff_forall_mem.mp hostOps1_10_sub) op hop)
  · exact Pipeline.sub_ucRefs op ((List.forall_iff_forall_mem.mp hostOps1_11_sub) op hop)
  · exact Pipeline.sub_ucRefs op ((List.forall_iff_forall_mem.mp hostOps1_12_sub) op hop)
  · exact Pipeline.sub_ucRefs op ((List.forall_iff_forall_mem.mp hostOps1_13_sub) op hop)

/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
  · exact (List.forall_iff_forall_mem.mp hostOps1_9_fresh) op hop
  · exact (List.forall_iff_forall_mem.mp hostOps1_10_fresh) op hop
  · exact (List.forall_iff_forall_mem.mp hostOps1_11_fresh) op hop
  · exact (List.forall_iff_forall_mem.mp hostOps1_12_fresh) op hop
  · exact (List.forall_iff_forall_mem.mp hostOps1_13_fresh) op hop

/-- None of them writes the argument, the transposed points or the launch's result. -/
theorem sfx_kept : ∀ ops ∈ (tailOps : List (List (HloOp τ sig (Elt F)))), ∀ op ∈ ops,
    Proc.devRef .tc main_arg0 ∉ op.writes ∧ Proc.devRef .tc main_v0 ∉ op.writes ∧ Proc.devRef .tc main_v1 ∉ op.writes := by
  intro ops hops op hop
  simp only [List.mem_cons, List.mem_nil_iff, or_false] at hops
  rcases hops with rfl | rfl | rfl | rfl | rfl | rfl | rfl | rfl | rfl | rfl | rfl | rfl | rfl | rfl
  · exact (List.forall_iff_forall_mem.mp hostOps1_kept) op hop
  · exact (List.forall_iff_forall_mem.mp hostOps1_1_kept) op hop
  · exact (List.forall_iff_forall_mem.mp hostOps1_2_kept) op hop
  · exact (List.forall_iff_forall_mem.mp hostOps1_3_kept) op hop
  · exact (List.forall_iff_forall_mem.mp hostOps1_4_kept) op hop
  · exact (List.forall_iff_forall_mem.mp hostOps1_5_kept) op hop
  · exact (List.forall_iff_forall_mem.mp hostOps1_6_kept) op hop
  · exact (List.forall_iff_forall_mem.mp hostOps1_7_kept) op hop
  · exact (List.forall_iff_forall_mem.mp hostOps1_8_kept) op hop
  · exact (List.forall_iff_forall_mem.mp hostOps1_9_kept) op hop
  · exact (List.forall_iff_forall_mem.mp hostOps1_10_kept) op hop
  · exact (List.forall_iff_forall_mem.mp hostOps1_11_kept) op hop
  · exact (List.forall_iff_forall_mem.mp hostOps1_12_kept) op hop
  · exact (List.forall_iff_forall_mem.mp hostOps1_13_kept) op hop

/-- And so none writes an array of the launch. -/
theorem sfx_keeps : ∀ ops ∈ (tailOps : List (List (HloOp τ sig (Elt F)))), ∀ op ∈ ops,
    ∀ w, Proc.devRef .tc (Pipeline.arrRef spec0 w) ∉ op.writes := by
  intro ops hops op hop w
  have h := sfx_kept ops hops op hop
  fin_cases w
  · exact h.2.1
  · exact h.2.2

/-- The one host operation before the launch writes the transposed points, not the argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The argument ends as launched: no later line writes it, and it is no array of the launch. -/
theorem W_main_arg0 (dats : (p : Fin _) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) := by
  unfold Pipeline.afterTail₀
  rw [StableHlo.after_of_forall_not_mem (b := Proc.devRef .tc main_arg0) _ _ (fun op hop => by
      obtain ⟨ops, hops, hop'⟩ := List.mem_flatten.mp hop
      exact (sfx_kept ops hops op hop').1),
    Pipeline.withArrays_of_ne _ c (V0 m c) _ main_arg0 (by exact (by decide : ∀ w, Pipeline.arrRef spec0 w ≠ main_arg0))]
  exact V_main_arg0 m c

/-! ## The windows' blocks -/

/-- Window `w`'s block at tile `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current buffer holds its block at every tile, for any proof data whose array is the launch's and
    whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The frame claim's post from a frame run's: the argument is no array of the launch and no line writes it. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (((h c).2 main_arg0 (Pipeline.mem_restRefs_of main_arg0 (by decide) (by decide))).trans (W_main_arg0 m dats c))) h

/-! ## What the body leaves in the output block's buffer -/

/-- One buffer of the output window, through which its contents are stated (the choice does not matter). -/
abbrev VO0_1 : View sig .tc .vmem S4x80000 .i32 := (Memref.whole cc0_stg1_0 : Memref sig .tc .vmem S4x80000 .i32).view
/-- Each window's current buffer at tile `t`, and that it is a whole buffer. -/
abbrev ms0_0 (t : Fin cfg0.N) : Memref sig .tc .vmem S4x80000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x80000 .i32 := win0_1.stage (cfg0.slots t 1)
abbrev hs0_1 (t : Fin cfg0.N) : (ms0_1 t).IsWhole := hstage0_1 ((cfg0.slots t 1).cast nbuf0_1)

/-- The body's four row stores tile the output block, so they cover it. -/
theorem cover0_1 (c : Dev nD) (i : grid0.Coords) (arg1 : Memref sig .tc .vmem S4x80000 .f32) (harg1 : arg1.IsWhole)
    (arg2 : Memref sig .tc .vmem S4x80000 .i32) (harg2 : arg2.IsWhole) (x0 : Vec F S4x80000 .f32) (y : S4x80000.Idx) :
    ∃ pc ∈ (kernelRun0 c i arg1 harg1 arg2 harg2 x0).1, y ∈ pc.1.set :=
  View.cover_of_tiledL (kernelRun0 c i arg1 harg1 arg2 harg2 x0).1 S1x80000.size (by sl_kernel_rfl) y

/-- What the body leaves in the output block's buffer: its stores read back. -/
def out0_1 (c : Dev nD) (i : grid0.Coords) (arg1 : Memref sig .tc .vmem S4x80000 .f32) (harg1 : arg1.IsWhole)
    (arg2 : Memref sig .tc .vmem S4x80000 .i32) (harg2 : arg2.IsWhole) (x0 : Vec F S4x80000 .f32) : Vec F S4x80000 .i32 :=
  VO0_1.read (Elt F) (VO0_1.writes (Elt F) VO0_1.junk (kernelRun0 c i arg1 harg1 arg2 harg2 x0).1)

/-- The output block's buffer after the body at tile `t`. -/
def outsAt0 (c : Dev nD) (t : Fin cfg0.N) : Vec F S4x80000 .i32 :=
  out0_1 c (grid0.coords t) (ms0_0 t) (hs0_0 t) (ms0_1 t) (hs0_1 t) (iblk m c 0 t)

/-! ## The launch's proof data -/

/-- The arrays as the launch finds them; after the body at tile `t` the input's buffer at its block and the output's at
    what the body's stores leave; nothing else held, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (outsAt0 m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = (outsAt0 m c t) := by dsimp only [dats]

theorem before0_0 (c : Dev nD) (t : Fin cfg0.N) (d) : (dats m 0 c).before 0 t d = iblk m c 0 t :=
  before0_0_of m (dats m 0 c) (A_eq m c 0) (after0_0 m c) t d

/-! ## The body obligation -/

/-- What the body is called with at tile `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t))

/-- The body at any tile: the input's buffer holds its block, so the run applies; the rest passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  unfold outsAt0
  unfold out0_1
  iintro ⟨HΦ, Ho, ⟨%d0, H0⟩, ⟨%d1, H1⟩⟩
  iapply ((kernelRun0 c (grid0.coords t) _ _ _ _ (iblk m c 0 t)).2 Set.univ _)
  isplitl [H0]; · iexact H0
  isplitl [H1]; · iexists _; iexact H1
  iintro ⟨H0, ⟨%e1, H1⟩⟩
  isplitl [HΦ]; · iexact HΦ
  isplitl [Ho]; · iexact Ho
  isplitl [H0]; · iexact H0
  unfold owns; iexists _; isplitr
  swap; · iexact H1
  ipureintro; exact View.read_writes_of_cover _ _ _ _ _ (cover0_1 c _ _ _ _ _ _)

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates without a fault; the launch's arrays end at what the library
    computes from the proof data, and every other buffer as the later lines leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The program runs to the end, faults nowhere, and leaves its argument unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.KernelIdeal.Hand

end
-- ==== Proof.VoxSpec.lean ====
/-
  The per-point arithmetic of the voxelization, as scalar functions: a point's voxel coordinate along one axis is
  floor((p - lo) / size) converted to a 32-bit integer; the point lies in the grid when 0 ≤ cx < 1408, 0 ≤ cy < 1600 and
  0 ≤ cz < 40; its linear voxel id is (cz * 1600 + cy) * 1408 + cx in 32-bit arithmetic when it lies in the grid, and the
  sentinel 1408 * 1600 * 40 = 90112000 otherwise. The lower corner of the range is (0, -40, -3) and the voxel sizes are the
  single-precision values nearest 0.05, 0.05 and 0.1, each given by its bit pattern.
-/
import Idealize.ShloMosaic.PureOps
import Idealize.ShloMosaic.PureOps.Ideal
import Idealize.ShloMosaic.Lib.ValueIdx

noncomputable section

namespace Cert.Vox

open Idealize.ShloMosaic

variable {F : FTy → Type} [FloatOps F]

/-- floor((v - lo) / size) as a 32-bit integer, with the vector unit's operations. -/
def cell (lo size : BitVec 32) (v : F .f32) : BitVec 32 :=
  FloatOps.fptosi 32 (FloatOps.floor (FloatOps.divf (FloatOps.subf v (FloatOps.ofBits .f32 lo)) (FloatOps.ofBits .f32 size)))

/-- The same with the host's quotient and floor. -/
def cellHost (lo size : BitVec 32) (v : F .f32) : BitVec 32 :=
  FloatOps.fptosi 32 (FloatOps.hostUnary .floor (FloatOps.hostDivf (FloatOps.subf v (FloatOps.ofBits .f32 lo)) (FloatOps.ofBits .f32 size)))

/-- On the extended reals the host's quotient and floor are the vector unit's. -/
theorem cellHost_eq (lo size : BitVec 32) (v : Ideal .f32) : cellHost (F := Ideal) lo size v = cell (F := Ideal) lo size v := rfl

def cx (v : F .f32) : BitVec 32 := cell 0x00000000#32 0x3D4CCCCD#32 v
def cy (v : F .f32) : BitVec 32 := cell 0xC2200000#32 0x3D4CCCCD#32 v
def cz (v : F .f32) : BitVec 32 := cell 0xC0400000#32 0x3DCCCCCD#32 v

/-- The point's voxel lies in the grid: the six comparisons joined in the order the kernel joins them. -/
def inGrid (a b c : BitVec 32) : BitVec 1 :=
  IntOp.andi (IntOp.andi (IntOp.andi (IntOp.andi (IntOp.andi (IntOp.cmpi .sge a 0#32) (IntOp.cmpi .slt a 1408#32))
    (IntOp.cmpi .sge b 0#32)) (IntOp.cmpi .slt b 1600#32)) (IntOp.cmpi .sge c 0#32)) (IntOp.cmpi .slt c 40#32)

/-- The linear voxel id, or the sentinel outside the grid. -/
def linId (a b c : BitVec 32) : BitVec 32 :=
  Scalar.select (inGrid a b c) (IntOp.addi (IntOp.muli (IntOp.addi (IntOp.muli c 1600#32) b) 1408#32) a) 90112000#32

/-- Row `r` of the kernel's result at a point with coordinates `x y z`: rows 0, 1, 2 are the voxel coordinates, row 3 the
    linear id. -/
def voxRow (r : Nat) (x y z : F .f32) : BitVec 32 :=
  if r = 0 then cx x else if r = 1 then cy y else if r = 2 then cz z else linId (cx x) (cy y) (cz z)

/-- The voxel coordinates of every point: at (p, k), coordinate `k` of point `p`. -/
def coords (A : (⟨2, ![2000000, 4]⟩ : Shape).Idx → F .f32) : (⟨2, ![2000000, 3]⟩ : Shape).Idx → BitVec 32 := fun j =>
  voxRow (j 1).val (A (ValueIdx.ix2 (n0 := 2000000) (n1 := 4) (j 0) 0)) (A (ValueIdx.ix2 (n0 := 2000000) (n1 := 4) (j 0) 1))
    (A (ValueIdx.ix2 (n0 := 2000000) (n1 := 4) (j 0) 2))

/-- The linear voxel id of every point. -/
def linIds (A : (⟨2, ![2000000, 4]⟩ : Shape).Idx → F .f32) : (⟨1, ![2000000]⟩ : Shape).Idx → BitVec 32 := fun j =>
  voxRow 3 (A (ValueIdx.ix2 (n0 := 2000000) (n1 := 4) (j 0) 0)) (A (ValueIdx.ix2 (n0 := 2000000) (n1 := 4) (j 0) 1))
    (A (ValueIdx.ix2 (n0 := 2000000) (n1 := 4) (j 0) 2))

end Cert.Vox

end
-- ==== Proof.KValue.lean ====
/-
  What the kernel's program computes before its bookkeeping: the launch's result, as one function of the argument's points,
  and from it the two arrays the later host operations read. The body's four row stores hold, at column j of the tile, the
  voxel coordinates and the linear voxel id of the tile's point j; tile t's block is columns [80000 t, 80000 (t + 1)) of the
  4 x 2000000 result, and the 25 tiles cover it; so the result at (r, p) is row r of point p, the points read through the
  transposition the host line before the launch makes. The coordinates the later lines read are rows 0..2 transposed back,
  the linear ids row 3.
-/
import proofs.«170420_j23845658427974_2_alg».proof.Proof.KFrameIdeal
import proofs.«170420_j23845658427974_2_alg».proof.Proof.VoxSpec
import Idealize.ShloMosaic.Lib.Pipeline.Value
import Idealize.ShloMosaic.Lib.ValueIdx
import Idealize.ShloMosaic.Lib.ValueLayout
import Idealize.ShloMosaic.Lib.StableHlo.Run
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx Cert.Vox

/-- The body's result block as one function of the input block. -/
def Gblk (x0 : Vec F S4x80000 .f32) : Vec F S4x80000 .i32 := fun y =>
  voxRow (y 0).val (x0 (ix2 (n0 := 4) (n1 := 80000) 0 (y 1))) (x0 (ix2 (n0 := 4) (n1 := 80000) 1 (y 1))) (x0 (ix2 (n0 := 4) (n1 := 80000) 2 (y 1)))

theorem ld_row (x0 : Vec F S4x80000 .f32) (k : Nat) (hk : k < 4) (inb) (u : Fin 1) (j : Fin 80000) :
    View.ld x0 (Rect.unit (s := S4x80000) ![k, 0] S1x80000.size inb) (ix2 u j) = x0 (ix2 (n0 := 4) ⟨k, hk⟩ j) := by
  show x0 _ = x0 _
  congr 1
  funext a
  apply Fin.ext
  match a with
  | ⟨0, _⟩ => show k + 1 * u.val = k; omega
  | ⟨1, _⟩ => show 0 + 1 * j.val = j.val; omega

theorem emb_row (k : Nat) (hk : k < 4) (inb) (u : Fin 1) (j : Fin 80000) :
    (Rect.unit (s := S4x80000) ![k, 0] ![1, 80000] inb).emb (ix2 u j) = ix2 (n0 := 4) (n1 := 80000) ⟨k, hk⟩ j := by
  funext a
  apply Fin.ext
  match a with
  | ⟨0, _⟩ => show k + 1 * u.val = k; omega
  | ⟨1, _⟩ => show 0 + 1 * j.val = j.val; omega

theorem pay5_at (v0 : Vec F S1x80000 .f32) (j : Fin 80000) :
    k0_pay5 v0 (ix1 j) = cx (v0 (ix2 (0 : Fin 1) j)) := by
  unfold k0_pay5 cx cell
  show FloatOps.fptosi 32 (FloatOps.floor (FloatOps.divf (FloatOps.subf (shapeCast S80000 v0 shapeCasts_S1x80000_S80000 (ix1 j)) _) _)) = _
  rw [shapeCast_1a_a_apply]
  rfl

theorem pay6_at (v0 : Vec F S1x80000 .f32) (j : Fin 80000) :
    k0_pay6 v0 (ix1 j) = cy (v0 (ix2 (0 : Fin 1) j)) := by
  unfold k0_pay6 cy cell
  show FloatOps.fptosi 32 (FloatOps.floor (FloatOps.divf (FloatOps.subf (shapeCast S80000 v0 shapeCasts_S1x80000_S80000 (ix1 j)) _) _)) = _
  rw [shapeCast_1a_a_apply]
  rfl

theorem pay7_at (v0 : Vec F S1x80000 .f32) (j : Fin 80000) :
    k0_pay7 v0 (ix1 j) = cz (v0 (ix2 (0 : Fin 1) j)) := by
  unfold k0_pay7 cz cell
  show FloatOps.fptosi 32 (FloatOps.floor (FloatOps.divf (FloatOps.subf (shapeCast S80000 v0 shapeCasts_S1x80000_S80000 (ix1 j)) _) _)) = _
  rw [shapeCast_1a_a_apply]
  rfl

theorem pay8_at (v0 v2 v4 : Vec F S1x80000 .f32) (j : Fin 80000) :
    k0_pay8 v0 v2 v4 (ix1 j) = inGrid (cx (v0 (ix2 (0 : Fin 1) j))) (cy (v2 (ix2 (0 : Fin 1) j))) (cz (v4 (ix2 (0 : Fin 1) j))) := by
  unfold k0_pay8 inGrid
  show IntOp.andi (IntOp.andi (IntOp.andi (IntOp.andi (IntOp.andi (IntOp.cmpi .sge (k0_pay5 v0 (ix1 j)) _) (IntOp.cmpi .slt (k0_pay5 v0 (ix1 j)) _))
      (IntOp.cmpi .sge (k0_pay6 v2 (ix1 j)) _)) (IntOp.cmpi .slt (k0_pay6 v2 (ix1 j)) _)) (IntOp.cmpi .sge (k0_pay7 v4 (ix1 j)) _)) (IntOp.cmpi .slt (k0_pay7 v4 (ix1 j)) _) = _
  rw [pay5_at, pay6_at, pay7_at]
  rfl

theorem pay1_at (v : IVec S80000 32) (u : Fin 1) (j : Fin 80000) : k0_pay1 v (ix2 u j) = v (ix1 j) := by
  unfold k0_pay1; exact shapeCast_a_1a_apply _ _ u j
theorem pay2_at (v : IVec S80000 32) (u : Fin 1) (j : Fin 80000) : k0_pay2 v (ix2 u j) = v (ix1 j) := by
  unfold k0_pay2; exact shapeCast_a_1a_apply _ _ u j
theorem pay3_at (v : IVec S80000 32) (u : Fin 1) (j : Fin 80000) : k0_pay3 v (ix2 u j) = v (ix1 j) := by
  unfold k0_pay3; exact shapeCast_a_1a_apply _ _ u j

theorem pay4_at (v11 v17 v23 : IVec S80000 32) (v40 : IVec S80000 1) (u : Fin 1) (j : Fin 80000) :
    k0_pay4 v11 v17 v23 v40 (ix2 u j)
      = Scalar.select (v40 (ix1 j)) (IntOp.addi (IntOp.muli (IntOp.addi (IntOp.muli (v23 (ix1 j)) 1600#32) (v17 (ix1 j))) 1408#32) (v11 (ix1 j))) 90112000#32 := by
  unfold k0_pay4
  exact shapeCast_a_1a_apply _ _ u j

/-- What the body leaves in the output block's buffer is that function of the input block: each of the four row stores
    holds its row of it, and the four rows cover the block. -/
theorem out0_1_eq (c : Dev nD) (i : grid0.Coords) (arg1 : Memref sig .tc .vmem S4x80000 .f32) (harg1 : arg1.IsWhole)
    (arg2 : Memref sig .tc .vmem S4x80000 .i32) (harg2 : arg2.IsWhole) (x0 : Vec F S4x80000 .f32) :
    out0_1 c i arg1 harg1 arg2 harg2 x0 = Gblk x0 := by
  unfold out0_1
  rw [View.read_writes_eq_canon _ _ _ (cover0_1 c i arg1 harg1 arg2 harg2 x0)]
  unfold kernelRun0
  dsimp only
  sl_unfold_words
  simp only [View.readAt_eq_ld, harg1.read_unread]
  funext y
  refine View.canon_apply_of_pieces (Gblk x0) _ ?_ y ?_
  · intro p hp x
    simp only [List.mem_cons, List.mem_nil_iff, or_false] at hp
    rcases hp with rfl | rfl | rfl | rfl
    · obtain ⟨u, j, rfl⟩ : ∃ (u : Fin 1) (j : Fin 80000), x = ix2 u j := ⟨x 0, x 1, eq_ix2 x⟩
      dsimp only
      rw [emb_row 3 (by omega), pay4_at, pay8_at, pay5_at, pay6_at, pay7_at, ld_row x0 0 (by omega), ld_row x0 1 (by omega), ld_row x0 2 (by omega)]
      rfl
    · obtain ⟨u, j, rfl⟩ : ∃ (u : Fin 1) (j : Fin 80000), x = ix2 u j := ⟨x 0, x 1, eq_ix2 x⟩
      dsimp only
      rw [emb_row 2 (by omega), pay3_at, pay7_at, ld_row x0 2 (by omega)]
      rfl
    · obtain ⟨u, j, rfl⟩ : ∃ (u : Fin 1) (j : Fin 80000), x = ix2 u j := ⟨x 0, x 1, eq_ix2 x⟩
      dsimp only
      rw [emb_row 1 (by omega), pay2_at, pay6_at, ld_row x0 1 (by omega)]
      rfl
    · obtain ⟨u, j, rfl⟩ : ∃ (u : Fin 1) (j : Fin 80000), x = ix2 u j := ⟨x 0, x 1, eq_ix2 x⟩
      dsimp only
      rw [emb_row 0 (by omega), pay1_at, pay5_at, ld_row x0 0 (by omega)]
      rfl
  · exact View.cover_of_tiledL (s := S4x80000) _ S1x80000.size (by sl_kernel_rfl) y

/-! ## The launch's result as one function of the transposed points -/

/-- The launch's result array as one function of the transposed points: at (r, p), row `r` of point `p`. -/
def Garr (A : S4x2000000.Idx → Elt F .f32) : S4x2000000.Idx → Elt F .i32 := fun i =>
  voxRow (i 0).val (A (ix2 (n0 := 4) (n1 := 2000000) 0 (i 1))) (A (ix2 (n0 := 4) (n1 := 2000000) 1 (i 1))) (A (ix2 (n0 := 4) (n1 := 2000000) 2 (i 1)))

/-- Both windows' blocks at tile `t` are all four rows and columns [80000 t, 80000 (t + 1)). -/
theorem idx_facts : ∀ t : Fin cfg0.N, win0_0.index t (0 : Fin 2) = 0 ∧ win0_0.index t (1 : Fin 2) = t.val
    ∧ win0_1.index t (0 : Fin 2) = 0 ∧ win0_1.index t (1 : Fin 2) = t.val :=
  (by decide +kernel : ∀ t : Fin grid0.N, _)

variable (m : (ℓ : Loc nD τ sig) → Buf (Elt F) ℓ)

/-- What tile `t` writes back is block `t` of that function of the transposed points. -/
theorem flushed1_eq (c : Dev nD) (t : Fin cfg0.N) :
    (dats m 0 c).flushed 1 t = ((cfg0.win 1).blk t).view.read (Elt F) (Garr (V m c main_v0)) := by
  show (cfg0.win 1).cut (grid0.coords t) ((dats m 0 c).after 1 t) = _
  rw [after0_1]
  unfold outsAt0
  rw [out0_1_eq]
  obtain ⟨e0, e1, e2, e3⟩ := idx_facts t
  funext y
  have hrow : ((((cfg0.win 1).blk t).view.emb y) 0).val = (y 0).val := by
    show win0_1.index t (0 : Fin 2) * 4 + 1 * (y 0).val = (y 0).val; omega
  have hcol : ∀ k : Fin 4, ((cfg0.win 0).blk t).view.emb (ix2 (n0 := 4) (n1 := 80000) k (y 1))
      = ix2 (n0 := 4) (n1 := 2000000) k ((((cfg0.win 1).blk t).view.emb y) 1) := by
    intro k; funext a; apply Fin.ext
    match a with
    | ⟨0, _⟩ => show win0_0.index t (0 : Fin 2) * 4 + 1 * k.val = k.val; omega
    | ⟨1, _⟩ => show win0_0.index t (1 : Fin 2) * 80000 + 1 * (y 1).val = win0_1.index t (1 : Fin 2) * 80000 + 1 * (y 1).val; omega
  show voxRow (y 0).val (V m c main_v0 (((cfg0.win 0).blk t).view.emb (ix2 (n0 := 4) (n1 := 80000) 0 (y 1))))
      (V m c main_v0 (((cfg0.win 0).blk t).view.emb (ix2 (n0 := 4) (n1 := 80000) 1 (y 1))))
      (V m c main_v0 (((cfg0.win 0).blk t).view.emb (ix2 (n0 := 4) (n1 := 80000) 2 (y 1))))
    = voxRow ((((cfg0.win 1).blk t).view.emb y) 0).val
      (V m c main_v0 (ix2 (n0 := 4) (n1 := 2000000) 0 ((((cfg0.win 1).blk t).view.emb y) 1)))
      (V m c main_v0 (ix2 (n0 := 4) (n1 := 2000000) 1 ((((cfg0.win 1).blk t).view.emb y) 1)))
      (V m c main_v0 (ix2 (n0 := 4) (n1 := 2000000) 2 ((((cfg0.win 1).blk t).view.emb y) 1)))
  rw [hrow, hcol 0, hcol 1, hcol 2]

/-- An index of the result is in tile `t`'s block iff its column is in [80000 t, 80000 (t + 1)). -/
theorem mem_blk1 (t : Fin cfg0.N) (i : S4x2000000.Idx) :
    i ∈ ((cfg0.win 1).blk t).view.set ↔ ∀ a : Fin 2, win0_1.index t a * S4x80000.size a ≤ (i a).val ∧ (i a).val < win0_1.index t a * S4x80000.size a + S4x80000.size a := by
  show i ∈ ((View.whole main_v1).slice (win0_1.rect t)).set ↔ _
  rw [View.set_slice_whole, Rect.mem_set_unit]
  exact Iff.rfl

/-- Every index of the result is in the block of the tile its column falls in. -/
theorem cover1 (i : S4x2000000.Idx) : ∃ t : Fin cfg0.N, (cfg0.win 1).flush t = true ∧ i ∈ ((cfg0.win 1).blk t).view.set := by
  have hi0 : (i 0).val < 4 := (i 0).isLt
  have hi1 : (i 1).val < 2000000 := (i 1).isLt
  have hN : cfg0.N = 25 := N_0
  have hq : (i 1).val / 80000 < cfg0.N := by omega
  refine ⟨⟨(i 1).val / 80000, hq⟩, flush0_1 _, ?_⟩
  rw [mem_blk1]
  obtain ⟨e0, e1, e2, e3⟩ := idx_facts ⟨(i 1).val / 80000, hq⟩
  intro a
  match a with
  | ⟨0, _⟩ =>
    show win0_1.index ⟨(i 1).val / 80000, hq⟩ (0 : Fin 2) * 4 ≤ (i 0).val ∧ (i 0).val < win0_1.index ⟨(i 1).val / 80000, hq⟩ (0 : Fin 2) * 4 + 4
    omega
  | ⟨1, _⟩ =>
    show win0_1.index ⟨(i 1).val / 80000, hq⟩ (1 : Fin 2) * 80000 ≤ (i 1).val ∧ (i 1).val < win0_1.index ⟨(i 1).val / 80000, hq⟩ (1 : Fin 2) * 80000 + 80000
    have e3' : win0_1.index ⟨(i 1).val / 80000, hq⟩ (1 : Fin 2) = (i 1).val / 80000 := e3
    omega

/-- The launch's result after the run: that function of the transposed points. -/
theorem final1 (c : Dev nD) : (dats m 0 c).arrAt 1 cfg0.N = Garr (V m c main_v0) :=
  (dats m 0 c).arrAt_eq_of_cover 1 _ (fun t _ => flushed1_eq m c t) cover1

/-- The transposed points as the launch finds them: the argument transposed. -/
theorem V_main_v0 (c : Dev nD) :
    (V m c main_v0 : S4x2000000.Idx → Elt F .f32)
      = transpose S4x2000000 [1, 0] (m ((c : Thread nD τ).loc main_arg0)) transposes_S2000000x4_S4x2000000_1_0 := by
  show StableHlo.after hostOps0 (fun b => m (c, b)) (Proc.devRef .tc main_v0) = _
  after_results

/-! ## The coordinates and linear ids the later operations read -/

/-- The four operations that cut the launch's result: the coordinates are its first three rows transposed, the linear ids
    its last row, and the argument is not written. -/
theorem after_hostOps1_v3 (W : Valuation τ sig (Elt F)) :
    StableHlo.after hostOps1 W (Proc.devRef .tc main_v3)
      = transpose S2000000x3 [1, 0] (extractStridedSlice S3x2000000 ![0, 0] (W (Proc.devRef .tc main_v1)) slices_S4x2000000_S3x2000000_0_0)
          transposes_S3x2000000_S2000000x3_1_0 := by
  after_results
  all_goals rfl

theorem after_hostOps1_v5 (W : Valuation τ sig (Elt F)) :
    StableHlo.after hostOps1 W (Proc.devRef .tc main_v5)
      = shapeCast S2000000 (extractStridedSlice S1x2000000 ![3, 0] (W (Proc.devRef .tc main_v1)) slices_S4x2000000_S1x2000000_3_0)
          shapeCasts_S1x2000000_S2000000 := by
  after_results
  all_goals rfl

theorem after_hostOps1_arg0 (W : Valuation τ sig (Elt F)) :
    StableHlo.after hostOps1 W (Proc.devRef .tc main_arg0) = W (Proc.devRef .tc main_arg0) := by
  after_results
  all_goals rfl

theorem rows_at (X : S4x2000000.Idx → BitVec 32) (p : Fin 2000000) (k : Fin 3) :
    transpose S2000000x3 [1, 0] (extractStridedSlice S3x2000000 ![0, 0] X slices_S4x2000000_S3x2000000_0_0)
        transposes_S3x2000000_S2000000x3_1_0 (ix2 p k) = X (ix2 (n0 := 4) ⟨k.val, by omega⟩ p) := by
  rw [transpose_ix2_apply]
  exact slice2_axis0_apply 0 X _ k p ⟨k.val, by omega⟩ (by simp)

theorem lastRow_at (X : S4x2000000.Idx → BitVec 32) (p : Fin 2000000) :
    shapeCast S2000000 (extractStridedSlice S1x2000000 ![3, 0] X slices_S4x2000000_S1x2000000_3_0)
        shapeCasts_S1x2000000_S2000000 (ix1 p) = X (ix2 (n0 := 4) ⟨3, by omega⟩ p) := by
  rw [shapeCast_1a_a_apply]
  exact slice2_axis0_apply 3 X _ (0 : Fin 1) p ⟨3, by omega⟩ (by simp)

/-- The buffers' contents when the later operations begin: the launch's arrays as the run leaves them, the rest as the
    launch found it. -/
abbrev Wk (c : Dev nD) : Valuation τ sig (Elt F) :=
  Pipeline.withArrays spec0 c (V0 m c) fun w => (dats m 0 c).arrAt w cfg0.N

theorem Wk_v1 (c : Dev nD) : (Wk m c (Proc.devRef .tc main_v1) : S4x2000000.Idx → Elt F .i32)
    = Garr (transpose S4x2000000 [1, 0] (m ((c : Thread nD τ).loc main_arg0)) transposes_S2000000x4_S4x2000000_1_0) := by
  rw [← V_main_v0, ← final1]
  exact Pipeline.withArrays_arr spec0 launch0.win.arr_inj c _ _ 1

theorem Wk_arg0 (c : Dev nD) : Wk m c (Proc.devRef .tc main_arg0) = m ((c : Thread nD τ).loc main_arg0) := by
  rw [show Wk m c (Proc.devRef .tc main_arg0) = V0 m c (Proc.devRef .tc main_arg0) from
    Pipeline.withArrays_of_ne _ c (V0 m c) _ main_arg0 (by exact (by decide : ∀ w, Pipeline.arrRef spec0 w ≠ main_arg0))]
  exact V_main_arg0 m c

/-- The coordinates the later operations read are the voxel coordinates of the argument's points. -/
theorem kernel_coords (c : Dev nD) :
    (StableHlo.after hostOps1 (Wk m c) (Proc.devRef .tc main_v3) : S2000000x3.Idx → BitVec 32)
      = Cert.Vox.coords (m ((c : Thread nD τ).loc main_arg0)) := by
  rw [after_hostOps1_v3, Wk_v1]
  funext j
  obtain ⟨p, k, rfl⟩ : ∃ (p : Fin 2000000) (k : Fin 3), j = ix2 p k := ⟨j 0, j 1, eq_ix2 j⟩
  rw [rows_at]
  unfold Garr Cert.Vox.coords
  dsimp only
  rw [transpose_ix2_apply, transpose_ix2_apply, transpose_ix2_apply]

/-- The linear ids the later operations read are the linear voxel ids of the argument's points. -/
theorem kernel_linIds (c : Dev nD) :
    (StableHlo.after hostOps1 (Wk m c) (Proc.devRef .tc main_v5) : S2000000.Idx → BitVec 32)
      = Cert.Vox.linIds (m ((c : Thread nD τ).loc main_arg0)) := by
  rw [after_hostOps1_v5, Wk_v1]
  funext j
  obtain ⟨p, rfl⟩ : ∃ (p : Fin 2000000), j = ix1 p := ⟨j 0, eq_ix1 j⟩
  rw [lastRow_at]
  unfold Garr Cert.Vox.linIds
  dsimp only
  rw [transpose_ix2_apply, transpose_ix2_apply, transpose_ix2_apply]

theorem kernel_arg0 (c : Dev nD) :
    StableHlo.after hostOps1 (Wk m c) (Proc.devRef .tc main_arg0) = m ((c : Thread nD τ).loc main_arg0) := by
  rw [after_hostOps1_arg0, Wk_arg0]

end Cert.KernelIdeal.Hand
end
-- ==== Proof.RefOps.lean ====
/-
  The reference program's @main as lists of its host operations, in program order. The program is a straight line
  of whole-array operations and calls of outlined functions; a call runs the callee's body on the call's operands,
  each value of the body in a buffer of the call's record, so at the call site the callee's operations are listed
  with the parameters replaced by the operands. The line is cut at the calls: `opsPre` runs through the first call
  (it ends having written the voxel coordinates and the linear voxel ids), then stretches of @main's own operations
  and single calls alternate (`opsT1` … `opsT13`); `ops` is their concatenation, 265 operations.
-/
import proofs.«170420_j23845658427974_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.StableHlo

variable {F : FTy → Type} [FloatOps F]

/-- 39 operations. -/
abbrev opsPre : List (HloOp τ sig (Elt F)) :=
  ( StableHlo.nullary main_cst (fun i => FloatOps.ofBits .f32 (lit0 (S3.rowMajor i)))
  :: StableHlo.nullary main_cst_0 (fun i => FloatOps.ofBits .f32 (lit1 (S3.rowMajor i)))
  :: StableHlo.nullary main_c (fun i => lit2 (S3.rowMajor i))
  :: StableHlo.unary main_arg0 main_v0 ((extractStridedSlice S2000000x3 ![0, 0] · slices_S2000000x4_S2000000x3_0_0) : (⟨S2000000x4, .f32⟩ : BufTy).Contents (Elt F) → (⟨S2000000x3, .f32⟩ : BufTy).Contents (Elt F))
  :: StableHlo.unary main_cst main_v1 (broadcastInDim S1x3 ![1] bcast_S3_S1x3_1 : (⟨S3, .f32⟩ : BufTy).Contents (Elt F) → (⟨S1x3, .f32⟩ : BufTy).Contents (Elt F))
  :: StableHlo.unary main_v1 main_v2 (broadcastInDim S2000000x3 ![0, 1] bcast_S1x3_S2000000x3_0_1 : (⟨S1x3, .f32⟩ : BufTy).Contents (Elt F) → (⟨S2000000x3, .f32⟩ : BufTy).Contents (Elt F))
  :: StableHlo.binary main_v0 main_v2 main_v3 (subf : (⟨S2000000x3, .f32⟩ : BufTy).Contents (Elt F) → (⟨S2000000x3, .f32⟩ : BufTy).Contents (Elt F) → (⟨S2000000x3, .f32⟩ : BufTy).Contents (Elt F))
  :: StableHlo.unary main_cst_0 main_v4 (broadcastInDim S1x3 ![1] bcast_S3_S1x3_1 : (⟨S3, .f32⟩ : BufTy).Contents (Elt F) → (⟨S1x3, .f32⟩ : BufTy).Contents (Elt F))
  :: StableHlo.unary main_v4 main_v5 (broadcastInDim S2000000x3 ![0, 1] bcast_S1x3_S2000000x3_0_1 : (⟨S1x3, .f32⟩ : BufTy).Contents (Elt F) → (⟨S2000000x3, .f32⟩ : BufTy).Contents (Elt F))
  :: StableHlo.binary main_v3 main_v5 main_v6 (Host.divf : (⟨S2000000x3, .f32⟩ : BufTy).Contents (Elt F) → (⟨S2000000x3, .f32⟩ : BufTy).Contents (Elt F) → (⟨S2000000x3, .f32⟩ : BufTy).Contents (Elt F))
  :: StableHlo.unary main_v6 main_v7 (Host.floor : (⟨S2000000x3, .f32⟩ : BufTy).Contents (Elt F) → (⟨S2000000x3, .f32⟩ : BufTy).Contents (Elt F))
  :: StableHlo.unary main_v7 main_v8 (fptosi 32 : (⟨S2000000x3, .f32⟩ : BufTy).Contents (Elt F) → (⟨S2000000x3, .i32⟩ : BufTy).Contents (Elt F))
  :: StableHlo.nullary main_c_1 (constantI S_ 32 0#32)
  :: StableHlo.unary main_c_1 main_v9 (broadcastInDim S2000000x3 ![] bcast_S_S2000000x3 : (⟨S_, .i32⟩ : BufTy).Contents (Elt F) → (⟨S2000000x3, .i32⟩ : BufTy).Contents (Elt F))
  :: StableHlo.binary main_v8 main_v9 main_v10 (cmpi .sge : (⟨S2000000x3, .i32⟩ : BufTy).Contents (Elt F) → (⟨S2000000x3, .i32⟩ : BufTy).Contents (Elt F) → (⟨S2000000x3, .i1⟩ : BufTy).Contents (Elt F))
  :: StableHlo.unary main_c main_v11 (broadcastInDim S1x3 ![1] bcast_S3_S1x3_1 : (⟨S3, .i32⟩ : BufTy).Contents (Elt F) → (⟨S1x3, .i32⟩ : BufTy).Contents (Elt F))
  :: StableHlo.unary main_v11 main_v12 (broadcastInDim S2000000x3 ![0, 1] bcast_S1x3_S2000000x3_0_1 : (⟨S1x3, .i32⟩ : BufTy).Contents (Elt F) → (⟨S2000000x3, .i32⟩ : BufTy).Contents (Elt F))
  :: StableHlo.binary main_v8 main_v12 main_v13 (cmpi .slt : (⟨S2000000x3, .i32⟩ : BufTy).Contents (Elt F) → (⟨S2000000x3, .i32⟩ : BufTy).Contents (Elt F) → (⟨S2000000x3, .i1⟩ : BufTy).Contents (Elt F))
  :: StableHlo.binary main_v10 main_v13 main_v14 (andi : (⟨S2000000x3, .i1⟩ : BufTy).Contents (Elt F) → (⟨S2000000x3, .i1⟩ : BufTy).Contents (Elt F) → (⟨S2000000x3, .i1⟩ : BufTy).Contents (Elt F))
  :: StableHlo.nullary main_c_2 (constantI S_ 1 1#1)
  :: StableHlo.binary main_v14 main_c_2 main_v15 ((fun x v => Host.reduce IntOp.andi x v reducesTo_S2000000x3_S2000000_d1 h_S_) : (⟨S2000000x3, .i1⟩ : BufTy).Contents (Elt F) → (⟨S_, .i1⟩ : BufTy).Contents (Elt F) → (⟨S2000000, .i1⟩ : BufTy).Contents (Elt F))
  :: StableHlo.unary main_v8 main_v16 ((extractStridedSlice S2000000x1 ![0, 2] · slices_S2000000x3_S2000000x1_0_2) : (⟨S2000000x3, .i32⟩ : BufTy).Contents (Elt F) → (⟨S2000000x1, .i32⟩ : BufTy).Contents (Elt F))
  :: StableHlo.reshape main_v16 main_v17 rfl shapeCasts_S2000000x1_S2000000
  :: StableHlo.nullary main_c_3 (constantI S_ 32 1600#32)
  :: StableHlo.unary main_c_3 main_v18 (broadcastInDim S2000000 ![] bcast_S_S2000000 : (⟨S_, .i32⟩ : BufTy).Contents (Elt F) → (⟨S2000000, .i32⟩ : BufTy).Contents (Elt F))
  :: StableHlo.binary main_v17 main_v18 main_v19 (muli : (⟨S2000000, .i32⟩ : BufTy).Contents (Elt F) → (⟨S2000000, .i32⟩ : BufTy).Contents (Elt F) → (⟨S2000000, .i32⟩ : BufTy).Contents (Elt F))
  :: StableHlo.unary main_v8 main_v20 ((extractStridedSlice S2000000x1 ![0, 1] · slices_S2000000x3_S2000000x1_0_1) : (⟨S2000000x3, .i32⟩ : BufTy).Contents (Elt F) → (⟨S2000000x1, .i32⟩ : BufTy).Contents (Elt F))
  :: StableHlo.reshape main_v20 main_v21 rfl shapeCasts_S2000000x1_S2000000
  :: StableHlo.binary main_v19 main_v21 main_v22 (addi : (⟨S2000000, .i32⟩ : BufTy).Contents (Elt F) → (⟨S2000000, .i32⟩ : BufTy).Contents (Elt F) → (⟨S2000000, .i32⟩ : BufTy).Contents (Elt F))
  :: StableHlo.nullary main_c_4 (constantI S_ 32 1408#32)
  :: StableHlo.unary main_c_4 main_v23 (broadcastInDim S2000000 ![] bcast_S_S2000000 : (⟨S_, .i32⟩ : BufTy).Contents (Elt F) → (⟨S2000000, .i32⟩ : BufTy).Contents (Elt F))
  :: StableHlo.binary main_v22 main_v23 main_v24 (muli : (⟨S2000000, .i32⟩ : BufTy).Contents (Elt F) → (⟨S2000000, .i32⟩ : BufTy).Contents (Elt F) → (⟨S2000000, .i32⟩ : BufTy).Contents (Elt F))
  :: StableHlo.unary main_v8 main_v25 ((extractStridedSlice S2000000x1 ![0, 0] · slices_S2000000x3_S2000000x1_0_0) : (⟨S2000000x3, .i32⟩ : BufTy).Contents (Elt F) → (⟨S2000000x1, .i32⟩ : BufTy).Contents (Elt F))
  :: StableHlo.reshape main_v25 main_v26 rfl shapeCasts_S2000000x1_S2000000
  :: StableHlo.binary main_v24 main_v26 main_v27 (addi : (⟨S2000000, .i32⟩ : BufTy).Contents (Elt F) → (⟨S2000000, .i32⟩ : BufTy).Contents (Elt F) → (⟨S2000000, .i32⟩ : BufTy).Contents (Elt F))
  :: StableHlo.nullary main_c_5 (constantI S_ 32 90112000#32)
  :: StableHlo.TRef.unary (.of main_c_5 : StableHlo.TRef sig ⟨S_, .i32⟩) main_call0.v0 id
  :: StableHlo.TRef.unary main_call0.v0 main_call0.v1 (broadcastInDim S2000000 ![] bcast_S_S2000000)
  :: StableHlo.TRef.ternary (.of main_v15 : StableHlo.TRef sig ⟨S2000000, .i1⟩) (.of main_v27 : StableHlo.TRef sig ⟨S2000000, .i32⟩) main_call0.v1 main_call0.v2 select
  :: [] )

/-- 3 operations. -/
abbrev opsT1 : List (HloOp τ sig (Elt F)) :=
  ( StableHlo.TRef.nullary main_call1.v0 (iotaInDim S2000000 32 0)
  :: StableHlo.TRef.binary (.of main_v28 : StableHlo.TRef sig ⟨S2000000, .i32⟩) main_call1.v0 main_call1.v1_0 (fun x y => (Host.sort2 S2000000 0 comparator_i32_i32_d0 x y).1)
  :: StableHlo.TRef.binary (.of main_v28 : StableHlo.TRef sig ⟨S2000000, .i32⟩) main_call1.v0 main_call1.v1_1 (fun x y => (Host.sort2 S2000000 0 comparator_i32_i32_d0 x y).2)
  :: [] )

/-- 33 operations. -/
abbrev opsT2 : List (HloOp τ sig (Elt F)) :=
  ( StableHlo.nullary main_c_6 (constantI S_ 32 0#32)
  :: StableHlo.unary main_c_6 main_v30 (broadcastInDim S2000000 ![] bcast_S_S2000000 : (⟨S_, .i32⟩ : BufTy).Contents (Elt F) → (⟨S2000000, .i32⟩ : BufTy).Contents (Elt F))
  :: StableHlo.binary main_v29 main_v30 main_v31 (cmpi .slt : (⟨S2000000, .i32⟩ : BufTy).Contents (Elt F) → (⟨S2000000, .i32⟩ : BufTy).Contents (Elt F) → (⟨S2000000, .i1⟩ : BufTy).Contents (Elt F))
  :: StableHlo.nullary main_c_7 (constantI S_ 32 2000000#32)
  :: StableHlo.unary main_c_7 main_v32 (broadcastInDim S2000000 ![] bcast_S_S2000000 : (⟨S_, .i32⟩ : BufTy).Contents (Elt F) → (⟨S2000000, .i32⟩ : BufTy).Contents (Elt F))
  :: StableHlo.binary main_v29 main_v32 main_v33 (addi : (⟨S2000000, .i32⟩ : BufTy).Contents (Elt F) → (⟨S2000000, .i32⟩ : BufTy).Contents (Elt F) → (⟨S2000000, .i32⟩ : BufTy).Contents (Elt F))
  :: StableHlo.ternary main_v31 main_v33 main_v29 main_v34 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F))
  :: StableHlo.unary main_v34 main_v35 (broadcastInDim S2000000x1 ![0] bcast_S2000000_S2000000x1_0 : (⟨S2000000, .i32⟩ : BufTy).Contents (Elt F) → (⟨S2000000x1, .i32⟩ : BufTy).Contents (Elt F))
  :: StableHlo.binary main_v28 main_v35 main_v36 ((fun x i => Host.gather gather_S2000000_S2000000x1_S2000000_n_0_n_n_0_1_1 x i) : (⟨S2000000, .i32⟩ : BufTy).Contents (Elt F) → (⟨S2000000x1, .i32⟩ : BufTy).Contents (Elt F) → (⟨S2000000, .i32⟩ : BufTy).Contents (Elt F))
  :: StableHlo.nullary main_c_8 (constantI S_ 32 0#32)
  :: StableHlo.unary main_c_8 main_v37 (broadcastInDim S2000000 ![] bcast_S_S2000000 : (⟨S_, .i32⟩ : BufTy).Contents (Elt F) → (⟨S2000000, .i32⟩ : BufTy).Contents (Elt F))
  :: StableHlo.binary main_v29 main_v37 main_v38 (cmpi .slt : (⟨S2000000, .i32⟩ : BufTy).Contents (Elt F) → (⟨S2000000, .i32⟩ : BufTy).Contents (Elt F) → (⟨S2000000, .i1⟩ : BufTy).Contents (Elt F))
  :: StableHlo.nullary main_c_9 (constantI S_ 32 2000000#32)
  :: StableHlo.unary main_c_9 main_v39 (broadcastInDim S2000000 ![] bcast_S_S2000000 : (⟨S_, .i32⟩ : BufTy).Contents (Elt F) → (⟨S2000000, .i32⟩ : BufTy).Contents (Elt F))
  :: StableHlo.binary main_v29 main_v39 main_v40 (addi : (⟨S2000000, .i32⟩ : BufTy).Contents (Elt F) → (⟨S2000000, .i32⟩ : BufTy).Contents (Elt F) → (⟨S2000000, .i32⟩ : BufTy).Contents (Elt F))
  :: StableHlo.ternary main_v38 main_v40 main_v29 main_v41 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F))
  :: StableHlo.unary main_v41 main_v42 (broadcastInDim S2000000x1 ![0] bcast_S2000000_S2000000x1_0 : (⟨S2000000, .i32⟩ : BufTy).Contents (Elt F) → (⟨S2000000x1, .i32⟩ : BufTy).Contents (Elt F))
  :: StableHlo.binary main_v8 main_v42 main_v43 ((fun x i => Host.gather gather_S2000000x3_S2000000x1_S2000000x3_1_0_n_n_0_1_13 x i) : (⟨S2000000x3, .i32⟩ : BufTy).Contents (Elt F) → (⟨S2000000x1, .i32⟩ : BufTy).Contents (Elt F) → (⟨S2000000x3, .i32⟩ : BufTy).Contents (Elt F))
  :: StableHlo.nullary main_c_10 (constantI S_ 32 0#32)
  :: StableHlo.unary main_c_10 main_v44 (broadcastInDim S2000000 ![] bcast_S_S2000000 : (⟨S_, .i32⟩ : BufTy).Contents (Elt F) → (⟨S2000000, .i32⟩ : BufTy).Contents (Elt F))
  :: StableHlo.binary main_v29 main_v44 main_v45 (cmpi .slt : (⟨S2000000, .i32⟩ : BufTy).Contents (Elt F) → (⟨S2000000, .i32⟩ : BufTy).Contents (Elt F) → (⟨S2000000, .i1⟩ : BufTy).Contents (Elt F))
  :: StableHlo.nullary main_c_11 (constantI S_ 32 2000000#32)
  :: StableHlo.unary main_c_11 main_v46 (broadcastInDim S2000000 ![] bcast_S_S2000000 : (⟨S_, .i32⟩ : BufTy).Contents (Elt F) → (⟨S2000000, .i32⟩ : BufTy).Contents (Elt F))
  :: StableHlo.binary main_v29 main_v46 main_v47 (addi : (⟨S2000000, .i32⟩ : BufTy).Contents (Elt F) → (⟨S2000000, .i32⟩ : BufTy).Contents (Elt F) → (⟨S2000000, .i32⟩ : BufTy).Contents (Elt F))
  :: StableHlo.ternary main_v45 main_v47 main_v29 main_v48 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F))
  :: StableHlo.unary main_v48 main_v49 (broadcastInDim S2000000x1 ![0] bcast_S2000000_S2000000x1_0 : (⟨S2000000, .i32⟩ : BufTy).Contents (Elt F) → (⟨S2000000x1, .i32⟩ : BufTy).Contents (Elt F))
  :: StableHlo.binary main_arg0 main_v49 main_v50 ((fun x i => Host.gather gather_S2000000x4_S2000000x1_S2000000x4_1_0_n_n_0_1_14 x i) : (⟨S2000000x4, .f32⟩ : BufTy).Contents (Elt F) → (⟨S2000000x1, .i32⟩ : BufTy).Contents (Elt F) → (⟨S2000000x4, .f32⟩ : BufTy).Contents (Elt F))
  :: StableHlo.nullary main_c_12 (constantI S_ 1 1#1)
  :: StableHlo.unary main_c_12 main_v51 (broadcastInDim S1 ![] bcast_S_S1 : (⟨S_, .i1⟩ : BufTy).Contents (Elt F) → (⟨S1, .i1⟩ : BufTy).Contents (Elt F))
  :: StableHlo.unary main_v36 main_v52 ((extractStridedSlice S1999999 ![1] · slices_S2000000_S1999999_1) : (⟨S2000000, .i32⟩ : BufTy).Contents (Elt F) → (⟨S1999999, .i32⟩ : BufTy).Contents (Elt F))
  :: StableHlo.unary main_v36 main_v53 ((extractStridedSlice S1999999 ![0] · slices_S2000000_S1999999_0) : (⟨S2000000, .i32⟩ : BufTy).Contents (Elt F) → (⟨S1999999, .i32⟩ : BufTy).Contents (Elt F))
  :: StableHlo.binary main_v52 main_v53 main_v54 (cmpi .ne : (⟨S1999999, .i32⟩ : BufTy).Contents (Elt F) → (⟨S1999999, .i32⟩ : BufTy).Contents (Elt F) → (⟨S1999999, .i1⟩ : BufTy).Contents (Elt F))
  :: StableHlo.binary main_v51 main_v54 main_v55 ((fun a b => concatenate S2000000 0 [⟨S1, a⟩, ⟨S1999999, b⟩] concatenates_S1_S1999999_S2000000_d0) : (⟨S1, .i1⟩ : BufTy).Contents (Elt F) → (⟨S1999999, .i1⟩ : BufTy).Contents (Elt F) → (⟨S2000000, .i1⟩ : BufTy).Contents (Elt F))
  :: [] )

/-- 4 operations. -/
abbrev opsT3 : List (HloOp τ sig (Elt F)) :=
  ( StableHlo.TRef.unary (.of main_v55 : StableHlo.TRef sig ⟨S2000000, .i1⟩) main_call2.v0 (extui 32 · natLt_1_32)
  :: StableHlo.TRef.nullary main_call2.call0.c (constantI S_ 32 0#32)
  :: StableHlo.TRef.unary main_call2.call0.c main_call2.call0.v0 (broadcastInDim S_ ![] bcast_S_S_)
  :: StableHlo.TRef.binary main_call2.v0 main_call2.call0.v0 main_call2.call0.v1 (fun x v => Host.reduceWindow IntOp.addi ![2000000] ![1] ![1999999] ![0] x v reduceWindows_S2000000_S2000000_w2000000s1p1999999_0 h_S_)
  :: [] )

/-- 45 operations. -/
abbrev opsT4 : List (HloOp τ sig (Elt F)) :=
  ( StableHlo.nullary main_c_13 (constantI S_ 32 1#32)
  :: StableHlo.unary main_c_13 main_v57 (broadcastInDim S2000000 ![] bcast_S_S2000000 : (⟨S_, .i32⟩ : BufTy).Contents (Elt F) → (⟨S2000000, .i32⟩ : BufTy).Contents (Elt F))
  :: StableHlo.binary main_v56 main_v57 main_v58 (subi : (⟨S2000000, .i32⟩ : BufTy).Contents (Elt F) → (⟨S2000000, .i32⟩ : BufTy).Contents (Elt F) → (⟨S2000000, .i32⟩ : BufTy).Contents (Elt F))
  :: StableHlo.nullary main_v59 (iotaInDim S2000000 32 0)
  :: StableHlo.nullary main_c_14 (constantI S_ 32 2000000#32)
  :: StableHlo.unary main_c_14 main_v60 (broadcastInDim S2000000 ![] bcast_S_S2000000 : (⟨S_, .i32⟩ : BufTy).Contents (Elt F) → (⟨S2000000, .i32⟩ : BufTy).Contents (Elt F))
  :: StableHlo.nullary main_c_15 (constantI S_ 32 0#32)
  :: StableHlo.unary main_c_15 main_v61 (broadcastInDim S2000000 ![] bcast_S_S2000000 : (⟨S_, .i32⟩ : BufTy).Contents (Elt F) → (⟨S2000000, .i32⟩ : BufTy).Contents (Elt F))
  :: StableHlo.binary main_v58 main_v61 main_v62 (cmpi .slt : (⟨S2000000, .i32⟩ : BufTy).Contents (Elt F) → (⟨S2000000, .i32⟩ : BufTy).Contents (Elt F) → (⟨S2000000, .i1⟩ : BufTy).Contents (Elt F))
  :: StableHlo.nullary main_c_16 (constantI S_ 32 2000000#32)
  :: StableHlo.unary main_c_16 main_v63 (broadcastInDim S2000000 ![] bcast_S_S2000000 : (⟨S_, .i32⟩ : BufTy).Contents (Elt F) → (⟨S2000000, .i32⟩ : BufTy).Contents (Elt F))
  :: StableHlo.binary main_v58 main_v63 main_v64 (addi : (⟨S2000000, .i32⟩ : BufTy).Contents (Elt F) → (⟨S2000000, .i32⟩ : BufTy).Contents (Elt F) → (⟨S2000000, .i32⟩ : BufTy).Contents (Elt F))
  :: StableHlo.ternary main_v62 main_v64 main_v58 main_v65 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F))
  :: StableHlo.unary main_v65 main_v66 (broadcastInDim S2000000x1 ![0] bcast_S2000000_S2000000x1_0 : (⟨S2000000, .i32⟩ : BufTy).Contents (Elt F) → (⟨S2000000x1, .i32⟩ : BufTy).Contents (Elt F))
  :: StableHlo.ternary main_v60 main_v66 main_v59 main_v67 ((fun x i u => Host.scatter scatter_S2000000_S2000000x1_S2000000_n_0_0_1 IntOp.minsi x i u) : (⟨S2000000, .i32⟩ : BufTy).Contents (Elt F) → (⟨S2000000x1, .i32⟩ : BufTy).Contents (Elt F) → (⟨S2000000, .i32⟩ : BufTy).Contents (Elt F) → (⟨S2000000, .i32⟩ : BufTy).Contents (Elt F))
  :: StableHlo.nullary main_c_17 (constantI S_ 32 2000000#32)
  :: StableHlo.unary main_c_17 main_v68 (broadcastInDim S2000000 ![] bcast_S_S2000000 : (⟨S_, .i32⟩ : BufTy).Contents (Elt F) → (⟨S2000000, .i32⟩ : BufTy).Contents (Elt F))
  :: StableHlo.nullary main_c_18 (constantI S_ 32 0#32)
  :: StableHlo.unary main_c_18 main_v69 (broadcastInDim S2000000 ![] bcast_S_S2000000 : (⟨S_, .i32⟩ : BufTy).Contents (Elt F) → (⟨S2000000, .i32⟩ : BufTy).Contents (Elt F))
  :: StableHlo.binary main_v58 main_v69 main_v70 (cmpi .slt : (⟨S2000000, .i32⟩ : BufTy).Contents (Elt F) → (⟨S2000000, .i32⟩ : BufTy).Contents (Elt F) → (⟨S2000000, .i1⟩ : BufTy).Contents (Elt F))
  :: StableHlo.nullary main_c_19 (constantI S_ 32 2000000#32)
  :: StableHlo.unary main_c_19 main_v71 (broadcastInDim S2000000 ![] bcast_S_S2000000 : (⟨S_, .i32⟩ : BufTy).Contents (Elt F) → (⟨S2000000, .i32⟩ : BufTy).Contents (Elt F))
  :: StableHlo.binary main_v58 main_v71 main_v72 (addi : (⟨S2000000, .i32⟩ : BufTy).Contents (Elt F) → (⟨S2000000, .i32⟩ : BufTy).Contents (Elt F) → (⟨S2000000, .i32⟩ : BufTy).Contents (Elt F))
  :: StableHlo.ternary main_v70 main_v72 main_v58 main_v73 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F))
  :: StableHlo.unary main_v73 main_v74 (broadcastInDim S2000000x1 ![0] bcast_S2000000_S2000000x1_0 : (⟨S2000000, .i32⟩ : BufTy).Contents (Elt F) → (⟨S2000000x1, .i32⟩ : BufTy).Contents (Elt F))
  :: StableHlo.ternary main_v68 main_v74 main_v29 main_v75 ((fun x i u => Host.scatter scatter_S2000000_S2000000x1_S2000000_n_0_0_1 IntOp.minsi x i u) : (⟨S2000000, .i32⟩ : BufTy).Contents (Elt F) → (⟨S2000000x1, .i32⟩ : BufTy).Contents (Elt F) → (⟨S2000000, .i32⟩ : BufTy).Contents (Elt F) → (⟨S2000000, .i32⟩ : BufTy).Contents (Elt F))
  :: StableHlo.nullary main_c_20 (constantI S_ 32 0#32)
  :: StableHlo.unary main_c_20 main_v76 (broadcastInDim S2000000 ![] bcast_S_S2000000 : (⟨S_, .i32⟩ : BufTy).Contents (Elt F) → (⟨S2000000, .i32⟩ : BufTy).Contents (Elt F))
  :: StableHlo.nullary main_c_21 (constantI S_ 32 90112000#32)
  :: StableHlo.unary main_c_21 main_v77 (broadcastInDim S2000000 ![] bcast_S_S2000000 : (⟨S_, .i32⟩ : BufTy).Contents (Elt F) → (⟨S2000000, .i32⟩ : BufTy).Contents (Elt F))
  :: StableHlo.binary main_v36 main_v77 main_v78 (cmpi .ne : (⟨S2000000, .i32⟩ : BufTy).Contents (Elt F) → (⟨S2000000, .i32⟩ : BufTy).Contents (Elt F) → (⟨S2000000, .i1⟩ : BufTy).Contents (Elt F))
  :: StableHlo.unary main_v78 main_v79 ((extui 32 · natLt_1_32) : (⟨S2000000, .i1⟩ : BufTy).Contents (Elt F) → (⟨S2000000, .i32⟩ : BufTy).Contents (Elt F))
  :: StableHlo.nullary main_c_22 (constantI S_ 32 0#32)
  :: StableHlo.unary main_c_22 main_v80 (broadcastInDim S2000000 ![] bcast_S_S2000000 : (⟨S_, .i32⟩ : BufTy).Contents (Elt F) → (⟨S2000000, .i32⟩ : BufTy).Contents (Elt F))
  :: StableHlo.binary main_v58 main_v80 main_v81 (cmpi .slt : (⟨S2000000, .i32⟩ : BufTy).Contents (Elt F) → (⟨S2000000, .i32⟩ : BufTy).Contents (Elt F) → (⟨S2000000, .i1⟩ : BufTy).Contents (Elt F))
  :: StableHlo.nullary main_c_23 (constantI S_ 32 2000000#32)
  :: StableHlo.unary main_c_23 main_v82 (broadcastInDim S2000000 ![] bcast_S_S2000000 : (⟨S_, .i32⟩ : BufTy).Contents (Elt F) → (⟨S2000000, .i32⟩ : BufTy).Contents (Elt F))
  :: StableHlo.binary main_v58 main_v82 main_v83 (addi : (⟨S2000000, .i32⟩ : BufTy).Contents (Elt F) → (⟨S2000000, .i32⟩ : BufTy).Contents (Elt F) → (⟨S2000000, .i32⟩ : BufTy).Contents (Elt F))
  :: StableHlo.ternary main_v81 main_v83 main_v58 main_v84 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F))
  :: StableHlo.unary main_v84 main_v85 (broadcastInDim S2000000x1 ![0] bcast_S2000000_S2000000x1_0 : (⟨S2000000, .i32⟩ : BufTy).Contents (Elt F) → (⟨S2000000x1, .i32⟩ : BufTy).Contents (Elt F))
  :: StableHlo.ternary main_v76 main_v85 main_v79 main_v86 ((fun x i u => Host.scatter scatter_S2000000_S2000000x1_S2000000_n_0_0_1 IntOp.maxsi x i u) : (⟨S2000000, .i32⟩ : BufTy).Contents (Elt F) → (⟨S2000000x1, .i32⟩ : BufTy).Contents (Elt F) → (⟨S2000000, .i32⟩ : BufTy).Contents (Elt F) → (⟨S2000000, .i32⟩ : BufTy).Contents (Elt F))
  :: StableHlo.nullary main_c_24 (constantI S_ 32 0#32)
  :: StableHlo.unary main_c_24 main_v87 (broadcastInDim S2000000 ![] bcast_S_S2000000 : (⟨S_, .i32⟩ : BufTy).Contents (Elt F) → (⟨S2000000, .i32⟩ : BufTy).Contents (Elt F))
  :: StableHlo.binary main_v86 main_v87 main_v88 (cmpi .sgt : (⟨S2000000, .i32⟩ : BufTy).Contents (Elt F) → (⟨S2000000, .i32⟩ : BufTy).Contents (Elt F) → (⟨S2000000, .i1⟩ : BufTy).Contents (Elt F))
  :: StableHlo.nullary main_c_25 (constantI S_ 32 2000000#32)
  :: [] )

/-- 3 operations. -/
abbrev opsT5 : List (HloOp τ sig (Elt F)) :=
  ( StableHlo.TRef.unary (.of main_c_25 : StableHlo.TRef sig ⟨S_, .i32⟩) main_call3.v0 id
  :: StableHlo.TRef.unary main_call3.v0 main_call3.v1 (broadcastInDim S2000000 ![] bcast_S_S2000000)
  :: StableHlo.TRef.ternary (.of main_v88 : StableHlo.TRef sig ⟨S2000000, .i1⟩) (.of main_v75 : StableHlo.TRef sig ⟨S2000000, .i32⟩) main_call3.v1 main_call3.v2 select
  :: [] )

/-- 3 operations. -/
abbrev opsT6 : List (HloOp τ sig (Elt F)) :=
  ( StableHlo.TRef.nullary main_call4.v0 (iotaInDim S2000000 32 0)
  :: StableHlo.TRef.binary (.of main_v89 : StableHlo.TRef sig ⟨S2000000, .i32⟩) main_call4.v0 main_call4.v1_0 (fun x y => (Host.sort2 S2000000 0 comparator_i32_i32_d0 x y).1)
  :: StableHlo.TRef.binary (.of main_v89 : StableHlo.TRef sig ⟨S2000000, .i32⟩) main_call4.v0 main_call4.v1_1 (fun x y => (Host.sort2 S2000000 0 comparator_i32_i32_d0 x y).2)
  :: [] )

/-- 42 operations. -/
abbrev opsT7 : List (HloOp τ sig (Elt F)) :=
  ( StableHlo.nullary main_c_26 (constantI S_ 32 0#32)
  :: StableHlo.unary main_c_26 main_v91 (broadcastInDim S2000000 ![] bcast_S_S2000000 : (⟨S_, .i32⟩ : BufTy).Contents (Elt F) → (⟨S2000000, .i32⟩ : BufTy).Contents (Elt F))
  :: StableHlo.nullary main_c_27 (constantI S_ 32 0#32)
  :: StableHlo.unary main_c_27 main_v92 (broadcastInDim S2000000 ![] bcast_S_S2000000 : (⟨S_, .i32⟩ : BufTy).Contents (Elt F) → (⟨S2000000, .i32⟩ : BufTy).Contents (Elt F))
  :: StableHlo.binary main_v90 main_v92 main_v93 (cmpi .slt : (⟨S2000000, .i32⟩ : BufTy).Contents (Elt F) → (⟨S2000000, .i32⟩ : BufTy).Contents (Elt F) → (⟨S2000000, .i1⟩ : BufTy).Contents (Elt F))
  :: StableHlo.nullary main_c_28 (constantI S_ 32 2000000#32)
  :: StableHlo.unary main_c_28 main_v94 (broadcastInDim S2000000 ![] bcast_S_S2000000 : (⟨S_, .i32⟩ : BufTy).Contents (Elt F) → (⟨S2000000, .i32⟩ : BufTy).Contents (Elt F))
  :: StableHlo.binary main_v90 main_v94 main_v95 (addi : (⟨S2000000, .i32⟩ : BufTy).Contents (Elt F) → (⟨S2000000, .i32⟩ : BufTy).Contents (Elt F) → (⟨S2000000, .i32⟩ : BufTy).Contents (Elt F))
  :: StableHlo.ternary main_v93 main_v95 main_v90 main_v96 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F))
  :: StableHlo.unary main_v96 main_v97 (broadcastInDim S2000000x1 ![0] bcast_S2000000_S2000000x1_0 : (⟨S2000000, .i32⟩ : BufTy).Contents (Elt F) → (⟨S2000000x1, .i32⟩ : BufTy).Contents (Elt F))
  :: StableHlo.ternary main_v91 main_v97 main_v59 main_v98 ((fun x i u => Host.scatter scatter_S2000000_S2000000x1_S2000000_n_0_0_1 (fun _ b => b) x i u) : (⟨S2000000, .i32⟩ : BufTy).Contents (Elt F) → (⟨S2000000x1, .i32⟩ : BufTy).Contents (Elt F) → (⟨S2000000, .i32⟩ : BufTy).Contents (Elt F) → (⟨S2000000, .i32⟩ : BufTy).Contents (Elt F))
  :: StableHlo.nullary main_c_29 (constantI S_ 32 0#32)
  :: StableHlo.unary main_c_29 main_v99 (broadcastInDim S2000000 ![] bcast_S_S2000000 : (⟨S_, .i32⟩ : BufTy).Contents (Elt F) → (⟨S2000000, .i32⟩ : BufTy).Contents (Elt F))
  :: StableHlo.binary main_v58 main_v99 main_v100 (cmpi .slt : (⟨S2000000, .i32⟩ : BufTy).Contents (Elt F) → (⟨S2000000, .i32⟩ : BufTy).Contents (Elt F) → (⟨S2000000, .i1⟩ : BufTy).Contents (Elt F))
  :: StableHlo.nullary main_c_30 (constantI S_ 32 2000000#32)
  :: StableHlo.unary main_c_30 main_v101 (broadcastInDim S2000000 ![] bcast_S_S2000000 : (⟨S_, .i32⟩ : BufTy).Contents (Elt F) → (⟨S2000000, .i32⟩ : BufTy).Contents (Elt F))
  :: StableHlo.binary main_v58 main_v101 main_v102 (addi : (⟨S2000000, .i32⟩ : BufTy).Contents (Elt F) → (⟨S2000000, .i32⟩ : BufTy).Contents (Elt F) → (⟨S2000000, .i32⟩ : BufTy).Contents (Elt F))
  :: StableHlo.ternary main_v100 main_v102 main_v58 main_v103 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F))
  :: StableHlo.unary main_v103 main_v104 (broadcastInDim S2000000x1 ![0] bcast_S2000000_S2000000x1_0 : (⟨S2000000, .i32⟩ : BufTy).Contents (Elt F) → (⟨S2000000x1, .i32⟩ : BufTy).Contents (Elt F))
  :: StableHlo.binary main_v67 main_v104 main_v105 ((fun x i => Host.gather gather_S2000000_S2000000x1_S2000000_n_0_n_n_0_1_1 x i) : (⟨S2000000, .i32⟩ : BufTy).Contents (Elt F) → (⟨S2000000x1, .i32⟩ : BufTy).Contents (Elt F) → (⟨S2000000, .i32⟩ : BufTy).Contents (Elt F))
  :: StableHlo.binary main_v59 main_v105 main_v106 (subi : (⟨S2000000, .i32⟩ : BufTy).Contents (Elt F) → (⟨S2000000, .i32⟩ : BufTy).Contents (Elt F) → (⟨S2000000, .i32⟩ : BufTy).Contents (Elt F))
  :: StableHlo.nullary main_c_31 (constantI S_ 32 0#32)
  :: StableHlo.unary main_c_31 main_v107 (broadcastInDim S2000000 ![] bcast_S_S2000000 : (⟨S_, .i32⟩ : BufTy).Contents (Elt F) → (⟨S2000000, .i32⟩ : BufTy).Contents (Elt F))
  :: StableHlo.binary main_v58 main_v107 main_v108 (cmpi .slt : (⟨S2000000, .i32⟩ : BufTy).Contents (Elt F) → (⟨S2000000, .i32⟩ : BufTy).Contents (Elt F) → (⟨S2000000, .i1⟩ : BufTy).Contents (Elt F))
  :: StableHlo.nullary main_c_32 (constantI S_ 32 2000000#32)
  :: StableHlo.unary main_c_32 main_v109 (broadcastInDim S2000000 ![] bcast_S_S2000000 : (⟨S_, .i32⟩ : BufTy).Contents (Elt F) → (⟨S2000000, .i32⟩ : BufTy).Contents (Elt F))
  :: StableHlo.binary main_v58 main_v109 main_v110 (addi : (⟨S2000000, .i32⟩ : BufTy).Contents (Elt F) → (⟨S2000000, .i32⟩ : BufTy).Contents (Elt F) → (⟨S2000000, .i32⟩ : BufTy).Contents (Elt F))
  :: StableHlo.ternary main_v108 main_v110 main_v58 main_v111 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F))
  :: StableHlo.unary main_v111 main_v112 (broadcastInDim S2000000x1 ![0] bcast_S2000000_S2000000x1_0 : (⟨S2000000, .i32⟩ : BufTy).Contents (Elt F) → (⟨S2000000x1, .i32⟩ : BufTy).Contents (Elt F))
  :: StableHlo.binary main_v98 main_v112 main_v113 ((fun x i => Host.gather gather_S2000000_S2000000x1_S2000000_n_0_n_n_0_1_1 x i) : (⟨S2000000, .i32⟩ : BufTy).Contents (Elt F) → (⟨S2000000x1, .i32⟩ : BufTy).Contents (Elt F) → (⟨S2000000, .i32⟩ : BufTy).Contents (Elt F))
  :: StableHlo.nullary main_c_33 (constantI S_ 32 90112000#32)
  :: StableHlo.unary main_c_33 main_v114 (broadcastInDim S2000000 ![] bcast_S_S2000000 : (⟨S_, .i32⟩ : BufTy).Contents (Elt F) → (⟨S2000000, .i32⟩ : BufTy).Contents (Elt F))
  :: StableHlo.binary main_v36 main_v114 main_v115 (cmpi .ne : (⟨S2000000, .i32⟩ : BufTy).Contents (Elt F) → (⟨S2000000, .i32⟩ : BufTy).Contents (Elt F) → (⟨S2000000, .i1⟩ : BufTy).Contents (Elt F))
  :: StableHlo.nullary main_c_34 (constantI S_ 32 60000#32)
  :: StableHlo.unary main_c_34 main_v116 (broadcastInDim S2000000 ![] bcast_S_S2000000 : (⟨S_, .i32⟩ : BufTy).Contents (Elt F) → (⟨S2000000, .i32⟩ : BufTy).Contents (Elt F))
  :: StableHlo.binary main_v113 main_v116 main_v117 (cmpi .slt : (⟨S2000000, .i32⟩ : BufTy).Contents (Elt F) → (⟨S2000000, .i32⟩ : BufTy).Contents (Elt F) → (⟨S2000000, .i1⟩ : BufTy).Contents (Elt F))
  :: StableHlo.binary main_v115 main_v117 main_v118 (andi : (⟨S2000000, .i1⟩ : BufTy).Contents (Elt F) → (⟨S2000000, .i1⟩ : BufTy).Contents (Elt F) → (⟨S2000000, .i1⟩ : BufTy).Contents (Elt F))
  :: StableHlo.nullary main_c_35 (constantI S_ 32 35#32)
  :: StableHlo.unary main_c_35 main_v119 (broadcastInDim S2000000 ![] bcast_S_S2000000 : (⟨S_, .i32⟩ : BufTy).Contents (Elt F) → (⟨S2000000, .i32⟩ : BufTy).Contents (Elt F))
  :: StableHlo.binary main_v106 main_v119 main_v120 (cmpi .slt : (⟨S2000000, .i32⟩ : BufTy).Contents (Elt F) → (⟨S2000000, .i32⟩ : BufTy).Contents (Elt F) → (⟨S2000000, .i1⟩ : BufTy).Contents (Elt F))
  :: StableHlo.binary main_v118 main_v120 main_v121 (andi : (⟨S2000000, .i1⟩ : BufTy).Contents (Elt F) → (⟨S2000000, .i1⟩ : BufTy).Contents (Elt F) → (⟨S2000000, .i1⟩ : BufTy).Contents (Elt F))
  :: StableHlo.nullary main_c_36 (constantI S_ 32 60000#32)
  :: [] )

/-- 3 operations. -/
abbrev opsT8 : List (HloOp τ sig (Elt F)) :=
  ( StableHlo.TRef.unary (.of main_c_36 : StableHlo.TRef sig ⟨S_, .i32⟩) main_call5.v0 id
  :: StableHlo.TRef.unary main_call5.v0 main_call5.v1 (broadcastInDim S2000000 ![] bcast_S_S2000000)
  :: StableHlo.TRef.ternary (.of main_v121 : StableHlo.TRef sig ⟨S2000000, .i1⟩) (.of main_v113 : StableHlo.TRef sig ⟨S2000000, .i32⟩) main_call5.v1 main_call5.v2 select
  :: [] )

/-- 1 operations. -/
abbrev opsT9 : List (HloOp τ sig (Elt F)) :=
  ( StableHlo.nullary main_c_37 (constantI S_ 32 0#32)
  :: [] )

/-- 3 operations. -/
abbrev opsT10 : List (HloOp τ sig (Elt F)) :=
  ( StableHlo.TRef.unary (.of main_c_37 : StableHlo.TRef sig ⟨S_, .i32⟩) main_call6.v0 id
  :: StableHlo.TRef.unary main_call6.v0 main_call6.v1 (broadcastInDim S2000000 ![] bcast_S_S2000000)
  :: StableHlo.TRef.ternary (.of main_v121 : StableHlo.TRef sig ⟨S2000000, .i1⟩) (.of main_v106 : StableHlo.TRef sig ⟨S2000000, .i32⟩) main_call6.v1 main_call6.v2 select
  :: [] )

/-- 40 operations. -/
abbrev opsT11 : List (HloOp τ sig (Elt F)) :=
  ( StableHlo.nullary main_cst_38 (constant S_ .f32 0x00000000#32)
  :: StableHlo.unary main_cst_38 main_v124 (broadcastInDim S60000x35x4 ![] bcast_S_S60000x35x4 : (⟨S_, .f32⟩ : BufTy).Contents (Elt F) → (⟨S60000x35x4, .f32⟩ : BufTy).Contents (Elt F))
  :: StableHlo.nullary main_c_39 (constantI S_ 32 0#32)
  :: StableHlo.unary main_c_39 main_v125 (broadcastInDim S2000000 ![] bcast_S_S2000000 : (⟨S_, .i32⟩ : BufTy).Contents (Elt F) → (⟨S2000000, .i32⟩ : BufTy).Contents (Elt F))
  :: StableHlo.binary main_v122 main_v125 main_v126 (cmpi .slt : (⟨S2000000, .i32⟩ : BufTy).Contents (Elt F) → (⟨S2000000, .i32⟩ : BufTy).Contents (Elt F) → (⟨S2000000, .i1⟩ : BufTy).Contents (Elt F))
  :: StableHlo.nullary main_c_40 (constantI S_ 32 60000#32)
  :: StableHlo.unary main_c_40 main_v127 (broadcastInDim S2000000 ![] bcast_S_S2000000 : (⟨S_, .i32⟩ : BufTy).Contents (Elt F) → (⟨S2000000, .i32⟩ : BufTy).Contents (Elt F))
  :: StableHlo.binary main_v122 main_v127 main_v128 (addi : (⟨S2000000, .i32⟩ : BufTy).Contents (Elt F) → (⟨S2000000, .i32⟩ : BufTy).Contents (Elt F) → (⟨S2000000, .i32⟩ : BufTy).Contents (Elt F))
  :: StableHlo.ternary main_v126 main_v128 main_v122 main_v129 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F))
  :: StableHlo.nullary main_c_41 (constantI S_ 32 0#32)
  :: StableHlo.unary main_c_41 main_v130 (broadcastInDim S2000000 ![] bcast_S_S2000000 : (⟨S_, .i32⟩ : BufTy).Contents (Elt F) → (⟨S2000000, .i32⟩ : BufTy).Contents (Elt F))
  :: StableHlo.binary main_v123 main_v130 main_v131 (cmpi .slt : (⟨S2000000, .i32⟩ : BufTy).Contents (Elt F) → (⟨S2000000, .i32⟩ : BufTy).Contents (Elt F) → (⟨S2000000, .i1⟩ : BufTy).Contents (Elt F))
  :: StableHlo.nullary main_c_42 (constantI S_ 32 35#32)
  :: StableHlo.unary main_c_42 main_v132 (broadcastInDim S2000000 ![] bcast_S_S2000000 : (⟨S_, .i32⟩ : BufTy).Contents (Elt F) → (⟨S2000000, .i32⟩ : BufTy).Contents (Elt F))
  :: StableHlo.binary main_v123 main_v132 main_v133 (addi : (⟨S2000000, .i32⟩ : BufTy).Contents (Elt F) → (⟨S2000000, .i32⟩ : BufTy).Contents (Elt F) → (⟨S2000000, .i32⟩ : BufTy).Contents (Elt F))
  :: StableHlo.ternary main_v131 main_v133 main_v123 main_v134 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F))
  :: StableHlo.unary main_v129 main_v135 (broadcastInDim S2000000x1 ![0] bcast_S2000000_S2000000x1_0 : (⟨S2000000, .i32⟩ : BufTy).Contents (Elt F) → (⟨S2000000x1, .i32⟩ : BufTy).Contents (Elt F))
  :: StableHlo.unary main_v134 main_v136 (broadcastInDim S2000000x1 ![0] bcast_S2000000_S2000000x1_0 : (⟨S2000000, .i32⟩ : BufTy).Contents (Elt F) → (⟨S2000000x1, .i32⟩ : BufTy).Contents (Elt F))
  :: StableHlo.binary main_v135 main_v136 main_v137 ((fun a b => concatenate S2000000x2 1 [⟨S2000000x1, a⟩, ⟨S2000000x1, b⟩] concatenates_S2000000x1_S2000000x1_S2000000x2_d1) : (⟨S2000000x1, .i32⟩ : BufTy).Contents (Elt F) → (⟨S2000000x1, .i32⟩ : BufTy).Contents (Elt F) → (⟨S2000000x2, .i32⟩ : BufTy).Contents (Elt F))
  :: StableHlo.ternary main_v124 main_v137 main_v50 main_v138 ((fun x i u => Host.scatter scatter_S60000x35x4_S2000000x2_S2000000x4_1_01_01_1 (fun _ b => b) x i u) : (⟨S60000x35x4, .f32⟩ : BufTy).Contents (Elt F) → (⟨S2000000x2, .i32⟩ : BufTy).Contents (Elt F) → (⟨S2000000x4, .f32⟩ : BufTy).Contents (Elt F) → (⟨S60000x35x4, .f32⟩ : BufTy).Contents (Elt F))
  :: StableHlo.nullary main_c_43 (constantI S_ 32 0#32)
  :: StableHlo.unary main_c_43 main_v139 (broadcastInDim S2000000 ![] bcast_S_S2000000 : (⟨S_, .i32⟩ : BufTy).Contents (Elt F) → (⟨S2000000, .i32⟩ : BufTy).Contents (Elt F))
  :: StableHlo.nullary main_c_44 (constantI S_ 32 90112000#32)
  :: StableHlo.unary main_c_44 main_v140 (broadcastInDim S2000000 ![] bcast_S_S2000000 : (⟨S_, .i32⟩ : BufTy).Contents (Elt F) → (⟨S2000000, .i32⟩ : BufTy).Contents (Elt F))
  :: StableHlo.binary main_v36 main_v140 main_v141 (cmpi .ne : (⟨S2000000, .i32⟩ : BufTy).Contents (Elt F) → (⟨S2000000, .i32⟩ : BufTy).Contents (Elt F) → (⟨S2000000, .i1⟩ : BufTy).Contents (Elt F))
  :: StableHlo.unary main_v141 main_v142 ((extui 32 · natLt_1_32) : (⟨S2000000, .i1⟩ : BufTy).Contents (Elt F) → (⟨S2000000, .i32⟩ : BufTy).Contents (Elt F))
  :: StableHlo.nullary main_c_45 (constantI S_ 32 0#32)
  :: StableHlo.unary main_c_45 main_v143 (broadcastInDim S2000000 ![] bcast_S_S2000000 : (⟨S_, .i32⟩ : BufTy).Contents (Elt F) → (⟨S2000000, .i32⟩ : BufTy).Contents (Elt F))
  :: StableHlo.binary main_v58 main_v143 main_v144 (cmpi .slt : (⟨S2000000, .i32⟩ : BufTy).Contents (Elt F) → (⟨S2000000, .i32⟩ : BufTy).Contents (Elt F) → (⟨S2000000, .i1⟩ : BufTy).Contents (Elt F))
  :: StableHlo.nullary main_c_46 (constantI S_ 32 2000000#32)
  :: StableHlo.unary main_c_46 main_v145 (broadcastInDim S2000000 ![] bcast_S_S2000000 : (⟨S_, .i32⟩ : BufTy).Contents (Elt F) → (⟨S2000000, .i32⟩ : BufTy).Contents (Elt F))
  :: StableHlo.binary main_v58 main_v145 main_v146 (addi : (⟨S2000000, .i32⟩ : BufTy).Contents (Elt F) → (⟨S2000000, .i32⟩ : BufTy).Contents (Elt F) → (⟨S2000000, .i32⟩ : BufTy).Contents (Elt F))
  :: StableHlo.ternary main_v144 main_v146 main_v58 main_v147 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F))
  :: StableHlo.unary main_v147 main_v148 (broadcastInDim S2000000x1 ![0] bcast_S2000000_S2000000x1_0 : (⟨S2000000, .i32⟩ : BufTy).Contents (Elt F) → (⟨S2000000x1, .i32⟩ : BufTy).Contents (Elt F))
  :: StableHlo.ternary main_v139 main_v148 main_v142 main_v149 ((fun x i u => Host.scatter scatter_S2000000_S2000000x1_S2000000_n_0_0_1 IntOp.addi x i u) : (⟨S2000000, .i32⟩ : BufTy).Contents (Elt F) → (⟨S2000000x1, .i32⟩ : BufTy).Contents (Elt F) → (⟨S2000000, .i32⟩ : BufTy).Contents (Elt F) → (⟨S2000000, .i32⟩ : BufTy).Contents (Elt F))
  :: StableHlo.nullary main_c_47 (constantI S_ 32 60000#32)
  :: StableHlo.unary main_c_47 main_v150 (broadcastInDim S2000000 ![] bcast_S_S2000000 : (⟨S_, .i32⟩ : BufTy).Contents (Elt F) → (⟨S2000000, .i32⟩ : BufTy).Contents (Elt F))
  :: StableHlo.binary main_v98 main_v150 main_v151 (cmpi .slt : (⟨S2000000, .i32⟩ : BufTy).Contents (Elt F) → (⟨S2000000, .i32⟩ : BufTy).Contents (Elt F) → (⟨S2000000, .i1⟩ : BufTy).Contents (Elt F))
  :: StableHlo.binary main_v88 main_v151 main_v152 (andi : (⟨S2000000, .i1⟩ : BufTy).Contents (Elt F) → (⟨S2000000, .i1⟩ : BufTy).Contents (Elt F) → (⟨S2000000, .i1⟩ : BufTy).Contents (Elt F))
  :: StableHlo.nullary main_c_48 (constantI S_ 32 60000#32)
  :: [] )

/-- 3 operations. -/
abbrev opsT12 : List (HloOp τ sig (Elt F)) :=
  ( StableHlo.TRef.unary (.of main_c_48 : StableHlo.TRef sig ⟨S_, .i32⟩) main_call7.v0 id
  :: StableHlo.TRef.unary main_call7.v0 main_call7.v1 (broadcastInDim S2000000 ![] bcast_S_S2000000)
  :: StableHlo.TRef.ternary (.of main_v152 : StableHlo.TRef sig ⟨S2000000, .i1⟩) (.of main_v98 : StableHlo.TRef sig ⟨S2000000, .i32⟩) main_call7.v1 main_call7.v2 select
  :: [] )

/-- 43 operations. -/
abbrev opsT13 : List (HloOp τ sig (Elt F)) :=
  ( StableHlo.nullary main_c_49 (constantI S_ 32 0#32)
  :: StableHlo.unary main_c_49 main_v154 (broadcastInDim S60000 ![] bcast_S_S60000 : (⟨S_, .i32⟩ : BufTy).Contents (Elt F) → (⟨S60000, .i32⟩ : BufTy).Contents (Elt F))
  :: StableHlo.nullary main_c_50 (constantI S_ 32 35#32)
  :: StableHlo.unary main_c_50 main_v155 (broadcastInDim S2000000 ![] bcast_S_S2000000 : (⟨S_, .i32⟩ : BufTy).Contents (Elt F) → (⟨S2000000, .i32⟩ : BufTy).Contents (Elt F))
  :: StableHlo.binary main_v149 main_v155 main_v156 (minsi : (⟨S2000000, .i32⟩ : BufTy).Contents (Elt F) → (⟨S2000000, .i32⟩ : BufTy).Contents (Elt F) → (⟨S2000000, .i32⟩ : BufTy).Contents (Elt F))
  :: StableHlo.nullary main_c_51 (constantI S_ 32 0#32)
  :: StableHlo.unary main_c_51 main_v157 (broadcastInDim S2000000 ![] bcast_S_S2000000 : (⟨S_, .i32⟩ : BufTy).Contents (Elt F) → (⟨S2000000, .i32⟩ : BufTy).Contents (Elt F))
  :: StableHlo.binary main_v153 main_v157 main_v158 (cmpi .slt : (⟨S2000000, .i32⟩ : BufTy).Contents (Elt F) → (⟨S2000000, .i32⟩ : BufTy).Contents (Elt F) → (⟨S2000000, .i1⟩ : BufTy).Contents (Elt F))
  :: StableHlo.nullary main_c_52 (constantI S_ 32 60000#32)
  :: StableHlo.unary main_c_52 main_v159 (broadcastInDim S2000000 ![] bcast_S_S2000000 : (⟨S_, .i32⟩ : BufTy).Contents (Elt F) → (⟨S2000000, .i32⟩ : BufTy).Contents (Elt F))
  :: StableHlo.binary main_v153 main_v159 main_v160 (addi : (⟨S2000000, .i32⟩ : BufTy).Contents (Elt F) → (⟨S2000000, .i32⟩ : BufTy).Contents (Elt F) → (⟨S2000000, .i32⟩ : BufTy).Contents (Elt F))
  :: StableHlo.ternary main_v158 main_v160 main_v153 main_v161 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F))
  :: StableHlo.unary main_v161 main_v162 (broadcastInDim S2000000x1 ![0] bcast_S2000000_S2000000x1_0 : (⟨S2000000, .i32⟩ : BufTy).Contents (Elt F) → (⟨S2000000x1, .i32⟩ : BufTy).Contents (Elt F))
  :: StableHlo.ternary main_v154 main_v162 main_v156 main_v163 ((fun x i u => Host.scatter scatter_S60000_S2000000x1_S2000000_n_0_0_1 (fun _ b => b) x i u) : (⟨S60000, .i32⟩ : BufTy).Contents (Elt F) → (⟨S2000000x1, .i32⟩ : BufTy).Contents (Elt F) → (⟨S2000000, .i32⟩ : BufTy).Contents (Elt F) → (⟨S60000, .i32⟩ : BufTy).Contents (Elt F))
  :: StableHlo.nullary main_c_53 (constantI S_ 32 1999999#32)
  :: StableHlo.unary main_c_53 main_v164 (broadcastInDim S2000000 ![] bcast_S_S2000000 : (⟨S_, .i32⟩ : BufTy).Contents (Elt F) → (⟨S2000000, .i32⟩ : BufTy).Contents (Elt F))
  :: StableHlo.binary main_v67 main_v164 main_v165 (minsi : (⟨S2000000, .i32⟩ : BufTy).Contents (Elt F) → (⟨S2000000, .i32⟩ : BufTy).Contents (Elt F) → (⟨S2000000, .i32⟩ : BufTy).Contents (Elt F))
  :: StableHlo.nullary main_c_54 (constantI S_ 32 0#32)
  :: StableHlo.unary main_c_54 main_v166 (broadcastInDim S2000000 ![] bcast_S_S2000000 : (⟨S_, .i32⟩ : BufTy).Contents (Elt F) → (⟨S2000000, .i32⟩ : BufTy).Contents (Elt F))
  :: StableHlo.binary main_v165 main_v166 main_v167 (cmpi .slt : (⟨S2000000, .i32⟩ : BufTy).Contents (Elt F) → (⟨S2000000, .i32⟩ : BufTy).Contents (Elt F) → (⟨S2000000, .i1⟩ : BufTy).Contents (Elt F))
  :: StableHlo.nullary main_c_55 (constantI S_ 32 2000000#32)
  :: StableHlo.unary main_c_55 main_v168 (broadcastInDim S2000000 ![] bcast_S_S2000000 : (⟨S_, .i32⟩ : BufTy).Contents (Elt F) → (⟨S2000000, .i32⟩ : BufTy).Contents (Elt F))
  :: StableHlo.binary main_v165 main_v168 main_v169 (addi : (⟨S2000000, .i32⟩ : BufTy).Contents (Elt F) → (⟨S2000000, .i32⟩ : BufTy).Contents (Elt F) → (⟨S2000000, .i32⟩ : BufTy).Contents (Elt F))
  :: StableHlo.ternary main_v167 main_v169 main_v165 main_v170 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F))
  :: StableHlo.unary main_v170 main_v171 (broadcastInDim S2000000x1 ![0] bcast_S2000000_S2000000x1_0 : (⟨S2000000, .i32⟩ : BufTy).Contents (Elt F) → (⟨S2000000x1, .i32⟩ : BufTy).Contents (Elt F))
  :: StableHlo.binary main_v43 main_v171 main_v172 ((fun x i => Host.gather gather_S2000000x3_S2000000x1_S2000000x3_1_0_n_n_0_1_13 x i) : (⟨S2000000x3, .i32⟩ : BufTy).Contents (Elt F) → (⟨S2000000x1, .i32⟩ : BufTy).Contents (Elt F) → (⟨S2000000x3, .i32⟩ : BufTy).Contents (Elt F))
  :: StableHlo.unary main_v172 main_v173 (Host.reverse [1] : (⟨S2000000x3, .i32⟩ : BufTy).Contents (Elt F) → (⟨S2000000x3, .i32⟩ : BufTy).Contents (Elt F))
  :: StableHlo.nullary main_c_56 (constantI S_ 32 0#32)
  :: StableHlo.unary main_c_56 main_v174 (broadcastInDim S60000x3 ![] bcast_S_S60000x3 : (⟨S_, .i32⟩ : BufTy).Contents (Elt F) → (⟨S60000x3, .i32⟩ : BufTy).Contents (Elt F))
  :: StableHlo.nullary main_c_57 (constantI S_ 32 0#32)
  :: StableHlo.unary main_c_57 main_v175 (broadcastInDim S2000000 ![] bcast_S_S2000000 : (⟨S_, .i32⟩ : BufTy).Contents (Elt F) → (⟨S2000000, .i32⟩ : BufTy).Contents (Elt F))
  :: StableHlo.binary main_v153 main_v175 main_v176 (cmpi .slt : (⟨S2000000, .i32⟩ : BufTy).Contents (Elt F) → (⟨S2000000, .i32⟩ : BufTy).Contents (Elt F) → (⟨S2000000, .i1⟩ : BufTy).Contents (Elt F))
  :: StableHlo.nullary main_c_58 (constantI S_ 32 60000#32)
  :: StableHlo.unary main_c_58 main_v177 (broadcastInDim S2000000 ![] bcast_S_S2000000 : (⟨S_, .i32⟩ : BufTy).Contents (Elt F) → (⟨S2000000, .i32⟩ : BufTy).Contents (Elt F))
  :: StableHlo.binary main_v153 main_v177 main_v178 (addi : (⟨S2000000, .i32⟩ : BufTy).Contents (Elt F) → (⟨S2000000, .i32⟩ : BufTy).Contents (Elt F) → (⟨S2000000, .i32⟩ : BufTy).Contents (Elt F))
  :: StableHlo.ternary main_v176 main_v178 main_v153 main_v179 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F))
  :: StableHlo.unary main_v179 main_v180 (broadcastInDim S2000000x1 ![0] bcast_S2000000_S2000000x1_0 : (⟨S2000000, .i32⟩ : BufTy).Contents (Elt F) → (⟨S2000000x1, .i32⟩ : BufTy).Contents (Elt F))
  :: StableHlo.ternary main_v174 main_v180 main_v173 main_v181 ((fun x i u => Host.scatter scatter_S60000x3_S2000000x1_S2000000x3_1_0_0_1 (fun _ b => b) x i u) : (⟨S60000x3, .i32⟩ : BufTy).Contents (Elt F) → (⟨S2000000x1, .i32⟩ : BufTy).Contents (Elt F) → (⟨S2000000x3, .i32⟩ : BufTy).Contents (Elt F) → (⟨S60000x3, .i32⟩ : BufTy).Contents (Elt F))
  :: StableHlo.unary main_v88 main_v182 ((extui 32 · natLt_1_32) : (⟨S2000000, .i1⟩ : BufTy).Contents (Elt F) → (⟨S2000000, .i32⟩ : BufTy).Contents (Elt F))
  :: StableHlo.nullary main_c_59 (constantI S_ 32 0#32)
  :: StableHlo.binary main_v182 main_c_59 main_v183 ((fun x v => Host.reduce IntOp.addi x v reducesTo_S2000000_S_d0 h_S_) : (⟨S2000000, .i32⟩ : BufTy).Contents (Elt F) → (⟨S_, .i32⟩ : BufTy).Contents (Elt F) → (⟨S_, .i32⟩ : BufTy).Contents (Elt F))
  :: StableHlo.nullary main_c_60 (constantI S_ 32 60000#32)
  :: StableHlo.binary main_v183 main_c_60 main_v184 (minsi : (⟨S_, .i32⟩ : BufTy).Contents (Elt F) → (⟨S_, .i32⟩ : BufTy).Contents (Elt F) → (⟨S_, .i32⟩ : BufTy).Contents (Elt F))
  :: [] )

/-- The line after `opsPre`, stretch by stretch. -/
abbrev opsTail : List (List (HloOp τ sig (Elt F))) :=
  [opsT1, opsT2, opsT3, opsT4, opsT5, opsT6, opsT7, opsT8, opsT9, opsT10, opsT11, opsT12, opsT13]

/-- @main's operations, in order. -/
abbrev ops : List (HloOp τ sig (Elt F)) := opsPre ++ opsTail.flatten

end Cert.ReferenceIdeal.Hand

end
-- ==== Proof.RefRun.lean ====
/-
  The reference program's run. Its @main is a straight line of host operations (the lists of RefOps, the outlined
  functions' bodies unfolded at their calls), so the whole run is the fold of the operations' results over the launch
  contents: every weakly fair execution terminates with each TensorCore buffer at that fold, and the argument's buffer,
  which no operation writes, is left as it was.
-/
import proofs.«170420_j23845658427974_2_alg».proof.Proof.RefOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## @main is the line -/

-- the two sides are one chain of 265 operation steps, compared step by step
set_option maxRecDepth 65536 in
/-- @main is the line of its operations: sequencing in the free monad computes, a call is the callee's body at the
    call's buffers, and the five windows of @main run one after the other, so both sides unfold to the same chain of
    operation steps ending in the return. -/
theorem main_eq (c : Dev nD) : main (F := F) c = seq ops := rfl

/-! ## A property of every operation, list by list -/

/-- A property of every operation of the line holds if it holds on each of the lists the line is cut into. -/
theorem forall_ops {p : HloOp τ sig (Elt F) → Prop}
    (h0 : (opsPre (F := F)).Forall p) (h1 : (opsT1 (F := F)).Forall p) (h2 : (opsT2 (F := F)).Forall p)
    (h3 : (opsT3 (F := F)).Forall p) (h4 : (opsT4 (F := F)).Forall p) (h5 : (opsT5 (F := F)).Forall p)
    (h6 : (opsT6 (F := F)).Forall p) (h7 : (opsT7 (F := F)).Forall p) (h8 : (opsT8 (F := F)).Forall p)
    (h9 : (opsT9 (F := F)).Forall p) (h10 : (opsT10 (F := F)).Forall p) (h11 : (opsT11 (F := F)).Forall p)
    (h12 : (opsT12 (F := F)).Forall p) (h13 : (opsT13 (F := F)).Forall p) :
    (ops (F := F)).Forall p :=
  List.forall_append.mpr ⟨h0, List.forall_append.mpr ⟨h1, List.forall_append.mpr ⟨h2, List.forall_append.mpr ⟨h3,
    List.forall_append.mpr ⟨h4, List.forall_append.mpr ⟨h5, List.forall_append.mpr ⟨h6, List.forall_append.mpr ⟨h7,
    List.forall_append.mpr ⟨h8, List.forall_append.mpr ⟨h9, List.forall_append.mpr ⟨h10, List.forall_append.mpr ⟨h11,
    List.forall_append.mpr ⟨h12, List.forall_append.mpr ⟨h13, trivial⟩⟩⟩⟩⟩⟩⟩⟩⟩⟩⟩⟩⟩⟩

/-! ## The operations touch TensorCore references only -/

/-- Each operation of a literal list is one of the builders, whose buffers are TensorCore references. -/
macro "bufs_sub_list" : tactic =>
  `(tactic| simp only [List.forall_cons, List.Forall, nullary_bufs_sub, unary_bufs_sub, binary_bufs_sub, ternary_bufs_sub,
      reshape_bufs_sub, and_self])

theorem opsPre_sub : (opsPre : List (HloOp τ sig (Elt F))).Forall fun op => op.bufs ⊆ tcRefs τ sig := by bufs_sub_list
theorem opsT1_sub : (opsT1 : List (HloOp τ sig (Elt F))).Forall fun op => op.bufs ⊆ tcRefs τ sig := by bufs_sub_list
theorem opsT2_sub : (opsT2 : List (HloOp τ sig (Elt F))).Forall fun op => op.bufs ⊆ tcRefs τ sig := by bufs_sub_list
theorem opsT3_sub : (opsT3 : List (HloOp τ sig (Elt F))).Forall fun op => op.bufs ⊆ tcRefs τ sig := by bufs_sub_list
theorem opsT4_sub : (opsT4 : List (HloOp τ sig (Elt F))).Forall fun op => op.bufs ⊆ tcRefs τ sig := by bufs_sub_list
theorem opsT5_sub : (opsT5 : List (HloOp τ sig (Elt F))).Forall fun op => op.bufs ⊆ tcRefs τ sig := by bufs_sub_list
theorem opsT6_sub : (opsT6 : List (HloOp τ sig (Elt F))).Forall fun op => op.bufs ⊆ tcRefs τ sig := by bufs_sub_list
theorem opsT7_sub : (opsT7 : List (HloOp τ sig (Elt F))).Forall fun op => op.bufs ⊆ tcRefs τ sig := by bufs_sub_list
theorem opsT8_sub : (opsT8 : List (HloOp τ sig (Elt F))).Forall fun op => op.bufs ⊆ tcRefs τ sig := by bufs_sub_list
theorem opsT9_sub : (opsT9 : List (HloOp τ sig (Elt F))).Forall fun op => op.bufs ⊆ tcRefs τ sig := by bufs_sub_list
theorem opsT10_sub : (opsT10 : List (HloOp τ sig (Elt F))).Forall fun op => op.bufs ⊆ tcRefs τ sig := by bufs_sub_list
theorem opsT11_sub : (opsT11 : List (HloOp τ sig (Elt F))).Forall fun op => op.bufs ⊆ tcRefs τ sig := by bufs_sub_list
theorem opsT12_sub : (opsT12 : List (HloOp τ sig (Elt F))).Forall fun op => op.bufs ⊆ tcRefs τ sig := by bufs_sub_list
theorem opsT13_sub : (opsT13 : List (HloOp τ sig (Elt F))).Forall fun op => op.bufs ⊆ tcRefs τ sig := by bufs_sub_list

theorem ops_sub : (ops : List (HloOp τ sig (Elt F))).Forall fun op => op.bufs ⊆ tcRefs τ sig :=
  forall_ops opsPre_sub opsT1_sub opsT2_sub opsT3_sub opsT4_sub opsT5_sub opsT6_sub opsT7_sub opsT8_sub opsT9_sub opsT10_sub opsT11_sub opsT12_sub opsT13_sub

/-! ## Every operation determines what it writes -/

/-- No builder of a literal list leaves a written buffer undetermined. -/
macro "fresh_list" : tactic =>
  `(tactic| (simp only [List.forall_cons, List.Forall]
             repeat' apply And.intro
             all_goals rfl))

theorem opsPre_fresh : (opsPre : List (HloOp τ sig (Elt F))).Forall fun op => op.fresh = ∅ := by fresh_list
theorem opsT1_fresh : (opsT1 : List (HloOp τ sig (Elt F))).Forall fun op => op.fresh = ∅ := by fresh_list
theorem opsT2_fresh : (opsT2 : List (HloOp τ sig (Elt F))).Forall fun op => op.fresh = ∅ := by fresh_list
theorem opsT3_fresh : (opsT3 : List (HloOp τ sig (Elt F))).Forall fun op => op.fresh = ∅ := by fresh_list
theorem opsT4_fresh : (opsT4 : List (HloOp τ sig (Elt F))).Forall fun op => op.fresh = ∅ := by fresh_list
theorem opsT5_fresh : (opsT5 : List (HloOp τ sig (Elt F))).Forall fun op => op.fresh = ∅ := by fresh_list
theorem opsT6_fresh : (opsT6 : List (HloOp τ sig (Elt F))).Forall fun op => op.fresh = ∅ := by fresh_list
theorem opsT7_fresh : (opsT7 : List (HloOp τ sig (Elt F))).Forall fun op => op.fresh = ∅ := by fresh_list
theorem opsT8_fresh : (opsT8 : List (HloOp τ sig (Elt F))).Forall fun op => op.fresh = ∅ := by fresh_list
theorem opsT9_fresh : (opsT9 : List (HloOp τ sig (Elt F))).Forall fun op => op.fresh = ∅ := by fresh_list
theorem opsT10_fresh : (opsT10 : List (HloOp τ sig (Elt F))).Forall fun op => op.fresh = ∅ := by fresh_list
theorem opsT11_fresh : (opsT11 : List (HloOp τ sig (Elt F))).Forall fun op => op.fresh = ∅ := by fresh_list
theorem opsT12_fresh : (opsT12 : List (HloOp τ sig (Elt F))).Forall fun op => op.fresh = ∅ := by fresh_list
theorem opsT13_fresh : (opsT13 : List (HloOp τ sig (Elt F))).Forall fun op => op.fresh = ∅ := by fresh_list

theorem ops_fresh : (ops : List (HloOp τ sig (Elt F))).Forall fun op => op.fresh = ∅ :=
  forall_ops opsPre_fresh opsT1_fresh opsT2_fresh opsT3_fresh opsT4_fresh opsT5_fresh opsT6_fresh opsT7_fresh opsT8_fresh opsT9_fresh opsT10_fresh opsT11_fresh opsT12_fresh opsT13_fresh

/-! ## No operation writes the argument -/

/-- Each builder of a literal list writes its one result buffer, a reference other than the argument's. -/
macro "keeps_arg0_list" : tactic =>
  `(tactic| (simp only [List.forall_cons, List.Forall, nullary_writes, unary_writes, binary_writes, ternary_writes, reshape_writes,
      Finset.mem_singleton]
             repeat' apply And.intro
             all_goals exact devRef_ne_of_ne (by decide)))

theorem opsPre_keeps : (opsPre : List (HloOp τ sig (Elt F))).Forall fun op => Proc.devRef (τ := τ) .tc main_arg0 ∉ op.writes := by keeps_arg0_list
theorem opsT1_keeps : (opsT1 : List (HloOp τ sig (Elt F))).Forall fun op => Proc.devRef (τ := τ) .tc main_arg0 ∉ op.writes := by keeps_arg0_list
theorem opsT2_keeps : (opsT2 : List (HloOp τ sig (Elt F))).Forall fun op => Proc.devRef (τ := τ) .tc main_arg0 ∉ op.writes := by keeps_arg0_list
theorem opsT3_keeps : (opsT3 : List (HloOp τ sig (Elt F))).Forall fun op => Proc.devRef (τ := τ) .tc main_arg0 ∉ op.writes := by keeps_arg0_list
theorem opsT4_keeps : (opsT4 : List (HloOp τ sig (Elt F))).Forall fun op => Proc.devRef (τ := τ) .tc main_arg0 ∉ op.writes := by keeps_arg0_list
theorem opsT5_keeps : (opsT5 : List (HloOp τ sig (Elt F))).Forall fun op => Proc.devRef (τ := τ) .tc main_arg0 ∉ op.writes := by keeps_arg0_list
theorem opsT6_keeps : (opsT6 : List (HloOp τ sig (Elt F))).Forall fun op => Proc.devRef (τ := τ) .tc main_arg0 ∉ op.writes := by keeps_arg0_list
theorem opsT7_keeps : (opsT7 : List (HloOp τ sig (Elt F))).Forall fun op => Proc.devRef (τ := τ) .tc main_arg0 ∉ op.writes := by keeps_arg0_list
theorem opsT8_keeps : (opsT8 : List (HloOp τ sig (Elt F))).Forall fun op => Proc.devRef (τ := τ) .tc main_arg0 ∉ op.writes := by keeps_arg0_list
theorem opsT9_keeps : (opsT9 : List (HloOp τ sig (Elt F))).Forall fun op => Proc.devRef (τ := τ) .tc main_arg0 ∉ op.writes := by keeps_arg0_list
theorem opsT10_keeps : (opsT10 : List (HloOp τ sig (Elt F))).Forall fun op => Proc.devRef (τ := τ) .tc main_arg0 ∉ op.writes := by keeps_arg0_list
theorem opsT11_keeps : (opsT11 : List (HloOp τ sig (Elt F))).Forall fun op => Proc.devRef (τ := τ) .tc main_arg0 ∉ op.writes := by keeps_arg0_list
theorem opsT12_keeps : (opsT12 : List (HloOp τ sig (Elt F))).Forall fun op => Proc.devRef (τ := τ) .tc main_arg0 ∉ op.writes := by keeps_arg0_list
theorem opsT13_keeps : (opsT13 : List (HloOp τ sig (Elt F))).Forall fun op => Proc.devRef (τ := τ) .tc main_arg0 ∉ op.writes := by keeps_arg0_list

theorem ops_keeps : (ops : List (HloOp τ sig (Elt F))).Forall fun op => Proc.devRef (τ := τ) .tc main_arg0 ∉ op.writes :=
  forall_ops opsPre_keeps opsT1_keeps opsT2_keeps opsT3_keeps opsT4_keeps opsT5_keeps opsT6_keeps opsT7_keeps opsT8_keeps opsT9_keeps opsT10_keeps opsT11_keeps opsT12_keeps opsT13_keeps

/-- The line leaves the argument's buffer as it was. -/
theorem arg0_kept (V : Valuation τ sig (Elt F)) :
    after ops V (Proc.devRef .tc main_arg0) = V (Proc.devRef .tc main_arg0) :=
  after_of_forall_not_mem ops V (List.forall_iff_forall_mem.mp ops_keeps)

/-! ## The run -/

theorem scopedRefs_eq : (Finset.univ.filter fun b : Ref sig .tc => b.isScoped) = ∅ := by decide
theorem scopedSems_eq : (Finset.univ.filter fun sm : SemLoc sig => sm.isScoped .tc) = ∅ := by decide

/-- At the compiled mesh, for any float values, from any memory with zero counters: every weakly fair execution of
    @main on the TensorCores terminates, and every final state has each TensorCore buffer at the operations' fold over
    the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ
    (fun _ => List.forall_iff_forall_mem.mp ops_fresh)

end Cert.ReferenceIdeal.Hand

end
-- ==== Proof.Bridge.lean ====
/-
  The two idealized programs end with equal results. Both compute, from the argument's points, the voxel coordinates and
  the linear voxel ids — the kernel's program in its launch, tile by tile, the reference on the host — as the same two
  functions of the points; from there both run the same bookkeeping operations on corresponding buffers, so the four results
  agree. Stated here from the two facts it rests on: the bookkeeping operations of the two programs compute equal results
  from equal coordinates, linear ids and points, and the reference's first operations compute those two functions.
-/
import proofs.«170420_j23845658427974_2_alg».proof.Defs
import proofs.«170420_j23845658427974_2_alg».proof.Proof.KValue
import proofs.«170420_j23845658427974_2_alg».proof.Proof.RefRun
import proofs.«170420_j23845658427974_2_alg».proof.Proof.Gen.Pre_finite_inputs

set_option maxRecDepth 16384

noncomputable section

namespace Cert.Bridge

open Idealize.ShloMosaic Idealize.ShloMosaic.TcCoe Idealize.SL.Sem

/-- The two programs' bookkeeping operations compute equal results from equal coordinates, linear ids and points. -/
def TailAgree : Prop :=
  ∀ (W : Valuation Cert.KernelIdeal.τ Cert.KernelIdeal.sig (Elt Ideal)) (W' : Valuation Cert.ReferenceIdeal.τ Cert.ReferenceIdeal.sig (Elt Ideal)),
    W (Proc.devRef .tc Cert.KernelIdeal.main_v3) = W' (Proc.devRef .tc Cert.ReferenceIdeal.main_v8) →
    W (Proc.devRef .tc Cert.KernelIdeal.main_v5) = W' (Proc.devRef .tc Cert.ReferenceIdeal.main_v28) →
    W (Proc.devRef .tc Cert.KernelIdeal.main_arg0) = W' (Proc.devRef .tc Cert.ReferenceIdeal.main_arg0) →
    (StableHlo.after (List.flatten [Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6, Cert.KernelIdeal.Gen.hostOps1_7, Cert.KernelIdeal.Gen.hostOps1_8, Cert.KernelIdeal.Gen.hostOps1_9, Cert.KernelIdeal.Gen.hostOps1_10, Cert.KernelIdeal.Gen.hostOps1_11, Cert.KernelIdeal.Gen.hostOps1_12, Cert.KernelIdeal.Gen.hostOps1_13]) W (Proc.devRef .tc Cert.KernelIdeal.main_v115)
        = StableHlo.after (Cert.ReferenceIdeal.Hand.opsTail (F := Ideal)).flatten W' (Proc.devRef .tc Cert.ReferenceIdeal.main_v138))
    ∧ (StableHlo.after (List.flatten [Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6, Cert.KernelIdeal.Gen.hostOps1_7, Cert.KernelIdeal.Gen.hostOps1_8, Cert.KernelIdeal.Gen.hostOps1_9, Cert.KernelIdeal.Gen.hostOps1_10, Cert.KernelIdeal.Gen.hostOps1_11, Cert.KernelIdeal.Gen.hostOps1_12, Cert.KernelIdeal.Gen.hostOps1_13]) W (Proc.devRef .tc Cert.KernelIdeal.main_v158)
        = StableHlo.after (Cert.ReferenceIdeal.Hand.opsTail (F := Ideal)).flatten W' (Proc.devRef .tc Cert.ReferenceIdeal.main_v181))
    ∧ (StableHlo.after (List.flatten [Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6, Cert.KernelIdeal.Gen.hostOps1_7, Cert.KernelIdeal.Gen.hostOps1_8, Cert.KernelIdeal.Gen.hostOps1_9, Cert.KernelIdeal.Gen.hostOps1_10, Cert.KernelIdeal.Gen.hostOps1_11, Cert.KernelIdeal.Gen.hostOps1_12, Cert.KernelIdeal.Gen.hostOps1_13]) W (Proc.devRef .tc Cert.KernelIdeal.main_v140)
        = StableHlo.after (Cert.ReferenceIdeal.Hand.opsTail (F := Ideal)).flatten W' (Proc.devRef .tc Cert.ReferenceIdeal.main_v163))
    ∧ (StableHlo.after (List.flatten [Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6, Cert.KernelIdeal.Gen.hostOps1_7, Cert.KernelIdeal.Gen.hostOps1_8, Cert.KernelIdeal.Gen.hostOps1_9, Cert.KernelIdeal.Gen.hostOps1_10, Cert.KernelIdeal.Gen.hostOps1_11, Cert.KernelIdeal.Gen.hostOps1_12, Cert.KernelIdeal.Gen.hostOps1_13]) W (Proc.devRef .tc Cert.KernelIdeal.main_v161)
        = StableHlo.after (Cert.ReferenceIdeal.Hand.opsTail (F := Ideal)).flatten W' (Proc.devRef .tc Cert.ReferenceIdeal.main_v184))

/-- The reference's first operations compute the voxel coordinates and the linear ids of the argument's points, and leave
    the argument alone. -/
def RefPre : Prop :=
  (∀ W : Valuation Cert.ReferenceIdeal.τ Cert.ReferenceIdeal.sig (Elt Ideal),
    (StableHlo.after (Cert.ReferenceIdeal.Hand.opsPre (F := Ideal)) W (Proc.devRef .tc Cert.ReferenceIdeal.main_v8) : Cert.ReferenceIdeal.S2000000x3.Idx → BitVec 32)
      = Cert.Vox.coords (F := Ideal) (W (Proc.devRef .tc Cert.ReferenceIdeal.main_arg0)))
  ∧ (∀ W : Valuation Cert.ReferenceIdeal.τ Cert.ReferenceIdeal.sig (Elt Ideal),
    (StableHlo.after (Cert.ReferenceIdeal.Hand.opsPre (F := Ideal)) W (Proc.devRef .tc Cert.ReferenceIdeal.main_v28) : Cert.ReferenceIdeal.S2000000.Idx → BitVec 32)
      = Cert.Vox.linIds (F := Ideal) (W (Proc.devRef .tc Cert.ReferenceIdeal.main_arg0)))
  ∧ (∀ W : Valuation Cert.ReferenceIdeal.τ Cert.ReferenceIdeal.sig (Elt Ideal),
    StableHlo.after (Cert.ReferenceIdeal.Hand.opsPre (F := Ideal)) W (Proc.devRef .tc Cert.ReferenceIdeal.main_arg0) = W (Proc.devRef .tc Cert.ReferenceIdeal.main_arg0))

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- What the kernel's program leaves in a buffer its later operations write, on core `c`. -/
abbrev kOut (c : Dev Cert.KernelIdeal.nD) (b : Ref Cert.KernelIdeal.sig .tc) :=
  Pipeline.afterTail₀ Cert.KernelIdeal.cfgs (Cert.KernelIdeal.Hand.dats m) 0 (Cert.KernelIdeal.Hand.V0 m) Cert.KernelIdeal.Hand.tailOps c b

theorem kOut_eq (c : Dev Cert.KernelIdeal.nD) (b : Ref Cert.KernelIdeal.sig .tc) :
    kOut m c b = StableHlo.after (List.flatten [Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6, Cert.KernelIdeal.Gen.hostOps1_7, Cert.KernelIdeal.Gen.hostOps1_8, Cert.KernelIdeal.Gen.hostOps1_9, Cert.KernelIdeal.Gen.hostOps1_10, Cert.KernelIdeal.Gen.hostOps1_11, Cert.KernelIdeal.Gen.hostOps1_12, Cert.KernelIdeal.Gen.hostOps1_13])
      (StableHlo.after Cert.KernelIdeal.Gen.hostOps1 (Cert.KernelIdeal.Hand.Wk m c)) (Proc.devRef .tc b) := by
  unfold kOut Pipeline.afterTail₀
  rw [show (Cert.KernelIdeal.Hand.tailOps (F := Ideal)).flatten
      = Cert.KernelIdeal.Gen.hostOps1 ++ List.flatten [Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6, Cert.KernelIdeal.Gen.hostOps1_7, Cert.KernelIdeal.Gen.hostOps1_8, Cert.KernelIdeal.Gen.hostOps1_9, Cert.KernelIdeal.Gen.hostOps1_10, Cert.KernelIdeal.Gen.hostOps1_11, Cert.KernelIdeal.Gen.hostOps1_12, Cert.KernelIdeal.Gen.hostOps1_13] from List.flatten_cons, StableHlo.after_append]

theorem rOut_eq (c : Dev Cert.ReferenceIdeal.nD) (b : Ref Cert.ReferenceIdeal.sig .tc) :
    StableHlo.after (Cert.ReferenceIdeal.Hand.ops (F := Ideal)) (StableHlo.launchContents m' c) (Proc.devRef .tc b)
      = StableHlo.after (Cert.ReferenceIdeal.Hand.opsTail (F := Ideal)).flatten
          (StableHlo.after (Cert.ReferenceIdeal.Hand.opsPre (F := Ideal)) (StableHlo.launchContents m' c)) (Proc.devRef .tc b) := by
  rw [show (Cert.ReferenceIdeal.Hand.ops (F := Ideal)) = Cert.ReferenceIdeal.Hand.opsPre ++ (Cert.ReferenceIdeal.Hand.opsTail (F := Ideal)).flatten from rfl, StableHlo.after_append]

/-- From memories agreeing on the argument, the four results agree. -/
theorem results_eq (hs : TailAgree) (hr : RefPre) (c : Dev Cert.KernelIdeal.nD)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    kOut m c Cert.KernelIdeal.main_v115 = StableHlo.after (Cert.ReferenceIdeal.Hand.ops (F := Ideal)) (StableHlo.launchContents m' c) (Proc.devRef .tc Cert.ReferenceIdeal.main_v138)
    ∧ kOut m c Cert.KernelIdeal.main_v158 = StableHlo.after (Cert.ReferenceIdeal.Hand.ops (F := Ideal)) (StableHlo.launchContents m' c) (Proc.devRef .tc Cert.ReferenceIdeal.main_v181)
    ∧ kOut m c Cert.KernelIdeal.main_v140 = StableHlo.after (Cert.ReferenceIdeal.Hand.ops (F := Ideal)) (StableHlo.launchContents m' c) (Proc.devRef .tc Cert.ReferenceIdeal.main_v163)
    ∧ kOut m c Cert.KernelIdeal.main_v161 = StableHlo.after (Cert.ReferenceIdeal.Hand.ops (F := Ideal)) (StableHlo.launchContents m' c) (Proc.devRef .tc Cert.ReferenceIdeal.main_v184) := by
  have hpts : StableHlo.after Cert.KernelIdeal.Gen.hostOps1 (Cert.KernelIdeal.Hand.Wk m c) (Proc.devRef .tc Cert.KernelIdeal.main_arg0)
      = StableHlo.after (Cert.ReferenceIdeal.Hand.opsPre (F := Ideal)) (StableHlo.launchContents m' c) (Proc.devRef .tc Cert.ReferenceIdeal.main_arg0) := by
    rw [Cert.KernelIdeal.Hand.kernel_arg0, hr.2.2]
    exact hag.symm
  have hc : StableHlo.after Cert.KernelIdeal.Gen.hostOps1 (Cert.KernelIdeal.Hand.Wk m c) (Proc.devRef .tc Cert.KernelIdeal.main_v3)
      = StableHlo.after (Cert.ReferenceIdeal.Hand.opsPre (F := Ideal)) (StableHlo.launchContents m' c) (Proc.devRef .tc Cert.ReferenceIdeal.main_v8) := by
    refine (Cert.KernelIdeal.Hand.kernel_coords m c).trans (Eq.trans ?_ (hr.1 _).symm)
    exact congrArg (Cert.Vox.coords (F := Ideal)) hag.symm
  have hlin : StableHlo.after Cert.KernelIdeal.Gen.hostOps1 (Cert.KernelIdeal.Hand.Wk m c) (Proc.devRef .tc Cert.KernelIdeal.main_v5)
      = StableHlo.after (Cert.ReferenceIdeal.Hand.opsPre (F := Ideal)) (StableHlo.launchContents m' c) (Proc.devRef .tc Cert.ReferenceIdeal.main_v28) := by
    refine (Cert.KernelIdeal.Hand.kernel_linIds m c).trans (Eq.trans ?_ (hr.2.1 _).symm)
    exact congrArg (Cert.Vox.linIds (F := Ideal)) hag.symm
  obtain ⟨h0, h1, h2, h3⟩ := hs _ _ hc hlin hpts
  refine ⟨?_, ?_, ?_, ?_⟩
  · rw [kOut_eq, rOut_eq]; exact h0
  · rw [kOut_eq, rOut_eq]; exact h1
  · rw [kOut_eq, rOut_eq]; exact h2
  · rw [kOut_eq, rOut_eq]; exact h3

/-- The algebraic claim, from the two facts. -/
theorem algebraic_of (hs : TailAgree) (hr : RefPre) :
    Cert.algebraic_KernelIdeal_ReferenceIdeal (hKernelIdeal := Cert.KernelIdeal.Gen.facts) (hReferenceIdeal := Cert.ReferenceIdeal.Gen.facts)
      (hPre_finite_inputs := Cert.Pre_finite_inputs.Gen.facts) := by
  intro m ρ m' ρ' _ hagree
  refine ⟨fun c => kOut m c Cert.KernelIdeal.main_v115, fun c => kOut m c Cert.KernelIdeal.main_v158, fun c => kOut m c Cert.KernelIdeal.main_v140,
    fun c => kOut m c Cert.KernelIdeal.main_v161, ?_, ?_⟩
  · exact (θ_run Cert.KernelIdeal.defs _ _).mono (fun r h c =>
      ⟨(h c).2 Cert.KernelIdeal.main_v115 (Pipeline.mem_restRefs_of _ (by decide) (by decide)),
       (h c).2 Cert.KernelIdeal.main_v158 (Pipeline.mem_restRefs_of _ (by decide) (by decide)),
       (h c).2 Cert.KernelIdeal.main_v140 (Pipeline.mem_restRefs_of _ (by decide) (by decide)),
       (h c).2 Cert.KernelIdeal.main_v161 (Pipeline.mem_restRefs_of _ (by decide) (by decide)),
       ((h c).2 Cert.KernelIdeal.main_arg0 (Pipeline.mem_restRefs_of _ (by decide) (by decide))).trans (Cert.KernelIdeal.Hand.W_main_arg0 m _ c)⟩)
      (Cert.KernelIdeal.Hand.run_main (F := Ideal) m ρ)
  · refine (θ_run Cert.ReferenceIdeal.defs _ _).mono (fun r h c => ?_) (Cert.ReferenceIdeal.Hand.run_main (F := Ideal) m' ρ')
    obtain ⟨e0, e1, e2, e3⟩ := results_eq m m' hs hr c (hagree c)
    exact ⟨(h c Cert.ReferenceIdeal.main_v138).trans e0.symm, (h c Cert.ReferenceIdeal.main_v181).trans e1.symm, (h c Cert.ReferenceIdeal.main_v163).trans e2.symm,
      (h c Cert.ReferenceIdeal.main_v184).trans e3.symm, (h c Cert.ReferenceIdeal.main_arg0).trans (Cert.ReferenceIdeal.Hand.arg0_kept _)⟩

end Cert.Bridge

end
-- ==== Proof.LibStretches.lean ====
/-
  Reading a long line of host operations stretch by stretch.

  `after ops V` is the fold of the operations' results over the contents `V`. For a line of a hundred operations the
  fold read at the last buffer, flattened, repeats every shared intermediate once per use and is too large to compare
  with anything. Cut the line into consecutive stretches instead (the library's `StableHlo.after_append`, Lib/Pipeline/Frame.lean:
  the fold over a concatenation is the fold of the second part over the fold of the first): the contents after a stretch are
  the fold of that stretch over the contents before it, and a stretch's result at a buffer depends on those contents
  only at the few buffers the stretch reads — so state each stretch's reading over an ARBITRARY valuation, with those
  few as hypotheses, and chain the readings. Every term then has the size of one stretch.

  The operations of an outlined function (a private `func.call`, printed with typed references) wrap each operand and
  result in a transport along "the buffer's type is the value's type"; both sides of that equation are the same type,
  and `read_stretch` removes the transports by `cast_eq` after the one-pass reader, instead of leaving them to a
  definitional unfolding that has to look every buffer up in the signature's table.

  Also here: the entrywise product of two arrays of extended reals commutes (`mulf_comm`).
-/
import Idealize.ShloMosaic.Lib.StableHlo.Run
import Idealize.ShloMosaic.Lib.Pipeline.Frame
import Idealize.ShloMosaic.PureOps.Ideal

noncomputable section

namespace Cert.Stretches

open Idealize.ShloMosaic Idealize.ShloMosaic.StableHlo

/-- The one-pass reader of a stretch's results, then the transports of an outlined function's typed references removed
    (each is along an equation between two spellings of one type). What is left is an equation between pure terms over the
    incoming valuation at the buffers the stretch reads. -/
macro "read_stretch" : tactic =>
  `(tactic| (after_results_simp; try simp only [TRef.toBuf, TRef.ofBuf, cast_eq]))

/-- The entrywise product of two arrays of extended reals commutes. -/
theorem mulf_comm {s : Shape} (a b : FVec Ideal s .f32) : mulf (F := Ideal) (φ := .f32) a b = mulf (F := Ideal) (φ := .f32) b a :=
  funext fun i => by simp only [mulf, Ideal.mulf_def]; exact mul_comm _ _

end Cert.Stretches

end
-- ==== Proof.RValue.lean ====
/-
  What the reference computes before its bookkeeping, against the per-point specification. The first operations of its
  @main take the points' first three columns, subtract the lower corner, divide by the voxel sizes, take the floor and
  convert to integers: the voxel coordinates; the next ones test each coordinate against 0 and the grid's extent, join
  the six tests by an and-reduction over the three columns from true, form (z * 1600 + y) * 1408 + x and select it where
  the test holds, the sentinel elsewhere: the linear voxel ids. The line is read stretch by stretch (each stretch over an
  arbitrary valuation, the few buffers it reads as they are), the stretches chained, and the resulting terms read at an
  index: a slice, a broadcast or a reshape reads its operand at the corresponding index, the and-reduction over three
  columns is the conjunction of its three entries, and a conjunction of bits may be regrouped.
-/
import proofs.«170420_j23845658427974_2_alg».proof.Proof.RefRun
import proofs.«170420_j23845658427974_2_alg».proof.Proof.VoxSpec
import proofs.«170420_j23845658427974_2_alg».proof.Proof.LibStretches
import Idealize.ShloMosaic.Lib.Pipeline.Value
import Idealize.ShloMosaic.Lib.Pipeline.Frame
import Idealize.ShloMosaic.Lib.ValueIdx
import Idealize.ShloMosaic.Lib.ValueLayout
import Idealize.ShloMosaic.PureOps.Reduce
set_option maxRecDepth 16384

noncomputable section

namespace Cert.ReferenceIdeal.Hand

open Cert.ReferenceIdeal Cert.ReferenceIdeal.Gen Idealize.ShloMosaic Idealize.ShloMosaic.StableHlo
open Idealize.ShloMosaic.ValueIdx Cert.Vox Cert.Stretches

variable {F : FTy → Type} [FloatOps F]

/-- The first twelve operations: from the points to the voxel coordinates. -/
abbrev preA : List (HloOp τ sig (Elt F)) :=
  ( StableHlo.nullary main_cst (fun i => FloatOps.ofBits .f32 (lit0 (S3.rowMajor i)))
  :: StableHlo.nullary main_cst_0 (fun i => FloatOps.ofBits .f32 (lit1 (S3.rowMajor i)))
  :: StableHlo.nullary main_c (fun i => lit2 (S3.rowMajor i))
  :: StableHlo.unary main_arg0 main_v0 ((extractStridedSlice S2000000x3 ![0, 0] · slices_S2000000x4_S2000000x3_0_0) : (⟨S2000000x4, .f32⟩ : BufTy).Contents (Elt F) → (⟨S2000000x3, .f32⟩ : BufTy).Contents (Elt F))
  :: StableHlo.unary main_cst main_v1 (broadcastInDim S1x3 ![1] bcast_S3_S1x3_1 : (⟨S3, .f32⟩ : BufTy).Contents (Elt F) → (⟨S1x3, .f32⟩ : BufTy).Contents (Elt F))
  :: StableHlo.unary main_v1 main_v2 (broadcastInDim S2000000x3 ![0, 1] bcast_S1x3_S2000000x3_0_1 : (⟨S1x3, .f32⟩ : BufTy).Contents (Elt F) → (⟨S2000000x3, .f32⟩ : BufTy).Contents (Elt F))
  :: StableHlo.binary main_v0 main_v2 main_v3 (subf : (⟨S2000000x3, .f32⟩ : BufTy).Contents (Elt F) → (⟨S2000000x3, .f32⟩ : BufTy).Contents (Elt F) → (⟨S2000000x3, .f32⟩ : BufTy).Contents (Elt F))
  :: StableHlo.unary main_cst_0 main_v4 (broadcastInDim S1x3 ![1] bcast_S3_S1x3_1 : (⟨S3, .f32⟩ : BufTy).Contents (Elt F) → (⟨S1x3, .f32⟩ : BufTy).Contents (Elt F))
  :: StableHlo.unary main_v4 main_v5 (broadcastInDim S2000000x3 ![0, 1] bcast_S1x3_S2000000x3_0_1 : (⟨S1x3, .f32⟩ : BufTy).Contents (Elt F) → (⟨S2000000x3, .f32⟩ : BufTy).Contents (Elt F))
  :: StableHlo.binary main_v3 main_v5 main_v6 (Host.divf : (⟨S2000000x3, .f32⟩ : BufTy).Contents (Elt F) → (⟨S2000000x3, .f32⟩ : BufTy).Contents (Elt F) → (⟨S2000000x3, .f32⟩ : BufTy).Contents (Elt F))
  :: StableHlo.unary main_v6 main_v7 (Host.floor : (⟨S2000000x3, .f32⟩ : BufTy).Contents (Elt F) → (⟨S2000000x3, .f32⟩ : BufTy).Contents (Elt F))
  :: StableHlo.unary main_v7 main_v8 (fptosi 32 : (⟨S2000000x3, .f32⟩ : BufTy).Contents (Elt F) → (⟨S2000000x3, .i32⟩ : BufTy).Contents (Elt F))
  :: [] )

/-- The next nine: the in-grid mask. -/
abbrev preB1 : List (HloOp τ sig (Elt F)) :=
  ( StableHlo.nullary main_c_1 (constantI S_ 32 0#32)
  :: StableHlo.unary main_c_1 main_v9 (broadcastInDim S2000000x3 ![] bcast_S_S2000000x3 : (⟨S_, .i32⟩ : BufTy).Contents (Elt F) → (⟨S2000000x3, .i32⟩ : BufTy).Contents (Elt F))
  :: StableHlo.binary main_v8 main_v9 main_v10 (cmpi .sge : (⟨S2000000x3, .i32⟩ : BufTy).Contents (Elt F) → (⟨S2000000x3, .i32⟩ : BufTy).Contents (Elt F) → (⟨S2000000x3, .i1⟩ : BufTy).Contents (Elt F))
  :: StableHlo.unary main_c main_v11 (broadcastInDim S1x3 ![1] bcast_S3_S1x3_1 : (⟨S3, .i32⟩ : BufTy).Contents (Elt F) → (⟨S1x3, .i32⟩ : BufTy).Contents (Elt F))
  :: StableHlo.unary main_v11 main_v12 (broadcastInDim S2000000x3 ![0, 1] bcast_S1x3_S2000000x3_0_1 : (⟨S1x3, .i32⟩ : BufTy).Contents (Elt F) → (⟨S2000000x3, .i32⟩ : BufTy).Contents (Elt F))
  :: StableHlo.binary main_v8 main_v12 main_v13 (cmpi .slt : (⟨S2000000x3, .i32⟩ : BufTy).Contents (Elt F) → (⟨S2000000x3, .i32⟩ : BufTy).Contents (Elt F) → (⟨S2000000x3, .i1⟩ : BufTy).Contents (Elt F))
  :: StableHlo.binary main_v10 main_v13 main_v14 (andi : (⟨S2000000x3, .i1⟩ : BufTy).Contents (Elt F) → (⟨S2000000x3, .i1⟩ : BufTy).Contents (Elt F) → (⟨S2000000x3, .i1⟩ : BufTy).Contents (Elt F))
  :: StableHlo.nullary main_c_2 (constantI S_ 1 1#1)
  :: StableHlo.binary main_v14 main_c_2 main_v15 ((fun x v => Host.reduce IntOp.andi x v reducesTo_S2000000x3_S2000000_d1 h_S_) : (⟨S2000000x3, .i1⟩ : BufTy).Contents (Elt F) → (⟨S_, .i1⟩ : BufTy).Contents (Elt F) → (⟨S2000000, .i1⟩ : BufTy).Contents (Elt F))
  :: [] )

/-- The next eight: (z * 1600 + y). -/
abbrev preB2 : List (HloOp τ sig (Elt F)) :=
  ( StableHlo.unary main_v8 main_v16 ((extractStridedSlice S2000000x1 ![0, 2] · slices_S2000000x3_S2000000x1_0_2) : (⟨S2000000x3, .i32⟩ : BufTy).Contents (Elt F) → (⟨S2000000x1, .i32⟩ : BufTy).Contents (Elt F))
  :: StableHlo.reshape main_v16 main_v17 rfl shapeCasts_S2000000x1_S2000000
  :: StableHlo.nullary main_c_3 (constantI S_ 32 1600#32)
  :: StableHlo.unary main_c_3 main_v18 (broadcastInDim S2000000 ![] bcast_S_S2000000 : (⟨S_, .i32⟩ : BufTy).Contents (Elt F) → (⟨S2000000, .i32⟩ : BufTy).Contents (Elt F))
  :: StableHlo.binary main_v17 main_v18 main_v19 (muli : (⟨S2000000, .i32⟩ : BufTy).Contents (Elt F) → (⟨S2000000, .i32⟩ : BufTy).Contents (Elt F) → (⟨S2000000, .i32⟩ : BufTy).Contents (Elt F))
  :: StableHlo.unary main_v8 main_v20 ((extractStridedSlice S2000000x1 ![0, 1] · slices_S2000000x3_S2000000x1_0_1) : (⟨S2000000x3, .i32⟩ : BufTy).Contents (Elt F) → (⟨S2000000x1, .i32⟩ : BufTy).Contents (Elt F))
  :: StableHlo.reshape main_v20 main_v21 rfl shapeCasts_S2000000x1_S2000000
  :: StableHlo.binary main_v19 main_v21 main_v22 (addi : (⟨S2000000, .i32⟩ : BufTy).Contents (Elt F) → (⟨S2000000, .i32⟩ : BufTy).Contents (Elt F) → (⟨S2000000, .i32⟩ : BufTy).Contents (Elt F))
  :: [] )

/-- The next six: (…) * 1408 + x. -/
abbrev preB3 : List (HloOp τ sig (Elt F)) :=
  ( StableHlo.nullary main_c_4 (constantI S_ 32 1408#32)
  :: StableHlo.unary main_c_4 main_v23 (broadcastInDim S2000000 ![] bcast_S_S2000000 : (⟨S_, .i32⟩ : BufTy).Contents (Elt F) → (⟨S2000000, .i32⟩ : BufTy).Contents (Elt F))
  :: StableHlo.binary main_v22 main_v23 main_v24 (muli : (⟨S2000000, .i32⟩ : BufTy).Contents (Elt F) → (⟨S2000000, .i32⟩ : BufTy).Contents (Elt F) → (⟨S2000000, .i32⟩ : BufTy).Contents (Elt F))
  :: StableHlo.unary main_v8 main_v25 ((extractStridedSlice S2000000x1 ![0, 0] · slices_S2000000x3_S2000000x1_0_0) : (⟨S2000000x3, .i32⟩ : BufTy).Contents (Elt F) → (⟨S2000000x1, .i32⟩ : BufTy).Contents (Elt F))
  :: StableHlo.reshape main_v25 main_v26 rfl shapeCasts_S2000000x1_S2000000
  :: StableHlo.binary main_v24 main_v26 main_v27 (addi : (⟨S2000000, .i32⟩ : BufTy).Contents (Elt F) → (⟨S2000000, .i32⟩ : BufTy).Contents (Elt F) → (⟨S2000000, .i32⟩ : BufTy).Contents (Elt F))
  :: [] )

/-- The last four: the sentinel and the selection. -/
abbrev preB4 : List (HloOp τ sig (Elt F)) :=
  ( StableHlo.nullary main_c_5 (constantI S_ 32 90112000#32)
  :: StableHlo.TRef.unary (.of main_c_5 : StableHlo.TRef sig ⟨S_, .i32⟩) main_call0.v0 id
  :: StableHlo.TRef.unary main_call0.v0 main_call0.v1 (broadcastInDim S2000000 ![] bcast_S_S2000000)
  :: StableHlo.TRef.ternary (.of main_v15 : StableHlo.TRef sig ⟨S2000000, .i1⟩) (.of main_v27 : StableHlo.TRef sig ⟨S2000000, .i32⟩) main_call0.v1 main_call0.v2 select
  :: [] )

/-- `opsPre` is its five stretches, one after the other. -/
theorem opsPre_cut : (opsPre : List (HloOp τ sig (Elt F))) = preA ++ (preB1 ++ (preB2 ++ (preB3 ++ preB4))) := rfl

/-! ## The stretches' results as terms -/

/-- The reference's voxel coordinates as a term of the points: floor((points[:, :3] - lo) / size) converted to integers. -/
def cTerm (A : FVec F S2000000x4 .f32) : IVec S2000000x3 32 :=
  fptosi 32 (Host.floor (Host.divf
    (subf (extractStridedSlice S2000000x3 ![0, 0] A slices_S2000000x4_S2000000x3_0_0)
      (broadcastInDim S2000000x3 ![0, 1] bcast_S1x3_S2000000x3_0_1 (broadcastInDim S1x3 ![1] bcast_S3_S1x3_1
        (fun i => FloatOps.ofBits .f32 (lit0 (S3.rowMajor i))))))
    (broadcastInDim S2000000x3 ![0, 1] bcast_S1x3_S2000000x3_0_1 (broadcastInDim S1x3 ![1] bcast_S3_S1x3_1
      (fun i => FloatOps.ofBits .f32 (lit1 (S3.rowMajor i)))))))

/-- The in-grid mask as a term of the coordinates `C` and the grid's extents `L`: the conjunction over a point's three
    coordinates of (0 ≤ c) ∧ (c < extent). -/
def maskTerm (C : IVec S2000000x3 32) (L : IVec S3 32) : IVec S2000000 1 :=
  Host.reduce IntOp.andi
    (andi (cmpi .sge C (broadcastInDim S2000000x3 ![] bcast_S_S2000000x3 (constantI S_ 32 0#32)))
      (cmpi .slt C (broadcastInDim S2000000x3 ![0, 1] bcast_S1x3_S2000000x3_0_1 (broadcastInDim S1x3 ![1] bcast_S3_S1x3_1 L))))
    (constantI S_ 1 1#1) reducesTo_S2000000x3_S2000000_d1 h_S_

/-- z * 1600 + y, entrywise. -/
def lin2Term (C : IVec S2000000x3 32) : IVec S2000000 32 :=
  addi (muli (shapeCast S2000000 (extractStridedSlice S2000000x1 ![0, 2] C slices_S2000000x3_S2000000x1_0_2) shapeCasts_S2000000x1_S2000000)
      (broadcastInDim S2000000 ![] bcast_S_S2000000 (constantI S_ 32 1600#32)))
    (shapeCast S2000000 (extractStridedSlice S2000000x1 ![0, 1] C slices_S2000000x3_S2000000x1_0_1) shapeCasts_S2000000x1_S2000000)

/-- X * 1408 + x, entrywise. -/
def lin3Term (C : IVec S2000000x3 32) (X : IVec S2000000 32) : IVec S2000000 32 :=
  addi (muli X (broadcastInDim S2000000 ![] bcast_S_S2000000 (constantI S_ 32 1408#32)))
    (shapeCast S2000000 (extractStridedSlice S2000000x1 ![0, 0] C slices_S2000000x3_S2000000x1_0_0) shapeCasts_S2000000x1_S2000000)

/-- The linear id where the mask holds, the sentinel elsewhere. -/
def selTerm (M : IVec S2000000 1) (X : IVec S2000000 32) : IVec S2000000 32 :=
  select M X (broadcastInDim S2000000 ![] bcast_S_S2000000 (id (constantI S_ 32 90112000#32)))

/-! ## Each stretch read over an arbitrary valuation -/

theorem readA (W : Valuation τ sig (Elt F)) :
    after preA W (Proc.devRef .tc main_v8) = cTerm (W (Proc.devRef .tc main_arg0)) := by
  read_stretch
  all_goals rfl

theorem readA_c (W : Valuation τ sig (Elt F)) :
    after preA W (Proc.devRef .tc main_c) = (fun i => lit2 (S3.rowMajor i) : IVec S3 32) := by
  read_stretch
  all_goals rfl

attribute [local irreducible] Host.reduce in
theorem readB1 (V : Valuation τ sig (Elt F)) :
    after preB1 V (Proc.devRef .tc main_v15) = maskTerm (V (Proc.devRef .tc main_v8)) (V (Proc.devRef .tc main_c)) := by
  read_stretch
  all_goals rfl

theorem readB2 (V : Valuation τ sig (Elt F)) :
    after preB2 V (Proc.devRef .tc main_v22) = lin2Term (V (Proc.devRef .tc main_v8)) := by
  read_stretch
  all_goals rfl

theorem readB3 (V : Valuation τ sig (Elt F)) :
    after preB3 V (Proc.devRef .tc main_v27) = lin3Term (V (Proc.devRef .tc main_v8)) (V (Proc.devRef .tc main_v22)) := by
  read_stretch
  all_goals rfl

theorem readB4 (V : Valuation τ sig (Elt F)) :
    after preB4 V (Proc.devRef .tc main_v28) = selTerm (V (Proc.devRef .tc main_v15)) (V (Proc.devRef .tc main_v27)) := by
  read_stretch
  all_goals rfl

/-! ## What a stretch leaves alone -/

/-- A stretch none of whose operations writes a buffer leaves it as it was. -/
theorem keep_of {l : List (HloOp τ sig (Elt F))} {r : Ref sig .tc}
    (h : l.Forall fun op => Proc.devRef (τ := τ) .tc r ∉ op.writes) (V : Valuation τ sig (Elt F)) :
    after l V (Proc.devRef .tc r) = V (Proc.devRef .tc r) :=
  after_of_forall_not_mem l V (List.forall_iff_forall_mem.mp h)

theorem keepB1_v8 (V : Valuation τ sig (Elt F)) : after preB1 V (Proc.devRef .tc main_v8) = V (Proc.devRef .tc main_v8) :=
  keep_of (by keeps_arg0_list) V
theorem keepB2_v8 (V : Valuation τ sig (Elt F)) : after preB2 V (Proc.devRef .tc main_v8) = V (Proc.devRef .tc main_v8) :=
  keep_of (by keeps_arg0_list) V
theorem keepB3_v8 (V : Valuation τ sig (Elt F)) : after preB3 V (Proc.devRef .tc main_v8) = V (Proc.devRef .tc main_v8) :=
  keep_of (by keeps_arg0_list) V
theorem keepB4_v8 (V : Valuation τ sig (Elt F)) : after preB4 V (Proc.devRef .tc main_v8) = V (Proc.devRef .tc main_v8) :=
  keep_of (by keeps_arg0_list) V
theorem keepB2_v15 (V : Valuation τ sig (Elt F)) : after preB2 V (Proc.devRef .tc main_v15) = V (Proc.devRef .tc main_v15) :=
  keep_of (by keeps_arg0_list) V
theorem keepB3_v15 (V : Valuation τ sig (Elt F)) : after preB3 V (Proc.devRef .tc main_v15) = V (Proc.devRef .tc main_v15) :=
  keep_of (by keeps_arg0_list) V
theorem keepB1_c (V : Valuation τ sig (Elt F)) : after preB1 V (Proc.devRef .tc main_c) = V (Proc.devRef .tc main_c) :=
  keep_of (by keeps_arg0_list) V

/-! ## The stretches chained -/

/-- The coordinates after the whole of `opsPre`: written by its first stretch, kept by the rest. -/
theorem pre_v8 (W : Valuation τ sig (Elt F)) :
    after opsPre W (Proc.devRef .tc main_v8) = cTerm (W (Proc.devRef .tc main_arg0)) := by
  rw [opsPre_cut, StableHlo.after_append preA, StableHlo.after_append preB1, StableHlo.after_append preB2,
    StableHlo.after_append preB3, keepB4_v8, keepB3_v8, keepB2_v8, keepB1_v8, readA]

/-- The linear ids after the whole of `opsPre`, as a term of the coordinates. -/
theorem pre_v28 (W : Valuation τ sig (Elt F)) :
    after opsPre W (Proc.devRef .tc main_v28)
      = selTerm (maskTerm (cTerm (W (Proc.devRef .tc main_arg0))) (fun i => lit2 (S3.rowMajor i)))
          (lin3Term (cTerm (W (Proc.devRef .tc main_arg0))) (lin2Term (cTerm (W (Proc.devRef .tc main_arg0))))) := by
  rw [opsPre_cut, StableHlo.after_append preA, StableHlo.after_append preB1, StableHlo.after_append preB2,
    StableHlo.after_append preB3, readB4, keepB3_v15, keepB2_v15, readB1, readB3, keepB2_v8, keepB1_v8, readB2, keepB1_v8,
    readA, readA_c]

/-! ## The terms read index by index -/

/-- A row of three entries broadcast to every point reads, at (p, k), the row's entry k. -/
theorem row_bcast_at {α : Type} (v : S3.Idx → α) (p : Fin 2000000) (k : Fin 3) :
    broadcastInDim S2000000x3 ![0, 1] bcast_S1x3_S2000000x3_0_1 (broadcastInDim S1x3 ![1] bcast_S3_S1x3_1 v)
      (ix2 (n0 := 2000000) (n1 := 3) p k) = v (ix1 k) := by
  refine (broadcastInDim_apply _ _ _ _ (ix2 (n0 := 1) (n1 := 3) (0 : Fin 1) k) ?_).trans ?_
  · intro a
    match a with
    | ⟨0, _⟩ => rfl
    | ⟨1, _⟩ => rfl
  · refine (broadcastInDim_apply _ _ _ _ (ix1 k) ?_).trans rfl
    intro a
    match a with
    | ⟨0, _⟩ => rfl

/-- Column `o` of the coordinates, as the reshaped one-column slice, reads at p the coordinate (p, o). -/
theorem col_at (C : IVec S2000000x3 32) (o : Nat) (ho : o < 3) (hs : S2000000x3.Slices ![0, o] S2000000x1) (p : Fin 2000000) :
    shapeCast S2000000 (extractStridedSlice S2000000x1 ![0, o] C hs) shapeCasts_S2000000x1_S2000000 (ix1 p)
      = C (ix2 (n0 := 2000000) (n1 := 3) p ⟨o, ho⟩) := by
  refine (shapeCast_apply _ _ (ix1 p) (ix2 (n0 := 2000000) (n1 := 1) p (0 : Fin 1)) ?_).trans ?_
  · rw [Shape.rowMajor_val_two, Shape.rowMajor_val_one]
    show p.val * 1 + 0 = p.val
    omega
  · exact slice2_axis1_apply o C hs p (0 : Fin 1) ⟨o, ho⟩ rfl

/-- The reference's coordinate k of point p is the shared specification's. -/
theorem cTerm_at (A : FVec Ideal S2000000x4 .f32) (p : Fin 2000000) (k : Fin 3) :
    cTerm (F := Ideal) A (ix2 (n0 := 2000000) (n1 := 3) p k)
      = voxRow (F := Ideal) k.val (A (ix2 (n0 := 2000000) (n1 := 4) p 0)) (A (ix2 (n0 := 2000000) (n1 := 4) p 1))
          (A (ix2 (n0 := 2000000) (n1 := 4) p 2)) := by
  have h : cTerm (F := Ideal) A (ix2 (n0 := 2000000) (n1 := 3) p k)
      = cellHost (F := Ideal) (lit0 (S3.rowMajor (ix1 k))) (lit1 (S3.rowMajor (ix1 k)))
          (A (ix2 (n0 := 2000000) (n1 := 4) p ⟨k.val, by omega⟩)) := by
    unfold cTerm cellHost
    show FloatOps.fptosi 32 (FloatOps.hostUnary .floor (FloatOps.hostDivf (FloatOps.subf
        (extractStridedSlice S2000000x3 ![0, 0] A slices_S2000000x4_S2000000x3_0_0 (ix2 (n0 := 2000000) (n1 := 3) p k))
        (broadcastInDim S2000000x3 ![0, 1] bcast_S1x3_S2000000x3_0_1 (broadcastInDim S1x3 ![1] bcast_S3_S1x3_1
          (fun i => FloatOps.ofBits .f32 (lit0 (S3.rowMajor i)))) (ix2 (n0 := 2000000) (n1 := 3) p k)))
        (broadcastInDim S2000000x3 ![0, 1] bcast_S1x3_S2000000x3_0_1 (broadcastInDim S1x3 ![1] bcast_S3_S1x3_1
          (fun i => FloatOps.ofBits .f32 (lit1 (S3.rowMajor i)))) (ix2 (n0 := 2000000) (n1 := 3) p k)))) = _
    rw [row_bcast_at, row_bcast_at,
      slice2_axis1_apply 0 A slices_S2000000x4_S2000000x3_0_0 p k ⟨k.val, by omega⟩ (by simp)]
  rw [h, cellHost_eq]
  match k with
  | ⟨0, _⟩ => rfl
  | ⟨1, _⟩ => rfl
  | ⟨2, _⟩ => rfl

/-- (z * 1600 + y) * 1408 + x at point p. -/
theorem lin_at (C : IVec S2000000x3 32) (p : Fin 2000000) :
    lin3Term C (lin2Term C) (ix1 p)
      = IntOp.addi (IntOp.muli (IntOp.addi (IntOp.muli (C (ix2 (n0 := 2000000) (n1 := 3) p 2)) 1600#32)
          (C (ix2 (n0 := 2000000) (n1 := 3) p 1))) 1408#32) (C (ix2 (n0 := 2000000) (n1 := 3) p 0)) := by
  unfold lin3Term lin2Term
  show IntOp.addi (IntOp.muli (IntOp.addi (IntOp.muli
      (shapeCast S2000000 (extractStridedSlice S2000000x1 ![0, 2] C slices_S2000000x3_S2000000x1_0_2) shapeCasts_S2000000x1_S2000000 (ix1 p))
      (broadcastInDim S2000000 ![] bcast_S_S2000000 (constantI S_ 32 1600#32) (ix1 p)))
      (shapeCast S2000000 (extractStridedSlice S2000000x1 ![0, 1] C slices_S2000000x3_S2000000x1_0_1) shapeCasts_S2000000x1_S2000000 (ix1 p)))
      (broadcastInDim S2000000 ![] bcast_S_S2000000 (constantI S_ 32 1408#32) (ix1 p)))
      (shapeCast S2000000 (extractStridedSlice S2000000x1 ![0, 0] C slices_S2000000x3_S2000000x1_0_0) shapeCasts_S2000000x1_S2000000 (ix1 p)) = _
  rw [col_at C 2 (by omega), col_at C 1 (by omega), col_at C 0 (by omega)]
  rfl

/-- Point p with the coordinate k inserted on axis 1 is the index (p, k). -/
theorem lift_eq (h : S2000000x3.Reduces [1] S2000000) (p : Fin 2000000) (k : Fin 3) :
    h.lift (ix1 p) k = ix2 (n0 := 2000000) (n1 := 3) p k := by
  funext c
  apply Fin.ext
  show h.liftVal (ix1 p) k.val c = _
  unfold Shape.Reduces.liftVal
  match c with
  | ⟨0, _⟩ => rfl
  | ⟨1, _⟩ => rfl

/-- A commutative and associative fold over three coordinates, written out. -/
theorem fold3 {β : Type} (op : β → β → β) [Std.Commutative op] [Std.Associative op] (b : β) (g : Fin 3 → β) :
    (Finset.univ : Finset (Fin 3)).fold op b g = op (g 0) (op (g 1) (op (g 2) b)) := by
  rw [show (Finset.univ : Finset (Fin 3)) = insert 0 (insert 1 {2}) by decide,
    Finset.fold_insert (by decide), Finset.fold_insert (by decide), Finset.fold_singleton]

/-- An and-reduction over a point's three coordinates, from true, written out. -/
theorem reduce_and_at (M : IVec S2000000x3 1) (p : Fin 2000000) :
    Host.reduce IntOp.andi M (constantI S_ 1 1#1) reducesTo_S2000000x3_S2000000_d1 h_S_ (ix1 p)
      = IntOp.andi (M (ix2 (n0 := 2000000) (n1 := 3) p 0)) (IntOp.andi (M (ix2 (n0 := 2000000) (n1 := 3) p 1))
          (IntOp.andi (M (ix2 (n0 := 2000000) (n1 := 3) p 2)) 1#1)) := by
  have hR : S2000000x3.Reduces [1] S2000000 := by decide
  rw [Host.reduce_eq_fold_single IntOp.andi M _ reducesTo_S2000000x3_S2000000_d1 hR h_S_ (ix1 p)]
  refine (fold3 IntOp.andi _ (M ∘ hR.lift (ix1 p))).trans ?_
  show IntOp.andi (M (hR.lift (ix1 p) (0 : Fin 3))) (IntOp.andi (M (hR.lift (ix1 p) (1 : Fin 3)))
      (IntOp.andi (M (hR.lift (ix1 p) (2 : Fin 3))) _)) = _
  rw [lift_eq hR p 0, lift_eq hR p 1, lift_eq hR p 2]
  rfl

/-- The mask at point p: the conjunction over its three coordinates, from true. -/
theorem mask_at (C : IVec S2000000x3 32) (L : IVec S3 32) (p : Fin 2000000) :
    maskTerm C L (ix1 p)
      = IntOp.andi (IntOp.andi (IntOp.cmpi .sge (C (ix2 (n0 := 2000000) (n1 := 3) p 0)) 0#32) (IntOp.cmpi .slt (C (ix2 (n0 := 2000000) (n1 := 3) p 0)) (L (ix1 0))))
        (IntOp.andi (IntOp.andi (IntOp.cmpi .sge (C (ix2 (n0 := 2000000) (n1 := 3) p 1)) 0#32) (IntOp.cmpi .slt (C (ix2 (n0 := 2000000) (n1 := 3) p 1)) (L (ix1 1))))
          (IntOp.andi (IntOp.andi (IntOp.cmpi .sge (C (ix2 (n0 := 2000000) (n1 := 3) p 2)) 0#32) (IntOp.cmpi .slt (C (ix2 (n0 := 2000000) (n1 := 3) p 2)) (L (ix1 2))))
            1#1)) := by
  unfold maskTerm
  rw [reduce_and_at]
  show IntOp.andi (IntOp.andi (IntOp.cmpi .sge (C (ix2 (n0 := 2000000) (n1 := 3) p 0)) 0#32) (IntOp.cmpi .slt (C (ix2 (n0 := 2000000) (n1 := 3) p 0))
      (broadcastInDim S2000000x3 ![0, 1] bcast_S1x3_S2000000x3_0_1 (broadcastInDim S1x3 ![1] bcast_S3_S1x3_1 L) (ix2 (n0 := 2000000) (n1 := 3) p 0))))
    (IntOp.andi (IntOp.andi (IntOp.cmpi .sge (C (ix2 (n0 := 2000000) (n1 := 3) p 1)) 0#32) (IntOp.cmpi .slt (C (ix2 (n0 := 2000000) (n1 := 3) p 1))
      (broadcastInDim S2000000x3 ![0, 1] bcast_S1x3_S2000000x3_0_1 (broadcastInDim S1x3 ![1] bcast_S3_S1x3_1 L) (ix2 (n0 := 2000000) (n1 := 3) p 1))))
    (IntOp.andi (IntOp.andi (IntOp.cmpi .sge (C (ix2 (n0 := 2000000) (n1 := 3) p 2)) 0#32) (IntOp.cmpi .slt (C (ix2 (n0 := 2000000) (n1 := 3) p 2))
      (broadcastInDim S2000000x3 ![0, 1] bcast_S1x3_S2000000x3_0_1 (broadcastInDim S1x3 ![1] bcast_S3_S1x3_1 L) (ix2 (n0 := 2000000) (n1 := 3) p 2))))
      1#1)) = _
  rw [row_bcast_at, row_bcast_at, row_bcast_at]

/-- The conjunction of three pairs from true is the six-fold conjunction grouped from the left. -/
theorem and6 (x0 y0 x1 y1 x2 y2 : BitVec 1) :
    IntOp.andi (IntOp.andi x0 y0) (IntOp.andi (IntOp.andi x1 y1) (IntOp.andi (IntOp.andi x2 y2) 1#1))
      = IntOp.andi (IntOp.andi (IntOp.andi (IntOp.andi (IntOp.andi x0 y0) x1) y1) x2) y2 := by
  unfold IntOp.andi
  rw [show (1#1 : BitVec 1) = BitVec.allOnes 1 from rfl, BitVec.and_allOnes]
  ac_rfl

/-- The selection at an index: the mask's bit chooses between the entry and the sentinel. -/
theorem selTerm_at (M : IVec S2000000 1) (X : IVec S2000000 32) (j : S2000000.Idx) :
    selTerm M X j = Scalar.select (M j) (X j) 90112000#32 := rfl

/-- The selected linear id at point p is the shared specification's row 3. -/
theorem sel_at (A : FVec Ideal S2000000x4 .f32) (p : Fin 2000000) :
    selTerm (maskTerm (cTerm (F := Ideal) A) (fun i => lit2 (S3.rowMajor i)))
        (lin3Term (cTerm (F := Ideal) A) (lin2Term (cTerm (F := Ideal) A))) (ix1 p)
      = voxRow (F := Ideal) 3 (A (ix2 (n0 := 2000000) (n1 := 4) p 0)) (A (ix2 (n0 := 2000000) (n1 := 4) p 1))
          (A (ix2 (n0 := 2000000) (n1 := 4) p 2)) := by
  rw [selTerm_at, mask_at, lin_at, cTerm_at A p 0, cTerm_at A p 1, cTerm_at A p 2, and6]
  rfl

/-! ## What `opsPre` computes, against the shared specification -/

/-- The reference's coordinates are the specification's: at (p, k), coordinate k of point p. -/
theorem ref_coords (W : Valuation τ sig (Elt Ideal)) :
    (after (opsPre (F := Ideal)) W (Proc.devRef .tc main_v8) : S2000000x3.Idx → BitVec 32)
      = Cert.Vox.coords (F := Ideal) (W (Proc.devRef .tc main_arg0)) := by
  rw [pre_v8]
  funext j
  obtain ⟨p, k, rfl⟩ : ∃ (p : Fin 2000000) (k : Fin 3), j = ix2 p k := ⟨j 0, j 1, eq_ix2 j⟩
  exact cTerm_at _ p k

/-- The reference's linear ids are the specification's. -/
theorem ref_linIds (W : Valuation τ sig (Elt Ideal)) :
    (after (opsPre (F := Ideal)) W (Proc.devRef .tc main_v28) : S2000000.Idx → BitVec 32)
      = Cert.Vox.linIds (F := Ideal) (W (Proc.devRef .tc main_arg0)) := by
  rw [pre_v28]
  funext j
  obtain ⟨p, rfl⟩ : ∃ p : Fin 2000000, j = ix1 p := ⟨j 0, eq_ix1 j⟩
  exact sel_at _ p

/-- No operation of `opsPre` writes the argument. -/
theorem pre_arg0 (W : Valuation τ sig (Elt Ideal)) :
    after (opsPre (F := Ideal)) W (Proc.devRef .tc main_arg0) = W (Proc.devRef .tc main_arg0) :=
  keep_of opsPre_keeps W

end Cert.ReferenceIdeal.Hand
end
-- ==== Proof.TailSimDims.lean ====
/-
  The two programs name the same dimension records and the same sort comparator.

  Each program declares its own copy of the records that give a gather's and a scatter's dimension numbers, and of the
  comparator of its sorts (signed "less than" on the keys). The copies have the same fields over the same shapes, so
  they are equal by unfolding both. Stated once here, the equations let a comparison of the two programs' operations
  replace one program's record by the other's instead of unfolding the operation that takes it.
-/
import proofs.«170420_j23845658427974_2_alg».proof.Proof.Gen.KernelIdeal
import proofs.«170420_j23845658427974_2_alg».proof.Proof.Gen.ReferenceIdeal

namespace Cert.TailSim

/-- The sorts' comparator: signed "less than" on the first components, in both programs. -/
theorem comparator_eq : Cert.KernelIdeal.comparator_i32_i32_d0 = Cert.ReferenceIdeal.comparator_i32_i32_d0 := rfl

/-- The dimension numbers of a gather (S2000000, S2000000x1, S2000000: operand, indices, result), in both programs. -/
theorem gather_eq_1 : Cert.KernelIdeal.gather_S2000000_S2000000x1_S2000000_n_0_n_n_0_1_1 = Cert.ReferenceIdeal.gather_S2000000_S2000000x1_S2000000_n_0_n_n_0_1_1 := rfl

/-- The dimension numbers of a gather (S2000000x3, S2000000x1, S2000000x3: operand, indices, result), in both programs. -/
theorem gather_eq_2 : Cert.KernelIdeal.gather_S2000000x3_S2000000x1_S2000000x3_1_0_n_n_0_1_13 = Cert.ReferenceIdeal.gather_S2000000x3_S2000000x1_S2000000x3_1_0_n_n_0_1_13 := rfl

/-- The dimension numbers of a gather (S2000000x4, S2000000x1, S2000000x4: operand, indices, result), in both programs. -/
theorem gather_eq_3 : Cert.KernelIdeal.gather_S2000000x4_S2000000x1_S2000000x4_1_0_n_n_0_1_14 = Cert.ReferenceIdeal.gather_S2000000x4_S2000000x1_S2000000x4_1_0_n_n_0_1_14 := rfl

/-- The dimension numbers of a scatter (S2000000, S2000000x1, S2000000: operand, indices, updates), in both programs. -/
theorem scatter_eq_4 : Cert.KernelIdeal.scatter_S2000000_S2000000x1_S2000000_n_0_0_1 = Cert.ReferenceIdeal.scatter_S2000000_S2000000x1_S2000000_n_0_0_1 := rfl

/-- The dimension numbers of a scatter (S60000x35x4, S2000000x2, S2000000x4: operand, indices, updates), in both programs. -/
theorem scatter_eq_5 : Cert.KernelIdeal.scatter_S60000x35x4_S2000000x2_S2000000x4_1_01_01_1 = Cert.ReferenceIdeal.scatter_S60000x35x4_S2000000x2_S2000000x4_1_01_01_1 := rfl

/-- The dimension numbers of a scatter (S60000, S2000000x1, S2000000: operand, indices, updates), in both programs. -/
theorem scatter_eq_6 : Cert.KernelIdeal.scatter_S60000_S2000000x1_S2000000_n_0_0_1 = Cert.ReferenceIdeal.scatter_S60000_S2000000x1_S2000000_n_0_0_1 := rfl

/-- The dimension numbers of a scatter (S60000x3, S2000000x1, S2000000x3: operand, indices, updates), in both programs. -/
theorem scatter_eq_7 : Cert.KernelIdeal.scatter_S60000x3_S2000000x1_S2000000x3_1_0_0_1 = Cert.ReferenceIdeal.scatter_S60000x3_S2000000x1_S2000000x3_1_0_0_1 := rfl

end Cert.TailSim
-- ==== Proof.LibConcat2.lean ====
/-
  The concatenation of two arrays as a function of the two arrays.

  The library states a concatenation over a LIST of shape-array pairs, with a side condition whose type mentions the
  list (the list's shapes laid end to end give the result shape). A rewriting pass therefore does not enter the list:
  changing an array in it would change the type of the side condition that follows. `concat2` is the same function with
  the two arrays as plain arguments after the side condition, which then only mentions the two shapes; a concatenation
  of a two-pair list is a `concat2` by definition (`concatenate_pair`), and in that form its operands can be rewritten.
-/
import Idealize.ShloMosaic.PureOps

namespace Cert.Concat2

open Idealize.ShloMosaic

variable {α : Type}

/-- The arrays `x` (of shape `s₁`) and `y` (of shape `s₂`) laid end to end along axis `a` of the shape `t`. -/
def concat2 (t : Shape) (a : Fin t.rank) (s₁ s₂ : Shape) (h : Shape.Concatenates [s₁, s₂] t a)
    (x : s₁.Idx → α) (y : s₂.Idx → α) : t.Idx → α :=
  concatenate t a [⟨s₁, x⟩, ⟨s₂, y⟩] h

/-- A concatenation of two shape-array pairs is `concat2` of the two arrays. -/
theorem concatenate_pair (t : Shape) (a : Fin t.rank) (s₁ s₂ : Shape) (h : Shape.Concatenates [s₁, s₂] t a)
    (x : s₁.Idx → α) (y : s₂.Idx → α) :
    concatenate t a [⟨s₁, x⟩, ⟨s₂, y⟩] h = concat2 t a s₁ s₂ h x y := rfl

end Cert.Concat2
-- ==== Proof.TailSim1.lean ====
/-
  Stretch 1 of the two programs' shared line of host operations (3 operations): from contents that agree at the
  buffer pairs live into the stretch, the contents after it agree at the pairs live out of it. Each side is read as a
  pure term over the incoming contents; the two terms apply the same functions to corresponding operands.
-/
import proofs.«170420_j23845658427974_2_alg».proof.Proof.Gen.KernelIdeal.Launch
import proofs.«170420_j23845658427974_2_alg».proof.Proof.RefOps
import proofs.«170420_j23845658427974_2_alg».proof.Proof.Gen.ReferenceIdeal
import proofs.«170420_j23845658427974_2_alg».proof.Proof.LibStretches
import proofs.«170420_j23845658427974_2_alg».proof.Proof.TailSimDims
import proofs.«170420_j23845658427974_2_alg».proof.Proof.LibConcat2

noncomputable section

namespace Cert.TailSim

open Idealize.ShloMosaic Idealize.ShloMosaic.StableHlo Cert.Stretches Cert.Concat2

section

variable (W : Valuation Cert.KernelIdeal.τ Cert.KernelIdeal.sig (Elt Ideal)) (W' : Valuation Cert.ReferenceIdeal.τ Cert.ReferenceIdeal.sig (Elt Ideal))
    (h_arg0 : W (Proc.devRef .tc Cert.KernelIdeal.main_arg0) = W' (Proc.devRef .tc Cert.ReferenceIdeal.main_arg0))
    (h_v3 : W (Proc.devRef .tc Cert.KernelIdeal.main_v3) = W' (Proc.devRef .tc Cert.ReferenceIdeal.main_v8))
    (h_v5 : W (Proc.devRef .tc Cert.KernelIdeal.main_v5) = W' (Proc.devRef .tc Cert.ReferenceIdeal.main_v28))
include h_arg0 h_v3 h_v5

/-- Stretch 1 read at main_arg0 and at main_arg0. -/
theorem stretch_1_arg0 :
      (StableHlo.after (Cert.KernelIdeal.Gen.hostOps1_1 (F := Ideal)) W (Proc.devRef .tc Cert.KernelIdeal.main_arg0)
        = StableHlo.after (Cert.ReferenceIdeal.Hand.opsT1 (F := Ideal)) W' (Proc.devRef .tc Cert.ReferenceIdeal.main_arg0)) := by
  read_stretch <;> (try (simp only [concatenate_pair] <;> read_stretch)) <;> (try simp only [h_arg0, h_v3, h_v5, comparator_eq, gather_eq_1, gather_eq_2, gather_eq_3, scatter_eq_4, scatter_eq_5, scatter_eq_6, scatter_eq_7])
    <;> (first | with_reducible rfl | rfl)

/-- Stretch 1 read at main_v3 and at main_v8. -/
theorem stretch_1_v3 :
      (StableHlo.after (Cert.KernelIdeal.Gen.hostOps1_1 (F := Ideal)) W (Proc.devRef .tc Cert.KernelIdeal.main_v3)
        = StableHlo.after (Cert.ReferenceIdeal.Hand.opsT1 (F := Ideal)) W' (Proc.devRef .tc Cert.ReferenceIdeal.main_v8)) := by
  read_stretch <;> (try (simp only [concatenate_pair] <;> read_stretch)) <;> (try simp only [h_arg0, h_v3, h_v5, comparator_eq, gather_eq_1, gather_eq_2, gather_eq_3, scatter_eq_4, scatter_eq_5, scatter_eq_6, scatter_eq_7])
    <;> (first | with_reducible rfl | rfl)

/-- Stretch 1 read at main_v5 and at main_v28. -/
theorem stretch_1_v5 :
      (StableHlo.after (Cert.KernelIdeal.Gen.hostOps1_1 (F := Ideal)) W (Proc.devRef .tc Cert.KernelIdeal.main_v5)
        = StableHlo.after (Cert.ReferenceIdeal.Hand.opsT1 (F := Ideal)) W' (Proc.devRef .tc Cert.ReferenceIdeal.main_v28)) := by
  read_stretch <;> (try (simp only [concatenate_pair] <;> read_stretch)) <;> (try simp only [h_arg0, h_v3, h_v5, comparator_eq, gather_eq_1, gather_eq_2, gather_eq_3, scatter_eq_4, scatter_eq_5, scatter_eq_6, scatter_eq_7])
    <;> (first | with_reducible rfl | rfl)

/-- Stretch 1 read at main_v6 and at main_v29. -/
theorem stretch_1_v6 :
      (StableHlo.after (Cert.KernelIdeal.Gen.hostOps1_1 (F := Ideal)) W (Proc.devRef .tc Cert.KernelIdeal.main_v6)
        = StableHlo.after (Cert.ReferenceIdeal.Hand.opsT1 (F := Ideal)) W' (Proc.devRef .tc Cert.ReferenceIdeal.main_v29)) := by
  read_stretch <;> (try (simp only [concatenate_pair] <;> read_stretch)) <;> (try simp only [h_arg0, h_v3, h_v5, comparator_eq, gather_eq_1, gather_eq_2, gather_eq_3, scatter_eq_4, scatter_eq_5, scatter_eq_6, scatter_eq_7])
    <;> (first | with_reducible rfl | rfl)

/-- Stretch 1: agreement at the pairs live in gives agreement at the pairs live out. -/
theorem stretch_1 :
      (StableHlo.after (Cert.KernelIdeal.Gen.hostOps1_1 (F := Ideal)) W (Proc.devRef .tc Cert.KernelIdeal.main_arg0)
        = StableHlo.after (Cert.ReferenceIdeal.Hand.opsT1 (F := Ideal)) W' (Proc.devRef .tc Cert.ReferenceIdeal.main_arg0)) ∧
      (StableHlo.after (Cert.KernelIdeal.Gen.hostOps1_1 (F := Ideal)) W (Proc.devRef .tc Cert.KernelIdeal.main_v3)
        = StableHlo.after (Cert.ReferenceIdeal.Hand.opsT1 (F := Ideal)) W' (Proc.devRef .tc Cert.ReferenceIdeal.main_v8)) ∧
      (StableHlo.after (Cert.KernelIdeal.Gen.hostOps1_1 (F := Ideal)) W (Proc.devRef .tc Cert.KernelIdeal.main_v5)
        = StableHlo.after (Cert.ReferenceIdeal.Hand.opsT1 (F := Ideal)) W' (Proc.devRef .tc Cert.ReferenceIdeal.main_v28)) ∧
      (StableHlo.after (Cert.KernelIdeal.Gen.hostOps1_1 (F := Ideal)) W (Proc.devRef .tc Cert.KernelIdeal.main_v6)
        = StableHlo.after (Cert.ReferenceIdeal.Hand.opsT1 (F := Ideal)) W' (Proc.devRef .tc Cert.ReferenceIdeal.main_v29)) :=
  ⟨stretch_1_arg0 W W' h_arg0 h_v3 h_v5,
   stretch_1_v3 W W' h_arg0 h_v3 h_v5,
   stretch_1_v5 W W' h_arg0 h_v3 h_v5,
   stretch_1_v6 W W' h_arg0 h_v3 h_v5⟩

end

end Cert.TailSim

end
-- ==== Proof.TailSim2.lean ====
/-
  Stretch 2 of the two programs' shared line of host operations (33 operations): from contents that agree at the
  buffer pairs live into the stretch, the contents after it agree at the pairs live out of it. Each side is read as a
  pure term over the incoming contents; the two terms apply the same functions to corresponding operands.
-/
import proofs.«170420_j23845658427974_2_alg».proof.Proof.Gen.KernelIdeal.Launch
import proofs.«170420_j23845658427974_2_alg».proof.Proof.RefOps
import proofs.«170420_j23845658427974_2_alg».proof.Proof.Gen.ReferenceIdeal
import proofs.«170420_j23845658427974_2_alg».proof.Proof.LibStretches
import proofs.«170420_j23845658427974_2_alg».proof.Proof.TailSimDims
import proofs.«170420_j23845658427974_2_alg».proof.Proof.LibConcat2

noncomputable section

namespace Cert.TailSim

open Idealize.ShloMosaic Idealize.ShloMosaic.StableHlo Cert.Stretches Cert.Concat2

section

variable (W : Valuation Cert.KernelIdeal.τ Cert.KernelIdeal.sig (Elt Ideal)) (W' : Valuation Cert.ReferenceIdeal.τ Cert.ReferenceIdeal.sig (Elt Ideal))
    (h_arg0 : W (Proc.devRef .tc Cert.KernelIdeal.main_arg0) = W' (Proc.devRef .tc Cert.ReferenceIdeal.main_arg0))
    (h_v3 : W (Proc.devRef .tc Cert.KernelIdeal.main_v3) = W' (Proc.devRef .tc Cert.ReferenceIdeal.main_v8))
    (h_v5 : W (Proc.devRef .tc Cert.KernelIdeal.main_v5) = W' (Proc.devRef .tc Cert.ReferenceIdeal.main_v28))
    (h_v6 : W (Proc.devRef .tc Cert.KernelIdeal.main_v6) = W' (Proc.devRef .tc Cert.ReferenceIdeal.main_v29))
include h_arg0 h_v3 h_v5 h_v6

/-- Stretch 2 read at main_v6 and at main_v29. -/
theorem stretch_2_v6 :
      (StableHlo.after (Cert.KernelIdeal.Gen.hostOps1_2 (F := Ideal)) W (Proc.devRef .tc Cert.KernelIdeal.main_v6)
        = StableHlo.after (Cert.ReferenceIdeal.Hand.opsT2 (F := Ideal)) W' (Proc.devRef .tc Cert.ReferenceIdeal.main_v29)) := by
  read_stretch <;> (try (simp only [concatenate_pair] <;> read_stretch)) <;> (try simp only [h_arg0, h_v3, h_v5, h_v6, comparator_eq, gather_eq_1, gather_eq_2, gather_eq_3, scatter_eq_4, scatter_eq_5, scatter_eq_6, scatter_eq_7])
    <;> (first | with_reducible rfl | rfl)

/-- Stretch 2 read at main_v13 and at main_v36. -/
theorem stretch_2_v13 :
      (StableHlo.after (Cert.KernelIdeal.Gen.hostOps1_2 (F := Ideal)) W (Proc.devRef .tc Cert.KernelIdeal.main_v13)
        = StableHlo.after (Cert.ReferenceIdeal.Hand.opsT2 (F := Ideal)) W' (Proc.devRef .tc Cert.ReferenceIdeal.main_v36)) := by
  read_stretch <;> (try (simp only [concatenate_pair] <;> read_stretch)) <;> (try simp only [h_arg0, h_v3, h_v5, h_v6, comparator_eq, gather_eq_1, gather_eq_2, gather_eq_3, scatter_eq_4, scatter_eq_5, scatter_eq_6, scatter_eq_7])
    <;> (first | with_reducible rfl | rfl)

/-- Stretch 2 read at main_v20 and at main_v43. -/
theorem stretch_2_v20 :
      (StableHlo.after (Cert.KernelIdeal.Gen.hostOps1_2 (F := Ideal)) W (Proc.devRef .tc Cert.KernelIdeal.main_v20)
        = StableHlo.after (Cert.ReferenceIdeal.Hand.opsT2 (F := Ideal)) W' (Proc.devRef .tc Cert.ReferenceIdeal.main_v43)) := by
  read_stretch <;> (try (simp only [concatenate_pair] <;> read_stretch)) <;> (try simp only [h_arg0, h_v3, h_v5, h_v6, comparator_eq, gather_eq_1, gather_eq_2, gather_eq_3, scatter_eq_4, scatter_eq_5, scatter_eq_6, scatter_eq_7])
    <;> (first | with_reducible rfl | rfl)

/-- Stretch 2 read at main_v27 and at main_v50. -/
theorem stretch_2_v27 :
      (StableHlo.after (Cert.KernelIdeal.Gen.hostOps1_2 (F := Ideal)) W (Proc.devRef .tc Cert.KernelIdeal.main_v27)
        = StableHlo.after (Cert.ReferenceIdeal.Hand.opsT2 (F := Ideal)) W' (Proc.devRef .tc Cert.ReferenceIdeal.main_v50)) := by
  read_stretch <;> (try (simp only [concatenate_pair] <;> read_stretch)) <;> (try simp only [h_arg0, h_v3, h_v5, h_v6, comparator_eq, gather_eq_1, gather_eq_2, gather_eq_3, scatter_eq_4, scatter_eq_5, scatter_eq_6, scatter_eq_7])
    <;> (first | with_reducible rfl | rfl)

/-- Stretch 2 read at main_v32 and at main_v55. -/
theorem stretch_2_v32 :
      (StableHlo.after (Cert.KernelIdeal.Gen.hostOps1_2 (F := Ideal)) W (Proc.devRef .tc Cert.KernelIdeal.main_v32)
        = StableHlo.after (Cert.ReferenceIdeal.Hand.opsT2 (F := Ideal)) W' (Proc.devRef .tc Cert.ReferenceIdeal.main_v55)) := by
  read_stretch <;> (try (simp only [concatenate_pair] <;> read_stretch)) <;> (try simp only [h_arg0, h_v3, h_v5, h_v6, comparator_eq, gather_eq_1, gather_eq_2, gather_eq_3, scatter_eq_4, scatter_eq_5, scatter_eq_6, scatter_eq_7])
    <;> (first | with_reducible rfl | rfl)

/-- Stretch 2: agreement at the pairs live in gives agreement at the pairs live out. -/
theorem stretch_2 :
      (StableHlo.after (Cert.KernelIdeal.Gen.hostOps1_2 (F := Ideal)) W (Proc.devRef .tc Cert.KernelIdeal.main_v6)
        = StableHlo.after (Cert.ReferenceIdeal.Hand.opsT2 (F := Ideal)) W' (Proc.devRef .tc Cert.ReferenceIdeal.main_v29)) ∧
      (StableHlo.after (Cert.KernelIdeal.Gen.hostOps1_2 (F := Ideal)) W (Proc.devRef .tc Cert.KernelIdeal.main_v13)
        = StableHlo.after (Cert.ReferenceIdeal.Hand.opsT2 (F := Ideal)) W' (Proc.devRef .tc Cert.ReferenceIdeal.main_v36)) ∧
      (StableHlo.after (Cert.KernelIdeal.Gen.hostOps1_2 (F := Ideal)) W (Proc.devRef .tc Cert.KernelIdeal.main_v20)
        = StableHlo.after (Cert.ReferenceIdeal.Hand.opsT2 (F := Ideal)) W' (Proc.devRef .tc Cert.ReferenceIdeal.main_v43)) ∧
      (StableHlo.after (Cert.KernelIdeal.Gen.hostOps1_2 (F := Ideal)) W (Proc.devRef .tc Cert.KernelIdeal.main_v27)
        = StableHlo.after (Cert.ReferenceIdeal.Hand.opsT2 (F := Ideal)) W' (Proc.devRef .tc Cert.ReferenceIdeal.main_v50)) ∧
      (StableHlo.after (Cert.KernelIdeal.Gen.hostOps1_2 (F := Ideal)) W (Proc.devRef .tc Cert.KernelIdeal.main_v32)
        = StableHlo.after (Cert.ReferenceIdeal.Hand.opsT2 (F := Ideal)) W' (Proc.devRef .tc Cert.ReferenceIdeal.main_v55)) :=
  ⟨stretch_2_v6 W W' h_arg0 h_v3 h_v5 h_v6,
   stretch_2_v13 W W' h_arg0 h_v3 h_v5 h_v6,
   stretch_2_v20 W W' h_arg0 h_v3 h_v5 h_v6,
   stretch_2_v27 W W' h_arg0 h_v3 h_v5 h_v6,
   stretch_2_v32 W W' h_arg0 h_v3 h_v5 h_v6⟩

end

end Cert.TailSim

end
-- ==== Proof.TailSim3.lean ====
/-
  Stretch 3 of the two programs' shared line of host operations (4 operations): from contents that agree at the
  buffer pairs live into the stretch, the contents after it agree at the pairs live out of it. Each side is read as a
  pure term over the incoming contents; the two terms apply the same functions to corresponding operands.
-/
import proofs.«170420_j23845658427974_2_alg».proof.Proof.Gen.KernelIdeal.Launch
import proofs.«170420_j23845658427974_2_alg».proof.Proof.RefOps
import proofs.«170420_j23845658427974_2_alg».proof.Proof.Gen.ReferenceIdeal
import proofs.«170420_j23845658427974_2_alg».proof.Proof.LibStretches
import proofs.«170420_j23845658427974_2_alg».proof.Proof.TailSimDims
import proofs.«170420_j23845658427974_2_alg».proof.Proof.LibConcat2

noncomputable section

namespace Cert.TailSim

open Idealize.ShloMosaic Idealize.ShloMosaic.StableHlo Cert.Stretches Cert.Concat2

section

variable (W : Valuation Cert.KernelIdeal.τ Cert.KernelIdeal.sig (Elt Ideal)) (W' : Valuation Cert.ReferenceIdeal.τ Cert.ReferenceIdeal.sig (Elt Ideal))
    (h_v6 : W (Proc.devRef .tc Cert.KernelIdeal.main_v6) = W' (Proc.devRef .tc Cert.ReferenceIdeal.main_v29))
    (h_v13 : W (Proc.devRef .tc Cert.KernelIdeal.main_v13) = W' (Proc.devRef .tc Cert.ReferenceIdeal.main_v36))
    (h_v20 : W (Proc.devRef .tc Cert.KernelIdeal.main_v20) = W' (Proc.devRef .tc Cert.ReferenceIdeal.main_v43))
    (h_v27 : W (Proc.devRef .tc Cert.KernelIdeal.main_v27) = W' (Proc.devRef .tc Cert.ReferenceIdeal.main_v50))
    (h_v32 : W (Proc.devRef .tc Cert.KernelIdeal.main_v32) = W' (Proc.devRef .tc Cert.ReferenceIdeal.main_v55))
include h_v6 h_v13 h_v20 h_v27 h_v32

/-- Stretch 3 read at main_v6 and at main_v29. -/
theorem stretch_3_v6 :
      (StableHlo.after (Cert.KernelIdeal.Gen.hostOps1_3 (F := Ideal)) W (Proc.devRef .tc Cert.KernelIdeal.main_v6)
        = StableHlo.after (Cert.ReferenceIdeal.Hand.opsT3 (F := Ideal)) W' (Proc.devRef .tc Cert.ReferenceIdeal.main_v29)) := by
  read_stretch <;> (try (simp only [concatenate_pair] <;> read_stretch)) <;> (try simp only [h_v6, h_v13, h_v20, h_v27, h_v32, comparator_eq, gather_eq_1, gather_eq_2, gather_eq_3, scatter_eq_4, scatter_eq_5, scatter_eq_6, scatter_eq_7])
    <;> (first | with_reducible rfl | rfl)

/-- Stretch 3 read at main_v13 and at main_v36. -/
theorem stretch_3_v13 :
      (StableHlo.after (Cert.KernelIdeal.Gen.hostOps1_3 (F := Ideal)) W (Proc.devRef .tc Cert.KernelIdeal.main_v13)
        = StableHlo.after (Cert.ReferenceIdeal.Hand.opsT3 (F := Ideal)) W' (Proc.devRef .tc Cert.ReferenceIdeal.main_v36)) := by
  read_stretch <;> (try (simp only [concatenate_pair] <;> read_stretch)) <;> (try simp only [h_v6, h_v13, h_v20, h_v27, h_v32, comparator_eq, gather_eq_1, gather_eq_2, gather_eq_3, scatter_eq_4, scatter_eq_5, scatter_eq_6, scatter_eq_7])
    <;> (first | with_reducible rfl | rfl)

/-- Stretch 3 read at main_v20 and at main_v43. -/
theorem stretch_3_v20 :
      (StableHlo.after (Cert.KernelIdeal.Gen.hostOps1_3 (F := Ideal)) W (Proc.devRef .tc Cert.KernelIdeal.main_v20)
        = StableHlo.after (Cert.ReferenceIdeal.Hand.opsT3 (F := Ideal)) W' (Proc.devRef .tc Cert.ReferenceIdeal.main_v43)) := by
  read_stretch <;> (try (simp only [concatenate_pair] <;> read_stretch)) <;> (try simp only [h_v6, h_v13, h_v20, h_v27, h_v32, comparator_eq, gather_eq_1, gather_eq_2, gather_eq_3, scatter_eq_4, scatter_eq_5, scatter_eq_6, scatter_eq_7])
    <;> (first | with_reducible rfl | rfl)

/-- Stretch 3 read at main_v27 and at main_v50. -/
theorem stretch_3_v27 :
      (StableHlo.after (Cert.KernelIdeal.Gen.hostOps1_3 (F := Ideal)) W (Proc.devRef .tc Cert.KernelIdeal.main_v27)
        = StableHlo.after (Cert.ReferenceIdeal.Hand.opsT3 (F := Ideal)) W' (Proc.devRef .tc Cert.ReferenceIdeal.main_v50)) := by
  read_stretch <;> (try (simp only [concatenate_pair] <;> read_stretch)) <;> (try simp only [h_v6, h_v13, h_v20, h_v27, h_v32, comparator_eq, gather_eq_1, gather_eq_2, gather_eq_3, scatter_eq_4, scatter_eq_5, scatter_eq_6, scatter_eq_7])
    <;> (first | with_reducible rfl | rfl)

/-- Stretch 3 read at main_v33 and at main_v56. -/
theorem stretch_3_v33 :
      (StableHlo.after (Cert.KernelIdeal.Gen.hostOps1_3 (F := Ideal)) W (Proc.devRef .tc Cert.KernelIdeal.main_v33)
        = StableHlo.after (Cert.ReferenceIdeal.Hand.opsT3 (F := Ideal)) W' (Proc.devRef .tc Cert.ReferenceIdeal.main_v56)) := by
  read_stretch <;> (try (simp only [concatenate_pair] <;> read_stretch)) <;> (try simp only [h_v6, h_v13, h_v20, h_v27, h_v32, comparator_eq, gather_eq_1, gather_eq_2, gather_eq_3, scatter_eq_4, scatter_eq_5, scatter_eq_6, scatter_eq_7])
    <;> (first | with_reducible rfl | rfl)

/-- Stretch 3: agreement at the pairs live in gives agreement at the pairs live out. -/
theorem stretch_3 :
      (StableHlo.after (Cert.KernelIdeal.Gen.hostOps1_3 (F := Ideal)) W (Proc.devRef .tc Cert.KernelIdeal.main_v6)
        = StableHlo.after (Cert.ReferenceIdeal.Hand.opsT3 (F := Ideal)) W' (Proc.devRef .tc Cert.ReferenceIdeal.main_v29)) ∧
      (StableHlo.after (Cert.KernelIdeal.Gen.hostOps1_3 (F := Ideal)) W (Proc.devRef .tc Cert.KernelIdeal.main_v13)
        = StableHlo.after (Cert.ReferenceIdeal.Hand.opsT3 (F := Ideal)) W' (Proc.devRef .tc Cert.ReferenceIdeal.main_v36)) ∧
      (StableHlo.after (Cert.KernelIdeal.Gen.hostOps1_3 (F := Ideal)) W (Proc.devRef .tc Cert.KernelIdeal.main_v20)
        = StableHlo.after (Cert.ReferenceIdeal.Hand.opsT3 (F := Ideal)) W' (Proc.devRef .tc Cert.ReferenceIdeal.main_v43)) ∧
      (StableHlo.after (Cert.KernelIdeal.Gen.hostOps1_3 (F := Ideal)) W (Proc.devRef .tc Cert.KernelIdeal.main_v27)
        = StableHlo.after (Cert.ReferenceIdeal.Hand.opsT3 (F := Ideal)) W' (Proc.devRef .tc Cert.ReferenceIdeal.main_v50)) ∧
      (StableHlo.after (Cert.KernelIdeal.Gen.hostOps1_3 (F := Ideal)) W (Proc.devRef .tc Cert.KernelIdeal.main_v33)
        = StableHlo.after (Cert.ReferenceIdeal.Hand.opsT3 (F := Ideal)) W' (Proc.devRef .tc Cert.ReferenceIdeal.main_v56)) :=
  ⟨stretch_3_v6 W W' h_v6 h_v13 h_v20 h_v27 h_v32,
   stretch_3_v13 W W' h_v6 h_v13 h_v20 h_v27 h_v32,
   stretch_3_v20 W W' h_v6 h_v13 h_v20 h_v27 h_v32,
   stretch_3_v27 W W' h_v6 h_v13 h_v20 h_v27 h_v32,
   stretch_3_v33 W W' h_v6 h_v13 h_v20 h_v27 h_v32⟩

end

end Cert.TailSim

end
-- ==== Proof.TailSim4.lean ====
/-
  Stretch 4 of the two programs' shared line of host operations (45 operations): from contents that agree at the
  buffer pairs live into the stretch, the contents after it agree at the pairs live out of it. Each side is read as a
  pure term over the incoming contents; the two terms apply the same functions to corresponding operands.
-/
import proofs.«170420_j23845658427974_2_alg».proof.Proof.Gen.KernelIdeal.Launch
import proofs.«170420_j23845658427974_2_alg».proof.Proof.RefOps
import proofs.«170420_j23845658427974_2_alg».proof.Proof.Gen.ReferenceIdeal
import proofs.«170420_j23845658427974_2_alg».proof.Proof.LibStretches
import proofs.«170420_j23845658427974_2_alg».proof.Proof.TailSimDims
import proofs.«170420_j23845658427974_2_alg».proof.Proof.LibConcat2

noncomputable section

namespace Cert.TailSim

open Idealize.ShloMosaic Idealize.ShloMosaic.StableHlo Cert.Stretches Cert.Concat2

section

variable (W : Valuation Cert.KernelIdeal.τ Cert.KernelIdeal.sig (Elt Ideal)) (W' : Valuation Cert.ReferenceIdeal.τ Cert.ReferenceIdeal.sig (Elt Ideal))
    (h_v6 : W (Proc.devRef .tc Cert.KernelIdeal.main_v6) = W' (Proc.devRef .tc Cert.ReferenceIdeal.main_v29))
    (h_v13 : W (Proc.devRef .tc Cert.KernelIdeal.main_v13) = W' (Proc.devRef .tc Cert.ReferenceIdeal.main_v36))
    (h_v20 : W (Proc.devRef .tc Cert.KernelIdeal.main_v20) = W' (Proc.devRef .tc Cert.ReferenceIdeal.main_v43))
    (h_v27 : W (Proc.devRef .tc Cert.KernelIdeal.main_v27) = W' (Proc.devRef .tc Cert.ReferenceIdeal.main_v50))
    (h_v33 : W (Proc.devRef .tc Cert.KernelIdeal.main_v33) = W' (Proc.devRef .tc Cert.ReferenceIdeal.main_v56))
include h_v6 h_v13 h_v20 h_v27 h_v33

/-- Stretch 4 read at main_c_18 and at main_c_25. -/
theorem stretch_4_c_18 :
      (StableHlo.after (Cert.KernelIdeal.Gen.hostOps1_4 (F := Ideal)) W (Proc.devRef .tc Cert.KernelIdeal.main_c_18)
        = StableHlo.after (Cert.ReferenceIdeal.Hand.opsT4 (F := Ideal)) W' (Proc.devRef .tc Cert.ReferenceIdeal.main_c_25)) := by
  read_stretch <;> (try (simp only [concatenate_pair] <;> read_stretch)) <;> (try simp only [h_v6, h_v13, h_v20, h_v27, h_v33, comparator_eq, gather_eq_1, gather_eq_2, gather_eq_3, scatter_eq_4, scatter_eq_5, scatter_eq_6, scatter_eq_7])
    <;> (first | with_reducible rfl | rfl)

/-- Stretch 4 read at main_v13 and at main_v36. -/
theorem stretch_4_v13 :
      (StableHlo.after (Cert.KernelIdeal.Gen.hostOps1_4 (F := Ideal)) W (Proc.devRef .tc Cert.KernelIdeal.main_v13)
        = StableHlo.after (Cert.ReferenceIdeal.Hand.opsT4 (F := Ideal)) W' (Proc.devRef .tc Cert.ReferenceIdeal.main_v36)) := by
  read_stretch <;> (try (simp only [concatenate_pair] <;> read_stretch)) <;> (try simp only [h_v6, h_v13, h_v20, h_v27, h_v33, comparator_eq, gather_eq_1, gather_eq_2, gather_eq_3, scatter_eq_4, scatter_eq_5, scatter_eq_6, scatter_eq_7])
    <;> (first | with_reducible rfl | rfl)

/-- Stretch 4 read at main_v20 and at main_v43. -/
theorem stretch_4_v20 :
      (StableHlo.after (Cert.KernelIdeal.Gen.hostOps1_4 (F := Ideal)) W (Proc.devRef .tc Cert.KernelIdeal.main_v20)
        = StableHlo.after (Cert.ReferenceIdeal.Hand.opsT4 (F := Ideal)) W' (Proc.devRef .tc Cert.ReferenceIdeal.main_v43)) := by
  read_stretch <;> (try (simp only [concatenate_pair] <;> read_stretch)) <;> (try simp only [h_v6, h_v13, h_v20, h_v27, h_v33, comparator_eq, gather_eq_1, gather_eq_2, gather_eq_3, scatter_eq_4, scatter_eq_5, scatter_eq_6, scatter_eq_7])
    <;> (first | with_reducible rfl | rfl)

/-- Stretch 4 read at main_v27 and at main_v50. -/
theorem stretch_4_v27 :
      (StableHlo.after (Cert.KernelIdeal.Gen.hostOps1_4 (F := Ideal)) W (Proc.devRef .tc Cert.KernelIdeal.main_v27)
        = StableHlo.after (Cert.ReferenceIdeal.Hand.opsT4 (F := Ideal)) W' (Proc.devRef .tc Cert.ReferenceIdeal.main_v50)) := by
  read_stretch <;> (try (simp only [concatenate_pair] <;> read_stretch)) <;> (try simp only [h_v6, h_v13, h_v20, h_v27, h_v33, comparator_eq, gather_eq_1, gather_eq_2, gather_eq_3, scatter_eq_4, scatter_eq_5, scatter_eq_6, scatter_eq_7])
    <;> (first | with_reducible rfl | rfl)

/-- Stretch 4 read at main_v35 and at main_v58. -/
theorem stretch_4_v35 :
      (StableHlo.after (Cert.KernelIdeal.Gen.hostOps1_4 (F := Ideal)) W (Proc.devRef .tc Cert.KernelIdeal.main_v35)
        = StableHlo.after (Cert.ReferenceIdeal.Hand.opsT4 (F := Ideal)) W' (Proc.devRef .tc Cert.ReferenceIdeal.main_v58)) := by
  read_stretch <;> (try (simp only [concatenate_pair] <;> read_stretch)) <;> (try simp only [h_v6, h_v13, h_v20, h_v27, h_v33, comparator_eq, gather_eq_1, gather_eq_2, gather_eq_3, scatter_eq_4, scatter_eq_5, scatter_eq_6, scatter_eq_7])
    <;> (first | with_reducible rfl | rfl)

/-- Stretch 4 read at main_v36 and at main_v59. -/
theorem stretch_4_v36 :
      (StableHlo.after (Cert.KernelIdeal.Gen.hostOps1_4 (F := Ideal)) W (Proc.devRef .tc Cert.KernelIdeal.main_v36)
        = StableHlo.after (Cert.ReferenceIdeal.Hand.opsT4 (F := Ideal)) W' (Proc.devRef .tc Cert.ReferenceIdeal.main_v59)) := by
  read_stretch <;> (try (simp only [concatenate_pair] <;> read_stretch)) <;> (try simp only [h_v6, h_v13, h_v20, h_v27, h_v33, comparator_eq, gather_eq_1, gather_eq_2, gather_eq_3, scatter_eq_4, scatter_eq_5, scatter_eq_6, scatter_eq_7])
    <;> (first | with_reducible rfl | rfl)

/-- Stretch 4 read at main_v44 and at main_v67. -/
theorem stretch_4_v44 :
      (StableHlo.after (Cert.KernelIdeal.Gen.hostOps1_4 (F := Ideal)) W (Proc.devRef .tc Cert.KernelIdeal.main_v44)
        = StableHlo.after (Cert.ReferenceIdeal.Hand.opsT4 (F := Ideal)) W' (Proc.devRef .tc Cert.ReferenceIdeal.main_v67)) := by
  read_stretch <;> (try (simp only [concatenate_pair] <;> read_stretch)) <;> (try simp only [h_v6, h_v13, h_v20, h_v27, h_v33, comparator_eq, gather_eq_1, gather_eq_2, gather_eq_3, scatter_eq_4, scatter_eq_5, scatter_eq_6, scatter_eq_7])
    <;> (first | with_reducible rfl | rfl)

/-- Stretch 4 read at main_v52 and at main_v75. -/
theorem stretch_4_v52 :
      (StableHlo.after (Cert.KernelIdeal.Gen.hostOps1_4 (F := Ideal)) W (Proc.devRef .tc Cert.KernelIdeal.main_v52)
        = StableHlo.after (Cert.ReferenceIdeal.Hand.opsT4 (F := Ideal)) W' (Proc.devRef .tc Cert.ReferenceIdeal.main_v75)) := by
  read_stretch <;> (try (simp only [concatenate_pair] <;> read_stretch)) <;> (try simp only [h_v6, h_v13, h_v20, h_v27, h_v33, comparator_eq, gather_eq_1, gather_eq_2, gather_eq_3, scatter_eq_4, scatter_eq_5, scatter_eq_6, scatter_eq_7])
    <;> (first | with_reducible rfl | rfl)

/-- Stretch 4 read at main_v65 and at main_v88. -/
theorem stretch_4_v65 :
      (StableHlo.after (Cert.KernelIdeal.Gen.hostOps1_4 (F := Ideal)) W (Proc.devRef .tc Cert.KernelIdeal.main_v65)
        = StableHlo.after (Cert.ReferenceIdeal.Hand.opsT4 (F := Ideal)) W' (Proc.devRef .tc Cert.ReferenceIdeal.main_v88)) := by
  read_stretch <;> (try (simp only [concatenate_pair] <;> read_stretch)) <;> (try simp only [h_v6, h_v13, h_v20, h_v27, h_v33, comparator_eq, gather_eq_1, gather_eq_2, gather_eq_3, scatter_eq_4, scatter_eq_5, scatter_eq_6, scatter_eq_7])
    <;> (first | with_reducible rfl | rfl)

/-- Stretch 4: agreement at the pairs live in gives agreement at the pairs live out. -/
theorem stretch_4 :
      (StableHlo.after (Cert.KernelIdeal.Gen.hostOps1_4 (F := Ideal)) W (Proc.devRef .tc Cert.KernelIdeal.main_c_18)
        = StableHlo.after (Cert.ReferenceIdeal.Hand.opsT4 (F := Ideal)) W' (Proc.devRef .tc Cert.ReferenceIdeal.main_c_25)) ∧
      (StableHlo.after (Cert.KernelIdeal.Gen.hostOps1_4 (F := Ideal)) W (Proc.devRef .tc Cert.KernelIdeal.main_v13)
        = StableHlo.after (Cert.ReferenceIdeal.Hand.opsT4 (F := Ideal)) W' (Proc.devRef .tc Cert.ReferenceIdeal.main_v36)) ∧
      (StableHlo.after (Cert.KernelIdeal.Gen.hostOps1_4 (F := Ideal)) W (Proc.devRef .tc Cert.KernelIdeal.main_v20)
        = StableHlo.after (Cert.ReferenceIdeal.Hand.opsT4 (F := Ideal)) W' (Proc.devRef .tc Cert.ReferenceIdeal.main_v43)) ∧
      (StableHlo.after (Cert.KernelIdeal.Gen.hostOps1_4 (F := Ideal)) W (Proc.devRef .tc Cert.KernelIdeal.main_v27)
        = StableHlo.after (Cert.ReferenceIdeal.Hand.opsT4 (F := Ideal)) W' (Proc.devRef .tc Cert.ReferenceIdeal.main_v50)) ∧
      (StableHlo.after (Cert.KernelIdeal.Gen.hostOps1_4 (F := Ideal)) W (Proc.devRef .tc Cert.KernelIdeal.main_v35)
        = StableHlo.after (Cert.ReferenceIdeal.Hand.opsT4 (F := Ideal)) W' (Proc.devRef .tc Cert.ReferenceIdeal.main_v58)) ∧
      (StableHlo.after (Cert.KernelIdeal.Gen.hostOps1_4 (F := Ideal)) W (Proc.devRef .tc Cert.KernelIdeal.main_v36)
        = StableHlo.after (Cert.ReferenceIdeal.Hand.opsT4 (F := Ideal)) W' (Proc.devRef .tc Cert.ReferenceIdeal.main_v59)) ∧
      (StableHlo.after (Cert.KernelIdeal.Gen.hostOps1_4 (F := Ideal)) W (Proc.devRef .tc Cert.KernelIdeal.main_v44)
        = StableHlo.after (Cert.ReferenceIdeal.Hand.opsT4 (F := Ideal)) W' (Proc.devRef .tc Cert.ReferenceIdeal.main_v67)) ∧
      (StableHlo.after (Cert.KernelIdeal.Gen.hostOps1_4 (F := Ideal)) W (Proc.devRef .tc Cert.KernelIdeal.main_v52)
        = StableHlo.after (Cert.ReferenceIdeal.Hand.opsT4 (F := Ideal)) W' (Proc.devRef .tc Cert.ReferenceIdeal.main_v75)) ∧
      (StableHlo.after (Cert.KernelIdeal.Gen.hostOps1_4 (F := Ideal)) W (Proc.devRef .tc Cert.KernelIdeal.main_v65)
        = StableHlo.after (Cert.ReferenceIdeal.Hand.opsT4 (F := Ideal)) W' (Proc.devRef .tc Cert.ReferenceIdeal.main_v88)) :=
  ⟨stretch_4_c_18 W W' h_v6 h_v13 h_v20 h_v27 h_v33,
   stretch_4_v13 W W' h_v6 h_v13 h_v20 h_v27 h_v33,
   stretch_4_v20 W W' h_v6 h_v13 h_v20 h_v27 h_v33,
   stretch_4_v27 W W' h_v6 h_v13 h_v20 h_v27 h_v33,
   stretch_4_v35 W W' h_v6 h_v13 h_v20 h_v27 h_v33,
   stretch_4_v36 W W' h_v6 h_v13 h_v20 h_v27 h_v33,
   stretch_4_v44 W W' h_v6 h_v13 h_v20 h_v27 h_v33,
   stretch_4_v52 W W' h_v6 h_v13 h_v20 h_v27 h_v33,
   stretch_4_v65 W W' h_v6 h_v13 h_v20 h_v27 h_v33⟩

end

end Cert.TailSim

end
-- ==== Proof.TailSim5.lean ====
/-
  Stretch 5 of the two programs' shared line of host operations (3 operations): from contents that agree at the
  buffer pairs live into the stretch, the contents after it agree at the pairs live out of it. Each side is read as a
  pure term over the incoming contents; the two terms apply the same functions to corresponding operands.
-/
import proofs.«170420_j23845658427974_2_alg».proof.Proof.Gen.KernelIdeal.Launch
import proofs.«170420_j23845658427974_2_alg».proof.Proof.RefOps
import proofs.«170420_j23845658427974_2_alg».proof.Proof.Gen.ReferenceIdeal
import proofs.«170420_j23845658427974_2_alg».proof.Proof.LibStretches
import proofs.«170420_j23845658427974_2_alg».proof.Proof.TailSimDims
import proofs.«170420_j23845658427974_2_alg».proof.Proof.LibConcat2

noncomputable section

namespace Cert.TailSim

open Idealize.ShloMosaic Idealize.ShloMosaic.StableHlo Cert.Stretches Cert.Concat2

section

variable (W : Valuation Cert.KernelIdeal.τ Cert.KernelIdeal.sig (Elt Ideal)) (W' : Valuation Cert.ReferenceIdeal.τ Cert.ReferenceIdeal.sig (Elt Ideal))
    (h_c_18 : W (Proc.devRef .tc Cert.KernelIdeal.main_c_18) = W' (Proc.devRef .tc Cert.ReferenceIdeal.main_c_25))
    (h_v13 : W (Proc.devRef .tc Cert.KernelIdeal.main_v13) = W' (Proc.devRef .tc Cert.ReferenceIdeal.main_v36))
    (h_v20 : W (Proc.devRef .tc Cert.KernelIdeal.main_v20) = W' (Proc.devRef .tc Cert.ReferenceIdeal.main_v43))
    (h_v27 : W (Proc.devRef .tc Cert.KernelIdeal.main_v27) = W' (Proc.devRef .tc Cert.ReferenceIdeal.main_v50))
    (h_v35 : W (Proc.devRef .tc Cert.KernelIdeal.main_v35) = W' (Proc.devRef .tc Cert.ReferenceIdeal.main_v58))
    (h_v36 : W (Proc.devRef .tc Cert.KernelIdeal.main_v36) = W' (Proc.devRef .tc Cert.ReferenceIdeal.main_v59))
    (h_v44 : W (Proc.devRef .tc Cert.KernelIdeal.main_v44) = W' (Proc.devRef .tc Cert.ReferenceIdeal.main_v67))
    (h_v52 : W (Proc.devRef .tc Cert.KernelIdeal.main_v52) = W' (Proc.devRef .tc Cert.ReferenceIdeal.main_v75))
    (h_v65 : W (Proc.devRef .tc Cert.KernelIdeal.main_v65) = W' (Proc.devRef .tc Cert.ReferenceIdeal.main_v88))
include h_c_18 h_v13 h_v20 h_v27 h_v35 h_v36 h_v44 h_v52 h_v65

/-- Stretch 5 read at main_v13 and at main_v36. -/
theorem stretch_5_v13 :
      (StableHlo.after (Cert.KernelIdeal.Gen.hostOps1_5 (F := Ideal)) W (Proc.devRef .tc Cert.KernelIdeal.main_v13)
        = StableHlo.after (Cert.ReferenceIdeal.Hand.opsT5 (F := Ideal)) W' (Proc.devRef .tc Cert.ReferenceIdeal.main_v36)) := by
  read_stretch <;> (try (simp only [concatenate_pair] <;> read_stretch)) <;> (try simp only [h_c_18, h_v13, h_v20, h_v27, h_v35, h_v36, h_v44, h_v52, h_v65, comparator_eq, gather_eq_1, gather_eq_2, gather_eq_3, scatter_eq_4, scatter_eq_5, scatter_eq_6, scatter_eq_7])
    <;> (first | with_reducible rfl | rfl)

/-- Stretch 5 read at main_v20 and at main_v43. -/
theorem stretch_5_v20 :
      (StableHlo.after (Cert.KernelIdeal.Gen.hostOps1_5 (F := Ideal)) W (Proc.devRef .tc Cert.KernelIdeal.main_v20)
        = StableHlo.after (Cert.ReferenceIdeal.Hand.opsT5 (F := Ideal)) W' (Proc.devRef .tc Cert.ReferenceIdeal.main_v43)) := by
  read_stretch <;> (try (simp only [concatenate_pair] <;> read_stretch)) <;> (try simp only [h_c_18, h_v13, h_v20, h_v27, h_v35, h_v36, h_v44, h_v52, h_v65, comparator_eq, gather_eq_1, gather_eq_2, gather_eq_3, scatter_eq_4, scatter_eq_5, scatter_eq_6, scatter_eq_7])
    <;> (first | with_reducible rfl | rfl)

/-- Stretch 5 read at main_v27 and at main_v50. -/
theorem stretch_5_v27 :
      (StableHlo.after (Cert.KernelIdeal.Gen.hostOps1_5 (F := Ideal)) W (Proc.devRef .tc Cert.KernelIdeal.main_v27)
        = StableHlo.after (Cert.ReferenceIdeal.Hand.opsT5 (F := Ideal)) W' (Proc.devRef .tc Cert.ReferenceIdeal.main_v50)) := by
  read_stretch <;> (try (simp only [concatenate_pair] <;> read_stretch)) <;> (try simp only [h_c_18, h_v13, h_v20, h_v27, h_v35, h_v36, h_v44, h_v52, h_v65, comparator_eq, gather_eq_1, gather_eq_2, gather_eq_3, scatter_eq_4, scatter_eq_5, scatter_eq_6, scatter_eq_7])
    <;> (first | with_reducible rfl | rfl)

/-- Stretch 5 read at main_v35 and at main_v58. -/
theorem stretch_5_v35 :
      (StableHlo.after (Cert.KernelIdeal.Gen.hostOps1_5 (F := Ideal)) W (Proc.devRef .tc Cert.KernelIdeal.main_v35)
        = StableHlo.after (Cert.ReferenceIdeal.Hand.opsT5 (F := Ideal)) W' (Proc.devRef .tc Cert.ReferenceIdeal.main_v58)) := by
  read_stretch <;> (try (simp only [concatenate_pair] <;> read_stretch)) <;> (try simp only [h_c_18, h_v13, h_v20, h_v27, h_v35, h_v36, h_v44, h_v52, h_v65, comparator_eq, gather_eq_1, gather_eq_2, gather_eq_3, scatter_eq_4, scatter_eq_5, scatter_eq_6, scatter_eq_7])
    <;> (first | with_reducible rfl | rfl)

/-- Stretch 5 read at main_v36 and at main_v59. -/
theorem stretch_5_v36 :
      (StableHlo.after (Cert.KernelIdeal.Gen.hostOps1_5 (F := Ideal)) W (Proc.devRef .tc Cert.KernelIdeal.main_v36)
        = StableHlo.after (Cert.ReferenceIdeal.Hand.opsT5 (F := Ideal)) W' (Proc.devRef .tc Cert.ReferenceIdeal.main_v59)) := by
  read_stretch <;> (try (simp only [concatenate_pair] <;> read_stretch)) <;> (try simp only [h_c_18, h_v13, h_v20, h_v27, h_v35, h_v36, h_v44, h_v52, h_v65, comparator_eq, gather_eq_1, gather_eq_2, gather_eq_3, scatter_eq_4, scatter_eq_5, scatter_eq_6, scatter_eq_7])
    <;> (first | with_reducible rfl | rfl)

/-- Stretch 5 read at main_v44 and at main_v67. -/
theorem stretch_5_v44 :
      (StableHlo.after (Cert.KernelIdeal.Gen.hostOps1_5 (F := Ideal)) W (Proc.devRef .tc Cert.KernelIdeal.main_v44)
        = StableHlo.after (Cert.ReferenceIdeal.Hand.opsT5 (F := Ideal)) W' (Proc.devRef .tc Cert.ReferenceIdeal.main_v67)) := by
  read_stretch <;> (try (simp only [concatenate_pair] <;> read_stretch)) <;> (try simp only [h_c_18, h_v13, h_v20, h_v27, h_v35, h_v36, h_v44, h_v52, h_v65, comparator_eq, gather_eq_1, gather_eq_2, gather_eq_3, scatter_eq_4, scatter_eq_5, scatter_eq_6, scatter_eq_7])
    <;> (first | with_reducible rfl | rfl)

/-- Stretch 5 read at main_v65 and at main_v88. -/
theorem stretch_5_v65 :
      (StableHlo.after (Cert.KernelIdeal.Gen.hostOps1_5 (F := Ideal)) W (Proc.devRef .tc Cert.KernelIdeal.main_v65)
        = StableHlo.after (Cert.ReferenceIdeal.Hand.opsT5 (F := Ideal)) W' (Proc.devRef .tc Cert.ReferenceIdeal.main_v88)) := by
  read_stretch <;> (try (simp only [concatenate_pair] <;> read_stretch)) <;> (try simp only [h_c_18, h_v13, h_v20, h_v27, h_v35, h_v36, h_v44, h_v52, h_v65, comparator_eq, gather_eq_1, gather_eq_2, gather_eq_3, scatter_eq_4, scatter_eq_5, scatter_eq_6, scatter_eq_7])
    <;> (first | with_reducible rfl | rfl)

/-- Stretch 5 read at main_v66 and at main_v89. -/
theorem stretch_5_v66 :
      (StableHlo.after (Cert.KernelIdeal.Gen.hostOps1_5 (F := Ideal)) W (Proc.devRef .tc Cert.KernelIdeal.main_v66)
        = StableHlo.after (Cert.ReferenceIdeal.Hand.opsT5 (F := Ideal)) W' (Proc.devRef .tc Cert.ReferenceIdeal.main_v89)) := by
  read_stretch <;> (try (simp only [concatenate_pair] <;> read_stretch)) <;> (try simp only [h_c_18, h_v13, h_v20, h_v27, h_v35, h_v36, h_v44, h_v52, h_v65, comparator_eq, gather_eq_1, gather_eq_2, gather_eq_3, scatter_eq_4, scatter_eq_5, scatter_eq_6, scatter_eq_7])
    <;> (first | with_reducible rfl | rfl)

/-- Stretch 5: agreement at the pairs live in gives agreement at the pairs live out. -/
theorem stretch_5 :
      (StableHlo.after (Cert.KernelIdeal.Gen.hostOps1_5 (F := Ideal)) W (Proc.devRef .tc Cert.KernelIdeal.main_v13)
        = StableHlo.after (Cert.ReferenceIdeal.Hand.opsT5 (F := Ideal)) W' (Proc.devRef .tc Cert.ReferenceIdeal.main_v36)) ∧
      (StableHlo.after (Cert.KernelIdeal.Gen.hostOps1_5 (F := Ideal)) W (Proc.devRef .tc Cert.KernelIdeal.main_v20)
        = StableHlo.after (Cert.ReferenceIdeal.Hand.opsT5 (F := Ideal)) W' (Proc.devRef .tc Cert.ReferenceIdeal.main_v43)) ∧
      (StableHlo.after (Cert.KernelIdeal.Gen.hostOps1_5 (F := Ideal)) W (Proc.devRef .tc Cert.KernelIdeal.main_v27)
        = StableHlo.after (Cert.ReferenceIdeal.Hand.opsT5 (F := Ideal)) W' (Proc.devRef .tc Cert.ReferenceIdeal.main_v50)) ∧
      (StableHlo.after (Cert.KernelIdeal.Gen.hostOps1_5 (F := Ideal)) W (Proc.devRef .tc Cert.KernelIdeal.main_v35)
        = StableHlo.after (Cert.ReferenceIdeal.Hand.opsT5 (F := Ideal)) W' (Proc.devRef .tc Cert.ReferenceIdeal.main_v58)) ∧
      (StableHlo.after (Cert.KernelIdeal.Gen.hostOps1_5 (F := Ideal)) W (Proc.devRef .tc Cert.KernelIdeal.main_v36)
        = StableHlo.after (Cert.ReferenceIdeal.Hand.opsT5 (F := Ideal)) W' (Proc.devRef .tc Cert.ReferenceIdeal.main_v59)) ∧
      (StableHlo.after (Cert.KernelIdeal.Gen.hostOps1_5 (F := Ideal)) W (Proc.devRef .tc Cert.KernelIdeal.main_v44)
        = StableHlo.after (Cert.ReferenceIdeal.Hand.opsT5 (F := Ideal)) W' (Proc.devRef .tc Cert.ReferenceIdeal.main_v67)) ∧
      (StableHlo.after (Cert.KernelIdeal.Gen.hostOps1_5 (F := Ideal)) W (Proc.devRef .tc Cert.KernelIdeal.main_v65)
        = StableHlo.after (Cert.ReferenceIdeal.Hand.opsT5 (F := Ideal)) W' (Proc.devRef .tc Cert.ReferenceIdeal.main_v88)) ∧
      (StableHlo.after (Cert.KernelIdeal.Gen.hostOps1_5 (F := Ideal)) W (Proc.devRef .tc Cert.KernelIdeal.main_v66)
        = StableHlo.after (Cert.ReferenceIdeal.Hand.opsT5 (F := Ideal)) W' (Proc.devRef .tc Cert.ReferenceIdeal.main_v89)) :=
  ⟨stretch_5_v13 W W' h_c_18 h_v13 h_v20 h_v27 h_v35 h_v36 h_v44 h_v52 h_v65,
   stretch_5_v20 W W' h_c_18 h_v13 h_v20 h_v27 h_v35 h_v36 h_v44 h_v52 h_v65,
   stretch_5_v27 W W' h_c_18 h_v13 h_v20 h_v27 h_v35 h_v36 h_v44 h_v52 h_v65,
   stretch_5_v35 W W' h_c_18 h_v13 h_v20 h_v27 h_v35 h_v36 h_v44 h_v52 h_v65,
   stretch_5_v36 W W' h_c_18 h_v13 h_v20 h_v27 h_v35 h_v36 h_v44 h_v52 h_v65,
   stretch_5_v44 W W' h_c_18 h_v13 h_v20 h_v27 h_v35 h_v36 h_v44 h_v52 h_v65,
   stretch_5_v65 W W' h_c_18 h_v13 h_v20 h_v27 h_v35 h_v36 h_v44 h_v52 h_v65,
   stretch_5_v66 W W' h_c_18 h_v13 h_v20 h_v27 h_v35 h_v36 h_v44 h_v52 h_v65⟩

end

end Cert.TailSim

end
-- ==== Proof.TailSim6.lean ====
/-
  Stretch 6 of the two programs' shared line of host operations (3 operations): from contents that agree at the
  buffer pairs live into the stretch, the contents after it agree at the pairs live out of it. Each side is read as a
  pure term over the incoming contents; the two terms apply the same functions to corresponding operands.
-/
import proofs.«170420_j23845658427974_2_alg».proof.Proof.Gen.KernelIdeal.Launch
import proofs.«170420_j23845658427974_2_alg».proof.Proof.RefOps
import proofs.«170420_j23845658427974_2_alg».proof.Proof.Gen.ReferenceIdeal
import proofs.«170420_j23845658427974_2_alg».proof.Proof.LibStretches
import proofs.«170420_j23845658427974_2_alg».proof.Proof.TailSimDims
import proofs.«170420_j23845658427974_2_alg».proof.Proof.LibConcat2

noncomputable section

namespace Cert.TailSim

open Idealize.ShloMosaic Idealize.ShloMosaic.StableHlo Cert.Stretches Cert.Concat2

section

variable (W : Valuation Cert.KernelIdeal.τ Cert.KernelIdeal.sig (Elt Ideal)) (W' : Valuation Cert.ReferenceIdeal.τ Cert.ReferenceIdeal.sig (Elt Ideal))
    (h_v13 : W (Proc.devRef .tc Cert.KernelIdeal.main_v13) = W' (Proc.devRef .tc Cert.ReferenceIdeal.main_v36))
    (h_v20 : W (Proc.devRef .tc Cert.KernelIdeal.main_v20) = W' (Proc.devRef .tc Cert.ReferenceIdeal.main_v43))
    (h_v27 : W (Proc.devRef .tc Cert.KernelIdeal.main_v27) = W' (Proc.devRef .tc Cert.ReferenceIdeal.main_v50))
    (h_v35 : W (Proc.devRef .tc Cert.KernelIdeal.main_v35) = W' (Proc.devRef .tc Cert.ReferenceIdeal.main_v58))
    (h_v36 : W (Proc.devRef .tc Cert.KernelIdeal.main_v36) = W' (Proc.devRef .tc Cert.ReferenceIdeal.main_v59))
    (h_v44 : W (Proc.devRef .tc Cert.KernelIdeal.main_v44) = W' (Proc.devRef .tc Cert.ReferenceIdeal.main_v67))
    (h_v65 : W (Proc.devRef .tc Cert.KernelIdeal.main_v65) = W' (Proc.devRef .tc Cert.ReferenceIdeal.main_v88))
    (h_v66 : W (Proc.devRef .tc Cert.KernelIdeal.main_v66) = W' (Proc.devRef .tc Cert.ReferenceIdeal.main_v89))
include h_v13 h_v20 h_v27 h_v35 h_v36 h_v44 h_v65 h_v66

/-- Stretch 6 read at main_v13 and at main_v36. -/
theorem stretch_6_v13 :
      (StableHlo.after (Cert.KernelIdeal.Gen.hostOps1_6 (F := Ideal)) W (Proc.devRef .tc Cert.KernelIdeal.main_v13)
        = StableHlo.after (Cert.ReferenceIdeal.Hand.opsT6 (F := Ideal)) W' (Proc.devRef .tc Cert.ReferenceIdeal.main_v36)) := by
  read_stretch <;> (try (simp only [concatenate_pair] <;> read_stretch)) <;> (try simp only [h_v13, h_v20, h_v27, h_v35, h_v36, h_v44, h_v65, h_v66, comparator_eq, gather_eq_1, gather_eq_2, gather_eq_3, scatter_eq_4, scatter_eq_5, scatter_eq_6, scatter_eq_7])
    <;> (first | with_reducible rfl | rfl)

/-- Stretch 6 read at main_v20 and at main_v43. -/
theorem stretch_6_v20 :
      (StableHlo.after (Cert.KernelIdeal.Gen.hostOps1_6 (F := Ideal)) W (Proc.devRef .tc Cert.KernelIdeal.main_v20)
        = StableHlo.after (Cert.ReferenceIdeal.Hand.opsT6 (F := Ideal)) W' (Proc.devRef .tc Cert.ReferenceIdeal.main_v43)) := by
  read_stretch <;> (try (simp only [concatenate_pair] <;> read_stretch)) <;> (try simp only [h_v13, h_v20, h_v27, h_v35, h_v36, h_v44, h_v65, h_v66, comparator_eq, gather_eq_1, gather_eq_2, gather_eq_3, scatter_eq_4, scatter_eq_5, scatter_eq_6, scatter_eq_7])
    <;> (first | with_reducible rfl | rfl)

/-- Stretch 6 read at main_v27 and at main_v50. -/
theorem stretch_6_v27 :
      (StableHlo.after (Cert.KernelIdeal.Gen.hostOps1_6 (F := Ideal)) W (Proc.devRef .tc Cert.KernelIdeal.main_v27)
        = StableHlo.after (Cert.ReferenceIdeal.Hand.opsT6 (F := Ideal)) W' (Proc.devRef .tc Cert.ReferenceIdeal.main_v50)) := by
  read_stretch <;> (try (simp only [concatenate_pair] <;> read_stretch)) <;> (try simp only [h_v13, h_v20, h_v27, h_v35, h_v36, h_v44, h_v65, h_v66, comparator_eq, gather_eq_1, gather_eq_2, gather_eq_3, scatter_eq_4, scatter_eq_5, scatter_eq_6, scatter_eq_7])
    <;> (first | with_reducible rfl | rfl)

/-- Stretch 6 read at main_v35 and at main_v58. -/
theorem stretch_6_v35 :
      (StableHlo.after (Cert.KernelIdeal.Gen.hostOps1_6 (F := Ideal)) W (Proc.devRef .tc Cert.KernelIdeal.main_v35)
        = StableHlo.after (Cert.ReferenceIdeal.Hand.opsT6 (F := Ideal)) W' (Proc.devRef .tc Cert.ReferenceIdeal.main_v58)) := by
  read_stretch <;> (try (simp only [concatenate_pair] <;> read_stretch)) <;> (try simp only [h_v13, h_v20, h_v27, h_v35, h_v36, h_v44, h_v65, h_v66, comparator_eq, gather_eq_1, gather_eq_2, gather_eq_3, scatter_eq_4, scatter_eq_5, scatter_eq_6, scatter_eq_7])
    <;> (first | with_reducible rfl | rfl)

/-- Stretch 6 read at main_v36 and at main_v59. -/
theorem stretch_6_v36 :
      (StableHlo.after (Cert.KernelIdeal.Gen.hostOps1_6 (F := Ideal)) W (Proc.devRef .tc Cert.KernelIdeal.main_v36)
        = StableHlo.after (Cert.ReferenceIdeal.Hand.opsT6 (F := Ideal)) W' (Proc.devRef .tc Cert.ReferenceIdeal.main_v59)) := by
  read_stretch <;> (try (simp only [concatenate_pair] <;> read_stretch)) <;> (try simp only [h_v13, h_v20, h_v27, h_v35, h_v36, h_v44, h_v65, h_v66, comparator_eq, gather_eq_1, gather_eq_2, gather_eq_3, scatter_eq_4, scatter_eq_5, scatter_eq_6, scatter_eq_7])
    <;> (first | with_reducible rfl | rfl)

/-- Stretch 6 read at main_v44 and at main_v67. -/
theorem stretch_6_v44 :
      (StableHlo.after (Cert.KernelIdeal.Gen.hostOps1_6 (F := Ideal)) W (Proc.devRef .tc Cert.KernelIdeal.main_v44)
        = StableHlo.after (Cert.ReferenceIdeal.Hand.opsT6 (F := Ideal)) W' (Proc.devRef .tc Cert.ReferenceIdeal.main_v67)) := by
  read_stretch <;> (try (simp only [concatenate_pair] <;> read_stretch)) <;> (try simp only [h_v13, h_v20, h_v27, h_v35, h_v36, h_v44, h_v65, h_v66, comparator_eq, gather_eq_1, gather_eq_2, gather_eq_3, scatter_eq_4, scatter_eq_5, scatter_eq_6, scatter_eq_7])
    <;> (first | with_reducible rfl | rfl)

/-- Stretch 6 read at main_v65 and at main_v88. -/
theorem stretch_6_v65 :
      (StableHlo.after (Cert.KernelIdeal.Gen.hostOps1_6 (F := Ideal)) W (Proc.devRef .tc Cert.KernelIdeal.main_v65)
        = StableHlo.after (Cert.ReferenceIdeal.Hand.opsT6 (F := Ideal)) W' (Proc.devRef .tc Cert.ReferenceIdeal.main_v88)) := by
  read_stretch <;> (try (simp only [concatenate_pair] <;> read_stretch)) <;> (try simp only [h_v13, h_v20, h_v27, h_v35, h_v36, h_v44, h_v65, h_v66, comparator_eq, gather_eq_1, gather_eq_2, gather_eq_3, scatter_eq_4, scatter_eq_5, scatter_eq_6, scatter_eq_7])
    <;> (first | with_reducible rfl | rfl)

/-- Stretch 6 read at main_v67 and at main_v90. -/
theorem stretch_6_v67 :
      (StableHlo.after (Cert.KernelIdeal.Gen.hostOps1_6 (F := Ideal)) W (Proc.devRef .tc Cert.KernelIdeal.main_v67)
        = StableHlo.after (Cert.ReferenceIdeal.Hand.opsT6 (F := Ideal)) W' (Proc.devRef .tc Cert.ReferenceIdeal.main_v90)) := by
  read_stretch <;> (try (simp only [concatenate_pair] <;> read_stretch)) <;> (try simp only [h_v13, h_v20, h_v27, h_v35, h_v36, h_v44, h_v65, h_v66, comparator_eq, gather_eq_1, gather_eq_2, gather_eq_3, scatter_eq_4, scatter_eq_5, scatter_eq_6, scatter_eq_7])
    <;> (first | with_reducible rfl | rfl)

/-- Stretch 6: agreement at the pairs live in gives agreement at the pairs live out. -/
theorem stretch_6 :
      (StableHlo.after (Cert.KernelIdeal.Gen.hostOps1_6 (F := Ideal)) W (Proc.devRef .tc Cert.KernelIdeal.main_v13)
        = StableHlo.after (Cert.ReferenceIdeal.Hand.opsT6 (F := Ideal)) W' (Proc.devRef .tc Cert.ReferenceIdeal.main_v36)) ∧
      (StableHlo.after (Cert.KernelIdeal.Gen.hostOps1_6 (F := Ideal)) W (Proc.devRef .tc Cert.KernelIdeal.main_v20)
        = StableHlo.after (Cert.ReferenceIdeal.Hand.opsT6 (F := Ideal)) W' (Proc.devRef .tc Cert.ReferenceIdeal.main_v43)) ∧
      (StableHlo.after (Cert.KernelIdeal.Gen.hostOps1_6 (F := Ideal)) W (Proc.devRef .tc Cert.KernelIdeal.main_v27)
        = StableHlo.after (Cert.ReferenceIdeal.Hand.opsT6 (F := Ideal)) W' (Proc.devRef .tc Cert.ReferenceIdeal.main_v50)) ∧
      (StableHlo.after (Cert.KernelIdeal.Gen.hostOps1_6 (F := Ideal)) W (Proc.devRef .tc Cert.KernelIdeal.main_v35)
        = StableHlo.after (Cert.ReferenceIdeal.Hand.opsT6 (F := Ideal)) W' (Proc.devRef .tc Cert.ReferenceIdeal.main_v58)) ∧
      (StableHlo.after (Cert.KernelIdeal.Gen.hostOps1_6 (F := Ideal)) W (Proc.devRef .tc Cert.KernelIdeal.main_v36)
        = StableHlo.after (Cert.ReferenceIdeal.Hand.opsT6 (F := Ideal)) W' (Proc.devRef .tc Cert.ReferenceIdeal.main_v59)) ∧
      (StableHlo.after (Cert.KernelIdeal.Gen.hostOps1_6 (F := Ideal)) W (Proc.devRef .tc Cert.KernelIdeal.main_v44)
        = StableHlo.after (Cert.ReferenceIdeal.Hand.opsT6 (F := Ideal)) W' (Proc.devRef .tc Cert.ReferenceIdeal.main_v67)) ∧
      (StableHlo.after (Cert.KernelIdeal.Gen.hostOps1_6 (F := Ideal)) W (Proc.devRef .tc Cert.KernelIdeal.main_v65)
        = StableHlo.after (Cert.ReferenceIdeal.Hand.opsT6 (F := Ideal)) W' (Proc.devRef .tc Cert.ReferenceIdeal.main_v88)) ∧
      (StableHlo.after (Cert.KernelIdeal.Gen.hostOps1_6 (F := Ideal)) W (Proc.devRef .tc Cert.KernelIdeal.main_v67)
        = StableHlo.after (Cert.ReferenceIdeal.Hand.opsT6 (F := Ideal)) W' (Proc.devRef .tc Cert.ReferenceIdeal.main_v90)) :=
  ⟨stretch_6_v13 W W' h_v13 h_v20 h_v27 h_v35 h_v36 h_v44 h_v65 h_v66,
   stretch_6_v20 W W' h_v13 h_v20 h_v27 h_v35 h_v36 h_v44 h_v65 h_v66,
   stretch_6_v27 W W' h_v13 h_v20 h_v27 h_v35 h_v36 h_v44 h_v65 h_v66,
   stretch_6_v35 W W' h_v13 h_v20 h_v27 h_v35 h_v36 h_v44 h_v65 h_v66,
   stretch_6_v36 W W' h_v13 h_v20 h_v27 h_v35 h_v36 h_v44 h_v65 h_v66,
   stretch_6_v44 W W' h_v13 h_v20 h_v27 h_v35 h_v36 h_v44 h_v65 h_v66,
   stretch_6_v65 W W' h_v13 h_v20 h_v27 h_v35 h_v36 h_v44 h_v65 h_v66,
   stretch_6_v67 W W' h_v13 h_v20 h_v27 h_v35 h_v36 h_v44 h_v65 h_v66⟩

end

end Cert.TailSim

end
-- ==== Proof.TailSim7.lean ====
/-
  Stretch 7 of the two programs' shared line of host operations (42 operations): from contents that agree at the
  buffer pairs live into the stretch, the contents after it agree at the pairs live out of it. Each side is read as a
  pure term over the incoming contents; the two terms apply the same functions to corresponding operands.
-/
import proofs.«170420_j23845658427974_2_alg».proof.Proof.Gen.KernelIdeal.Launch
import proofs.«170420_j23845658427974_2_alg».proof.Proof.RefOps
import proofs.«170420_j23845658427974_2_alg».proof.Proof.Gen.ReferenceIdeal
import proofs.«170420_j23845658427974_2_alg».proof.Proof.LibStretches
import proofs.«170420_j23845658427974_2_alg».proof.Proof.TailSimDims
import proofs.«170420_j23845658427974_2_alg».proof.Proof.LibConcat2

noncomputable section

namespace Cert.TailSim

open Idealize.ShloMosaic Idealize.ShloMosaic.StableHlo Cert.Stretches Cert.Concat2

section

variable (W : Valuation Cert.KernelIdeal.τ Cert.KernelIdeal.sig (Elt Ideal)) (W' : Valuation Cert.ReferenceIdeal.τ Cert.ReferenceIdeal.sig (Elt Ideal))
    (h_v13 : W (Proc.devRef .tc Cert.KernelIdeal.main_v13) = W' (Proc.devRef .tc Cert.ReferenceIdeal.main_v36))
    (h_v20 : W (Proc.devRef .tc Cert.KernelIdeal.main_v20) = W' (Proc.devRef .tc Cert.ReferenceIdeal.main_v43))
    (h_v27 : W (Proc.devRef .tc Cert.KernelIdeal.main_v27) = W' (Proc.devRef .tc Cert.ReferenceIdeal.main_v50))
    (h_v35 : W (Proc.devRef .tc Cert.KernelIdeal.main_v35) = W' (Proc.devRef .tc Cert.ReferenceIdeal.main_v58))
    (h_v36 : W (Proc.devRef .tc Cert.KernelIdeal.main_v36) = W' (Proc.devRef .tc Cert.ReferenceIdeal.main_v59))
    (h_v44 : W (Proc.devRef .tc Cert.KernelIdeal.main_v44) = W' (Proc.devRef .tc Cert.ReferenceIdeal.main_v67))
    (h_v65 : W (Proc.devRef .tc Cert.KernelIdeal.main_v65) = W' (Proc.devRef .tc Cert.ReferenceIdeal.main_v88))
    (h_v67 : W (Proc.devRef .tc Cert.KernelIdeal.main_v67) = W' (Proc.devRef .tc Cert.ReferenceIdeal.main_v90))
include h_v13 h_v20 h_v27 h_v35 h_v36 h_v44 h_v65 h_v67

/-- Stretch 7 read at main_c_29 and at main_c_36. -/
theorem stretch_7_c_29 :
      (StableHlo.after (Cert.KernelIdeal.Gen.hostOps1_7 (F := Ideal)) W (Proc.devRef .tc Cert.KernelIdeal.main_c_29)
        = StableHlo.after (Cert.ReferenceIdeal.Hand.opsT7 (F := Ideal)) W' (Proc.devRef .tc Cert.ReferenceIdeal.main_c_36)) := by
  read_stretch <;> (try (simp only [concatenate_pair] <;> read_stretch)) <;> (try simp only [h_v13, h_v20, h_v27, h_v35, h_v36, h_v44, h_v65, h_v67, comparator_eq, gather_eq_1, gather_eq_2, gather_eq_3, scatter_eq_4, scatter_eq_5, scatter_eq_6, scatter_eq_7])
    <;> (first | with_reducible rfl | rfl)

/-- Stretch 7 read at main_v13 and at main_v36. -/
theorem stretch_7_v13 :
      (StableHlo.after (Cert.KernelIdeal.Gen.hostOps1_7 (F := Ideal)) W (Proc.devRef .tc Cert.KernelIdeal.main_v13)
        = StableHlo.after (Cert.ReferenceIdeal.Hand.opsT7 (F := Ideal)) W' (Proc.devRef .tc Cert.ReferenceIdeal.main_v36)) := by
  read_stretch <;> (try (simp only [concatenate_pair] <;> read_stretch)) <;> (try simp only [h_v13, h_v20, h_v27, h_v35, h_v36, h_v44, h_v65, h_v67, comparator_eq, gather_eq_1, gather_eq_2, gather_eq_3, scatter_eq_4, scatter_eq_5, scatter_eq_6, scatter_eq_7])
    <;> (first | with_reducible rfl | rfl)

/-- Stretch 7 read at main_v20 and at main_v43. -/
theorem stretch_7_v20 :
      (StableHlo.after (Cert.KernelIdeal.Gen.hostOps1_7 (F := Ideal)) W (Proc.devRef .tc Cert.KernelIdeal.main_v20)
        = StableHlo.after (Cert.ReferenceIdeal.Hand.opsT7 (F := Ideal)) W' (Proc.devRef .tc Cert.ReferenceIdeal.main_v43)) := by
  read_stretch <;> (try (simp only [concatenate_pair] <;> read_stretch)) <;> (try simp only [h_v13, h_v20, h_v27, h_v35, h_v36, h_v44, h_v65, h_v67, comparator_eq, gather_eq_1, gather_eq_2, gather_eq_3, scatter_eq_4, scatter_eq_5, scatter_eq_6, scatter_eq_7])
    <;> (first | with_reducible rfl | rfl)

/-- Stretch 7 read at main_v27 and at main_v50. -/
theorem stretch_7_v27 :
      (StableHlo.after (Cert.KernelIdeal.Gen.hostOps1_7 (F := Ideal)) W (Proc.devRef .tc Cert.KernelIdeal.main_v27)
        = StableHlo.after (Cert.ReferenceIdeal.Hand.opsT7 (F := Ideal)) W' (Proc.devRef .tc Cert.ReferenceIdeal.main_v50)) := by
  read_stretch <;> (try (simp only [concatenate_pair] <;> read_stretch)) <;> (try simp only [h_v13, h_v20, h_v27, h_v35, h_v36, h_v44, h_v65, h_v67, comparator_eq, gather_eq_1, gather_eq_2, gather_eq_3, scatter_eq_4, scatter_eq_5, scatter_eq_6, scatter_eq_7])
    <;> (first | with_reducible rfl | rfl)

/-- Stretch 7 read at main_v35 and at main_v58. -/
theorem stretch_7_v35 :
      (StableHlo.after (Cert.KernelIdeal.Gen.hostOps1_7 (F := Ideal)) W (Proc.devRef .tc Cert.KernelIdeal.main_v35)
        = StableHlo.after (Cert.ReferenceIdeal.Hand.opsT7 (F := Ideal)) W' (Proc.devRef .tc Cert.ReferenceIdeal.main_v58)) := by
  read_stretch <;> (try (simp only [concatenate_pair] <;> read_stretch)) <;> (try simp only [h_v13, h_v20, h_v27, h_v35, h_v36, h_v44, h_v65, h_v67, comparator_eq, gather_eq_1, gather_eq_2, gather_eq_3, scatter_eq_4, scatter_eq_5, scatter_eq_6, scatter_eq_7])
    <;> (first | with_reducible rfl | rfl)

/-- Stretch 7 read at main_v44 and at main_v67. -/
theorem stretch_7_v44 :
      (StableHlo.after (Cert.KernelIdeal.Gen.hostOps1_7 (F := Ideal)) W (Proc.devRef .tc Cert.KernelIdeal.main_v44)
        = StableHlo.after (Cert.ReferenceIdeal.Hand.opsT7 (F := Ideal)) W' (Proc.devRef .tc Cert.ReferenceIdeal.main_v67)) := by
  read_stretch <;> (try (simp only [concatenate_pair] <;> read_stretch)) <;> (try simp only [h_v13, h_v20, h_v27, h_v35, h_v36, h_v44, h_v65, h_v67, comparator_eq, gather_eq_1, gather_eq_2, gather_eq_3, scatter_eq_4, scatter_eq_5, scatter_eq_6, scatter_eq_7])
    <;> (first | with_reducible rfl | rfl)

/-- Stretch 7 read at main_v65 and at main_v88. -/
theorem stretch_7_v65 :
      (StableHlo.after (Cert.KernelIdeal.Gen.hostOps1_7 (F := Ideal)) W (Proc.devRef .tc Cert.KernelIdeal.main_v65)
        = StableHlo.after (Cert.ReferenceIdeal.Hand.opsT7 (F := Ideal)) W' (Proc.devRef .tc Cert.ReferenceIdeal.main_v88)) := by
  read_stretch <;> (try (simp only [concatenate_pair] <;> read_stretch)) <;> (try simp only [h_v13, h_v20, h_v27, h_v35, h_v36, h_v44, h_v65, h_v67, comparator_eq, gather_eq_1, gather_eq_2, gather_eq_3, scatter_eq_4, scatter_eq_5, scatter_eq_6, scatter_eq_7])
    <;> (first | with_reducible rfl | rfl)

/-- Stretch 7 read at main_v75 and at main_v98. -/
theorem stretch_7_v75 :
      (StableHlo.after (Cert.KernelIdeal.Gen.hostOps1_7 (F := Ideal)) W (Proc.devRef .tc Cert.KernelIdeal.main_v75)
        = StableHlo.after (Cert.ReferenceIdeal.Hand.opsT7 (F := Ideal)) W' (Proc.devRef .tc Cert.ReferenceIdeal.main_v98)) := by
  read_stretch <;> (try (simp only [concatenate_pair] <;> read_stretch)) <;> (try simp only [h_v13, h_v20, h_v27, h_v35, h_v36, h_v44, h_v65, h_v67, comparator_eq, gather_eq_1, gather_eq_2, gather_eq_3, scatter_eq_4, scatter_eq_5, scatter_eq_6, scatter_eq_7])
    <;> (first | with_reducible rfl | rfl)

/-- Stretch 7 read at main_v83 and at main_v106. -/
theorem stretch_7_v83 :
      (StableHlo.after (Cert.KernelIdeal.Gen.hostOps1_7 (F := Ideal)) W (Proc.devRef .tc Cert.KernelIdeal.main_v83)
        = StableHlo.after (Cert.ReferenceIdeal.Hand.opsT7 (F := Ideal)) W' (Proc.devRef .tc Cert.ReferenceIdeal.main_v106)) := by
  read_stretch <;> (try (simp only [concatenate_pair] <;> read_stretch)) <;> (try simp only [h_v13, h_v20, h_v27, h_v35, h_v36, h_v44, h_v65, h_v67, comparator_eq, gather_eq_1, gather_eq_2, gather_eq_3, scatter_eq_4, scatter_eq_5, scatter_eq_6, scatter_eq_7])
    <;> (first | with_reducible rfl | rfl)

/-- Stretch 7 read at main_v90 and at main_v113. -/
theorem stretch_7_v90 :
      (StableHlo.after (Cert.KernelIdeal.Gen.hostOps1_7 (F := Ideal)) W (Proc.devRef .tc Cert.KernelIdeal.main_v90)
        = StableHlo.after (Cert.ReferenceIdeal.Hand.opsT7 (F := Ideal)) W' (Proc.devRef .tc Cert.ReferenceIdeal.main_v113)) := by
  read_stretch <;> (try (simp only [concatenate_pair] <;> read_stretch)) <;> (try simp only [h_v13, h_v20, h_v27, h_v35, h_v36, h_v44, h_v65, h_v67, comparator_eq, gather_eq_1, gather_eq_2, gather_eq_3, scatter_eq_4, scatter_eq_5, scatter_eq_6, scatter_eq_7])
    <;> (first | with_reducible rfl | rfl)

/-- Stretch 7 read at main_v98 and at main_v121. -/
theorem stretch_7_v98 :
      (StableHlo.after (Cert.KernelIdeal.Gen.hostOps1_7 (F := Ideal)) W (Proc.devRef .tc Cert.KernelIdeal.main_v98)
        = StableHlo.after (Cert.ReferenceIdeal.Hand.opsT7 (F := Ideal)) W' (Proc.devRef .tc Cert.ReferenceIdeal.main_v121)) := by
  read_stretch <;> (try (simp only [concatenate_pair] <;> read_stretch)) <;> (try simp only [h_v13, h_v20, h_v27, h_v35, h_v36, h_v44, h_v65, h_v67, comparator_eq, gather_eq_1, gather_eq_2, gather_eq_3, scatter_eq_4, scatter_eq_5, scatter_eq_6, scatter_eq_7])
    <;> (first | with_reducible rfl | rfl)

/-- Stretch 7: agreement at the pairs live in gives agreement at the pairs live out. -/
theorem stretch_7 :
      (StableHlo.after (Cert.KernelIdeal.Gen.hostOps1_7 (F := Ideal)) W (Proc.devRef .tc Cert.KernelIdeal.main_c_29)
        = StableHlo.after (Cert.ReferenceIdeal.Hand.opsT7 (F := Ideal)) W' (Proc.devRef .tc Cert.ReferenceIdeal.main_c_36)) ∧
      (StableHlo.after (Cert.KernelIdeal.Gen.hostOps1_7 (F := Ideal)) W (Proc.devRef .tc Cert.KernelIdeal.main_v13)
        = StableHlo.after (Cert.ReferenceIdeal.Hand.opsT7 (F := Ideal)) W' (Proc.devRef .tc Cert.ReferenceIdeal.main_v36)) ∧
      (StableHlo.after (Cert.KernelIdeal.Gen.hostOps1_7 (F := Ideal)) W (Proc.devRef .tc Cert.KernelIdeal.main_v20)
        = StableHlo.after (Cert.ReferenceIdeal.Hand.opsT7 (F := Ideal)) W' (Proc.devRef .tc Cert.ReferenceIdeal.main_v43)) ∧
      (StableHlo.after (Cert.KernelIdeal.Gen.hostOps1_7 (F := Ideal)) W (Proc.devRef .tc Cert.KernelIdeal.main_v27)
        = StableHlo.after (Cert.ReferenceIdeal.Hand.opsT7 (F := Ideal)) W' (Proc.devRef .tc Cert.ReferenceIdeal.main_v50)) ∧
      (StableHlo.after (Cert.KernelIdeal.Gen.hostOps1_7 (F := Ideal)) W (Proc.devRef .tc Cert.KernelIdeal.main_v35)
        = StableHlo.after (Cert.ReferenceIdeal.Hand.opsT7 (F := Ideal)) W' (Proc.devRef .tc Cert.ReferenceIdeal.main_v58)) ∧
      (StableHlo.after (Cert.KernelIdeal.Gen.hostOps1_7 (F := Ideal)) W (Proc.devRef .tc Cert.KernelIdeal.main_v44)
        = StableHlo.after (Cert.ReferenceIdeal.Hand.opsT7 (F := Ideal)) W' (Proc.devRef .tc Cert.ReferenceIdeal.main_v67)) ∧
      (StableHlo.after (Cert.KernelIdeal.Gen.hostOps1_7 (F := Ideal)) W (Proc.devRef .tc Cert.KernelIdeal.main_v65)
        = StableHlo.after (Cert.ReferenceIdeal.Hand.opsT7 (F := Ideal)) W' (Proc.devRef .tc Cert.ReferenceIdeal.main_v88)) ∧
      (StableHlo.after (Cert.KernelIdeal.Gen.hostOps1_7 (F := Ideal)) W (Proc.devRef .tc Cert.KernelIdeal.main_v75)
        = StableHlo.after (Cert.ReferenceIdeal.Hand.opsT7 (F := Ideal)) W' (Proc.devRef .tc Cert.ReferenceIdeal.main_v98)) ∧
      (StableHlo.after (Cert.KernelIdeal.Gen.hostOps1_7 (F := Ideal)) W (Proc.devRef .tc Cert.KernelIdeal.main_v83)
        = StableHlo.after (Cert.ReferenceIdeal.Hand.opsT7 (F := Ideal)) W' (Proc.devRef .tc Cert.ReferenceIdeal.main_v106)) ∧
      (StableHlo.after (Cert.KernelIdeal.Gen.hostOps1_7 (F := Ideal)) W (Proc.devRef .tc Cert.KernelIdeal.main_v90)
        = StableHlo.after (Cert.ReferenceIdeal.Hand.opsT7 (F := Ideal)) W' (Proc.devRef .tc Cert.ReferenceIdeal.main_v113)) ∧
      (StableHlo.after (Cert.KernelIdeal.Gen.hostOps1_7 (F := Ideal)) W (Proc.devRef .tc Cert.KernelIdeal.main_v98)
        = StableHlo.after (Cert.ReferenceIdeal.Hand.opsT7 (F := Ideal)) W' (Proc.devRef .tc Cert.ReferenceIdeal.main_v121)) :=
  ⟨stretch_7_c_29 W W' h_v13 h_v20 h_v27 h_v35 h_v36 h_v44 h_v65 h_v67,
   stretch_7_v13 W W' h_v13 h_v20 h_v27 h_v35 h_v36 h_v44 h_v65 h_v67,
   stretch_7_v20 W W' h_v13 h_v20 h_v27 h_v35 h_v36 h_v44 h_v65 h_v67,
   stretch_7_v27 W W' h_v13 h_v20 h_v27 h_v35 h_v36 h_v44 h_v65 h_v67,
   stretch_7_v35 W W' h_v13 h_v20 h_v27 h_v35 h_v36 h_v44 h_v65 h_v67,
   stretch_7_v44 W W' h_v13 h_v20 h_v27 h_v35 h_v36 h_v44 h_v65 h_v67,
   stretch_7_v65 W W' h_v13 h_v20 h_v27 h_v35 h_v36 h_v44 h_v65 h_v67,
   stretch_7_v75 W W' h_v13 h_v20 h_v27 h_v35 h_v36 h_v44 h_v65 h_v67,
   stretch_7_v83 W W' h_v13 h_v20 h_v27 h_v35 h_v36 h_v44 h_v65 h_v67,
   stretch_7_v90 W W' h_v13 h_v20 h_v27 h_v35 h_v36 h_v44 h_v65 h_v67,
   stretch_7_v98 W W' h_v13 h_v20 h_v27 h_v35 h_v36 h_v44 h_v65 h_v67⟩

end

end Cert.TailSim

end
-- ==== Proof.TailSim8.lean ====
/-
  Stretch 8 of the two programs' shared line of host operations (3 operations): from contents that agree at the
  buffer pairs live into the stretch, the contents after it agree at the pairs live out of it. Each side is read as a
  pure term over the incoming contents; the two terms apply the same functions to corresponding operands.
-/
import proofs.«170420_j23845658427974_2_alg».proof.Proof.Gen.KernelIdeal.Launch
import proofs.«170420_j23845658427974_2_alg».proof.Proof.RefOps
import proofs.«170420_j23845658427974_2_alg».proof.Proof.Gen.ReferenceIdeal
import proofs.«170420_j23845658427974_2_alg».proof.Proof.LibStretches
import proofs.«170420_j23845658427974_2_alg».proof.Proof.TailSimDims
import proofs.«170420_j23845658427974_2_alg».proof.Proof.LibConcat2

noncomputable section

namespace Cert.TailSim

open Idealize.ShloMosaic Idealize.ShloMosaic.StableHlo Cert.Stretches Cert.Concat2

section

variable (W : Valuation Cert.KernelIdeal.τ Cert.KernelIdeal.sig (Elt Ideal)) (W' : Valuation Cert.ReferenceIdeal.τ Cert.ReferenceIdeal.sig (Elt Ideal))
    (h_c_29 : W (Proc.devRef .tc Cert.KernelIdeal.main_c_29) = W' (Proc.devRef .tc Cert.ReferenceIdeal.main_c_36))
    (h_v13 : W (Proc.devRef .tc Cert.KernelIdeal.main_v13) = W' (Proc.devRef .tc Cert.ReferenceIdeal.main_v36))
    (h_v20 : W (Proc.devRef .tc Cert.KernelIdeal.main_v20) = W' (Proc.devRef .tc Cert.ReferenceIdeal.main_v43))
    (h_v27 : W (Proc.devRef .tc Cert.KernelIdeal.main_v27) = W' (Proc.devRef .tc Cert.ReferenceIdeal.main_v50))
    (h_v35 : W (Proc.devRef .tc Cert.KernelIdeal.main_v35) = W' (Proc.devRef .tc Cert.ReferenceIdeal.main_v58))
    (h_v44 : W (Proc.devRef .tc Cert.KernelIdeal.main_v44) = W' (Proc.devRef .tc Cert.ReferenceIdeal.main_v67))
    (h_v65 : W (Proc.devRef .tc Cert.KernelIdeal.main_v65) = W' (Proc.devRef .tc Cert.ReferenceIdeal.main_v88))
    (h_v75 : W (Proc.devRef .tc Cert.KernelIdeal.main_v75) = W' (Proc.devRef .tc Cert.ReferenceIdeal.main_v98))
    (h_v83 : W (Proc.devRef .tc Cert.KernelIdeal.main_v83) = W' (Proc.devRef .tc Cert.ReferenceIdeal.main_v106))
    (h_v90 : W (Proc.devRef .tc Cert.KernelIdeal.main_v90) = W' (Proc.devRef .tc Cert.ReferenceIdeal.main_v113))
    (h_v98 : W (Proc.devRef .tc Cert.KernelIdeal.main_v98) = W' (Proc.devRef .tc Cert.ReferenceIdeal.main_v121))
include h_c_29 h_v13 h_v20 h_v27 h_v35 h_v44 h_v65 h_v75 h_v83 h_v90 h_v98

/-- Stretch 8 read at main_v13 and at main_v36. -/
theorem stretch_8_v13 :
      (StableHlo.after (Cert.KernelIdeal.Gen.hostOps1_8 (F := Ideal)) W (Proc.devRef .tc Cert.KernelIdeal.main_v13)
        = StableHlo.after (Cert.ReferenceIdeal.Hand.opsT8 (F := Ideal)) W' (Proc.devRef .tc Cert.ReferenceIdeal.main_v36)) := by
  read_stretch <;> (try (simp only [concatenate_pair] <;> read_stretch)) <;> (try simp only [h_c_29, h_v13, h_v20, h_v27, h_v35, h_v44, h_v65, h_v75, h_v83, h_v90, h_v98, comparator_eq, gather_eq_1, gather_eq_2, gather_eq_3, scatter_eq_4, scatter_eq_5, scatter_eq_6, scatter_eq_7])
    <;> (first | with_reducible rfl | rfl)

/-- Stretch 8 read at main_v20 and at main_v43. -/
theorem stretch_8_v20 :
      (StableHlo.after (Cert.KernelIdeal.Gen.hostOps1_8 (F := Ideal)) W (Proc.devRef .tc Cert.KernelIdeal.main_v20)
        = StableHlo.after (Cert.ReferenceIdeal.Hand.opsT8 (F := Ideal)) W' (Proc.devRef .tc Cert.ReferenceIdeal.main_v43)) := by
  read_stretch <;> (try (simp only [concatenate_pair] <;> read_stretch)) <;> (try simp only [h_c_29, h_v13, h_v20, h_v27, h_v35, h_v44, h_v65, h_v75, h_v83, h_v90, h_v98, comparator_eq, gather_eq_1, gather_eq_2, gather_eq_3, scatter_eq_4, scatter_eq_5, scatter_eq_6, scatter_eq_7])
    <;> (first | with_reducible rfl | rfl)

/-- Stretch 8 read at main_v27 and at main_v50. -/
theorem stretch_8_v27 :
      (StableHlo.after (Cert.KernelIdeal.Gen.hostOps1_8 (F := Ideal)) W (Proc.devRef .tc Cert.KernelIdeal.main_v27)
        = StableHlo.after (Cert.ReferenceIdeal.Hand.opsT8 (F := Ideal)) W' (Proc.devRef .tc Cert.ReferenceIdeal.main_v50)) := by
  read_stretch <;> (try (simp only [concatenate_pair] <;> read_stretch)) <;> (try simp only [h_c_29, h_v13, h_v20, h_v27, h_v35, h_v44, h_v65, h_v75, h_v83, h_v90, h_v98, comparator_eq, gather_eq_1, gather_eq_2, gather_eq_3, scatter_eq_4, scatter_eq_5, scatter_eq_6, scatter_eq_7])
    <;> (first | with_reducible rfl | rfl)

/-- Stretch 8 read at main_v35 and at main_v58. -/
theorem stretch_8_v35 :
      (StableHlo.after (Cert.KernelIdeal.Gen.hostOps1_8 (F := Ideal)) W (Proc.devRef .tc Cert.KernelIdeal.main_v35)
        = StableHlo.after (Cert.ReferenceIdeal.Hand.opsT8 (F := Ideal)) W' (Proc.devRef .tc Cert.ReferenceIdeal.main_v58)) := by
  read_stretch <;> (try (simp only [concatenate_pair] <;> read_stretch)) <;> (try simp only [h_c_29, h_v13, h_v20, h_v27, h_v35, h_v44, h_v65, h_v75, h_v83, h_v90, h_v98, comparator_eq, gather_eq_1, gather_eq_2, gather_eq_3, scatter_eq_4, scatter_eq_5, scatter_eq_6, scatter_eq_7])
    <;> (first | with_reducible rfl | rfl)

/-- Stretch 8 read at main_v44 and at main_v67. -/
theorem stretch_8_v44 :
      (StableHlo.after (Cert.KernelIdeal.Gen.hostOps1_8 (F := Ideal)) W (Proc.devRef .tc Cert.KernelIdeal.main_v44)
        = StableHlo.after (Cert.ReferenceIdeal.Hand.opsT8 (F := Ideal)) W' (Proc.devRef .tc Cert.ReferenceIdeal.main_v67)) := by
  read_stretch <;> (try (simp only [concatenate_pair] <;> read_stretch)) <;> (try simp only [h_c_29, h_v13, h_v20, h_v27, h_v35, h_v44, h_v65, h_v75, h_v83, h_v90, h_v98, comparator_eq, gather_eq_1, gather_eq_2, gather_eq_3, scatter_eq_4, scatter_eq_5, scatter_eq_6, scatter_eq_7])
    <;> (first | with_reducible rfl | rfl)

/-- Stretch 8 read at main_v65 and at main_v88. -/
theorem stretch_8_v65 :
      (StableHlo.after (Cert.KernelIdeal.Gen.hostOps1_8 (F := Ideal)) W (Proc.devRef .tc Cert.KernelIdeal.main_v65)
        = StableHlo.after (Cert.ReferenceIdeal.Hand.opsT8 (F := Ideal)) W' (Proc.devRef .tc Cert.ReferenceIdeal.main_v88)) := by
  read_stretch <;> (try (simp only [concatenate_pair] <;> read_stretch)) <;> (try simp only [h_c_29, h_v13, h_v20, h_v27, h_v35, h_v44, h_v65, h_v75, h_v83, h_v90, h_v98, comparator_eq, gather_eq_1, gather_eq_2, gather_eq_3, scatter_eq_4, scatter_eq_5, scatter_eq_6, scatter_eq_7])
    <;> (first | with_reducible rfl | rfl)

/-- Stretch 8 read at main_v75 and at main_v98. -/
theorem stretch_8_v75 :
      (StableHlo.after (Cert.KernelIdeal.Gen.hostOps1_8 (F := Ideal)) W (Proc.devRef .tc Cert.KernelIdeal.main_v75)
        = StableHlo.after (Cert.ReferenceIdeal.Hand.opsT8 (F := Ideal)) W' (Proc.devRef .tc Cert.ReferenceIdeal.main_v98)) := by
  read_stretch <;> (try (simp only [concatenate_pair] <;> read_stretch)) <;> (try simp only [h_c_29, h_v13, h_v20, h_v27, h_v35, h_v44, h_v65, h_v75, h_v83, h_v90, h_v98, comparator_eq, gather_eq_1, gather_eq_2, gather_eq_3, scatter_eq_4, scatter_eq_5, scatter_eq_6, scatter_eq_7])
    <;> (first | with_reducible rfl | rfl)

/-- Stretch 8 read at main_v83 and at main_v106. -/
theorem stretch_8_v83 :
      (StableHlo.after (Cert.KernelIdeal.Gen.hostOps1_8 (F := Ideal)) W (Proc.devRef .tc Cert.KernelIdeal.main_v83)
        = StableHlo.after (Cert.ReferenceIdeal.Hand.opsT8 (F := Ideal)) W' (Proc.devRef .tc Cert.ReferenceIdeal.main_v106)) := by
  read_stretch <;> (try (simp only [concatenate_pair] <;> read_stretch)) <;> (try simp only [h_c_29, h_v13, h_v20, h_v27, h_v35, h_v44, h_v65, h_v75, h_v83, h_v90, h_v98, comparator_eq, gather_eq_1, gather_eq_2, gather_eq_3, scatter_eq_4, scatter_eq_5, scatter_eq_6, scatter_eq_7])
    <;> (first | with_reducible rfl | rfl)

/-- Stretch 8 read at main_v98 and at main_v121. -/
theorem stretch_8_v98 :
      (StableHlo.after (Cert.KernelIdeal.Gen.hostOps1_8 (F := Ideal)) W (Proc.devRef .tc Cert.KernelIdeal.main_v98)
        = StableHlo.after (Cert.ReferenceIdeal.Hand.opsT8 (F := Ideal)) W' (Proc.devRef .tc Cert.ReferenceIdeal.main_v121)) := by
  read_stretch <;> (try (simp only [concatenate_pair] <;> read_stretch)) <;> (try simp only [h_c_29, h_v13, h_v20, h_v27, h_v35, h_v44, h_v65, h_v75, h_v83, h_v90, h_v98, comparator_eq, gather_eq_1, gather_eq_2, gather_eq_3, scatter_eq_4, scatter_eq_5, scatter_eq_6, scatter_eq_7])
    <;> (first | with_reducible rfl | rfl)

/-- Stretch 8 read at main_v99 and at main_v122. -/
theorem stretch_8_v99 :
      (StableHlo.after (Cert.KernelIdeal.Gen.hostOps1_8 (F := Ideal)) W (Proc.devRef .tc Cert.KernelIdeal.main_v99)
        = StableHlo.after (Cert.ReferenceIdeal.Hand.opsT8 (F := Ideal)) W' (Proc.devRef .tc Cert.ReferenceIdeal.main_v122)) := by
  read_stretch <;> (try (simp only [concatenate_pair] <;> read_stretch)) <;> (try simp only [h_c_29, h_v13, h_v20, h_v27, h_v35, h_v44, h_v65, h_v75, h_v83, h_v90, h_v98, comparator_eq, gather_eq_1, gather_eq_2, gather_eq_3, scatter_eq_4, scatter_eq_5, scatter_eq_6, scatter_eq_7])
    <;> (first | with_reducible rfl | rfl)

/-- Stretch 8: agreement at the pairs live in gives agreement at the pairs live out. -/
theorem stretch_8 :
      (StableHlo.after (Cert.KernelIdeal.Gen.hostOps1_8 (F := Ideal)) W (Proc.devRef .tc Cert.KernelIdeal.main_v13)
        = StableHlo.after (Cert.ReferenceIdeal.Hand.opsT8 (F := Ideal)) W' (Proc.devRef .tc Cert.ReferenceIdeal.main_v36)) ∧
      (StableHlo.after (Cert.KernelIdeal.Gen.hostOps1_8 (F := Ideal)) W (Proc.devRef .tc Cert.KernelIdeal.main_v20)
        = StableHlo.after (Cert.ReferenceIdeal.Hand.opsT8 (F := Ideal)) W' (Proc.devRef .tc Cert.ReferenceIdeal.main_v43)) ∧
      (StableHlo.after (Cert.KernelIdeal.Gen.hostOps1_8 (F := Ideal)) W (Proc.devRef .tc Cert.KernelIdeal.main_v27)
        = StableHlo.after (Cert.ReferenceIdeal.Hand.opsT8 (F := Ideal)) W' (Proc.devRef .tc Cert.ReferenceIdeal.main_v50)) ∧
      (StableHlo.after (Cert.KernelIdeal.Gen.hostOps1_8 (F := Ideal)) W (Proc.devRef .tc Cert.KernelIdeal.main_v35)
        = StableHlo.after (Cert.ReferenceIdeal.Hand.opsT8 (F := Ideal)) W' (Proc.devRef .tc Cert.ReferenceIdeal.main_v58)) ∧
      (StableHlo.after (Cert.KernelIdeal.Gen.hostOps1_8 (F := Ideal)) W (Proc.devRef .tc Cert.KernelIdeal.main_v44)
        = StableHlo.after (Cert.ReferenceIdeal.Hand.opsT8 (F := Ideal)) W' (Proc.devRef .tc Cert.ReferenceIdeal.main_v67)) ∧
      (StableHlo.after (Cert.KernelIdeal.Gen.hostOps1_8 (F := Ideal)) W (Proc.devRef .tc Cert.KernelIdeal.main_v65)
        = StableHlo.after (Cert.ReferenceIdeal.Hand.opsT8 (F := Ideal)) W' (Proc.devRef .tc Cert.ReferenceIdeal.main_v88)) ∧
      (StableHlo.after (Cert.KernelIdeal.Gen.hostOps1_8 (F := Ideal)) W (Proc.devRef .tc Cert.KernelIdeal.main_v75)
        = StableHlo.after (Cert.ReferenceIdeal.Hand.opsT8 (F := Ideal)) W' (Proc.devRef .tc Cert.ReferenceIdeal.main_v98)) ∧
      (StableHlo.after (Cert.KernelIdeal.Gen.hostOps1_8 (F := Ideal)) W (Proc.devRef .tc Cert.KernelIdeal.main_v83)
        = StableHlo.after (Cert.ReferenceIdeal.Hand.opsT8 (F := Ideal)) W' (Proc.devRef .tc Cert.ReferenceIdeal.main_v106)) ∧
      (StableHlo.after (Cert.KernelIdeal.Gen.hostOps1_8 (F := Ideal)) W (Proc.devRef .tc Cert.KernelIdeal.main_v98)
        = StableHlo.after (Cert.ReferenceIdeal.Hand.opsT8 (F := Ideal)) W' (Proc.devRef .tc Cert.ReferenceIdeal.main_v121)) ∧
      (StableHlo.after (Cert.KernelIdeal.Gen.hostOps1_8 (F := Ideal)) W (Proc.devRef .tc Cert.KernelIdeal.main_v99)
        = StableHlo.after (Cert.ReferenceIdeal.Hand.opsT8 (F := Ideal)) W' (Proc.devRef .tc Cert.ReferenceIdeal.main_v122)) :=
  ⟨stretch_8_v13 W W' h_c_29 h_v13 h_v20 h_v27 h_v35 h_v44 h_v65 h_v75 h_v83 h_v90 h_v98,
   stretch_8_v20 W W' h_c_29 h_v13 h_v20 h_v27 h_v35 h_v44 h_v65 h_v75 h_v83 h_v90 h_v98,
   stretch_8_v27 W W' h_c_29 h_v13 h_v20 h_v27 h_v35 h_v44 h_v65 h_v75 h_v83 h_v90 h_v98,
   stretch_8_v35 W W' h_c_29 h_v13 h_v20 h_v27 h_v35 h_v44 h_v65 h_v75 h_v83 h_v90 h_v98,
   stretch_8_v44 W W' h_c_29 h_v13 h_v20 h_v27 h_v35 h_v44 h_v65 h_v75 h_v83 h_v90 h_v98,
   stretch_8_v65 W W' h_c_29 h_v13 h_v20 h_v27 h_v35 h_v44 h_v65 h_v75 h_v83 h_v90 h_v98,
   stretch_8_v75 W W' h_c_29 h_v13 h_v20 h_v27 h_v35 h_v44 h_v65 h_v75 h_v83 h_v90 h_v98,
   stretch_8_v83 W W' h_c_29 h_v13 h_v20 h_v27 h_v35 h_v44 h_v65 h_v75 h_v83 h_v90 h_v98,
   stretch_8_v98 W W' h_c_29 h_v13 h_v20 h_v27 h_v35 h_v44 h_v65 h_v75 h_v83 h_v90 h_v98,
   stretch_8_v99 W W' h_c_29 h_v13 h_v20 h_v27 h_v35 h_v44 h_v65 h_v75 h_v83 h_v90 h_v98⟩

end

end Cert.TailSim

end
-- ==== Proof.TailSim9.lean ====
/-
  Stretch 9 of the two programs' shared line of host operations (1 operations): from contents that agree at the
  buffer pairs live into the stretch, the contents after it agree at the pairs live out of it. Each side is read as a
  pure term over the incoming contents; the two terms apply the same functions to corresponding operands.
-/
import proofs.«170420_j23845658427974_2_alg».proof.Proof.Gen.KernelIdeal.Launch
import proofs.«170420_j23845658427974_2_alg».proof.Proof.RefOps
import proofs.«170420_j23845658427974_2_alg».proof.Proof.Gen.ReferenceIdeal
import proofs.«170420_j23845658427974_2_alg».proof.Proof.LibStretches
import proofs.«170420_j23845658427974_2_alg».proof.Proof.TailSimDims
import proofs.«170420_j23845658427974_2_alg».proof.Proof.LibConcat2

noncomputable section

namespace Cert.TailSim

open Idealize.ShloMosaic Idealize.ShloMosaic.StableHlo Cert.Stretches Cert.Concat2

section

variable (W : Valuation Cert.KernelIdeal.τ Cert.KernelIdeal.sig (Elt Ideal)) (W' : Valuation Cert.ReferenceIdeal.τ Cert.ReferenceIdeal.sig (Elt Ideal))
    (h_v13 : W (Proc.devRef .tc Cert.KernelIdeal.main_v13) = W' (Proc.devRef .tc Cert.ReferenceIdeal.main_v36))
    (h_v20 : W (Proc.devRef .tc Cert.KernelIdeal.main_v20) = W' (Proc.devRef .tc Cert.ReferenceIdeal.main_v43))
    (h_v27 : W (Proc.devRef .tc Cert.KernelIdeal.main_v27) = W' (Proc.devRef .tc Cert.ReferenceIdeal.main_v50))
    (h_v35 : W (Proc.devRef .tc Cert.KernelIdeal.main_v35) = W' (Proc.devRef .tc Cert.ReferenceIdeal.main_v58))
    (h_v44 : W (Proc.devRef .tc Cert.KernelIdeal.main_v44) = W' (Proc.devRef .tc Cert.ReferenceIdeal.main_v67))
    (h_v65 : W (Proc.devRef .tc Cert.KernelIdeal.main_v65) = W' (Proc.devRef .tc Cert.ReferenceIdeal.main_v88))
    (h_v75 : W (Proc.devRef .tc Cert.KernelIdeal.main_v75) = W' (Proc.devRef .tc Cert.ReferenceIdeal.main_v98))
    (h_v83 : W (Proc.devRef .tc Cert.KernelIdeal.main_v83) = W' (Proc.devRef .tc Cert.ReferenceIdeal.main_v106))
    (h_v98 : W (Proc.devRef .tc Cert.KernelIdeal.main_v98) = W' (Proc.devRef .tc Cert.ReferenceIdeal.main_v121))
    (h_v99 : W (Proc.devRef .tc Cert.KernelIdeal.main_v99) = W' (Proc.devRef .tc Cert.ReferenceIdeal.main_v122))
include h_v13 h_v20 h_v27 h_v35 h_v44 h_v65 h_v75 h_v83 h_v98 h_v99

/-- Stretch 9 read at main_c_30 and at main_c_37. -/
theorem stretch_9_c_30 :
      (StableHlo.after (Cert.KernelIdeal.Gen.hostOps1_9 (F := Ideal)) W (Proc.devRef .tc Cert.KernelIdeal.main_c_30)
        = StableHlo.after (Cert.ReferenceIdeal.Hand.opsT9 (F := Ideal)) W' (Proc.devRef .tc Cert.ReferenceIdeal.main_c_37)) := by
  read_stretch <;> (try (simp only [concatenate_pair] <;> read_stretch)) <;> (try simp only [h_v13, h_v20, h_v27, h_v35, h_v44, h_v65, h_v75, h_v83, h_v98, h_v99, comparator_eq, gather_eq_1, gather_eq_2, gather_eq_3, scatter_eq_4, scatter_eq_5, scatter_eq_6, scatter_eq_7])
    <;> (first | with_reducible rfl | rfl)

/-- Stretch 9 read at main_v13 and at main_v36. -/
theorem stretch_9_v13 :
      (StableHlo.after (Cert.KernelIdeal.Gen.hostOps1_9 (F := Ideal)) W (Proc.devRef .tc Cert.KernelIdeal.main_v13)
        = StableHlo.after (Cert.ReferenceIdeal.Hand.opsT9 (F := Ideal)) W' (Proc.devRef .tc Cert.ReferenceIdeal.main_v36)) := by
  read_stretch <;> (try (simp only [concatenate_pair] <;> read_stretch)) <;> (try simp only [h_v13, h_v20, h_v27, h_v35, h_v44, h_v65, h_v75, h_v83, h_v98, h_v99, comparator_eq, gather_eq_1, gather_eq_2, gather_eq_3, scatter_eq_4, scatter_eq_5, scatter_eq_6, scatter_eq_7])
    <;> (first | with_reducible rfl | rfl)

/-- Stretch 9 read at main_v20 and at main_v43. -/
theorem stretch_9_v20 :
      (StableHlo.after (Cert.KernelIdeal.Gen.hostOps1_9 (F := Ideal)) W (Proc.devRef .tc Cert.KernelIdeal.main_v20)
        = StableHlo.after (Cert.ReferenceIdeal.Hand.opsT9 (F := Ideal)) W' (Proc.devRef .tc Cert.ReferenceIdeal.main_v43)) := by
  read_stretch <;> (try (simp only [concatenate_pair] <;> read_stretch)) <;> (try simp only [h_v13, h_v20, h_v27, h_v35, h_v44, h_v65, h_v75, h_v83, h_v98, h_v99, comparator_eq, gather_eq_1, gather_eq_2, gather_eq_3, scatter_eq_4, scatter_eq_5, scatter_eq_6, scatter_eq_7])
    <;> (first | with_reducible rfl | rfl)

/-- Stretch 9 read at main_v27 and at main_v50. -/
theorem stretch_9_v27 :
      (StableHlo.after (Cert.KernelIdeal.Gen.hostOps1_9 (F := Ideal)) W (Proc.devRef .tc Cert.KernelIdeal.main_v27)
        = StableHlo.after (Cert.ReferenceIdeal.Hand.opsT9 (F := Ideal)) W' (Proc.devRef .tc Cert.ReferenceIdeal.main_v50)) := by
  read_stretch <;> (try (simp only [concatenate_pair] <;> read_stretch)) <;> (try simp only [h_v13, h_v20, h_v27, h_v35, h_v44, h_v65, h_v75, h_v83, h_v98, h_v99, comparator_eq, gather_eq_1, gather_eq_2, gather_eq_3, scatter_eq_4, scatter_eq_5, scatter_eq_6, scatter_eq_7])
    <;> (first | with_reducible rfl | rfl)

/-- Stretch 9 read at main_v35 and at main_v58. -/
theorem stretch_9_v35 :
      (StableHlo.after (Cert.KernelIdeal.Gen.hostOps1_9 (F := Ideal)) W (Proc.devRef .tc Cert.KernelIdeal.main_v35)
        = StableHlo.after (Cert.ReferenceIdeal.Hand.opsT9 (F := Ideal)) W' (Proc.devRef .tc Cert.ReferenceIdeal.main_v58)) := by
  read_stretch <;> (try (simp only [concatenate_pair] <;> read_stretch)) <;> (try simp only [h_v13, h_v20, h_v27, h_v35, h_v44, h_v65, h_v75, h_v83, h_v98, h_v99, comparator_eq, gather_eq_1, gather_eq_2, gather_eq_3, scatter_eq_4, scatter_eq_5, scatter_eq_6, scatter_eq_7])
    <;> (first | with_reducible rfl | rfl)

/-- Stretch 9 read at main_v44 and at main_v67. -/
theorem stretch_9_v44 :
      (StableHlo.after (Cert.KernelIdeal.Gen.hostOps1_9 (F := Ideal)) W (Proc.devRef .tc Cert.KernelIdeal.main_v44)
        = StableHlo.after (Cert.ReferenceIdeal.Hand.opsT9 (F := Ideal)) W' (Proc.devRef .tc Cert.ReferenceIdeal.main_v67)) := by
  read_stretch <;> (try (simp only [concatenate_pair] <;> read_stretch)) <;> (try simp only [h_v13, h_v20, h_v27, h_v35, h_v44, h_v65, h_v75, h_v83, h_v98, h_v99, comparator_eq, gather_eq_1, gather_eq_2, gather_eq_3, scatter_eq_4, scatter_eq_5, scatter_eq_6, scatter_eq_7])
    <;> (first | with_reducible rfl | rfl)

/-- Stretch 9 read at main_v65 and at main_v88. -/
theorem stretch_9_v65 :
      (StableHlo.after (Cert.KernelIdeal.Gen.hostOps1_9 (F := Ideal)) W (Proc.devRef .tc Cert.KernelIdeal.main_v65)
        = StableHlo.after (Cert.ReferenceIdeal.Hand.opsT9 (F := Ideal)) W' (Proc.devRef .tc Cert.ReferenceIdeal.main_v88)) := by
  read_stretch <;> (try (simp only [concatenate_pair] <;> read_stretch)) <;> (try simp only [h_v13, h_v20, h_v27, h_v35, h_v44, h_v65, h_v75, h_v83, h_v98, h_v99, comparator_eq, gather_eq_1, gather_eq_2, gather_eq_3, scatter_eq_4, scatter_eq_5, scatter_eq_6, scatter_eq_7])
    <;> (first | with_reducible rfl | rfl)

/-- Stretch 9 read at main_v75 and at main_v98. -/
theorem stretch_9_v75 :
      (StableHlo.after (Cert.KernelIdeal.Gen.hostOps1_9 (F := Ideal)) W (Proc.devRef .tc Cert.KernelIdeal.main_v75)
        = StableHlo.after (Cert.ReferenceIdeal.Hand.opsT9 (F := Ideal)) W' (Proc.devRef .tc Cert.ReferenceIdeal.main_v98)) := by
  read_stretch <;> (try (simp only [concatenate_pair] <;> read_stretch)) <;> (try simp only [h_v13, h_v20, h_v27, h_v35, h_v44, h_v65, h_v75, h_v83, h_v98, h_v99, comparator_eq, gather_eq_1, gather_eq_2, gather_eq_3, scatter_eq_4, scatter_eq_5, scatter_eq_6, scatter_eq_7])
    <;> (first | with_reducible rfl | rfl)

/-- Stretch 9 read at main_v83 and at main_v106. -/
theorem stretch_9_v83 :
      (StableHlo.after (Cert.KernelIdeal.Gen.hostOps1_9 (F := Ideal)) W (Proc.devRef .tc Cert.KernelIdeal.main_v83)
        = StableHlo.after (Cert.ReferenceIdeal.Hand.opsT9 (F := Ideal)) W' (Proc.devRef .tc Cert.ReferenceIdeal.main_v106)) := by
  read_stretch <;> (try (simp only [concatenate_pair] <;> read_stretch)) <;> (try simp only [h_v13, h_v20, h_v27, h_v35, h_v44, h_v65, h_v75, h_v83, h_v98, h_v99, comparator_eq, gather_eq_1, gather_eq_2, gather_eq_3, scatter_eq_4, scatter_eq_5, scatter_eq_6, scatter_eq_7])
    <;> (first | with_reducible rfl | rfl)

/-- Stretch 9 read at main_v98 and at main_v121. -/
theorem stretch_9_v98 :
      (StableHlo.after (Cert.KernelIdeal.Gen.hostOps1_9 (F := Ideal)) W (Proc.devRef .tc Cert.KernelIdeal.main_v98)
        = StableHlo.after (Cert.ReferenceIdeal.Hand.opsT9 (F := Ideal)) W' (Proc.devRef .tc Cert.ReferenceIdeal.main_v121)) := by
  read_stretch <;> (try (simp only [concatenate_pair] <;> read_stretch)) <;> (try simp only [h_v13, h_v20, h_v27, h_v35, h_v44, h_v65, h_v75, h_v83, h_v98, h_v99, comparator_eq, gather_eq_1, gather_eq_2, gather_eq_3, scatter_eq_4, scatter_eq_5, scatter_eq_6, scatter_eq_7])
    <;> (first | with_reducible rfl | rfl)

/-- Stretch 9 read at main_v99 and at main_v122. -/
theorem stretch_9_v99 :
      (StableHlo.after (Cert.KernelIdeal.Gen.hostOps1_9 (F := Ideal)) W (Proc.devRef .tc Cert.KernelIdeal.main_v99)
        = StableHlo.after (Cert.ReferenceIdeal.Hand.opsT9 (F := Ideal)) W' (Proc.devRef .tc Cert.ReferenceIdeal.main_v122)) := by
  read_stretch <;> (try (simp only [concatenate_pair] <;> read_stretch)) <;> (try simp only [h_v13, h_v20, h_v27, h_v35, h_v44, h_v65, h_v75, h_v83, h_v98, h_v99, comparator_eq, gather_eq_1, gather_eq_2, gather_eq_3, scatter_eq_4, scatter_eq_5, scatter_eq_6, scatter_eq_7])
    <;> (first | with_reducible rfl | rfl)

/-- Stretch 9: agreement at the pairs live in gives agreement at the pairs live out. -/
theorem stretch_9 :
      (StableHlo.after (Cert.KernelIdeal.Gen.hostOps1_9 (F := Ideal)) W (Proc.devRef .tc Cert.KernelIdeal.main_c_30)
        = StableHlo.after (Cert.ReferenceIdeal.Hand.opsT9 (F := Ideal)) W' (Proc.devRef .tc Cert.ReferenceIdeal.main_c_37)) ∧
      (StableHlo.after (Cert.KernelIdeal.Gen.hostOps1_9 (F := Ideal)) W (Proc.devRef .tc Cert.KernelIdeal.main_v13)
        = StableHlo.after (Cert.ReferenceIdeal.Hand.opsT9 (F := Ideal)) W' (Proc.devRef .tc Cert.ReferenceIdeal.main_v36)) ∧
      (StableHlo.after (Cert.KernelIdeal.Gen.hostOps1_9 (F := Ideal)) W (Proc.devRef .tc Cert.KernelIdeal.main_v20)
        = StableHlo.after (Cert.ReferenceIdeal.Hand.opsT9 (F := Ideal)) W' (Proc.devRef .tc Cert.ReferenceIdeal.main_v43)) ∧
      (StableHlo.after (Cert.KernelIdeal.Gen.hostOps1_9 (F := Ideal)) W (Proc.devRef .tc Cert.KernelIdeal.main_v27)
        = StableHlo.after (Cert.ReferenceIdeal.Hand.opsT9 (F := Ideal)) W' (Proc.devRef .tc Cert.ReferenceIdeal.main_v50)) ∧
      (StableHlo.after (Cert.KernelIdeal.Gen.hostOps1_9 (F := Ideal)) W (Proc.devRef .tc Cert.KernelIdeal.main_v35)
        = StableHlo.after (Cert.ReferenceIdeal.Hand.opsT9 (F := Ideal)) W' (Proc.devRef .tc Cert.ReferenceIdeal.main_v58)) ∧
      (StableHlo.after (Cert.KernelIdeal.Gen.hostOps1_9 (F := Ideal)) W (Proc.devRef .tc Cert.KernelIdeal.main_v44)
        = StableHlo.after (Cert.ReferenceIdeal.Hand.opsT9 (F := Ideal)) W' (Proc.devRef .tc Cert.ReferenceIdeal.main_v67)) ∧
      (StableHlo.after (Cert.KernelIdeal.Gen.hostOps1_9 (F := Ideal)) W (Proc.devRef .tc Cert.KernelIdeal.main_v65)
        = StableHlo.after (Cert.ReferenceIdeal.Hand.opsT9 (F := Ideal)) W' (Proc.devRef .tc Cert.ReferenceIdeal.main_v88)) ∧
      (StableHlo.after (Cert.KernelIdeal.Gen.hostOps1_9 (F := Ideal)) W (Proc.devRef .tc Cert.KernelIdeal.main_v75)
        = StableHlo.after (Cert.ReferenceIdeal.Hand.opsT9 (F := Ideal)) W' (Proc.devRef .tc Cert.ReferenceIdeal.main_v98)) ∧
      (StableHlo.after (Cert.KernelIdeal.Gen.hostOps1_9 (F := Ideal)) W (Proc.devRef .tc Cert.KernelIdeal.main_v83)
        = StableHlo.after (Cert.ReferenceIdeal.Hand.opsT9 (F := Ideal)) W' (Proc.devRef .tc Cert.ReferenceIdeal.main_v106)) ∧
      (StableHlo.after (Cert.KernelIdeal.Gen.hostOps1_9 (F := Ideal)) W (Proc.devRef .tc Cert.KernelIdeal.main_v98)
        = StableHlo.after (Cert.ReferenceIdeal.Hand.opsT9 (F := Ideal)) W' (Proc.devRef .tc Cert.ReferenceIdeal.main_v121)) ∧
      (StableHlo.after (Cert.KernelIdeal.Gen.hostOps1_9 (F := Ideal)) W (Proc.devRef .tc Cert.KernelIdeal.main_v99)
        = StableHlo.after (Cert.ReferenceIdeal.Hand.opsT9 (F := Ideal)) W' (Proc.devRef .tc Cert.ReferenceIdeal.main_v122)) :=
  ⟨stretch_9_c_30 W W' h_v13 h_v20 h_v27 h_v35 h_v44 h_v65 h_v75 h_v83 h_v98 h_v99,
   stretch_9_v13 W W' h_v13 h_v20 h_v27 h_v35 h_v44 h_v65 h_v75 h_v83 h_v98 h_v99,
   stretch_9_v20 W W' h_v13 h_v20 h_v27 h_v35 h_v44 h_v65 h_v75 h_v83 h_v98 h_v99,
   stretch_9_v27 W W' h_v13 h_v20 h_v27 h_v35 h_v44 h_v65 h_v75 h_v83 h_v98 h_v99,
   stretch_9_v35 W W' h_v13 h_v20 h_v27 h_v35 h_v44 h_v65 h_v75 h_v83 h_v98 h_v99,
   stretch_9_v44 W W' h_v13 h_v20 h_v27 h_v35 h_v44 h_v65 h_v75 h_v83 h_v98 h_v99,
   stretch_9_v65 W W' h_v13 h_v20 h_v27 h_v35 h_v44 h_v65 h_v75 h_v83 h_v98 h_v99,
   stretch_9_v75 W W' h_v13 h_v20 h_v27 h_v35 h_v44 h_v65 h_v75 h_v83 h_v98 h_v99,
   stretch_9_v83 W W' h_v13 h_v20 h_v27 h_v35 h_v44 h_v65 h_v75 h_v83 h_v98 h_v99,
   stretch_9_v98 W W' h_v13 h_v20 h_v27 h_v35 h_v44 h_v65 h_v75 h_v83 h_v98 h_v99,
   stretch_9_v99 W W' h_v13 h_v20 h_v27 h_v35 h_v44 h_v65 h_v75 h_v83 h_v98 h_v99⟩

end

end Cert.TailSim

end
-- ==== Proof.TailSim10.lean ====
/-
  Stretch 10 of the two programs' shared line of host operations (3 operations): from contents that agree at the
  buffer pairs live into the stretch, the contents after it agree at the pairs live out of it. Each side is read as a
  pure term over the incoming contents; the two terms apply the same functions to corresponding operands.
-/
import proofs.«170420_j23845658427974_2_alg».proof.Proof.Gen.KernelIdeal.Launch
import proofs.«170420_j23845658427974_2_alg».proof.Proof.RefOps
import proofs.«170420_j23845658427974_2_alg».proof.Proof.Gen.ReferenceIdeal
import proofs.«170420_j23845658427974_2_alg».proof.Proof.LibStretches
import proofs.«170420_j23845658427974_2_alg».proof.Proof.TailSimDims
import proofs.«170420_j23845658427974_2_alg».proof.Proof.LibConcat2

noncomputable section

namespace Cert.TailSim

open Idealize.ShloMosaic Idealize.ShloMosaic.StableHlo Cert.Stretches Cert.Concat2

section

variable (W : Valuation Cert.KernelIdeal.τ Cert.KernelIdeal.sig (Elt Ideal)) (W' : Valuation Cert.ReferenceIdeal.τ Cert.ReferenceIdeal.sig (Elt Ideal))
    (h_c_30 : W (Proc.devRef .tc Cert.KernelIdeal.main_c_30) = W' (Proc.devRef .tc Cert.ReferenceIdeal.main_c_37))
    (h_v13 : W (Proc.devRef .tc Cert.KernelIdeal.main_v13) = W' (Proc.devRef .tc Cert.ReferenceIdeal.main_v36))
    (h_v20 : W (Proc.devRef .tc Cert.KernelIdeal.main_v20) = W' (Proc.devRef .tc Cert.ReferenceIdeal.main_v43))
    (h_v27 : W (Proc.devRef .tc Cert.KernelIdeal.main_v27) = W' (Proc.devRef .tc Cert.ReferenceIdeal.main_v50))
    (h_v35 : W (Proc.devRef .tc Cert.KernelIdeal.main_v35) = W' (Proc.devRef .tc Cert.ReferenceIdeal.main_v58))
    (h_v44 : W (Proc.devRef .tc Cert.KernelIdeal.main_v44) = W' (Proc.devRef .tc Cert.ReferenceIdeal.main_v67))
    (h_v65 : W (Proc.devRef .tc Cert.KernelIdeal.main_v65) = W' (Proc.devRef .tc Cert.ReferenceIdeal.main_v88))
    (h_v75 : W (Proc.devRef .tc Cert.KernelIdeal.main_v75) = W' (Proc.devRef .tc Cert.ReferenceIdeal.main_v98))
    (h_v83 : W (Proc.devRef .tc Cert.KernelIdeal.main_v83) = W' (Proc.devRef .tc Cert.ReferenceIdeal.main_v106))
    (h_v98 : W (Proc.devRef .tc Cert.KernelIdeal.main_v98) = W' (Proc.devRef .tc Cert.ReferenceIdeal.main_v121))
    (h_v99 : W (Proc.devRef .tc Cert.KernelIdeal.main_v99) = W' (Proc.devRef .tc Cert.ReferenceIdeal.main_v122))
include h_c_30 h_v13 h_v20 h_v27 h_v35 h_v44 h_v65 h_v75 h_v83 h_v98 h_v99

/-- Stretch 10 read at main_v13 and at main_v36. -/
theorem stretch_10_v13 :
      (StableHlo.after (Cert.KernelIdeal.Gen.hostOps1_10 (F := Ideal)) W (Proc.devRef .tc Cert.KernelIdeal.main_v13)
        = StableHlo.after (Cert.ReferenceIdeal.Hand.opsT10 (F := Ideal)) W' (Proc.devRef .tc Cert.ReferenceIdeal.main_v36)) := by
  read_stretch <;> (try (simp only [concatenate_pair] <;> read_stretch)) <;> (try simp only [h_c_30, h_v13, h_v20, h_v27, h_v35, h_v44, h_v65, h_v75, h_v83, h_v98, h_v99, comparator_eq, gather_eq_1, gather_eq_2, gather_eq_3, scatter_eq_4, scatter_eq_5, scatter_eq_6, scatter_eq_7])
    <;> (first | with_reducible rfl | rfl)

/-- Stretch 10 read at main_v20 and at main_v43. -/
theorem stretch_10_v20 :
      (StableHlo.after (Cert.KernelIdeal.Gen.hostOps1_10 (F := Ideal)) W (Proc.devRef .tc Cert.KernelIdeal.main_v20)
        = StableHlo.after (Cert.ReferenceIdeal.Hand.opsT10 (F := Ideal)) W' (Proc.devRef .tc Cert.ReferenceIdeal.main_v43)) := by
  read_stretch <;> (try (simp only [concatenate_pair] <;> read_stretch)) <;> (try simp only [h_c_30, h_v13, h_v20, h_v27, h_v35, h_v44, h_v65, h_v75, h_v83, h_v98, h_v99, comparator_eq, gather_eq_1, gather_eq_2, gather_eq_3, scatter_eq_4, scatter_eq_5, scatter_eq_6, scatter_eq_7])
    <;> (first | with_reducible rfl | rfl)

/-- Stretch 10 read at main_v27 and at main_v50. -/
theorem stretch_10_v27 :
      (StableHlo.after (Cert.KernelIdeal.Gen.hostOps1_10 (F := Ideal)) W (Proc.devRef .tc Cert.KernelIdeal.main_v27)
        = StableHlo.after (Cert.ReferenceIdeal.Hand.opsT10 (F := Ideal)) W' (Proc.devRef .tc Cert.ReferenceIdeal.main_v50)) := by
  read_stretch <;> (try (simp only [concatenate_pair] <;> read_stretch)) <;> (try simp only [h_c_30, h_v13, h_v20, h_v27, h_v35, h_v44, h_v65, h_v75, h_v83, h_v98, h_v99, comparator_eq, gather_eq_1, gather_eq_2, gather_eq_3, scatter_eq_4, scatter_eq_5, scatter_eq_6, scatter_eq_7])
    <;> (first | with_reducible rfl | rfl)

/-- Stretch 10 read at main_v35 and at main_v58. -/
theorem stretch_10_v35 :
      (StableHlo.after (Cert.KernelIdeal.Gen.hostOps1_10 (F := Ideal)) W (Proc.devRef .tc Cert.KernelIdeal.main_v35)
        = StableHlo.after (Cert.ReferenceIdeal.Hand.opsT10 (F := Ideal)) W' (Proc.devRef .tc Cert.ReferenceIdeal.main_v58)) := by
  read_stretch <;> (try (simp only [concatenate_pair] <;> read_stretch)) <;> (try simp only [h_c_30, h_v13, h_v20, h_v27, h_v35, h_v44, h_v65, h_v75, h_v83, h_v98, h_v99, comparator_eq, gather_eq_1, gather_eq_2, gather_eq_3, scatter_eq_4, scatter_eq_5, scatter_eq_6, scatter_eq_7])
    <;> (first | with_reducible rfl | rfl)

/-- Stretch 10 read at main_v44 and at main_v67. -/
theorem stretch_10_v44 :
      (StableHlo.after (Cert.KernelIdeal.Gen.hostOps1_10 (F := Ideal)) W (Proc.devRef .tc Cert.KernelIdeal.main_v44)
        = StableHlo.after (Cert.ReferenceIdeal.Hand.opsT10 (F := Ideal)) W' (Proc.devRef .tc Cert.ReferenceIdeal.main_v67)) := by
  read_stretch <;> (try (simp only [concatenate_pair] <;> read_stretch)) <;> (try simp only [h_c_30, h_v13, h_v20, h_v27, h_v35, h_v44, h_v65, h_v75, h_v83, h_v98, h_v99, comparator_eq, gather_eq_1, gather_eq_2, gather_eq_3, scatter_eq_4, scatter_eq_5, scatter_eq_6, scatter_eq_7])
    <;> (first | with_reducible rfl | rfl)

/-- Stretch 10 read at main_v65 and at main_v88. -/
theorem stretch_10_v65 :
      (StableHlo.after (Cert.KernelIdeal.Gen.hostOps1_10 (F := Ideal)) W (Proc.devRef .tc Cert.KernelIdeal.main_v65)
        = StableHlo.after (Cert.ReferenceIdeal.Hand.opsT10 (F := Ideal)) W' (Proc.devRef .tc Cert.ReferenceIdeal.main_v88)) := by
  read_stretch <;> (try (simp only [concatenate_pair] <;> read_stretch)) <;> (try simp only [h_c_30, h_v13, h_v20, h_v27, h_v35, h_v44, h_v65, h_v75, h_v83, h_v98, h_v99, comparator_eq, gather_eq_1, gather_eq_2, gather_eq_3, scatter_eq_4, scatter_eq_5, scatter_eq_6, scatter_eq_7])
    <;> (first | with_reducible rfl | rfl)

/-- Stretch 10 read at main_v75 and at main_v98. -/
theorem stretch_10_v75 :
      (StableHlo.after (Cert.KernelIdeal.Gen.hostOps1_10 (F := Ideal)) W (Proc.devRef .tc Cert.KernelIdeal.main_v75)
        = StableHlo.after (Cert.ReferenceIdeal.Hand.opsT10 (F := Ideal)) W' (Proc.devRef .tc Cert.ReferenceIdeal.main_v98)) := by
  read_stretch <;> (try (simp only [concatenate_pair] <;> read_stretch)) <;> (try simp only [h_c_30, h_v13, h_v20, h_v27, h_v35, h_v44, h_v65, h_v75, h_v83, h_v98, h_v99, comparator_eq, gather_eq_1, gather_eq_2, gather_eq_3, scatter_eq_4, scatter_eq_5, scatter_eq_6, scatter_eq_7])
    <;> (first | with_reducible rfl | rfl)

/-- Stretch 10 read at main_v99 and at main_v122. -/
theorem stretch_10_v99 :
      (StableHlo.after (Cert.KernelIdeal.Gen.hostOps1_10 (F := Ideal)) W (Proc.devRef .tc Cert.KernelIdeal.main_v99)
        = StableHlo.after (Cert.ReferenceIdeal.Hand.opsT10 (F := Ideal)) W' (Proc.devRef .tc Cert.ReferenceIdeal.main_v122)) := by
  read_stretch <;> (try (simp only [concatenate_pair] <;> read_stretch)) <;> (try simp only [h_c_30, h_v13, h_v20, h_v27, h_v35, h_v44, h_v65, h_v75, h_v83, h_v98, h_v99, comparator_eq, gather_eq_1, gather_eq_2, gather_eq_3, scatter_eq_4, scatter_eq_5, scatter_eq_6, scatter_eq_7])
    <;> (first | with_reducible rfl | rfl)

/-- Stretch 10 read at main_v100 and at main_v123. -/
theorem stretch_10_v100 :
      (StableHlo.after (Cert.KernelIdeal.Gen.hostOps1_10 (F := Ideal)) W (Proc.devRef .tc Cert.KernelIdeal.main_v100)
        = StableHlo.after (Cert.ReferenceIdeal.Hand.opsT10 (F := Ideal)) W' (Proc.devRef .tc Cert.ReferenceIdeal.main_v123)) := by
  read_stretch <;> (try (simp only [concatenate_pair] <;> read_stretch)) <;> (try simp only [h_c_30, h_v13, h_v20, h_v27, h_v35, h_v44, h_v65, h_v75, h_v83, h_v98, h_v99, comparator_eq, gather_eq_1, gather_eq_2, gather_eq_3, scatter_eq_4, scatter_eq_5, scatter_eq_6, scatter_eq_7])
    <;> (first | with_reducible rfl | rfl)

/-- Stretch 10: agreement at the pairs live in gives agreement at the pairs live out. -/
theorem stretch_10 :
      (StableHlo.after (Cert.KernelIdeal.Gen.hostOps1_10 (F := Ideal)) W (Proc.devRef .tc Cert.KernelIdeal.main_v13)
        = StableHlo.after (Cert.ReferenceIdeal.Hand.opsT10 (F := Ideal)) W' (Proc.devRef .tc Cert.ReferenceIdeal.main_v36)) ∧
      (StableHlo.after (Cert.KernelIdeal.Gen.hostOps1_10 (F := Ideal)) W (Proc.devRef .tc Cert.KernelIdeal.main_v20)
        = StableHlo.after (Cert.ReferenceIdeal.Hand.opsT10 (F := Ideal)) W' (Proc.devRef .tc Cert.ReferenceIdeal.main_v43)) ∧
      (StableHlo.after (Cert.KernelIdeal.Gen.hostOps1_10 (F := Ideal)) W (Proc.devRef .tc Cert.KernelIdeal.main_v27)
        = StableHlo.after (Cert.ReferenceIdeal.Hand.opsT10 (F := Ideal)) W' (Proc.devRef .tc Cert.ReferenceIdeal.main_v50)) ∧
      (StableHlo.after (Cert.KernelIdeal.Gen.hostOps1_10 (F := Ideal)) W (Proc.devRef .tc Cert.KernelIdeal.main_v35)
        = StableHlo.after (Cert.ReferenceIdeal.Hand.opsT10 (F := Ideal)) W' (Proc.devRef .tc Cert.ReferenceIdeal.main_v58)) ∧
      (StableHlo.after (Cert.KernelIdeal.Gen.hostOps1_10 (F := Ideal)) W (Proc.devRef .tc Cert.KernelIdeal.main_v44)
        = StableHlo.after (Cert.ReferenceIdeal.Hand.opsT10 (F := Ideal)) W' (Proc.devRef .tc Cert.ReferenceIdeal.main_v67)) ∧
      (StableHlo.after (Cert.KernelIdeal.Gen.hostOps1_10 (F := Ideal)) W (Proc.devRef .tc Cert.KernelIdeal.main_v65)
        = StableHlo.after (Cert.ReferenceIdeal.Hand.opsT10 (F := Ideal)) W' (Proc.devRef .tc Cert.ReferenceIdeal.main_v88)) ∧
      (StableHlo.after (Cert.KernelIdeal.Gen.hostOps1_10 (F := Ideal)) W (Proc.devRef .tc Cert.KernelIdeal.main_v75)
        = StableHlo.after (Cert.ReferenceIdeal.Hand.opsT10 (F := Ideal)) W' (Proc.devRef .tc Cert.ReferenceIdeal.main_v98)) ∧
      (StableHlo.after (Cert.KernelIdeal.Gen.hostOps1_10 (F := Ideal)) W (Proc.devRef .tc Cert.KernelIdeal.main_v99)
        = StableHlo.after (Cert.ReferenceIdeal.Hand.opsT10 (F := Ideal)) W' (Proc.devRef .tc Cert.ReferenceIdeal.main_v122)) ∧
      (StableHlo.after (Cert.KernelIdeal.Gen.hostOps1_10 (F := Ideal)) W (Proc.devRef .tc Cert.KernelIdeal.main_v100)
        = StableHlo.after (Cert.ReferenceIdeal.Hand.opsT10 (F := Ideal)) W' (Proc.devRef .tc Cert.ReferenceIdeal.main_v123)) :=
  ⟨stretch_10_v13 W W' h_c_30 h_v13 h_v20 h_v27 h_v35 h_v44 h_v65 h_v75 h_v83 h_v98 h_v99,
   stretch_10_v20 W W' h_c_30 h_v13 h_v20 h_v27 h_v35 h_v44 h_v65 h_v75 h_v83 h_v98 h_v99,
   stretch_10_v27 W W' h_c_30 h_v13 h_v20 h_v27 h_v35 h_v44 h_v65 h_v75 h_v83 h_v98 h_v99,
   stretch_10_v35 W W' h_c_30 h_v13 h_v20 h_v27 h_v35 h_v44 h_v65 h_v75 h_v83 h_v98 h_v99,
   stretch_10_v44 W W' h_c_30 h_v13 h_v20 h_v27 h_v35 h_v44 h_v65 h_v75 h_v83 h_v98 h_v99,
   stretch_10_v65 W W' h_c_30 h_v13 h_v20 h_v27 h_v35 h_v44 h_v65 h_v75 h_v83 h_v98 h_v99,
   stretch_10_v75 W W' h_c_30 h_v13 h_v20 h_v27 h_v35 h_v44 h_v65 h_v75 h_v83 h_v98 h_v99,
   stretch_10_v99 W W' h_c_30 h_v13 h_v20 h_v27 h_v35 h_v44 h_v65 h_v75 h_v83 h_v98 h_v99,
   stretch_10_v100 W W' h_c_30 h_v13 h_v20 h_v27 h_v35 h_v44 h_v65 h_v75 h_v83 h_v98 h_v99⟩

end

end Cert.TailSim

end
-- ==== Proof.TailSim11.lean ====
/-
  Stretch 11 of the two programs' shared line of host operations (40 operations): from contents that agree at the
  buffer pairs live into the stretch, the contents after it agree at the pairs live out of it. Each side is read as a
  pure term over the incoming contents; the two terms apply the same functions to corresponding operands.
-/
import proofs.«170420_j23845658427974_2_alg».proof.Proof.Gen.KernelIdeal.Launch
import proofs.«170420_j23845658427974_2_alg».proof.Proof.RefOps
import proofs.«170420_j23845658427974_2_alg».proof.Proof.Gen.ReferenceIdeal
import proofs.«170420_j23845658427974_2_alg».proof.Proof.LibStretches
import proofs.«170420_j23845658427974_2_alg».proof.Proof.TailSimDims
import proofs.«170420_j23845658427974_2_alg».proof.Proof.LibConcat2

noncomputable section

namespace Cert.TailSim

open Idealize.ShloMosaic Idealize.ShloMosaic.StableHlo Cert.Stretches Cert.Concat2

section

variable (W : Valuation Cert.KernelIdeal.τ Cert.KernelIdeal.sig (Elt Ideal)) (W' : Valuation Cert.ReferenceIdeal.τ Cert.ReferenceIdeal.sig (Elt Ideal))
    (h_v13 : W (Proc.devRef .tc Cert.KernelIdeal.main_v13) = W' (Proc.devRef .tc Cert.ReferenceIdeal.main_v36))
    (h_v20 : W (Proc.devRef .tc Cert.KernelIdeal.main_v20) = W' (Proc.devRef .tc Cert.ReferenceIdeal.main_v43))
    (h_v27 : W (Proc.devRef .tc Cert.KernelIdeal.main_v27) = W' (Proc.devRef .tc Cert.ReferenceIdeal.main_v50))
    (h_v35 : W (Proc.devRef .tc Cert.KernelIdeal.main_v35) = W' (Proc.devRef .tc Cert.ReferenceIdeal.main_v58))
    (h_v44 : W (Proc.devRef .tc Cert.KernelIdeal.main_v44) = W' (Proc.devRef .tc Cert.ReferenceIdeal.main_v67))
    (h_v65 : W (Proc.devRef .tc Cert.KernelIdeal.main_v65) = W' (Proc.devRef .tc Cert.ReferenceIdeal.main_v88))
    (h_v75 : W (Proc.devRef .tc Cert.KernelIdeal.main_v75) = W' (Proc.devRef .tc Cert.ReferenceIdeal.main_v98))
    (h_v99 : W (Proc.devRef .tc Cert.KernelIdeal.main_v99) = W' (Proc.devRef .tc Cert.ReferenceIdeal.main_v122))
    (h_v100 : W (Proc.devRef .tc Cert.KernelIdeal.main_v100) = W' (Proc.devRef .tc Cert.ReferenceIdeal.main_v123))
include h_v13 h_v20 h_v27 h_v35 h_v44 h_v65 h_v75 h_v99 h_v100

/-- Stretch 11 read at main_c_40 and at main_c_48. -/
theorem stretch_11_c_40 :
      (StableHlo.after (Cert.KernelIdeal.Gen.hostOps1_11 (F := Ideal)) W (Proc.devRef .tc Cert.KernelIdeal.main_c_40)
        = StableHlo.after (Cert.ReferenceIdeal.Hand.opsT11 (F := Ideal)) W' (Proc.devRef .tc Cert.ReferenceIdeal.main_c_48)) := by
  read_stretch <;> (try (simp only [concatenate_pair] <;> read_stretch)) <;> (try simp only [h_v13, h_v20, h_v27, h_v35, h_v44, h_v65, h_v75, h_v99, h_v100, comparator_eq, gather_eq_1, gather_eq_2, gather_eq_3, scatter_eq_4, scatter_eq_5, scatter_eq_6, scatter_eq_7])
    <;> (first | with_reducible rfl | rfl)

/-- Stretch 11 read at main_v20 and at main_v43. -/
theorem stretch_11_v20 :
      (StableHlo.after (Cert.KernelIdeal.Gen.hostOps1_11 (F := Ideal)) W (Proc.devRef .tc Cert.KernelIdeal.main_v20)
        = StableHlo.after (Cert.ReferenceIdeal.Hand.opsT11 (F := Ideal)) W' (Proc.devRef .tc Cert.ReferenceIdeal.main_v43)) := by
  read_stretch <;> (try (simp only [concatenate_pair] <;> read_stretch)) <;> (try simp only [h_v13, h_v20, h_v27, h_v35, h_v44, h_v65, h_v75, h_v99, h_v100, comparator_eq, gather_eq_1, gather_eq_2, gather_eq_3, scatter_eq_4, scatter_eq_5, scatter_eq_6, scatter_eq_7])
    <;> (first | with_reducible rfl | rfl)

/-- Stretch 11 read at main_v44 and at main_v67. -/
theorem stretch_11_v44 :
      (StableHlo.after (Cert.KernelIdeal.Gen.hostOps1_11 (F := Ideal)) W (Proc.devRef .tc Cert.KernelIdeal.main_v44)
        = StableHlo.after (Cert.ReferenceIdeal.Hand.opsT11 (F := Ideal)) W' (Proc.devRef .tc Cert.ReferenceIdeal.main_v67)) := by
  read_stretch <;> (try (simp only [concatenate_pair] <;> read_stretch)) <;> (try simp only [h_v13, h_v20, h_v27, h_v35, h_v44, h_v65, h_v75, h_v99, h_v100, comparator_eq, gather_eq_1, gather_eq_2, gather_eq_3, scatter_eq_4, scatter_eq_5, scatter_eq_6, scatter_eq_7])
    <;> (first | with_reducible rfl | rfl)

/-- Stretch 11 read at main_v65 and at main_v88. -/
theorem stretch_11_v65 :
      (StableHlo.after (Cert.KernelIdeal.Gen.hostOps1_11 (F := Ideal)) W (Proc.devRef .tc Cert.KernelIdeal.main_v65)
        = StableHlo.after (Cert.ReferenceIdeal.Hand.opsT11 (F := Ideal)) W' (Proc.devRef .tc Cert.ReferenceIdeal.main_v88)) := by
  read_stretch <;> (try (simp only [concatenate_pair] <;> read_stretch)) <;> (try simp only [h_v13, h_v20, h_v27, h_v35, h_v44, h_v65, h_v75, h_v99, h_v100, comparator_eq, gather_eq_1, gather_eq_2, gather_eq_3, scatter_eq_4, scatter_eq_5, scatter_eq_6, scatter_eq_7])
    <;> (first | with_reducible rfl | rfl)

/-- Stretch 11 read at main_v75 and at main_v98. -/
theorem stretch_11_v75 :
      (StableHlo.after (Cert.KernelIdeal.Gen.hostOps1_11 (F := Ideal)) W (Proc.devRef .tc Cert.KernelIdeal.main_v75)
        = StableHlo.after (Cert.ReferenceIdeal.Hand.opsT11 (F := Ideal)) W' (Proc.devRef .tc Cert.ReferenceIdeal.main_v98)) := by
  read_stretch <;> (try (simp only [concatenate_pair] <;> read_stretch)) <;> (try simp only [h_v13, h_v20, h_v27, h_v35, h_v44, h_v65, h_v75, h_v99, h_v100, comparator_eq, gather_eq_1, gather_eq_2, gather_eq_3, scatter_eq_4, scatter_eq_5, scatter_eq_6, scatter_eq_7])
    <;> (first | with_reducible rfl | rfl)

/-- Stretch 11 read at main_v115 and at main_v138. -/
theorem stretch_11_v115 :
      (StableHlo.after (Cert.KernelIdeal.Gen.hostOps1_11 (F := Ideal)) W (Proc.devRef .tc Cert.KernelIdeal.main_v115)
        = StableHlo.after (Cert.ReferenceIdeal.Hand.opsT11 (F := Ideal)) W' (Proc.devRef .tc Cert.ReferenceIdeal.main_v138)) := by
  read_stretch <;> (try (simp only [concatenate_pair] <;> read_stretch)) <;> (try simp only [h_v13, h_v20, h_v27, h_v35, h_v44, h_v65, h_v75, h_v99, h_v100, comparator_eq, gather_eq_1, gather_eq_2, gather_eq_3, scatter_eq_4, scatter_eq_5, scatter_eq_6, scatter_eq_7])
    <;> (first | with_reducible rfl | rfl)

/-- Stretch 11 read at main_v126 and at main_v149. -/
theorem stretch_11_v126 :
      (StableHlo.after (Cert.KernelIdeal.Gen.hostOps1_11 (F := Ideal)) W (Proc.devRef .tc Cert.KernelIdeal.main_v126)
        = StableHlo.after (Cert.ReferenceIdeal.Hand.opsT11 (F := Ideal)) W' (Proc.devRef .tc Cert.ReferenceIdeal.main_v149)) := by
  read_stretch <;> (try (simp only [concatenate_pair] <;> read_stretch)) <;> (try simp only [h_v13, h_v20, h_v27, h_v35, h_v44, h_v65, h_v75, h_v99, h_v100, comparator_eq, gather_eq_1, gather_eq_2, gather_eq_3, scatter_eq_4, scatter_eq_5, scatter_eq_6, scatter_eq_7])
    <;> (first | with_reducible rfl | rfl)

/-- Stretch 11 read at main_v129 and at main_v152. -/
theorem stretch_11_v129 :
      (StableHlo.after (Cert.KernelIdeal.Gen.hostOps1_11 (F := Ideal)) W (Proc.devRef .tc Cert.KernelIdeal.main_v129)
        = StableHlo.after (Cert.ReferenceIdeal.Hand.opsT11 (F := Ideal)) W' (Proc.devRef .tc Cert.ReferenceIdeal.main_v152)) := by
  read_stretch <;> (try (simp only [concatenate_pair] <;> read_stretch)) <;> (try simp only [h_v13, h_v20, h_v27, h_v35, h_v44, h_v65, h_v75, h_v99, h_v100, comparator_eq, gather_eq_1, gather_eq_2, gather_eq_3, scatter_eq_4, scatter_eq_5, scatter_eq_6, scatter_eq_7])
    <;> (first | with_reducible rfl | rfl)

/-- Stretch 11: agreement at the pairs live in gives agreement at the pairs live out. -/
theorem stretch_11 :
      (StableHlo.after (Cert.KernelIdeal.Gen.hostOps1_11 (F := Ideal)) W (Proc.devRef .tc Cert.KernelIdeal.main_c_40)
        = StableHlo.after (Cert.ReferenceIdeal.Hand.opsT11 (F := Ideal)) W' (Proc.devRef .tc Cert.ReferenceIdeal.main_c_48)) ∧
      (StableHlo.after (Cert.KernelIdeal.Gen.hostOps1_11 (F := Ideal)) W (Proc.devRef .tc Cert.KernelIdeal.main_v20)
        = StableHlo.after (Cert.ReferenceIdeal.Hand.opsT11 (F := Ideal)) W' (Proc.devRef .tc Cert.ReferenceIdeal.main_v43)) ∧
      (StableHlo.after (Cert.KernelIdeal.Gen.hostOps1_11 (F := Ideal)) W (Proc.devRef .tc Cert.KernelIdeal.main_v44)
        = StableHlo.after (Cert.ReferenceIdeal.Hand.opsT11 (F := Ideal)) W' (Proc.devRef .tc Cert.ReferenceIdeal.main_v67)) ∧
      (StableHlo.after (Cert.KernelIdeal.Gen.hostOps1_11 (F := Ideal)) W (Proc.devRef .tc Cert.KernelIdeal.main_v65)
        = StableHlo.after (Cert.ReferenceIdeal.Hand.opsT11 (F := Ideal)) W' (Proc.devRef .tc Cert.ReferenceIdeal.main_v88)) ∧
      (StableHlo.after (Cert.KernelIdeal.Gen.hostOps1_11 (F := Ideal)) W (Proc.devRef .tc Cert.KernelIdeal.main_v75)
        = StableHlo.after (Cert.ReferenceIdeal.Hand.opsT11 (F := Ideal)) W' (Proc.devRef .tc Cert.ReferenceIdeal.main_v98)) ∧
      (StableHlo.after (Cert.KernelIdeal.Gen.hostOps1_11 (F := Ideal)) W (Proc.devRef .tc Cert.KernelIdeal.main_v115)
        = StableHlo.after (Cert.ReferenceIdeal.Hand.opsT11 (F := Ideal)) W' (Proc.devRef .tc Cert.ReferenceIdeal.main_v138)) ∧
      (StableHlo.after (Cert.KernelIdeal.Gen.hostOps1_11 (F := Ideal)) W (Proc.devRef .tc Cert.KernelIdeal.main_v126)
        = StableHlo.after (Cert.ReferenceIdeal.Hand.opsT11 (F := Ideal)) W' (Proc.devRef .tc Cert.ReferenceIdeal.main_v149)) ∧
      (StableHlo.after (Cert.KernelIdeal.Gen.hostOps1_11 (F := Ideal)) W (Proc.devRef .tc Cert.KernelIdeal.main_v129)
        = StableHlo.after (Cert.ReferenceIdeal.Hand.opsT11 (F := Ideal)) W' (Proc.devRef .tc Cert.ReferenceIdeal.main_v152)) :=
  ⟨stretch_11_c_40 W W' h_v13 h_v20 h_v27 h_v35 h_v44 h_v65 h_v75 h_v99 h_v100,
   stretch_11_v20 W W' h_v13 h_v20 h_v27 h_v35 h_v44 h_v65 h_v75 h_v99 h_v100,
   stretch_11_v44 W W' h_v13 h_v20 h_v27 h_v35 h_v44 h_v65 h_v75 h_v99 h_v100,
   stretch_11_v65 W W' h_v13 h_v20 h_v27 h_v35 h_v44 h_v65 h_v75 h_v99 h_v100,
   stretch_11_v75 W W' h_v13 h_v20 h_v27 h_v35 h_v44 h_v65 h_v75 h_v99 h_v100,
   stretch_11_v115 W W' h_v13 h_v20 h_v27 h_v35 h_v44 h_v65 h_v75 h_v99 h_v100,
   stretch_11_v126 W W' h_v13 h_v20 h_v27 h_v35 h_v44 h_v65 h_v75 h_v99 h_v100,
   stretch_11_v129 W W' h_v13 h_v20 h_v27 h_v35 h_v44 h_v65 h_v75 h_v99 h_v100⟩

end

end Cert.TailSim

end
-- ==== Proof.TailSim12.lean ====
/-
  Stretch 12 of the two programs' shared line of host operations (3 operations): from contents that agree at the
  buffer pairs live into the stretch, the contents after it agree at the pairs live out of it. Each side is read as a
  pure term over the incoming contents; the two terms apply the same functions to corresponding operands.
-/
import proofs.«170420_j23845658427974_2_alg».proof.Proof.Gen.KernelIdeal.Launch
import proofs.«170420_j23845658427974_2_alg».proof.Proof.RefOps
import proofs.«170420_j23845658427974_2_alg».proof.Proof.Gen.ReferenceIdeal
import proofs.«170420_j23845658427974_2_alg».proof.Proof.LibStretches
import proofs.«170420_j23845658427974_2_alg».proof.Proof.TailSimDims
import proofs.«170420_j23845658427974_2_alg».proof.Proof.LibConcat2

noncomputable section

namespace Cert.TailSim

open Idealize.ShloMosaic Idealize.ShloMosaic.StableHlo Cert.Stretches Cert.Concat2

section

variable (W : Valuation Cert.KernelIdeal.τ Cert.KernelIdeal.sig (Elt Ideal)) (W' : Valuation Cert.ReferenceIdeal.τ Cert.ReferenceIdeal.sig (Elt Ideal))
    (h_c_40 : W (Proc.devRef .tc Cert.KernelIdeal.main_c_40) = W' (Proc.devRef .tc Cert.ReferenceIdeal.main_c_48))
    (h_v20 : W (Proc.devRef .tc Cert.KernelIdeal.main_v20) = W' (Proc.devRef .tc Cert.ReferenceIdeal.main_v43))
    (h_v44 : W (Proc.devRef .tc Cert.KernelIdeal.main_v44) = W' (Proc.devRef .tc Cert.ReferenceIdeal.main_v67))
    (h_v65 : W (Proc.devRef .tc Cert.KernelIdeal.main_v65) = W' (Proc.devRef .tc Cert.ReferenceIdeal.main_v88))
    (h_v75 : W (Proc.devRef .tc Cert.KernelIdeal.main_v75) = W' (Proc.devRef .tc Cert.ReferenceIdeal.main_v98))
    (h_v115 : W (Proc.devRef .tc Cert.KernelIdeal.main_v115) = W' (Proc.devRef .tc Cert.ReferenceIdeal.main_v138))
    (h_v126 : W (Proc.devRef .tc Cert.KernelIdeal.main_v126) = W' (Proc.devRef .tc Cert.ReferenceIdeal.main_v149))
    (h_v129 : W (Proc.devRef .tc Cert.KernelIdeal.main_v129) = W' (Proc.devRef .tc Cert.ReferenceIdeal.main_v152))
include h_c_40 h_v20 h_v44 h_v65 h_v75 h_v115 h_v126 h_v129

/-- Stretch 12 read at main_v20 and at main_v43. -/
theorem stretch_12_v20 :
      (StableHlo.after (Cert.KernelIdeal.Gen.hostOps1_12 (F := Ideal)) W (Proc.devRef .tc Cert.KernelIdeal.main_v20)
        = StableHlo.after (Cert.ReferenceIdeal.Hand.opsT12 (F := Ideal)) W' (Proc.devRef .tc Cert.ReferenceIdeal.main_v43)) := by
  read_stretch <;> (try (simp only [concatenate_pair] <;> read_stretch)) <;> (try simp only [h_c_40, h_v20, h_v44, h_v65, h_v75, h_v115, h_v126, h_v129, comparator_eq, gather_eq_1, gather_eq_2, gather_eq_3, scatter_eq_4, scatter_eq_5, scatter_eq_6, scatter_eq_7])
    <;> (first | with_reducible rfl | rfl)

/-- Stretch 12 read at main_v44 and at main_v67. -/
theorem stretch_12_v44 :
      (StableHlo.after (Cert.KernelIdeal.Gen.hostOps1_12 (F := Ideal)) W (Proc.devRef .tc Cert.KernelIdeal.main_v44)
        = StableHlo.after (Cert.ReferenceIdeal.Hand.opsT12 (F := Ideal)) W' (Proc.devRef .tc Cert.ReferenceIdeal.main_v67)) := by
  read_stretch <;> (try (simp only [concatenate_pair] <;> read_stretch)) <;> (try simp only [h_c_40, h_v20, h_v44, h_v65, h_v75, h_v115, h_v126, h_v129, comparator_eq, gather_eq_1, gather_eq_2, gather_eq_3, scatter_eq_4, scatter_eq_5, scatter_eq_6, scatter_eq_7])
    <;> (first | with_reducible rfl | rfl)

/-- Stretch 12 read at main_v65 and at main_v88. -/
theorem stretch_12_v65 :
      (StableHlo.after (Cert.KernelIdeal.Gen.hostOps1_12 (F := Ideal)) W (Proc.devRef .tc Cert.KernelIdeal.main_v65)
        = StableHlo.after (Cert.ReferenceIdeal.Hand.opsT12 (F := Ideal)) W' (Proc.devRef .tc Cert.ReferenceIdeal.main_v88)) := by
  read_stretch <;> (try (simp only [concatenate_pair] <;> read_stretch)) <;> (try simp only [h_c_40, h_v20, h_v44, h_v65, h_v75, h_v115, h_v126, h_v129, comparator_eq, gather_eq_1, gather_eq_2, gather_eq_3, scatter_eq_4, scatter_eq_5, scatter_eq_6, scatter_eq_7])
    <;> (first | with_reducible rfl | rfl)

/-- Stretch 12 read at main_v115 and at main_v138. -/
theorem stretch_12_v115 :
      (StableHlo.after (Cert.KernelIdeal.Gen.hostOps1_12 (F := Ideal)) W (Proc.devRef .tc Cert.KernelIdeal.main_v115)
        = StableHlo.after (Cert.ReferenceIdeal.Hand.opsT12 (F := Ideal)) W' (Proc.devRef .tc Cert.ReferenceIdeal.main_v138)) := by
  read_stretch <;> (try (simp only [concatenate_pair] <;> read_stretch)) <;> (try simp only [h_c_40, h_v20, h_v44, h_v65, h_v75, h_v115, h_v126, h_v129, comparator_eq, gather_eq_1, gather_eq_2, gather_eq_3, scatter_eq_4, scatter_eq_5, scatter_eq_6, scatter_eq_7])
    <;> (first | with_reducible rfl | rfl)

/-- Stretch 12 read at main_v126 and at main_v149. -/
theorem stretch_12_v126 :
      (StableHlo.after (Cert.KernelIdeal.Gen.hostOps1_12 (F := Ideal)) W (Proc.devRef .tc Cert.KernelIdeal.main_v126)
        = StableHlo.after (Cert.ReferenceIdeal.Hand.opsT12 (F := Ideal)) W' (Proc.devRef .tc Cert.ReferenceIdeal.main_v149)) := by
  read_stretch <;> (try (simp only [concatenate_pair] <;> read_stretch)) <;> (try simp only [h_c_40, h_v20, h_v44, h_v65, h_v75, h_v115, h_v126, h_v129, comparator_eq, gather_eq_1, gather_eq_2, gather_eq_3, scatter_eq_4, scatter_eq_5, scatter_eq_6, scatter_eq_7])
    <;> (first | with_reducible rfl | rfl)

/-- Stretch 12 read at main_v130 and at main_v153. -/
theorem stretch_12_v130 :
      (StableHlo.after (Cert.KernelIdeal.Gen.hostOps1_12 (F := Ideal)) W (Proc.devRef .tc Cert.KernelIdeal.main_v130)
        = StableHlo.after (Cert.ReferenceIdeal.Hand.opsT12 (F := Ideal)) W' (Proc.devRef .tc Cert.ReferenceIdeal.main_v153)) := by
  read_stretch <;> (try (simp only [concatenate_pair] <;> read_stretch)) <;> (try simp only [h_c_40, h_v20, h_v44, h_v65, h_v75, h_v115, h_v126, h_v129, comparator_eq, gather_eq_1, gather_eq_2, gather_eq_3, scatter_eq_4, scatter_eq_5, scatter_eq_6, scatter_eq_7])
    <;> (first | with_reducible rfl | rfl)

/-- Stretch 12: agreement at the pairs live in gives agreement at the pairs live out. -/
theorem stretch_12 :
      (StableHlo.after (Cert.KernelIdeal.Gen.hostOps1_12 (F := Ideal)) W (Proc.devRef .tc Cert.KernelIdeal.main_v20)
        = StableHlo.after (Cert.ReferenceIdeal.Hand.opsT12 (F := Ideal)) W' (Proc.devRef .tc Cert.ReferenceIdeal.main_v43)) ∧
      (StableHlo.after (Cert.KernelIdeal.Gen.hostOps1_12 (F := Ideal)) W (Proc.devRef .tc Cert.KernelIdeal.main_v44)
        = StableHlo.after (Cert.ReferenceIdeal.Hand.opsT12 (F := Ideal)) W' (Proc.devRef .tc Cert.ReferenceIdeal.main_v67)) ∧
      (StableHlo.after (Cert.KernelIdeal.Gen.hostOps1_12 (F := Ideal)) W (Proc.devRef .tc Cert.KernelIdeal.main_v65)
        = StableHlo.after (Cert.ReferenceIdeal.Hand.opsT12 (F := Ideal)) W' (Proc.devRef .tc Cert.ReferenceIdeal.main_v88)) ∧
      (StableHlo.after (Cert.KernelIdeal.Gen.hostOps1_12 (F := Ideal)) W (Proc.devRef .tc Cert.KernelIdeal.main_v115)
        = StableHlo.after (Cert.ReferenceIdeal.Hand.opsT12 (F := Ideal)) W' (Proc.devRef .tc Cert.ReferenceIdeal.main_v138)) ∧
      (StableHlo.after (Cert.KernelIdeal.Gen.hostOps1_12 (F := Ideal)) W (Proc.devRef .tc Cert.KernelIdeal.main_v126)
        = StableHlo.after (Cert.ReferenceIdeal.Hand.opsT12 (F := Ideal)) W' (Proc.devRef .tc Cert.ReferenceIdeal.main_v149)) ∧
      (StableHlo.after (Cert.KernelIdeal.Gen.hostOps1_12 (F := Ideal)) W (Proc.devRef .tc Cert.KernelIdeal.main_v130)
        = StableHlo.after (Cert.ReferenceIdeal.Hand.opsT12 (F := Ideal)) W' (Proc.devRef .tc Cert.ReferenceIdeal.main_v153)) :=
  ⟨stretch_12_v20 W W' h_c_40 h_v20 h_v44 h_v65 h_v75 h_v115 h_v126 h_v129,
   stretch_12_v44 W W' h_c_40 h_v20 h_v44 h_v65 h_v75 h_v115 h_v126 h_v129,
   stretch_12_v65 W W' h_c_40 h_v20 h_v44 h_v65 h_v75 h_v115 h_v126 h_v129,
   stretch_12_v115 W W' h_c_40 h_v20 h_v44 h_v65 h_v75 h_v115 h_v126 h_v129,
   stretch_12_v126 W W' h_c_40 h_v20 h_v44 h_v65 h_v75 h_v115 h_v126 h_v129,
   stretch_12_v130 W W' h_c_40 h_v20 h_v44 h_v65 h_v75 h_v115 h_v126 h_v129⟩

end

end Cert.TailSim

end
-- ==== Proof.TailSim13.lean ====
/-
  Stretch 13 of the two programs' shared line of host operations (43 operations): from contents that agree at the
  buffer pairs live into the stretch, the contents after it agree at the pairs live out of it. Each side is read as a
  pure term over the incoming contents; the two terms apply the same functions to corresponding operands.
-/
import proofs.«170420_j23845658427974_2_alg».proof.Proof.Gen.KernelIdeal.Launch
import proofs.«170420_j23845658427974_2_alg».proof.Proof.RefOps
import proofs.«170420_j23845658427974_2_alg».proof.Proof.Gen.ReferenceIdeal
import proofs.«170420_j23845658427974_2_alg».proof.Proof.LibStretches
import proofs.«170420_j23845658427974_2_alg».proof.Proof.TailSimDims
import proofs.«170420_j23845658427974_2_alg».proof.Proof.LibConcat2

noncomputable section

namespace Cert.TailSim

open Idealize.ShloMosaic Idealize.ShloMosaic.StableHlo Cert.Stretches Cert.Concat2

section

variable (W : Valuation Cert.KernelIdeal.τ Cert.KernelIdeal.sig (Elt Ideal)) (W' : Valuation Cert.ReferenceIdeal.τ Cert.ReferenceIdeal.sig (Elt Ideal))
    (h_v20 : W (Proc.devRef .tc Cert.KernelIdeal.main_v20) = W' (Proc.devRef .tc Cert.ReferenceIdeal.main_v43))
    (h_v44 : W (Proc.devRef .tc Cert.KernelIdeal.main_v44) = W' (Proc.devRef .tc Cert.ReferenceIdeal.main_v67))
    (h_v65 : W (Proc.devRef .tc Cert.KernelIdeal.main_v65) = W' (Proc.devRef .tc Cert.ReferenceIdeal.main_v88))
    (h_v115 : W (Proc.devRef .tc Cert.KernelIdeal.main_v115) = W' (Proc.devRef .tc Cert.ReferenceIdeal.main_v138))
    (h_v126 : W (Proc.devRef .tc Cert.KernelIdeal.main_v126) = W' (Proc.devRef .tc Cert.ReferenceIdeal.main_v149))
    (h_v130 : W (Proc.devRef .tc Cert.KernelIdeal.main_v130) = W' (Proc.devRef .tc Cert.ReferenceIdeal.main_v153))
include h_v20 h_v44 h_v65 h_v115 h_v126 h_v130

/-- Stretch 13 read at main_v115 and at main_v138. -/
theorem stretch_13_v115 :
      (StableHlo.after (Cert.KernelIdeal.Gen.hostOps1_13 (F := Ideal)) W (Proc.devRef .tc Cert.KernelIdeal.main_v115)
        = StableHlo.after (Cert.ReferenceIdeal.Hand.opsT13 (F := Ideal)) W' (Proc.devRef .tc Cert.ReferenceIdeal.main_v138)) := by
  read_stretch <;> (try (simp only [concatenate_pair] <;> read_stretch)) <;> (try simp only [h_v20, h_v44, h_v65, h_v115, h_v126, h_v130, comparator_eq, gather_eq_1, gather_eq_2, gather_eq_3, scatter_eq_4, scatter_eq_5, scatter_eq_6, scatter_eq_7])
    <;> (first | with_reducible rfl | rfl)

/-- Stretch 13 read at main_v158 and at main_v181. -/
theorem stretch_13_v158 :
      (StableHlo.after (Cert.KernelIdeal.Gen.hostOps1_13 (F := Ideal)) W (Proc.devRef .tc Cert.KernelIdeal.main_v158)
        = StableHlo.after (Cert.ReferenceIdeal.Hand.opsT13 (F := Ideal)) W' (Proc.devRef .tc Cert.ReferenceIdeal.main_v181)) := by
  read_stretch <;> (try (simp only [concatenate_pair] <;> read_stretch)) <;> (try simp only [h_v20, h_v44, h_v65, h_v115, h_v126, h_v130, comparator_eq, gather_eq_1, gather_eq_2, gather_eq_3, scatter_eq_4, scatter_eq_5, scatter_eq_6, scatter_eq_7])
    <;> (first | with_reducible rfl | rfl)

/-- Stretch 13 read at main_v140 and at main_v163. -/
theorem stretch_13_v140 :
      (StableHlo.after (Cert.KernelIdeal.Gen.hostOps1_13 (F := Ideal)) W (Proc.devRef .tc Cert.KernelIdeal.main_v140)
        = StableHlo.after (Cert.ReferenceIdeal.Hand.opsT13 (F := Ideal)) W' (Proc.devRef .tc Cert.ReferenceIdeal.main_v163)) := by
  read_stretch <;> (try (simp only [concatenate_pair] <;> read_stretch)) <;> (try simp only [h_v20, h_v44, h_v65, h_v115, h_v126, h_v130, comparator_eq, gather_eq_1, gather_eq_2, gather_eq_3, scatter_eq_4, scatter_eq_5, scatter_eq_6, scatter_eq_7])
    <;> (first | with_reducible rfl | rfl)

/-- Stretch 13 read at main_v161 and at main_v184. -/
theorem stretch_13_v161 :
      (StableHlo.after (Cert.KernelIdeal.Gen.hostOps1_13 (F := Ideal)) W (Proc.devRef .tc Cert.KernelIdeal.main_v161)
        = StableHlo.after (Cert.ReferenceIdeal.Hand.opsT13 (F := Ideal)) W' (Proc.devRef .tc Cert.ReferenceIdeal.main_v184)) := by
  read_stretch <;> (try (simp only [concatenate_pair] <;> read_stretch)) <;> (try simp only [h_v20, h_v44, h_v65, h_v115, h_v126, h_v130, comparator_eq, gather_eq_1, gather_eq_2, gather_eq_3, scatter_eq_4, scatter_eq_5, scatter_eq_6, scatter_eq_7])
    <;> (first | with_reducible rfl | rfl)

/-- Stretch 13: agreement at the pairs live in gives agreement at the pairs live out. -/
theorem stretch_13 :
      (StableHlo.after (Cert.KernelIdeal.Gen.hostOps1_13 (F := Ideal)) W (Proc.devRef .tc Cert.KernelIdeal.main_v115)
        = StableHlo.after (Cert.ReferenceIdeal.Hand.opsT13 (F := Ideal)) W' (Proc.devRef .tc Cert.ReferenceIdeal.main_v138)) ∧
      (StableHlo.after (Cert.KernelIdeal.Gen.hostOps1_13 (F := Ideal)) W (Proc.devRef .tc Cert.KernelIdeal.main_v158)
        = StableHlo.after (Cert.ReferenceIdeal.Hand.opsT13 (F := Ideal)) W' (Proc.devRef .tc Cert.ReferenceIdeal.main_v181)) ∧
      (StableHlo.after (Cert.KernelIdeal.Gen.hostOps1_13 (F := Ideal)) W (Proc.devRef .tc Cert.KernelIdeal.main_v140)
        = StableHlo.after (Cert.ReferenceIdeal.Hand.opsT13 (F := Ideal)) W' (Proc.devRef .tc Cert.ReferenceIdeal.main_v163)) ∧
      (StableHlo.after (Cert.KernelIdeal.Gen.hostOps1_13 (F := Ideal)) W (Proc.devRef .tc Cert.KernelIdeal.main_v161)
        = StableHlo.after (Cert.ReferenceIdeal.Hand.opsT13 (F := Ideal)) W' (Proc.devRef .tc Cert.ReferenceIdeal.main_v184)) :=
  ⟨stretch_13_v115 W W' h_v20 h_v44 h_v65 h_v115 h_v126 h_v130,
   stretch_13_v158 W W' h_v20 h_v44 h_v65 h_v115 h_v126 h_v130,
   stretch_13_v140 W W' h_v20 h_v44 h_v65 h_v115 h_v126 h_v130,
   stretch_13_v161 W W' h_v20 h_v44 h_v65 h_v115 h_v126 h_v130⟩

end

end Cert.TailSim

end
-- ==== Proof.TailSim.lean ====
/-
  The two programs' shared line of host operations gives the same results.

  The line is cut into 13 consecutive stretches. The contents after a concatenation are the contents after the second part
  taken over the contents after the first, so the stretches' comparisons chain: each one's conclusion (agreement at the
  buffer pairs live out of it) is the next one's hypothesis, and the last one's conclusion is agreement at the results.
-/
import proofs.«170420_j23845658427974_2_alg».proof.Proof.TailSim1
import proofs.«170420_j23845658427974_2_alg».proof.Proof.TailSim2
import proofs.«170420_j23845658427974_2_alg».proof.Proof.TailSim3
import proofs.«170420_j23845658427974_2_alg».proof.Proof.TailSim4
import proofs.«170420_j23845658427974_2_alg».proof.Proof.TailSim5
import proofs.«170420_j23845658427974_2_alg».proof.Proof.TailSim6
import proofs.«170420_j23845658427974_2_alg».proof.Proof.TailSim7
import proofs.«170420_j23845658427974_2_alg».proof.Proof.TailSim8
import proofs.«170420_j23845658427974_2_alg».proof.Proof.TailSim9
import proofs.«170420_j23845658427974_2_alg».proof.Proof.TailSim10
import proofs.«170420_j23845658427974_2_alg».proof.Proof.TailSim11
import proofs.«170420_j23845658427974_2_alg».proof.Proof.TailSim12
import proofs.«170420_j23845658427974_2_alg».proof.Proof.TailSim13
import Idealize.ShloMosaic.Lib.Pipeline.Frame

noncomputable section

namespace Cert.TailSim

open Idealize.ShloMosaic Idealize.ShloMosaic.StableHlo

/-- The contents after the first program's whole line, stretch by stretch. -/
theorem after_line (V : Valuation Cert.KernelIdeal.τ Cert.KernelIdeal.sig (Elt Ideal)) :
    StableHlo.after (List.flatten [Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6, Cert.KernelIdeal.Gen.hostOps1_7, Cert.KernelIdeal.Gen.hostOps1_8, Cert.KernelIdeal.Gen.hostOps1_9, Cert.KernelIdeal.Gen.hostOps1_10, Cert.KernelIdeal.Gen.hostOps1_11, Cert.KernelIdeal.Gen.hostOps1_12, Cert.KernelIdeal.Gen.hostOps1_13]) V
      = StableHlo.after (Cert.KernelIdeal.Gen.hostOps1_13 (F := Ideal)) (StableHlo.after (Cert.KernelIdeal.Gen.hostOps1_12 (F := Ideal)) (StableHlo.after (Cert.KernelIdeal.Gen.hostOps1_11 (F := Ideal)) (StableHlo.after (Cert.KernelIdeal.Gen.hostOps1_10 (F := Ideal)) (StableHlo.after (Cert.KernelIdeal.Gen.hostOps1_9 (F := Ideal)) (StableHlo.after (Cert.KernelIdeal.Gen.hostOps1_8 (F := Ideal)) (StableHlo.after (Cert.KernelIdeal.Gen.hostOps1_7 (F := Ideal)) (StableHlo.after (Cert.KernelIdeal.Gen.hostOps1_6 (F := Ideal)) (StableHlo.after (Cert.KernelIdeal.Gen.hostOps1_5 (F := Ideal)) (StableHlo.after (Cert.KernelIdeal.Gen.hostOps1_4 (F := Ideal)) (StableHlo.after (Cert.KernelIdeal.Gen.hostOps1_3 (F := Ideal)) (StableHlo.after (Cert.KernelIdeal.Gen.hostOps1_2 (F := Ideal)) (StableHlo.after (Cert.KernelIdeal.Gen.hostOps1_1 (F := Ideal)) (V))))))))))))) := by
  simp only [List.flatten_cons, List.flatten_nil, StableHlo.after_append, StableHlo.after_nil]

/-- The contents after the second program's whole line, stretch by stretch. -/
theorem after_line' (V : Valuation Cert.ReferenceIdeal.τ Cert.ReferenceIdeal.sig (Elt Ideal)) :
    StableHlo.after (Cert.ReferenceIdeal.Hand.opsTail (F := Ideal)).flatten V
      = StableHlo.after (Cert.ReferenceIdeal.Hand.opsT13 (F := Ideal)) (StableHlo.after (Cert.ReferenceIdeal.Hand.opsT12 (F := Ideal)) (StableHlo.after (Cert.ReferenceIdeal.Hand.opsT11 (F := Ideal)) (StableHlo.after (Cert.ReferenceIdeal.Hand.opsT10 (F := Ideal)) (StableHlo.after (Cert.ReferenceIdeal.Hand.opsT9 (F := Ideal)) (StableHlo.after (Cert.ReferenceIdeal.Hand.opsT8 (F := Ideal)) (StableHlo.after (Cert.ReferenceIdeal.Hand.opsT7 (F := Ideal)) (StableHlo.after (Cert.ReferenceIdeal.Hand.opsT6 (F := Ideal)) (StableHlo.after (Cert.ReferenceIdeal.Hand.opsT5 (F := Ideal)) (StableHlo.after (Cert.ReferenceIdeal.Hand.opsT4 (F := Ideal)) (StableHlo.after (Cert.ReferenceIdeal.Hand.opsT3 (F := Ideal)) (StableHlo.after (Cert.ReferenceIdeal.Hand.opsT2 (F := Ideal)) (StableHlo.after (Cert.ReferenceIdeal.Hand.opsT1 (F := Ideal)) (V))))))))))))) := by
  simp only [Cert.ReferenceIdeal.Hand.opsTail, List.flatten_cons, List.flatten_nil, StableHlo.after_append, StableHlo.after_nil]

/-- From contents that agree at the coordinates, the linear ids and the points, the two lines end with equal results. -/
theorem tail_sim (W : Valuation Cert.KernelIdeal.τ Cert.KernelIdeal.sig (Elt Ideal)) (W' : Valuation Cert.ReferenceIdeal.τ Cert.ReferenceIdeal.sig (Elt Ideal))
    (hc : W (Proc.devRef .tc Cert.KernelIdeal.main_v3) = W' (Proc.devRef .tc Cert.ReferenceIdeal.main_v8))
    (hlin : W (Proc.devRef .tc Cert.KernelIdeal.main_v5) = W' (Proc.devRef .tc Cert.ReferenceIdeal.main_v28))
    (hpts : W (Proc.devRef .tc Cert.KernelIdeal.main_arg0) = W' (Proc.devRef .tc Cert.ReferenceIdeal.main_arg0)) :
      (StableHlo.after (List.flatten [Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6, Cert.KernelIdeal.Gen.hostOps1_7, Cert.KernelIdeal.Gen.hostOps1_8, Cert.KernelIdeal.Gen.hostOps1_9, Cert.KernelIdeal.Gen.hostOps1_10, Cert.KernelIdeal.Gen.hostOps1_11, Cert.KernelIdeal.Gen.hostOps1_12, Cert.KernelIdeal.Gen.hostOps1_13]) W (Proc.devRef .tc Cert.KernelIdeal.main_v115)
        = StableHlo.after (Cert.ReferenceIdeal.Hand.opsTail (F := Ideal)).flatten W' (Proc.devRef .tc Cert.ReferenceIdeal.main_v138))
      ∧ (StableHlo.after (List.flatten [Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6, Cert.KernelIdeal.Gen.hostOps1_7, Cert.KernelIdeal.Gen.hostOps1_8, Cert.KernelIdeal.Gen.hostOps1_9, Cert.KernelIdeal.Gen.hostOps1_10, Cert.KernelIdeal.Gen.hostOps1_11, Cert.KernelIdeal.Gen.hostOps1_12, Cert.KernelIdeal.Gen.hostOps1_13]) W (Proc.devRef .tc Cert.KernelIdeal.main_v158)
        = StableHlo.after (Cert.ReferenceIdeal.Hand.opsTail (F := Ideal)).flatten W' (Proc.devRef .tc Cert.ReferenceIdeal.main_v181))
      ∧ (StableHlo.after (List.flatten [Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6, Cert.KernelIdeal.Gen.hostOps1_7, Cert.KernelIdeal.Gen.hostOps1_8, Cert.KernelIdeal.Gen.hostOps1_9, Cert.KernelIdeal.Gen.hostOps1_10, Cert.KernelIdeal.Gen.hostOps1_11, Cert.KernelIdeal.Gen.hostOps1_12, Cert.KernelIdeal.Gen.hostOps1_13]) W (Proc.devRef .tc Cert.KernelIdeal.main_v140)
        = StableHlo.after (Cert.ReferenceIdeal.Hand.opsTail (F := Ideal)).flatten W' (Proc.devRef .tc Cert.ReferenceIdeal.main_v163))
      ∧ (StableHlo.after (List.flatten [Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6, Cert.KernelIdeal.Gen.hostOps1_7, Cert.KernelIdeal.Gen.hostOps1_8, Cert.KernelIdeal.Gen.hostOps1_9, Cert.KernelIdeal.Gen.hostOps1_10, Cert.KernelIdeal.Gen.hostOps1_11, Cert.KernelIdeal.Gen.hostOps1_12, Cert.KernelIdeal.Gen.hostOps1_13]) W (Proc.devRef .tc Cert.KernelIdeal.main_v161)
        = StableHlo.after (Cert.ReferenceIdeal.Hand.opsTail (F := Ideal)).flatten W' (Proc.devRef .tc Cert.ReferenceIdeal.main_v184)) := by
  rw [after_line, after_line']
  have s1 := stretch_1 W W' hpts hc hlin
  generalize StableHlo.after (Cert.KernelIdeal.Gen.hostOps1_1 (F := Ideal)) W = V1 at s1 ⊢
  generalize StableHlo.after (Cert.ReferenceIdeal.Hand.opsT1 (F := Ideal)) W' = V1' at s1 ⊢
  obtain ⟨a1_arg0, a1_v3, a1_v5, a1_v6⟩ := s1
  have s2 := stretch_2 V1 V1' a1_arg0 a1_v3 a1_v5 a1_v6
  generalize StableHlo.after (Cert.KernelIdeal.Gen.hostOps1_2 (F := Ideal)) V1 = V2 at s2 ⊢
  generalize StableHlo.after (Cert.ReferenceIdeal.Hand.opsT2 (F := Ideal)) V1' = V2' at s2 ⊢
  obtain ⟨a2_v6, a2_v13, a2_v20, a2_v27, a2_v32⟩ := s2
  have s3 := stretch_3 V2 V2' a2_v6 a2_v13 a2_v20 a2_v27 a2_v32
  generalize StableHlo.after (Cert.KernelIdeal.Gen.hostOps1_3 (F := Ideal)) V2 = V3 at s3 ⊢
  generalize StableHlo.after (Cert.ReferenceIdeal.Hand.opsT3 (F := Ideal)) V2' = V3' at s3 ⊢
  obtain ⟨a3_v6, a3_v13, a3_v20, a3_v27, a3_v33⟩ := s3
  have s4 := stretch_4 V3 V3' a3_v6 a3_v13 a3_v20 a3_v27 a3_v33
  generalize StableHlo.after (Cert.KernelIdeal.Gen.hostOps1_4 (F := Ideal)) V3 = V4 at s4 ⊢
  generalize StableHlo.after (Cert.ReferenceIdeal.Hand.opsT4 (F := Ideal)) V3' = V4' at s4 ⊢
  obtain ⟨a4_c_18, a4_v13, a4_v20, a4_v27, a4_v35, a4_v36, a4_v44, a4_v52, a4_v65⟩ := s4
  have s5 := stretch_5 V4 V4' a4_c_18 a4_v13 a4_v20 a4_v27 a4_v35 a4_v36 a4_v44 a4_v52 a4_v65
  generalize StableHlo.after (Cert.KernelIdeal.Gen.hostOps1_5 (F := Ideal)) V4 = V5 at s5 ⊢
  generalize StableHlo.after (Cert.ReferenceIdeal.Hand.opsT5 (F := Ideal)) V4' = V5' at s5 ⊢
  obtain ⟨a5_v13, a5_v20, a5_v27, a5_v35, a5_v36, a5_v44, a5_v65, a5_v66⟩ := s5
  have s6 := stretch_6 V5 V5' a5_v13 a5_v20 a5_v27 a5_v35 a5_v36 a5_v44 a5_v65 a5_v66
  generalize StableHlo.after (Cert.KernelIdeal.Gen.hostOps1_6 (F := Ideal)) V5 = V6 at s6 ⊢
  generalize StableHlo.after (Cert.ReferenceIdeal.Hand.opsT6 (F := Ideal)) V5' = V6' at s6 ⊢
  obtain ⟨a6_v13, a6_v20, a6_v27, a6_v35, a6_v36, a6_v44, a6_v65, a6_v67⟩ := s6
  have s7 := stretch_7 V6 V6' a6_v13 a6_v20 a6_v27 a6_v35 a6_v36 a6_v44 a6_v65 a6_v67
  generalize StableHlo.after (Cert.KernelIdeal.Gen.hostOps1_7 (F := Ideal)) V6 = V7 at s7 ⊢
  generalize StableHlo.after (Cert.ReferenceIdeal.Hand.opsT7 (F := Ideal)) V6' = V7' at s7 ⊢
  obtain ⟨a7_c_29, a7_v13, a7_v20, a7_v27, a7_v35, a7_v44, a7_v65, a7_v75, a7_v83, a7_v90, a7_v98⟩ := s7
  have s8 := stretch_8 V7 V7' a7_c_29 a7_v13 a7_v20 a7_v27 a7_v35 a7_v44 a7_v65 a7_v75 a7_v83 a7_v90 a7_v98
  generalize StableHlo.after (Cert.KernelIdeal.Gen.hostOps1_8 (F := Ideal)) V7 = V8 at s8 ⊢
  generalize StableHlo.after (Cert.ReferenceIdeal.Hand.opsT8 (F := Ideal)) V7' = V8' at s8 ⊢
  obtain ⟨a8_v13, a8_v20, a8_v27, a8_v35, a8_v44, a8_v65, a8_v75, a8_v83, a8_v98, a8_v99⟩ := s8
  have s9 := stretch_9 V8 V8' a8_v13 a8_v20 a8_v27 a8_v35 a8_v44 a8_v65 a8_v75 a8_v83 a8_v98 a8_v99
  generalize StableHlo.after (Cert.KernelIdeal.Gen.hostOps1_9 (F := Ideal)) V8 = V9 at s9 ⊢
  generalize StableHlo.after (Cert.ReferenceIdeal.Hand.opsT9 (F := Ideal)) V8' = V9' at s9 ⊢
  obtain ⟨a9_c_30, a9_v13, a9_v20, a9_v27, a9_v35, a9_v44, a9_v65, a9_v75, a9_v83, a9_v98, a9_v99⟩ := s9
  have s10 := stretch_10 V9 V9' a9_c_30 a9_v13 a9_v20 a9_v27 a9_v35 a9_v44 a9_v65 a9_v75 a9_v83 a9_v98 a9_v99
  generalize StableHlo.after (Cert.KernelIdeal.Gen.hostOps1_10 (F := Ideal)) V9 = V10 at s10 ⊢
  generalize StableHlo.after (Cert.ReferenceIdeal.Hand.opsT10 (F := Ideal)) V9' = V10' at s10 ⊢
  obtain ⟨a10_v13, a10_v20, a10_v27, a10_v35, a10_v44, a10_v65, a10_v75, a10_v99, a10_v100⟩ := s10
  have s11 := stretch_11 V10 V10' a10_v13 a10_v20 a10_v27 a10_v35 a10_v44 a10_v65 a10_v75 a10_v99 a10_v100
  generalize StableHlo.after (Cert.KernelIdeal.Gen.hostOps1_11 (F := Ideal)) V10 = V11 at s11 ⊢
  generalize StableHlo.after (Cert.ReferenceIdeal.Hand.opsT11 (F := Ideal)) V10' = V11' at s11 ⊢
  obtain ⟨a11_c_40, a11_v20, a11_v44, a11_v65, a11_v75, a11_v115, a11_v126, a11_v129⟩ := s11
  have s12 := stretch_12 V11 V11' a11_c_40 a11_v20 a11_v44 a11_v65 a11_v75 a11_v115 a11_v126 a11_v129
  generalize StableHlo.after (Cert.KernelIdeal.Gen.hostOps1_12 (F := Ideal)) V11 = V12 at s12 ⊢
  generalize StableHlo.after (Cert.ReferenceIdeal.Hand.opsT12 (F := Ideal)) V11' = V12' at s12 ⊢
  obtain ⟨a12_v20, a12_v44, a12_v65, a12_v115, a12_v126, a12_v130⟩ := s12
  have s13 := stretch_13 V12 V12' a12_v20 a12_v44 a12_v65 a12_v115 a12_v126 a12_v130
  generalize StableHlo.after (Cert.KernelIdeal.Gen.hostOps1_13 (F := Ideal)) V12 = V13 at s13 ⊢
  generalize StableHlo.after (Cert.ReferenceIdeal.Hand.opsT13 (F := Ideal)) V12' = V13' at s13 ⊢
  exact s13

end Cert.TailSim

end
-- ==== Proof.lean ====
/-
  Voxelization of a point cloud: a kernel that computes, tile by tile, each point's voxel coordinates and linear voxel id,
  followed by host bookkeeping (a stable sort of the ids, group boundaries by a running count, scatters of the points into
  voxels), against a reference that computes the same coordinates and ids with whole-array host operations and then runs the
  same bookkeeping.

  Per point the two programs compute the same thing: floor((p - lo) / size) per axis with the same single-precision
  constants, converted to integers; the six range comparisons joined by "and"; the id (cz * 1600 + cy) * 1408 + cx or the
  sentinel. On the extended reals the kernel's quotient and floor are the host's, so the coordinates and ids are one function
  of the points, and no finiteness of the inputs is needed. The kernel's launch writes them tile by tile into a 4 x 2000000
  array whose rows the host then transposes back; the reference builds them as [2000000, 3] and [2000000] arrays directly. From
  equal coordinates and ids the later operations of the two programs are the same operations on corresponding buffers, so the
  four results are equal.

  The three frames: each program's run ends, faults nowhere and leaves the argument unchanged — the kernel's programs by the
  launch's frame run continued through the later host lines, none of which writes the argument; the reference as a straight
  line of host operations. The idealized kernel is the kernel's own text read on the extended reals (nothing was rewritten).
-/
import proofs.«170420_j23845658427974_2_alg».proof.Defs
import proofs.«170420_j23845658427974_2_alg».proof.Proof.Gen.Kernel
import proofs.«170420_j23845658427974_2_alg».proof.Proof.Gen.KernelIdeal
import proofs.«170420_j23845658427974_2_alg».proof.Proof.Gen.ReferenceIdeal
import proofs.«170420_j23845658427974_2_alg».proof.Proof.Gen.Pre_finite_inputs
import proofs.«170420_j23845658427974_2_alg».proof.Proof.KFrameBits
import proofs.«170420_j23845658427974_2_alg».proof.Proof.Bridge
import proofs.«170420_j23845658427974_2_alg».proof.Proof.RValue
import proofs.«170420_j23845658427974_2_alg».proof.Proof.TailSim

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Hand.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono
    (fun _ h c => (h c Cert.ReferenceIdeal.main_arg0).trans (Cert.ReferenceIdeal.Hand.arg0_kept _))
    (Cert.ReferenceIdeal.Hand.run_main (F := Ideal) m ρ)

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) :=
  Cert.Bridge.algebraic_of
    (fun W W' hc hlin hpts => Cert.TailSim.tail_sim W W' hc hlin hpts)
    ⟨Cert.ReferenceIdeal.Hand.ref_coords, Cert.ReferenceIdeal.Hand.ref_linIds, Cert.ReferenceIdeal.Hand.pre_arg0⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
